-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S4096x4096 : Shape := ⟨2, ![4096, 4096]⟩
abbrev S64x128 : Shape := ⟨2, ![64, 128]⟩
abbrev S128 : Shape := ⟨1, ![128]⟩
abbrev S128x128 : Shape := ⟨2, ![128, 128]⟩
abbrev S256x128 : Shape := ⟨2, ![256, 128]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_

variable [Facts]

def fn_part3 {F : FTy → Type} [FloatOps F] (main_arg11 : FVec F S128 .f32) (main_arg12 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg7 : FVec F S256x128 .f32) (main_arg8 : FVec F S128 .f32) (main_arg9 : FVec F S128x128 .f32) (main_arg10 : FVec F S128 .f32) (main_arg11 : FVec F S128 .f32) (main_arg12 : FVec F S128 .f32) (main_v33 : IVec S_ 1) : IVec S_ 1 :=
  let main_v34 : FVec F S256x128 .f32 := Host.absf main_arg7
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_v48 main_v49 main_v50

def fn_part1 {F : FTy → Type} [FloatOps F] (main_arg4 : FVec F S128 .f32) (main_arg5 : FVec F S128x128 .f32) (main_arg6 : FVec F S128 .f32) (main_arg7 : FVec F S256x128 .f32) (main_arg8 : FVec F S128 .f32) (main_arg9 : FVec F S128x128 .f32) (main_arg10 : FVec F S128 .f32) (main_arg11 : FVec F S128 .f32) (main_arg12 : FVec F S128 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S4096x64 .f32) (main_arg1 : FVec F S4096x4096 .f32) (main_arg2 : FVec F S4096x4096 .f32) (main_arg3 : FVec F S64x128 .f32) (main_arg4 : FVec F S128 .f32) (main_arg5 : FVec F S128x128 .f32) (main_arg6 : FVec F S128 .f32) (main_arg7 : FVec F S256x128 .f32) (main_arg8 : FVec F S128 .f32) (main_arg9 : FVec F S128x128 .f32) (main_arg10 : FVec F S128 .f32) (main_arg11 : FVec F S128 .f32) (main_arg12 : FVec F S128 .f32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S64x128 .f32 := Host.absf main_arg3
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg4 main_arg5 main_arg6 main_arg7 main_arg8 main_arg9 main_arg10 main_arg11 main_arg12 main_v13 main_v16
-- ==== Kernel.lean ====
abbrev S4096x64 : Shape := ⟨2, ![4096, 64]⟩
abbrev S4096x4096 : Shape := ⟨2, ![4096, 4096]⟩
abbrev S64x128 : Shape := ⟨2, ![64, 128]⟩
abbrev S128 : Shape := ⟨1, ![128]⟩
abbrev S128x128 : Shape := ⟨2, ![128, 128]⟩
abbrev S256x128 : Shape := ⟨2, ![256, 128]⟩
abbrev S4096x128 : Shape := ⟨2, ![4096, 128]⟩
abbrev S1x128 : Shape := ⟨2, ![1, 128]⟩
abbrev S512x128 : Shape := ⟨2, ![512, 128]⟩
abbrev S512x1024 : Shape := ⟨2, ![512, 1024]⟩
abbrev S1024x128 : Shape := ⟨2, ![1024, 128]⟩
abbrev S512x256 : Shape := ⟨2, ![512, 256]⟩
abbrev S512 : Shape := ⟨1, ![512]⟩
abbrev S512x1 : Shape := ⟨2, ![512, 1]⟩

abbrev nBuf : Space → Nat
  | .hbm => 25
  | .vmem => 48
  | .smem => 0
  | _ => 0

abbrev bufTy : (tb : Table) → Fin (tcTables nBuf tb) → BufTy
  | .hbm, ⟨0, _⟩ => ⟨S4096x64, .f32⟩
  | .hbm, ⟨1, _⟩ => ⟨S4096x4096, .f32⟩
  | .hbm, ⟨2, _⟩ => ⟨S4096x4096, .f32⟩
  | .hbm, ⟨3, _⟩ => ⟨S64x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S4096x128, .f32⟩
  | .hbm, ⟨14, _⟩ => ⟨S1x128, .f32⟩
  | .hbm, ⟨15, _⟩ => ⟨S4096x128, .f32⟩
  | .hbm, ⟨16, _⟩ => ⟨S4096x128, .f32⟩
  | .hbm, ⟨17, _⟩ => ⟨S4096x4096, .bf16⟩
  | .hbm, ⟨18, _⟩ => ⟨S1x128, .f32⟩
  | .hbm, ⟨19, _⟩ => ⟨S1x128, .f32⟩
  | .hbm, ⟨20, _⟩ => ⟨S1x128, .f32⟩
  | .hbm, ⟨21, _⟩ => ⟨S1x128, .f32⟩
  | .hbm, ⟨22, _⟩ => ⟨S4096x128, .f32⟩
  | .hbm, ⟨23, _⟩ => ⟨S4096x128, .f32⟩
  | .hbm, ⟨24, _⟩ => ⟨S4096x128, .f32⟩
  | .local _ .vmem, ⟨0, _⟩ => ⟨S512x128, .f32⟩
  | .local _ .vmem, ⟨1, _⟩ => ⟨S512x128, .f32⟩
  | .local _ .vmem, ⟨2, _⟩ => ⟨S4096x128, .f32⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S256x128, .f32⟩
  | .local _ .vmem, ⟨8, _⟩ => ⟨S1x128, .f32⟩
  | .local _ .vmem, ⟨9, _⟩ => ⟨S128x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S4096x128, .f32⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | .local _ .vmem, ⟨23, _⟩ => ⟨S256x128, .f32⟩
  | .local _ .vmem, ⟨24, _⟩ => ⟨S1x128, .f32⟩
  | .local _ .vmem, ⟨25, _⟩ => ⟨S128x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S512x128, .f32⟩
  | .local _ .vmem, ⟨30, _⟩ => ⟨S512x128, .f32⟩
  | .local _ .vmem, ⟨31, _⟩ => ⟨S512x128, .f32⟩
  | .local _ .vmem, ⟨32, _⟩ => ⟨S512x128, .f32⟩
  | .local _ .vmem, ⟨33, _⟩ => ⟨S512x128, .f32⟩
  | .local _ .vmem, ⟨34, _⟩ => ⟨S4096x128, .f32⟩
  | .local _ .vmem, ⟨35, _⟩ => ⟨S512x1024, .f32⟩
  | .local _ .vmem, ⟨36, _⟩ => ⟨S512x1024, .f32⟩
  | .local _ .vmem, ⟨37, _⟩ => ⟨S512x1024, .bf16⟩
  | .local _ .vmem, ⟨38, _⟩ => ⟨S512x1024, .bf16⟩
  | .local _ .vmem, ⟨39, _⟩ => ⟨S256x128, .f32⟩
  | .local _ .vmem, ⟨40, _⟩ => ⟨S1x128, .f32⟩
  | .local _ .vmem, ⟨41, _⟩ => ⟨S128x128, .f32⟩
  | .local _ .vmem, ⟨42, _⟩ => ⟨S1x128, .f32⟩
  | .local _ .vmem, ⟨43, _⟩ => ⟨S1x128, .f32⟩
  | .local _ .vmem, ⟨44, _⟩ => ⟨S1x128, .f32⟩
  | .local _ .vmem, ⟨45, _⟩ => ⟨S512x128, .f32⟩
  | .local _ .vmem, ⟨46, _⟩ => ⟨S512x128, .f32⟩
  | .local _ .vmem, ⟨47, _⟩ => ⟨S512x128, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg9_0 : Ref sig .tc := ⟨.vmem, 28, rfl⟩
abbrev cc1_stg10_0 : Ref sig .tc := ⟨.vmem, 29, rfl⟩
abbrev cc1_stg10_1 : Ref sig .tc := ⟨.vmem, 30, rfl⟩
abbrev cc1_scratch0 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg2_0 : Ref sig .tc := ⟨.vmem, 35, rfl⟩
abbrev cc2_stg2_1 : Ref sig .tc := ⟨.vmem, 36, rfl⟩
abbrev cc2_stg3_0 : Ref sig .tc := ⟨.vmem, 37, rfl⟩
abbrev cc2_stg3_1 : Ref sig .tc := ⟨.vmem, 38, rfl⟩
abbrev cc2_stg4_0 : Ref sig .tc := ⟨.vmem, 39, rfl⟩
abbrev cc2_stg5_0 : Ref sig .tc := ⟨.vmem, 40, rfl⟩
abbrev cc2_stg6_0 : Ref sig .tc := ⟨.vmem, 41, rfl⟩
abbrev cc2_stg7_0 : Ref sig .tc := ⟨.vmem, 42, rfl⟩
abbrev cc2_stg8_0 : Ref sig .tc := ⟨.vmem, 43, rfl⟩
abbrev cc2_stg9_0 : Ref sig .tc := ⟨.vmem, 44, rfl⟩
abbrev cc2_stg10_0 : Ref sig .tc := ⟨.vmem, 45, rfl⟩
abbrev cc2_stg10_1 : Ref sig .tc := ⟨.vmem, 46, rfl⟩
abbrev cc2_scratch0 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem10_0 : DmaSem sig := 28
abbrev cc1_sem10_1 : DmaSem sig := 29
abbrev cc2_sem0_0 : DmaSem sig := 30
abbrev cc2_sem0_1 : DmaSem sig := 31
abbrev cc2_sem1_0 : DmaSem sig := 32
abbrev cc2_sem2_0 : DmaSem sig := 33
abbrev cc2_sem2_1 : DmaSem sig := 34
abbrev cc2_sem3_0 : DmaSem sig := 35
abbrev cc2_sem3_1 : DmaSem sig := 36
abbrev cc2_sem4_0 : DmaSem sig := 37
abbrev cc2_sem5_0 : DmaSem sig := 38
abbrev cc2_sem6_0 : DmaSem sig := 39
abbrev cc2_sem7_0 : DmaSem sig := 40
abbrev cc2_sem8_0 : DmaSem sig := 41
abbrev cc2_sem9_0 : DmaSem sig := 42
abbrev cc2_sem10_0 : DmaSem sig := 43
abbrev cc2_sem10_1 : DmaSem sig := 44

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c1024_i32 : BitVec 32 := 1024#32
  let v5 : BitVec 32 := Scalar.muli arg1 c1024_i32
  v5
def k0_off1 (i : grid0.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v7 : Index := Scalar.indexCast v6
  let c0_2 : Index := 0#32
  ![v7.toNat, 0]
def k0_cond2 (i : grid0.Coords) : BitVec 1 :=
  let arg1 : BitVec 32 := BitVec.ofNat 32 (i 1).val
  let c3_i32 : BitVec 32 := 3#32
  let v46 : BitVec 1 := Scalar.cmpi .eq arg1 c3_i32
  let v47 : BitVec 32 := Scalar.extui v46
  let c0_i32_19 : BitVec 32 := 0#32
  let v48 : BitVec 1 := Scalar.cmpi .ne v47 c0_i32_19
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev grid1 : Pipeline.Grid := ⟨2, ![8, 4], ![false, false]⟩

def k1_mult1 (i : grid1.Coords) : BitVec 32 :=
  let arg1 : BitVec 32 := BitVec.ofNat 32 (i 1).val
  let c1024_i32 : BitVec 32 := 1024#32
  let v5 : BitVec 32 := Scalar.muli arg1 c1024_i32
  v5
def k1_off1 (i : grid1.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v7 : Index := Scalar.indexCast v6
  let c0_2 : Index := 0#32
  ![v7.toNat, 0]
def k1_cond2 (i : grid1.Coords) : BitVec 1 :=
  let arg1 : BitVec 32 := BitVec.ofNat 32 (i 1).val
  let c3_i32 : BitVec 32 := 3#32
  let v46 : BitVec 1 := Scalar.cmpi .eq arg1 c3_i32
  let v47 : BitVec 32 := Scalar.extui v46
  let c0_i32_19 : BitVec 32 := 0#32
  let v48 : BitVec 1 := Scalar.cmpi .ne v47 c0_i32_19
  v48

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S4096x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 2 → Memref sig .tc .vmem S512x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

abbrev grid2 : Pipeline.Grid := ⟨2, ![8, 4], ![false, false]⟩

def k2_mult1 (i : grid2.Coords) : BitVec 32 :=
  let arg1 : BitVec 32 := BitVec.ofNat 32 (i 1).val
  let c1024_i32 : BitVec 32 := 1024#32
  let v5 : BitVec 32 := Scalar.muli arg1 c1024_i32
  v5
def k2_off1 (i : grid2.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v7 : Index := Scalar.indexCast v6
  let c0_2 : Index := 0#32
  ![v7.toNat, 0]
def k2_cond2 (i : grid2.Coords) : BitVec 1 :=
  let arg1 : BitVec 32 := BitVec.ofNat 32 (i 1).val
  let c3_i32 : BitVec 32 := 3#32
  let v46 : BitVec 1 := Scalar.cmpi .eq arg1 c3_i32
  let v47 : BitVec 32 := Scalar.extui v46
  let c0_i32_19 : BitVec 32 := 0#32
  let v48 : BitVec 1 := Scalar.cmpi .ne v47 c0_i32_19
  v48

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S4096x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S512x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 1 → Memref sig .tc .vmem S256x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]

abbrev stage2_10 : Fin 2 → Memref sig .tc .vmem S512x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, false]

class Facts₀ : Prop where
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bitsLt_bf16_f32 : FTy.bits .bf16 < FTy.bits .f32
  shapeCasts_S128_S1x128 : S128.ShapeCasts S1x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  h_S1024x128 : 0 < S1024x128.numel
  shapeCasts_S1024x128_S1024x128 : S1024x128.ShapeCasts S1024x128
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  concatenates_S512x128_S512x128_S512x256_d1 : Shape.Concatenates [S512x128, S512x128] S512x256 1
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S128x128_S128x128_0_0 : ∀ a, (![0, 0] : Fin 2 → Nat) a + S128x128.size a ≤ S128x128.size a
  h_S128x128 : 0 < S128x128.numel
  reduces_S512x128_S512 : S512x128.Reduces [1] S512
  shapeCasts_S512_S512x1 : S512.ShapeCasts S512x1
  broadcasts_S512x1_S512x128 : S512x1.Broadcasts S512x128
  dot_S4096x64_S64x128_S4096x128_1_0_0_1_n_n_wf : DotDims.WF S4096x64 S64x128 S4096x128 [1] [0] [0] [1] [] []
  dot_S512x128_S1024x128_S512x1024_1_1_0_0_n_n_wf : DotDims.WF S512x128 S1024x128 S512x1024 [1] [1] [0] [0] [] []
  dot_S512x1024_S1024x128_S512x128_1_0_0_1_n_n_wf : DotDims.WF S512x1024 S1024x128 S512x128 [1] [0] [0] [1] [] []
  dot_S512x256_S256x128_S512x128_1_0_0_1_n_n_wf : DotDims.WF S512x256 S256x128 S512x128 [1] [0] [0] [1] [] []
  dot_S512x128_S128x128_S512x128_1_0_0_1_n_n_wf : DotDims.WF S512x128 S128x128 S512x128 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024x128.size a ≤ S4096x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S4096x128.size a
  hwx0_0 : ∀ i : grid0.Coords, EltTy.bits .f32 = 32 ∨ (Rect.block (s := S4096x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x128.size a
  hwx0_1 : ∀ i : grid0.Coords, EltTy.bits .f32 = 32 ∨ (Rect.block (s := S4096x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x4096.size a
  hwx0_2 : ∀ i : grid0.Coords, EltTy.bits .f32 = 32 ∨ (Rect.block (s := S4096x4096) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x4096.size a
  hwx0_3 : ∀ i : grid0.Coords, EltTy.bits .bf16 = 32 ∨ (Rect.block (s := S4096x4096) S512x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x128.size a ≤ S4096x128.size a
  hwx0_10 : ∀ i : grid0.Coords, EltTy.bits .f32 = 32 ∨ (Rect.block (s := S4096x128) S512x128.size (cc0_transform_10 i) (hinb0_10 i)).WholeWords (EltTy.packing .f32)
  hrank1 : 0 < grid1.rank
  k1_mult1_dvd : ∀ i : grid1.Coords, 1024 ∣ (k1_mult1 i).toNat
  k1_off1_inb : ∀ i : grid1.Coords, ∀ a, (k1_off1 i) a + S1024x128.size a ≤ S4096x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S4096x128.size a
  hwx1_0 : ∀ i : grid1.Coords, EltTy.bits .f32 = 32 ∨ (Rect.block (s := S4096x128) S512x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S4096x128.size a
  hwx1_1 : ∀ i : grid1.Coords, EltTy.bits .f32 = 32 ∨ (Rect.block (s := S4096x128) S4096x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S4096x4096.size a
  hwx1_2 : ∀ i : grid1.Coords, EltTy.bits .f32 = 32 ∨ (Rect.block (s := S4096x4096) S512x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S4096x4096.size a
  hwx1_3 : ∀ i : grid1.Coords, EltTy.bits .bf16 = 32 ∨ (Rect.block (s := S4096x4096) S512x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .f32 = 32 ∨ (Rect.block (s := S256x128) S256x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S512x128.size a ≤ S4096x128.size a
  hwx1_10 : ∀ i : grid1.Coords, EltTy.bits .f32 = 32 ∨ (Rect.block (s := S4096x128) S512x128.size (cc1_transform_10 i) (hinb1_10 i)).WholeWords (EltTy.packing .f32)
  hrank2 : 0 < grid2.rank
  k2_mult1_dvd : ∀ i : grid2.Coords, 1024 ∣ (k2_mult1 i).toNat
  k2_off1_inb : ∀ i : grid2.Coords, ∀ a, (k2_off1 i) a + S1024x128.size a ≤ S4096x128.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x128.size a ≤ S4096x128.size a
  hwx2_0 : ∀ i : grid2.Coords, EltTy.bits .f32 = 32 ∨ (Rect.block (s := S4096x128) S512x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x128.size a ≤ S4096x128.size a
  hwx2_1 : ∀ i : grid2.Coords, EltTy.bits .f32 = 32 ∨ (Rect.block (s := S4096x128) S4096x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S4096x4096.size a
  hwx2_2 : ∀ i : grid2.Coords, EltTy.bits .f32 = 32 ∨ (Rect.block (s := S4096x4096) S512x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x4096.size a
  hwx2_3 : ∀ i : grid2.Coords, EltTy.bits .bf16 = 32 ∨ (Rect.block (s := S4096x4096) S512x1024.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x128.size a ≤ S256x128.size a
  hwx2_4 : ∀ i : grid2.Coords, EltTy.bits .f32 = 32 ∨ (Rect.block (s := S256x128) S256x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S512x128.size a ≤ S4096x128.size a
  hwx2_10 : ∀ i : grid2.Coords, EltTy.bits .f32 = 32 ∨ (Rect.block (s := S4096x128) S512x128.size (cc2_transform_10 i) (hinb2_10 i)).WholeWords (EltTy.packing .f32)

variable [Facts₀]

def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def dot_S512x128_S1024x128_S512x1024_1_1_0_0_n_n : DotDims S512x128 S1024x128 S512x1024 where
  lhsContracting := [1]
  rhsContracting := [1]
  lhsNonContracting := [0]
  rhsNonContracting := [0]
  lhsBatch := []
  rhsBatch := []
  wf := dot_S512x128_S1024x128_S512x1024_1_1_0_0_n_n_wf
def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_v3) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4096x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9) S512x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | ⟨_ + 11, h⟩ => absurd h (Nat.not_lt.2 (Nat.le_add_left _ _))

abbrev win1_0 : Pipeline.Window sig grid1 :=
  Pipeline.Window.ofSpec (Memref.whole main_v9) S512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S4096x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S512x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v6) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v7) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v8) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v10) S512x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev idle1 : Fin 11 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k1_cond2 i == 1#1) | ⟨_ + 11, h⟩ => absurd h (Nat.not_lt.2 (Nat.le_add_left _ _))

abbrev win2_0 : Pipeline.Window sig grid2 :=
  Pipeline.Window.ofSpec (Memref.whole main_v10) S512x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S4096x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S512x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v4) S512x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S256x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v5) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg9) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v6) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v7) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v8) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v11) S512x128.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev idle2 : Fin 11 → grid2.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k2_cond2 i == 1#1) | ⟨_ + 11, h⟩ => absurd h (Nat.not_lt.2 (Nat.le_add_left _ _))

class Facts : Prop extends Facts₀ where

variable [Facts]
-- ==== ReferenceIdeal.lean ====
abbrev S4096x64 : Shape := ⟨2, ![4096, 64]⟩
abbrev S4096x4096 : Shape := ⟨2, ![4096, 4096]⟩
abbrev S64x128 : Shape := ⟨2, ![64, 128]⟩
abbrev S128 : Shape := ⟨1, ![128]⟩
abbrev S128x128 : Shape := ⟨2, ![128, 128]⟩
abbrev S256x128 : Shape := ⟨2, ![256, 128]⟩
abbrev S4096x128 : Shape := ⟨2, ![4096, 128]⟩
abbrev S1x128 : Shape := ⟨2, ![1, 128]⟩
abbrev S_ : Shape := ⟨0, ![]⟩
abbrev S128x4096 : Shape := ⟨2, ![128, 4096]⟩
abbrev S4096x256 : Shape := ⟨2, ![4096, 256]⟩
abbrev S4096 : Shape := ⟨1, ![4096]⟩
abbrev S4096x1 : Shape := ⟨2, ![4096, 1]⟩

abbrev nBuf : Space → Nat
  | .hbm => 193
  | .vmem => 0
  | .smem => 0
  | _ => 0

abbrev hbmTy0_0 (i : Nat) : BufTy := match i % 128 with
  | 0 => ⟨S4096x64, .f32⟩
  | 1 => ⟨S4096x4096, .f32⟩
  | 2 => ⟨S4096x4096, .f32⟩
  | 3 => ⟨S64x128, .f32⟩
  | 4 => ⟨S128, .f32⟩
  | 5 => ⟨S128x128, .f32⟩
  | 6 => ⟨S128, .f32⟩
  | 7 => ⟨S256x128, .f32⟩
  | 8 => ⟨S128, .f32⟩
  | 9 => ⟨S128x128, .f32⟩
  | 10 => ⟨S128, .f32⟩
  | 11 => ⟨S128, .f32⟩
  | 12 => ⟨S128, .f32⟩
  | 13 => ⟨S4096x128, .f32⟩
  | 14 => ⟨S1x128, .f32⟩
  | 15 => ⟨S4096x128, .f32⟩
  | 16 => ⟨S4096x128, .f32⟩
  | 17 => ⟨S_, .f32⟩
  | 18 => ⟨S_, .f32⟩
  | 19 => ⟨S4096x4096, .f32⟩
  | 20 => ⟨S4096x4096, .f32⟩
  | 21 => ⟨S_, .f32⟩
  | 22 => ⟨S4096x4096, .f32⟩
  | 23 => ⟨S4096x4096, .f32⟩
  | 24 => ⟨S4096x4096, .f32⟩
  | 25 => ⟨S4096x4096, .f32⟩
  | 26 => ⟨S4096x4096, .f32⟩
  | 27 => ⟨S4096x4096, .f32⟩
  | 28 => ⟨S4096x4096, .f32⟩
  | 29 => ⟨S_, .f32⟩
  | 30 => ⟨S4096x4096, .f32⟩
  | 31 => ⟨S4096x4096, .f32⟩
  | 32 => ⟨S4096x4096, .f32⟩
  | 33 => ⟨S_, .f32⟩
  | 34 => ⟨S4096x4096, .f32⟩
  | 35 => ⟨S4096x4096, .f32⟩
  | 36 => ⟨S4096x4096, .f32⟩
  | 37 => ⟨S_, .f32⟩
  | 38 => ⟨S4096x4096, .f32⟩
  | 39 => ⟨S4096x4096, .f32⟩
  | 40 => ⟨S128x4096, .f32⟩
  | 41 => ⟨S4096x4096, .f32⟩
  | 42 => ⟨S_, .f32⟩
  | 43 => ⟨S4096x4096, .f32⟩
  | 44 => ⟨S4096x4096, .f32⟩
  | 45 => ⟨S4096x4096, .f32⟩
  | 46 => ⟨S4096x4096, .f32⟩
  | 47 => ⟨S4096x4096, .f32⟩
  | 48 => ⟨S4096x128, .f32⟩
  | 49 => ⟨S4096x256, .f32⟩
  | 50 => ⟨S4096x128, .f32⟩
  | 51 => ⟨S1x128, .f32⟩
  | 52 => ⟨S4096x128, .f32⟩
  | 53 => ⟨S4096x128, .f32⟩
  | 54 => ⟨S_, .f32⟩
  | 55 => ⟨S4096x128, .f32⟩
  | 56 => ⟨S4096x128, .f32⟩
  | 57 => ⟨S4096x128, .f32⟩
  | 58 => ⟨S1x128, .f32⟩
  | 59 => ⟨S4096x128, .f32⟩
  | 60 => ⟨S4096x128, .f32⟩
  | 61 => ⟨S4096x128, .f32⟩
  | 62 => ⟨S_, .f32⟩
  | 63 => ⟨S4096, .f32⟩
  | 64 => ⟨S4096x1, .f32⟩
  | 65 => ⟨S_, .f32⟩
  | 66 => ⟨S4096x1, .f32⟩
  | 67 => ⟨S4096x1, .f32⟩
  | 68 => ⟨S4096x128, .f32⟩
  | 69 => ⟨S4096x128, .f32⟩
  | 70 => ⟨S4096x128, .f32⟩
  | 71 => ⟨S_, .f32⟩
  | 72 => ⟨S4096, .f32⟩
  | 73 => ⟨S4096x1, .f32⟩
  | 74 => ⟨S_, .f32⟩
  | 75 => ⟨S4096x1, .f32⟩
  | 76 => ⟨S4096x1, .f32⟩
  | 77 => ⟨S4096x128, .f32⟩
  | 78 => ⟨S4096x128, .f32⟩
  | 79 => ⟨S_, .f32⟩
  | 80 => ⟨S4096x1, .f32⟩
  | 81 => ⟨S4096x1, .f32⟩
  | 82 => ⟨S4096x1, .f32⟩
  | 83 => ⟨S4096x128, .f32⟩
  | 84 => ⟨S4096x128, .f32⟩
  | 85 => ⟨S1x128, .f32⟩
  | 86 => ⟨S4096x128, .f32⟩
  | 87 => ⟨S4096x128, .f32⟩
  | 88 => ⟨S1x128, .f32⟩
  | 89 => ⟨S4096x128, .f32⟩
  | 90 => ⟨S4096x128, .f32⟩
  | 91 => ⟨S128x4096, .f32⟩
  | 92 => ⟨S4096x4096, .f32⟩
  | 93 => ⟨S_, .f32⟩
  | 94 => ⟨S4096x4096, .f32⟩
  | 95 => ⟨S4096x4096, .f32⟩
  | 96 => ⟨S4096x4096, .f32⟩
  | 97 => ⟨S4096x4096, .f32⟩
  | 98 => ⟨S4096x4096, .f32⟩
  | 99 => ⟨S4096x128, .f32⟩
  | 100 => ⟨S4096x256, .f32⟩
  | 101 => ⟨S4096x128, .f32⟩
  | 102 => ⟨S1x128, .f32⟩
  | 103 => ⟨S4096x128, .f32⟩
  | 104 => ⟨S4096x128, .f32⟩
  | 105 => ⟨S_, .f32⟩
  | 106 => ⟨S4096x128, .f32⟩
  | 107 => ⟨S4096x128, .f32⟩
  | 108 => ⟨S4096x128, .f32⟩
  | 109 => ⟨S1x128, .f32⟩
  | 110 => ⟨S4096x128, .f32⟩
  | 111 => ⟨S4096x128, .f32⟩
  | 112 => ⟨S4096x128, .f32⟩
  | 113 => ⟨S_, .f32⟩
  | 114 => ⟨S4096, .f32⟩
  | 115 => ⟨S4096x1, .f32⟩
  | 116 => ⟨S_, .f32⟩
  | 117 => ⟨S4096x1, .f32⟩
  | 118 => ⟨S4096x1, .f32⟩
  | 119 => ⟨S4096x128, .f32⟩
  | 120 => ⟨S4096x128, .f32⟩
  | 121 => ⟨S4096x128, .f32⟩
  | 122 => ⟨S_, .f32⟩
  | 123 => ⟨S4096, .f32⟩
  | 124 => ⟨S4096x1, .f32⟩
  | 125 => ⟨S_, .f32⟩
  | 126 => ⟨S4096x1, .f32⟩
  | 127 => ⟨S4096x1, .f32⟩
  | _ => ⟨S4096x64, .f32⟩

abbrev hbmTy0_1 (i : Nat) : BufTy := match i % 128 with
  | 0 => ⟨S4096x128, .f32⟩
  | 1 => ⟨S4096x128, .f32⟩
  | 2 => ⟨S_, .f32⟩
  | 3 => ⟨S4096x1, .f32⟩
  | 4 => ⟨S4096x1, .f32⟩
  | 5 => ⟨S4096x1, .f32⟩
  | 6 => ⟨S4096x128, .f32⟩
  | 7 => ⟨S4096x128, .f32⟩
  | 8 => ⟨S1x128, .f32⟩
  | 9 => ⟨S4096x128, .f32⟩
  | 10 => ⟨S4096x128, .f32⟩
  | 11 => ⟨S1x128, .f32⟩
  | 12 => ⟨S4096x128, .f32⟩
  | 13 => ⟨S4096x128, .f32⟩
  | 14 => ⟨S128x4096, .f32⟩
  | 15 => ⟨S4096x4096, .f32⟩
  | 16 => ⟨S_, .f32⟩
  | 17 => ⟨S4096x4096, .f32⟩
  | 18 => ⟨S4096x4096, .f32⟩
  | 19 => ⟨S4096x4096, .f32⟩
  | 20 => ⟨S4096x4096, .f32⟩
  | 21 => ⟨S4096x4096, .f32⟩
  | 22 => ⟨S4096x128, .f32⟩
  | 23 => ⟨S4096x256, .f32⟩
  | 24 => ⟨S4096x128, .f32⟩
  | 25 => ⟨S1x128, .f32⟩
  | 26 => ⟨S4096x128, .f32⟩
  | 27 => ⟨S4096x128, .f32⟩
  | 28 => ⟨S_, .f32⟩
  | 29 => ⟨S4096x128, .f32⟩
  | 30 => ⟨S4096x128, .f32⟩
  | 31 => ⟨S4096x128, .f32⟩
  | 32 => ⟨S1x128, .f32⟩
  | 33 => ⟨S4096x128, .f32⟩
  | 34 => ⟨S4096x128, .f32⟩
  | 35 => ⟨S4096x128, .f32⟩
  | 36 => ⟨S_, .f32⟩
  | 37 => ⟨S4096, .f32⟩
  | 38 => ⟨S4096x1, .f32⟩
  | 39 => ⟨S_, .f32⟩
  | 40 => ⟨S4096x1, .f32⟩
  | 41 => ⟨S4096x1, .f32⟩
  | 42 => ⟨S4096x128, .f32⟩
  | 43 => ⟨S4096x128, .f32⟩
  | 44 => ⟨S4096x128, .f32⟩
  | 45 => ⟨S_, .f32⟩
  | 46 => ⟨S4096, .f32⟩
  | 47 => ⟨S4096x1, .f32⟩
  | 48 => ⟨S_, .f32⟩
  | 49 => ⟨S4096x1, .f32⟩
  | 50 => ⟨S4096x1, .f32⟩
  | 51 => ⟨S4096x128, .f32⟩
  | 52 => ⟨S4096x128, .f32⟩
  | 53 => ⟨S_, .f32⟩
  | 54 => ⟨S4096x1, .f32⟩
  | 55 => ⟨S4096x1, .f32⟩
  | 56 => ⟨S4096x1, .f32⟩
  | 57 => ⟨S4096x128, .f32⟩
  | 58 => ⟨S4096x128, .f32⟩
  | 59 => ⟨S1x128, .f32⟩
  | 60 => ⟨S4096x128, .f32⟩
  | 61 => ⟨S4096x128, .f32⟩
  | 62 => ⟨S1x128, .f32⟩
  | 63 => ⟨S4096x128, .f32⟩
  | 64 => ⟨S4096x128, .f32⟩
  | _ => ⟨S4096x64, .f32⟩

abbrev hbmTy (i : Nat) : BufTy := match i / 128 with
  | 0 => hbmTy0_0 i
  | 1 => hbmTy0_1 i
  | _ => ⟨S4096x64, .f32⟩

abbrev bufTy : (tb : Table) → Fin (tcTables nBuf tb) → BufTy
  | .hbm, ⟨i, _⟩ => hbmTy i
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_call1_cst : Ref sig .tc := ⟨.hbm, 42, rfl⟩
abbrev main_call1_v0 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_call2_cst : Ref sig .tc := ⟨.hbm, 54, rfl⟩
abbrev main_call2_v0 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_4 : Ref sig .tc := ⟨.hbm, 62, rfl⟩
abbrev main_v38 : Ref sig .tc := ⟨.hbm, 63, rfl⟩
abbrev main_v39 : Ref sig .tc := ⟨.hbm, 64, rfl⟩
abbrev main_cst_5 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_6 : Ref sig .tc := ⟨.hbm, 71, rfl⟩
abbrev main_v45 : Ref sig .tc := ⟨.hbm, 72, rfl⟩
abbrev main_v46 : Ref sig .tc := ⟨.hbm, 73, rfl⟩
abbrev main_cst_7 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_8 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_call3_cst : Ref sig .tc := ⟨.hbm, 93, rfl⟩
abbrev main_call3_v0 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_call4_cst : Ref sig .tc := ⟨.hbm, 105, rfl⟩
abbrev main_call4_v0 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_9 : Ref sig .tc := ⟨.hbm, 113, rfl⟩
abbrev main_v80 : Ref sig .tc := ⟨.hbm, 114, rfl⟩
abbrev main_v81 : Ref sig .tc := ⟨.hbm, 115, rfl⟩
abbrev main_cst_10 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_11 : Ref sig .tc := ⟨.hbm, 122, rfl⟩
abbrev main_v87 : Ref sig .tc := ⟨.hbm, 123, rfl⟩
abbrev main_v88 : Ref sig .tc := ⟨.hbm, 124, rfl⟩
abbrev main_cst_12 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_13 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_call5_cst : Ref sig .tc := ⟨.hbm, 144, rfl⟩
abbrev main_call5_v0 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_call6_cst : Ref sig .tc := ⟨.hbm, 156, rfl⟩
abbrev main_call6_v0 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_cst_14 : Ref sig .tc := ⟨.hbm, 164, rfl⟩
abbrev main_v122 : Ref sig .tc := ⟨.hbm, 165, rfl⟩
abbrev main_v123 : Ref sig .tc := ⟨.hbm, 166, rfl⟩
abbrev main_cst_15 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_cst_16 : Ref sig .tc := ⟨.hbm, 173, rfl⟩
abbrev main_v129 : Ref sig .tc := ⟨.hbm, 174, rfl⟩
abbrev main_v130 : Ref sig .tc := ⟨.hbm, 175, rfl⟩
abbrev main_cst_17 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_cst_18 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x4096 : S_.BroadcastsInDim S4096x4096 (![] : Fin 0 → Fin S4096x4096.rank)
  transposes_S4096x128_S128x4096_1_0 : S4096x128.Transposes [1, 0] S128x4096
  concatenates_S4096x128_S4096x128_S4096x256_d1 : Shape.Concatenates [S4096x128, S4096x128] S4096x256 1
  bcast_S_S4096x128 : S_.BroadcastsInDim S4096x128 (![] : Fin 0 → Fin S4096x128.rank)
  reducesTo_S4096x128_S4096_d1 : S4096x128.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  dot_S4096x64_S64x128_S4096x128_1_0_0_1_n_n_wf : DotDims.WF S4096x64 S64x128 S4096x128 [1] [0] [0] [1] [] []
  dot_S4096x128_S128x4096_S4096x4096_1_0_0_1_n_n_wf : DotDims.WF S4096x128 S128x4096 S4096x4096 [1] [0] [0] [1] [] []
  dot_S4096x4096_S4096x128_S4096x128_1_0_0_1_n_n_wf : DotDims.WF S4096x4096 S4096x128 S4096x128 [1] [0] [0] [1] [] []
  dot_S4096x256_S256x128_S4096x128_1_0_0_1_n_n_wf : DotDims.WF S4096x256 S256x128 S4096x128 [1] [0] [0] [1] [] []
  dot_S4096x128_S128x128_S4096x128_1_0_0_1_n_n_wf : DotDims.WF S4096x128 S128x128 S4096x128 [1] [0] [0] [1] [] []

variable [Facts₀]

def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

class Facts : Prop extends Facts₀ where

variable [Facts]
-- ==== Proof.K.R0.Runs.lean ====
/- Region 0 (the first message-passing step): what the three runs of the body share — the entry
   valuation's blocks, the two branch conditions decided over the 32 grid points, where the output window is
   idle, the staging and scratch memrefs, and the region invariant with the scratch as an owned memref. -/
import proofs.«172293_j20512763806108_2_alg».proof.Proof.Gen.Kernel.Launch
import proofs.«172293_j20512763806108_2_alg».proof.Proof.Gen.Kernel.Skeleton
import proofs.«172293_j20512763806108_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, fetched there or not. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Input window 9's current staging buffer holds its block at every point, fetched there or not. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the first conditional (reset of the accumulator), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The condition of the second conditional (the update and the output store). -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
/-- Case A (reset): nothing is stored into the output window, and it is not written back. -/
theorem idleAt0_10_A : ∀ t : Fin cfg0.N, cond0_0 (grid0.coords t) → ¬cond0_1 (grid0.coords t) → cfg0.idle 10 (grid0.coords t) = true := by decide +kernel
theorem noFlush0_10_A : ∀ t : Fin cfg0.N, cond0_0 (grid0.coords t) → ¬cond0_1 (grid0.coords t) → (cfg0.win 10).flush t = false := by decide +kernel
/-- Case B (accumulate only): likewise. -/
theorem idleAt0_10_B : ∀ t : Fin cfg0.N, ¬cond0_0 (grid0.coords t) → ¬cond0_1 (grid0.coords t) → cfg0.idle 10 (grid0.coords t) = true := by decide +kernel
theorem noFlush0_10_B : ∀ t : Fin cfg0.N, ¬cond0_0 (grid0.coords t) → ¬cond0_1 (grid0.coords t) → (cfg0.win 10).flush t = false := by decide +kernel
/-- Case C (finish): the output window is live. -/
theorem liveAt0_10_C : ∀ t : Fin cfg0.N, ¬cond0_0 (grid0.coords t) → cond0_1 (grid0.coords t) → cfg0.idle 10 (grid0.coords t) = false := by decide +kernel

/-! ## The staging and scratch memrefs -/

/-- One staging buffer of the output window, through which its contents are stated. -/
abbrev VO0_10 : View sig .tc .vmem S512x128 .f32 := (Memref.whole cc0_stg10_0 : Memref sig .tc .vmem S512x128 .f32).view
abbrev ms0_0 (t : Fin cfg0.N) : Memref sig .tc .vmem S512x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x128 .f32 := win0_10.stage (cfg0.slots t 10)
abbrev hs0_10 (t : Fin cfg0.N) : (ms0_10 t).IsWhole := hstage0_10 ((cfg0.slots t 10).cast nbuf0_10)
/-- The scratch accumulator: a whole scoped buffer of the kernel's own, carried between points. -/
abbrev scM0_0 : Memref sig .tc .vmem S512x128 .f32 := Memref.whole cc0_scratch0
abbrev VS0_0 : View sig .tc .vmem S512x128 .f32 := scM0_0.view

/-- The rest of the core's scoped buffers, which the body never opens. -/
abbrev restBut0 (c : Dev nD) : sProp 𝕄 :=
  Pipeline.scopedRestBut (Ix := Unit) (Name := ℕ) (U := UR sig nD τ) (Lvl := ℕ) (Val := Elt F) spec0 c [cc0_scratch0]

/-- The class's invariant with the scratch as a memref owned at some contents. -/
theorem PhiA0_eq (c : Dev nD) :
    (Pipeline.ΦA spec0 c : sProp 𝕄)
      = iprop(iprop((∃ d, owns (c : Thread nD τ) scM0_0 fullShare d) ∗ restBut0 c) ∗ (∃ r, prngReg c r)) := by
  unfold Pipeline.ΦA; rw [scopedRest0_split]; simp only [scM0_0, owns_whole]; try rfl

end Cert.Kernel.Hand

end
-- ==== Proof.K.R0.RunA.lean ====
/- Region 0, case A of the body: the accumulator is reset (first column block of a row block), then the tile's messages are added; nothing is stored to the output block. The body's triple on whole staging memrefs, with the
   pieces each written buffer ends with as the witness. -/
import proofs.«172293_j20512763806108_2_alg».proof.Proof.K.R0.Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- (the run's proof term is large)
set_option maxHeartbeats 1000000 in
/-- On whole memrefs — the ten inputs at their contents, the output block at contents handed back untouched, the accumulator at anything — the body runs to the continuation holding the inputs as they were and the accumulator with its pieces written. -/
noncomputable def kernelRun0_A (c : Dev nD) (i : grid0.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : cond0_0 i) (hc1 : ¬cond0_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) :
    Σ' (L10 : List (View.Piece (Elt F) S512x128 .f32)), { LS0 : List (View.Piece (Elt F) S512x128 .f32) //
      ∀ (xi10 : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ (∃ f, arg13.view.loc (c : Thread nD τ) ↦[arg13.view.set]{fullShare} arg13.view.writes (Elt F) f LS0)) -∗ K ⟨⟩))
          ⊢ wp frame (wpE (defs₀ (F := F)) Variants.none c none) E (cc0__step_kernel i arg2 harg2 arg3 harg3 arg4 harg4 arg5 harg5 arg6 harg6 arg7 harg7 arg8 harg8 arg9 harg9 arg10 harg10 arg11 harg11 arg12 harg12 arg13 harg13) K } := by
  refine ⟨[], ?_, fun xi10 E K => ?run⟩
  case run =>
    simp only [cc0__step_kernel_eq_skeleton]; unfold cc0__step_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; iexact HS0

end Cert.Kernel.Hand

end
-- ==== Proof.K.R0.RunB.lean ====
/- Region 0, case B of the body: the tile's messages are added to the accumulator; nothing is stored to the output block. The body's triple on whole staging memrefs, with the
   pieces each written buffer ends with as the witness. -/
import proofs.«172293_j20512763806108_2_alg».proof.Proof.K.R0.RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- (the run's proof term is large)
set_option maxHeartbeats 1000000 in
/-- On whole memrefs — the ten inputs at their contents, the output block at contents handed back untouched, the accumulator at what the point before left — the body runs to the continuation holding the inputs as they were and the accumulator with its pieces written. -/
noncomputable def kernelRun0_B (c : Dev nD) (i : grid0.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond0_0 i) (hc1 : ¬cond0_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) :
    Σ' (L10 : List (View.Piece (Elt F) S512x128 .f32)), { LS0 : List (View.Piece (Elt F) S512x128 .f32) //
      ∀ (xi10 : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ (∃ f, arg13.view.loc (c : Thread nD τ) ↦[arg13.view.set]{fullShare} arg13.view.writes (Elt F) f LS0)) -∗ K ⟨⟩))
          ⊢ wp frame (wpE (defs₀ (F := F)) Variants.none c none) E (cc0__step_kernel i arg2 harg2 arg3 harg3 arg4 harg4 arg5 harg5 arg6 harg6 arg7 harg7 arg8 harg8 arg9 harg9 arg10 harg10 arg11 harg11 arg12 harg12 arg13 harg13) K } := by
  refine ⟨[], ?_, fun xi10 E K => ?run⟩
  case run =>
    simp only [cc0__step_kernel_eq_skeleton]; unfold cc0__step_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; iexact HS0

end Cert.Kernel.Hand

end
-- ==== Proof.K.R0.RunC.lean ====
/- Region 0, case C of the body: the tile's messages are added to the accumulator, then the update and the layer normalisation of the row block are stored to the output block. The body's triple on whole staging memrefs, with the
   pieces each written buffer ends with as the witness. -/
import proofs.«172293_j20512763806108_2_alg».proof.Proof.K.R0.RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- (the run's proof term is large)
set_option maxHeartbeats 1000000 in
/-- On whole memrefs — the ten inputs at their contents, the output block at anything, the accumulator at what the point before left — the body runs to the continuation holding the inputs as they were, the output block with its pieces written and the accumulator with its pieces written. -/
noncomputable def kernelRun0_C (c : Dev nD) (i : grid0.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond0_0 i) (hc1 : cond0_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) :
    Σ' (L10 : List (View.Piece (Elt F) S512x128 .f32)), { LS0 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0)) -∗ K ⟨⟩))
          ⊢ wp frame (wpE (defs₀ (F := F)) Variants.none c none) E (cc0__step_kernel i arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0__step_kernel_eq_skeleton]; unfold cc0__step_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    iexists _; iexact HS0

end Cert.Kernel.Hand

end
-- ==== Proof.K.R0.Body.lean ====
/- Region 0: what the output block and the accumulator hold after each grid point, the proof data of the
   pipeline over an entry valuation, and the body obligation at every point. -/
import proofs.«172293_j20512763806108_2_alg».proof.Proof.K.R0.RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b)) (q : Fin 11 → PosShare TreeShare)

/-! ## What each case leaves -/

/-- Case A stores nothing into the output block: a placeholder nothing consults (the window is idle there). -/
def out0_A_10 (c : Dev nD) (i : grid0.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : cond0_0 i) (hc1 : ¬cond0_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) : Vec F S512x128 .f32 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).1)

/-- Case A's pieces for the accumulator cover it. -/
theorem scover0_A_0 (c : Dev nD) (i : grid0.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : cond0_0 i) (hc1 : ¬cond0_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (y : S512x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).2.1 S512x128.size (by sl_kernel_rfl) y

/-- What case A leaves in the accumulator: its pieces read back. -/
def sout0_A_0 (c : Dev nD) (i : grid0.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : cond0_0 i) (hc1 : ¬cond0_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) : Vec F S512x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).2.1)

/-- Case B stores nothing into the output block: a placeholder nothing consults. -/
def out0_B_10 (c : Dev nD) (i : grid0.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond0_0 i) (hc1 : ¬cond0_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) : Vec F S512x128 .f32 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).1)

/-- Case B's pieces for the accumulator cover it. -/
theorem scover0_B_0 (c : Dev nD) (i : grid0.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond0_0 i) (hc1 : ¬cond0_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) (y : S512x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1 S512x128.size (by sl_kernel_rfl) y

/-- What case B leaves in the accumulator. -/
def sout0_B_0 (c : Dev nD) (i : grid0.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond0_0 i) (hc1 : ¬cond0_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) : Vec F S512x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1)

/-- Case C's pieces for the output block cover it (one whole store). -/
theorem cover0_C_10 (c : Dev nD) (i : grid0.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond0_0 i) (hc1 : cond0_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) (y : S512x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).1 S512x128.size (by sl_kernel_rfl) y

/-- What case C leaves in the output block's staging buffer. -/
def out0_C_10 (c : Dev nD) (i : grid0.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond0_0 i) (hc1 : cond0_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) : Vec F S512x128 .f32 :=
  VO0_10.read (Elt F) (VO0_10.writes (Elt F) VO0_10.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).1)

/-- Case C's pieces for the accumulator cover it. -/
theorem scover0_C_0 (c : Dev nD) (i : grid0.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond0_0 i) (hc1 : cond0_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) (y : S512x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1 S512x128.size (by sl_kernel_rfl) y

/-- What case C leaves in the accumulator. -/
def sout0_C_0 (c : Dev nD) (i : grid0.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond0_0 i) (hc1 : cond0_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) : Vec F S512x128 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1)

/-! ## What the output block and the accumulator hold after each point -/

/-- After the body at position `n`: (the output window's staging contents, the accumulator's contents) — the case the
    position selects, run at the point's memrefs and input blocks over what the point before left in the accumulator. -/
def outsAt0 (c : Dev nD) : (n : ℕ) → n < cfg0.N → Vec F S512x128 .f32 × Vec F S512x128 .f32
  | 0, hn => (out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩))
  | n + 1, hn =>
    if h0 : (n + 1) % 4 = 0 then
      if h1 : (n + 1) % 4 = 3 then
        False.elim (by omega)
      else
        (out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩))
    else
      if h1 : (n + 1) % 4 = 3 then
        (out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2)
      else
        (out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2)

theorem outsAt0_A (c : Dev nD) (t : Fin cfg0.N) (h0 : t.val % 4 = 0) (h1 : ¬t.val % 4 = 3) :
    outsAt0 V c t.val t.isLt = (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the accumulator at what the
    point before left, the other scoped buffers unopened, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restBut0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ restBut0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ restBut0 c) ∗ (∃ r, prngReg c r)) := by
  cases n with
  | zero => exact absurd rfl hz
  | succ n => rfl

/-! ## The pipeline's proof data -/

/-- The proof data of region 0 on core `c`: the arrays as the region finds them; after the body each input's buffer at its
    block, the output's at `outsAt0`; the invariant `PhiS0`; nothing owed; the shares a parameter. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => (outsAt0 V c t.val t.isLt).1
  Φ t := PhiS0 V c t.val (Nat.le_of_lt_succ t.isLt)
  q := q
  owed _ := 0

theorem A_eq0 (c : Dev nD) (w : Fin cfg0.W) : (dat0 V q c).A w = V c (Pipeline.arrRef spec0 w) := by
  dsimp only [dat0]

theorem PhiS0_castSucc (c : Dev nD) (t : Fin cfg0.N) :
    (dat0 V q c).Φ t.castSucc = PhiS0 V c t.val (Nat.le_of_lt t.isLt) := by
  dsimp only [dat0]; simp only [Fin.coe_castSucc]

theorem after0_0 (c : Dev nD) (t : Fin cfg0.N) : (dat0 V q c).after 0 t = iblk0 V c 0 t := by dsimp only [dat0]
theorem after0_1 (c : Dev nD) (t : Fin cfg0.N) : (dat0 V q c).after 1 t = iblk0 V c 1 t := by dsimp only [dat0]
theorem after0_2 (c : Dev nD) (t : Fin cfg0.N) : (dat0 V q c).after 2 t = iblk0 V c 2 t := by dsimp only [dat0]
theorem after0_3 (c : Dev nD) (t : Fin cfg0.N) : (dat0 V q c).after 3 t = iblk0 V c 3 t := by dsimp only [dat0]
theorem after0_4 (c : Dev nD) (t : Fin cfg0.N) : (dat0 V q c).after 4 t = iblk0 V c 4 t := by dsimp only [dat0]
theorem after0_5 (c : Dev nD) (t : Fin cfg0.N) : (dat0 V q c).after 5 t = iblk0 V c 5 t := by dsimp only [dat0]
theorem after0_6 (c : Dev nD) (t : Fin cfg0.N) : (dat0 V q c).after 6 t = iblk0 V c 6 t := by dsimp only [dat0]
theorem after0_7 (c : Dev nD) (t : Fin cfg0.N) : (dat0 V q c).after 7 t = iblk0 V c 7 t := by dsimp only [dat0]
theorem after0_8 (c : Dev nD) (t : Fin cfg0.N) : (dat0 V q c).after 8 t = iblk0 V c 8 t := by dsimp only [dat0]
theorem after0_9 (c : Dev nD) (t : Fin cfg0.N) : (dat0 V q c).after 9 t = iblk0 V c 9 t := by dsimp only [dat0]
theorem after0_10 (c : Dev nD) (t : Fin cfg0.N) : (dat0 V q c).after 10 t = (outsAt0 V c t.val t.isLt).1 := by dsimp only [dat0]

theorem before0_0 (c : Dev nD) (t : Fin cfg0.N) (d) : (dat0 V q c).before 0 t d = iblk0 V c 0 t :=
  before0_0_of V (dat0 V q c) (A_eq0 V q c 0) (after0_0 V q c) t d
theorem before0_1 (c : Dev nD) (t : Fin cfg0.N) (d) : (dat0 V q c).before 1 t d = iblk0 V c 1 t :=
  before0_1_of V (dat0 V q c) (A_eq0 V q c 1) (after0_1 V q c) t d
theorem before0_2 (c : Dev nD) (t : Fin cfg0.N) (d) : (dat0 V q c).before 2 t d = iblk0 V c 2 t :=
  before0_2_of V (dat0 V q c) (A_eq0 V q c 2) (after0_2 V q c) t d
theorem before0_3 (c : Dev nD) (t : Fin cfg0.N) (d) : (dat0 V q c).before 3 t d = iblk0 V c 3 t :=
  before0_3_of V (dat0 V q c) (A_eq0 V q c 3) (after0_3 V q c) t d
theorem before0_4 (c : Dev nD) (t : Fin cfg0.N) (d) : (dat0 V q c).before 4 t d = iblk0 V c 4 t :=
  before0_4_of V (dat0 V q c) (A_eq0 V q c 4) (after0_4 V q c) t d
theorem before0_5 (c : Dev nD) (t : Fin cfg0.N) (d) : (dat0 V q c).before 5 t d = iblk0 V c 5 t :=
  before0_5_of V (dat0 V q c) (A_eq0 V q c 5) (after0_5 V q c) t d
theorem before0_6 (c : Dev nD) (t : Fin cfg0.N) (d) : (dat0 V q c).before 6 t d = iblk0 V c 6 t :=
  before0_6_of V (dat0 V q c) (A_eq0 V q c 6) (after0_6 V q c) t d
theorem before0_7 (c : Dev nD) (t : Fin cfg0.N) (d) : (dat0 V q c).before 7 t d = iblk0 V c 7 t :=
  before0_7_of V (dat0 V q c) (A_eq0 V q c 7) (after0_7 V q c) t d
theorem before0_8 (c : Dev nD) (t : Fin cfg0.N) (d) : (dat0 V q c).before 8 t d = iblk0 V c 8 t :=
  before0_8_of V (dat0 V q c) (A_eq0 V q c 8) (after0_8 V q c) t d
theorem before0_9 (c : Dev nD) (t : Fin cfg0.N) (d) : (dat0 V q c).before 9 t d = iblk0 V c 9 t :=
  before0_9_of V (dat0 V q c) (A_eq0 V q c 9) (after0_9 V q c) t d

/-! ## The body obligation, at a generic point -/

def bodyPre0 (c : Dev nD) (t : Fin cfg0.N) : sProp 𝕄 :=
  iprop((dat0 V q c).Φ t.castSucc ∗ (dat0 V q c).owesAt () t.castSucc
    ∗ (∃ d, owns (c : Thread nD τ) (ms0_0 t) fullShare ((dat0 V q c).before 0 t d))
    ∗ (∃ d, owns (c : Thread nD τ) (ms0_1 t) fullShare ((dat0 V q c).before 1 t d))
    ∗ (∃ d, owns (c : Thread nD τ) (ms0_2 t) fullShare ((dat0 V q c).before 2 t d))
    ∗ (∃ d, owns (c : Thread nD τ) (ms0_3 t) fullShare ((dat0 V q c).before 3 t d))
    ∗ (∃ d, owns (c : Thread nD τ) (ms0_4 t) fullShare ((dat0 V q c).before 4 t d))
    ∗ (∃ d, owns (c : Thread nD τ) (ms0_5 t) fullShare ((dat0 V q c).before 5 t d))
    ∗ (∃ d, owns (c : Thread nD τ) (ms0_6 t) fullShare ((dat0 V q c).before 6 t d))
    ∗ (∃ d, owns (c : Thread nD τ) (ms0_7 t) fullShare ((dat0 V q c).before 7 t d))
    ∗ (∃ d, owns (c : Thread nD τ) (ms0_8 t) fullShare ((dat0 V q c).before 8 t d))
    ∗ (∃ d, owns (c : Thread nD τ) (ms0_9 t) fullShare ((dat0 V q c).before 9 t d))
    ∗ (∃ d, owns (c : Thread nD τ) (ms0_10 t) fullShare ((dat0 V q c).before 10 t d)))

def bodyPost0 (c : Dev nD) (t : Fin cfg0.N) : sProp 𝕄 :=
  iprop((dat0 V q c).Φ t.succ ∗ (dat0 V q c).owesAt () t.succ
    ∗ (dat0 V q c).leavesExact 0 t
    ∗ (dat0 V q c).leavesExact 1 t
    ∗ (dat0 V q c).leavesExact 2 t
    ∗ (dat0 V q c).leavesExact 3 t
    ∗ (dat0 V q c).leavesExact 4 t
    ∗ (dat0 V q c).leavesExact 5 t
    ∗ (dat0 V q c).leavesExact 6 t
    ∗ (dat0 V q c).leavesExact 7 t
    ∗ (dat0 V q c).leavesExact 8 t
    ∗ (dat0 V q c).leavesExact 9 t
    ∗ (dat0 V q c).leavesExact 10 t)

set_option maxHeartbeats 4800000 in
/-- The body at any point: the inputs' memrefs hold their blocks; the position says which case the point is in; the run of
    that case applies; the invariant hands the body the accumulator at what the point before left (at anything at the
    first point) and takes it back at this point's contents. -/
theorem sound_body0 (c : Dev nD) (t : Fin cfg0.N) :
    bodyPre0 V q c t ⊢ wp frame (wpE (defs₀ (F := F)) Variants.none c none) Set.univ (bodyAt0 t) (fun _ => bodyPost0 V q c t) := by
  unfold bodyPre0 bodyPost0 bodyAt0
  simp only [before0_0, before0_1, before0_2, before0_3, before0_4, before0_5, before0_6, before0_7, before0_8, before0_9]
  rw [show (dat0 V q c).owesAt () t.succ = (dat0 V q c).owesAt () t.castSucc from rfl]
  rw [show (dat0 V q c).Φ t.succ = PhiS0 V c (t.val + 1) t.isLt from rfl, PhiS0_succ]
  have hN : t.val < 32 := lt_of_lt_of_eq t.isLt (show cfg0.N = 32 from N_0)
  by_cases h0 : t.val % 4 = 0
  · by_cases h1 : t.val % 4 = 3
    · exfalso; omega
    · rw [show (dat0 V q c).leavesExact 0 t = owns (c : Thread nD τ) (ms0_0 t) fullShare ((dat0 V q c).after 0 t) from by
        unfold Dat.leavesExact; rw [liveAt0_0 t], after0_0]
      rw [show (dat0 V q c).leavesExact 1 t = owns (c : Thread nD τ) (ms0_1 t) fullShare ((dat0 V q c).after 1 t) from by
        unfold Dat.leavesExact; rw [liveAt0_1 t], after0_1]
      rw [show (dat0 V q c).leavesExact 2 t = owns (c : Thread nD τ) (ms0_2 t) fullShare ((dat0 V q c).after 2 t) from by
        unfold Dat.leavesExact; rw [liveAt0_2 t], after0_2]
      rw [show (dat0 V q c).leavesExact 3 t = owns (c : Thread nD τ) (ms0_3 t) fullShare ((dat0 V q c).after 3 t) from by
        unfold Dat.leavesExact; rw [liveAt0_3 t], after0_3]
      rw [show (dat0 V q c).leavesExact 4 t = owns (c : Thread nD τ) (ms0_4 t) fullShare ((dat0 V q c).after 4 t) from by
        unfold Dat.leavesExact; rw [liveAt0_4 t], after0_4]
      rw [show (dat0 V q c).leavesExact 5 t = owns (c : Thread nD τ) (ms0_5 t) fullShare ((dat0 V q c).after 5 t) from by
        unfold Dat.leavesExact; rw [liveAt0_5 t], after0_5]
      rw [show (dat0 V q c).leavesExact 6 t = owns (c : Thread nD τ) (ms0_6 t) fullShare ((dat0 V q c).after 6 t) from by
        unfold Dat.leavesExact; rw [liveAt0_6 t], after0_6]
      rw [show (dat0 V q c).leavesExact 7 t = owns (c : Thread nD τ) (ms0_7 t) fullShare ((dat0 V q c).after 7 t) from by
        unfold Dat.leavesExact; rw [liveAt0_7 t], after0_7]
      rw [show (dat0 V q c).leavesExact 8 t = owns (c : Thread nD τ) (ms0_8 t) fullShare ((dat0 V q c).after 8 t) from by
        unfold Dat.leavesExact; rw [liveAt0_8 t], after0_8]
      rw [show (dat0 V q c).leavesExact 9 t = owns (c : Thread nD τ) (ms0_9 t) fullShare ((dat0 V q c).after 9 t) from by
        unfold Dat.leavesExact; rw [liveAt0_9 t], after0_9]
      rw [Dat.leavesExact_idle (dat0 V q c) 10 t (idleAt0_10_A t ((hcond0_0 t).mpr h0) (fun h => h1 ((hcond0_1 t).mp h))) (noFlush0_10_A t ((hcond0_0 t).mpr h0) (fun h => h1 ((hcond0_1 t).mp h)))]
      rw [outsAt0_A V c t h0 h1]
      unfold sout0_A_0; (try dsimp only)
      by_cases hz : t.val = 0
      · rw [PhiS0_castSucc V q c t, PhiS0_zero V c _ _ hz, PhiA0_eq]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_A c (grid0.coords t) _ _ _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        iintro ⟨H0, H1, H2, H3, H4, H5, H6, H7, H8, H9, H10, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexists _; iexact H10
      · rw [PhiS0_castSucc V q c t, PhiS0_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_A c (grid0.coords t) _ _ _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexists _; iexact HS0
        iintro ⟨H0, H1, H2, H3, H4, H5, H6, H7, H8, H9, H10, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexists _; iexact H10
  · by_cases h1 : t.val % 4 = 3
    · rw [show (dat0 V q c).leavesExact 0 t = owns (c : Thread nD τ) (ms0_0 t) fullShare ((dat0 V q c).after 0 t) from by
        unfold Dat.leavesExact; rw [liveAt0_0 t], after0_0]
      rw [show (dat0 V q c).leavesExact 1 t = owns (c : Thread nD τ) (ms0_1 t) fullShare ((dat0 V q c).after 1 t) from by
        unfold Dat.leavesExact; rw [liveAt0_1 t], after0_1]
      rw [show (dat0 V q c).leavesExact 2 t = owns (c : Thread nD τ) (ms0_2 t) fullShare ((dat0 V q c).after 2 t) from by
        unfold Dat.leavesExact; rw [liveAt0_2 t], after0_2]
      rw [show (dat0 V q c).leavesExact 3 t = owns (c : Thread nD τ) (ms0_3 t) fullShare ((dat0 V q c).after 3 t) from by
        unfold Dat.leavesExact; rw [liveAt0_3 t], after0_3]
      rw [show (dat0 V q c).leavesExact 4 t = owns (c : Thread nD τ) (ms0_4 t) fullShare ((dat0 V q c).after 4 t) from by
        unfold Dat.leavesExact; rw [liveAt0_4 t], after0_4]
      rw [show (dat0 V q c).leavesExact 5 t = owns (c : Thread nD τ) (ms0_5 t) fullShare ((dat0 V q c).after 5 t) from by
        unfold Dat.leavesExact; rw [liveAt0_5 t], after0_5]
      rw [show (dat0 V q c).leavesExact 6 t = owns (c : Thread nD τ) (ms0_6 t) fullShare ((dat0 V q c).after 6 t) from by
        unfold Dat.leavesExact; rw [liveAt0_6 t], after0_6]
      rw [show (dat0 V q c).leavesExact 7 t = owns (c : Thread nD τ) (ms0_7 t) fullShare ((dat0 V q c).after 7 t) from by
        unfold Dat.leavesExact; rw [liveAt0_7 t], after0_7]
      rw [show (dat0 V q c).leavesExact 8 t = owns (c : Thread nD τ) (ms0_8 t) fullShare ((dat0 V q c).after 8 t) from by
        unfold Dat.leavesExact; rw [liveAt0_8 t], after0_8]
      rw [show (dat0 V q c).leavesExact 9 t = owns (c : Thread nD τ) (ms0_9 t) fullShare ((dat0 V q c).after 9 t) from by
        unfold Dat.leavesExact; rw [liveAt0_9 t], after0_9]
      rw [show (dat0 V q c).leavesExact 10 t = owns (c : Thread nD τ) (ms0_10 t) fullShare ((dat0 V q c).after 10 t) from by
        unfold Dat.leavesExact; rw [liveAt0_10_C t (fun h => h0 ((hcond0_0 t).mp h)) ((hcond0_1 t).mpr h1)], after0_10]
      rw [outsAt0_C V c t h0 h1]
      unfold out0_C_10 sout0_C_0; (try dsimp only)
      by_cases hz : t.val = 0
      · exfalso; omega
      · rw [PhiS0_castSucc V q c t, PhiS0_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_C c (grid0.coords t) _ _ _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [HS0]; · iexact HS0
        iintro ⟨H0, H1, H2, H3, H4, H5, H6, H7, H8, H9, ⟨%e10, H10⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        unfold owns; iexists _; isplitr
        swap; · iexact H10
        ipureintro; exact View.read_writes_of_cover _ _ _ _ _ (cover0_C_10 c _ _ _ _ _ _ _ _ _ _ _ _ _ _ _ _ _ _ _ _ _ _ _ _ _ _ _ _ _ _ _ _ _ _ _ _ _ _)
    · rw [show (dat0 V q c).leavesExact 0 t = owns (c : Thread nD τ) (ms0_0 t) fullShare ((dat0 V q c).after 0 t) from by
        unfold Dat.leavesExact; rw [liveAt0_0 t], after0_0]
      rw [show (dat0 V q c).leavesExact 1 t = owns (c : Thread nD τ) (ms0_1 t) fullShare ((dat0 V q c).after 1 t) from by
        unfold Dat.leavesExact; rw [liveAt0_1 t], after0_1]
      rw [show (dat0 V q c).leavesExact 2 t = owns (c : Thread nD τ) (ms0_2 t) fullShare ((dat0 V q c).after 2 t) from by
        unfold Dat.leavesExact; rw [liveAt0_2 t], after0_2]
      rw [show (dat0 V q c).leavesExact 3 t = owns (c : Thread nD τ) (ms0_3 t) fullShare ((dat0 V q c).after 3 t) from by
        unfold Dat.leavesExact; rw [liveAt0_3 t], after0_3]
      rw [show (dat0 V q c).leavesExact 4 t = owns (c : Thread nD τ) (ms0_4 t) fullShare ((dat0 V q c).after 4 t) from by
        unfold Dat.leavesExact; rw [liveAt0_4 t], after0_4]
      rw [show (dat0 V q c).leavesExact 5 t = owns (c : Thread nD τ) (ms0_5 t) fullShare ((dat0 V q c).after 5 t) from by
        unfold Dat.leavesExact; rw [liveAt0_5 t], after0_5]
      rw [show (dat0 V q c).leavesExact 6 t = owns (c : Thread nD τ) (ms0_6 t) fullShare ((dat0 V q c).after 6 t) from by
        unfold Dat.leavesExact; rw [liveAt0_6 t], after0_6]
      rw [show (dat0 V q c).leavesExact 7 t = owns (c : Thread nD τ) (ms0_7 t) fullShare ((dat0 V q c).after 7 t) from by
        unfold Dat.leavesExact; rw [liveAt0_7 t], after0_7]
      rw [show (dat0 V q c).leavesExact 8 t = owns (c : Thread nD τ) (ms0_8 t) fullShare ((dat0 V q c).after 8 t) from by
        unfold Dat.leavesExact; rw [liveAt0_8 t], after0_8]
      rw [show (dat0 V q c).leavesExact 9 t = owns (c : Thread nD τ) (ms0_9 t) fullShare ((dat0 V q c).after 9 t) from by
        unfold Dat.leavesExact; rw [liveAt0_9 t], after0_9]
      rw [Dat.leavesExact_idle (dat0 V q c) 10 t (idleAt0_10_B t (fun h => h0 ((hcond0_0 t).mp h)) (fun h => h1 ((hcond0_1 t).mp h))) (noFlush0_10_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS0_castSucc V q c t, PhiS0_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_B c (grid0.coords t) _ _ _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        iintro ⟨H0, H1, H2, H3, H4, H5, H6, H7, H8, H9, H10, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexists _; iexact H10

/-- The library's body obligation, at every point. -/
theorem body_obligation0 (c : Dev nD) : BodyObligation (dat0 (F := F) V q c) (defs₀ (F := F)) Variants.none () Set.univ := fun t => by
  rw [bigSep_W0, bigSep_W0]
  exact sound_body0 V q c t

/-- What the launch hands the region is the invariant before the first point. -/
theorem hin0 (c : Dev nD) : Pipeline.ΦA spec0 c ⊢ (dat0 V q c).Φ 0 := by
  rw [show (dat0 V q c).Φ 0 = PhiS0 V c 0 (Nat.zero_le _) from rfl, PhiS0_zero V c 0 _ rfl]
  try exact Idealize.SL.BI.Entails.refl _

/-- After any point but the first the invariant gives the class's back: the accumulator's contents are forgotten. -/
theorem Phi_out0 (c : Dev nD) (t : Fin (cfg0.N + 1)) (ht : t.val ≠ 0) : (dat0 V q c).Φ t ⊢ Pipeline.ΦA spec0 c := by
  rw [show (dat0 V q c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V q c).Φ (Fin.last cfg0.N) ⊢ Pipeline.ΦA spec0 c :=
  Phi_out0 V q c _ (by rw [Fin.val_last]; have : cfg0.N = 32 := N_0; omega)

end Cert.Kernel.Hand

end
-- ==== Proof.K.R1.Runs.lean ====
/- Region 1 (the first message-passing step): what the three runs of the body share — the entry
   valuation's blocks, the two branch conditions decided over the 32 grid points, where the output window is
   idle, the staging and scratch memrefs, and the region invariant with the scratch as an owned memref. -/
import proofs.«172293_j20512763806108_2_alg».proof.Proof.Gen.Kernel.Launch
import proofs.«172293_j20512763806108_2_alg».proof.Proof.Gen.Kernel.Skeleton
import proofs.«172293_j20512763806108_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9's current staging buffer holds its block at every point, fetched there or not. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the first conditional (reset of the accumulator), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the second conditional (the update and the output store). -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
theorem liveAt1_8 : ∀ t : Fin cfg1.N, cfg1.idle 8 (grid1.coords t) = false := by decide +kernel
theorem liveAt1_9 : ∀ t : Fin cfg1.N, cfg1.idle 9 (grid1.coords t) = false := by decide +kernel
/-- Case A (reset): nothing is stored into the output window, and it is not written back. -/
theorem idleAt1_10_A : ∀ t : Fin cfg1.N, cond1_0 (grid1.coords t) → ¬cond1_1 (grid1.coords t) → cfg1.idle 10 (grid1.coords t) = true := by decide +kernel
theorem noFlush1_10_A : ∀ t : Fin cfg1.N, cond1_0 (grid1.coords t) → ¬cond1_1 (grid1.coords t) → (cfg1.win 10).flush t = false := by decide +kernel
/-- Case B (accumulate only): likewise. -/
theorem idleAt1_10_B : ∀ t : Fin cfg1.N, ¬cond1_0 (grid1.coords t) → ¬cond1_1 (grid1.coords t) → cfg1.idle 10 (grid1.coords t) = true := by decide +kernel
theorem noFlush1_10_B : ∀ t : Fin cfg1.N, ¬cond1_0 (grid1.coords t) → ¬cond1_1 (grid1.coords t) → (cfg1.win 10).flush t = false := by decide +kernel
/-- Case C (finish): the output window is live. -/
theorem liveAt1_10_C : ∀ t : Fin cfg1.N, ¬cond1_0 (grid1.coords t) → cond1_1 (grid1.coords t) → cfg1.idle 10 (grid1.coords t) = false := by decide +kernel

/-! ## The staging and scratch memrefs -/

/-- One staging buffer of the output window, through which its contents are stated. -/
abbrev VO1_10 : View sig .tc .vmem S512x128 .f32 := (Memref.whole cc1_stg10_0 : Memref sig .tc .vmem S512x128 .f32).view
abbrev ms1_0 (t : Fin cfg1.N) : Memref sig .tc .vmem S512x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x128 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x128 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S512x128 .f32 := win1_10.stage (cfg1.slots t 10)
abbrev hs1_10 (t : Fin cfg1.N) : (ms1_10 t).IsWhole := hstage1_10 ((cfg1.slots t 10).cast nbuf1_10)
/-- The scratch accumulator: a whole scoped buffer of the kernel's own, carried between points. -/
abbrev scM1_0 : Memref sig .tc .vmem S512x128 .f32 := Memref.whole cc1_scratch0
abbrev VS1_0 : View sig .tc .vmem S512x128 .f32 := scM1_0.view

/-- The rest of the core's scoped buffers, which the body never opens. -/
abbrev restBut1 (c : Dev nD) : sProp 𝕄 :=
  Pipeline.scopedRestBut (Ix := Unit) (Name := ℕ) (U := UR sig nD τ) (Lvl := ℕ) (Val := Elt F) spec1 c [cc1_scratch0]

/-- The class's invariant with the scratch as a memref owned at some contents. -/
theorem PhiA1_eq (c : Dev nD) :
    (Pipeline.ΦA spec1 c : sProp 𝕄)
      = iprop(iprop((∃ d, owns (c : Thread nD τ) scM1_0 fullShare d) ∗ restBut1 c) ∗ (∃ r, prngReg c r)) := by
  unfold Pipeline.ΦA; rw [scopedRest1_split]; simp only [scM1_0, owns_whole]; try rfl

end Cert.Kernel.Hand

end
-- ==== Proof.K.R1.RunA.lean ====
/- Region 1, case A of the body: the accumulator is reset (first column block of a row block), then the tile's messages are added; nothing is stored to the output block. The body's triple on whole staging memrefs, with the
   pieces each written buffer ends with as the witness. -/
import proofs.«172293_j20512763806108_2_alg».proof.Proof.K.R1.Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- (the run's proof term is large)
set_option maxHeartbeats 1000000 in
/-- On whole memrefs — the ten inputs at their contents, the output block at contents handed back untouched, the accumulator at anything — the body runs to the continuation holding the inputs as they were and the accumulator with its pieces written. -/
noncomputable def kernelRun1_A (c : Dev nD) (i : grid1.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : cond1_0 i) (hc1 : ¬cond1_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) :
    Σ' (L10 : List (View.Piece (Elt F) S512x128 .f32)), { LS0 : List (View.Piece (Elt F) S512x128 .f32) //
      ∀ (xi10 : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ (∃ f, arg13.view.loc (c : Thread nD τ) ↦[arg13.view.set]{fullShare} arg13.view.writes (Elt F) f LS0)) -∗ K ⟨⟩))
          ⊢ wp frame (wpE (defs₀ (F := F)) Variants.none c none) E (cc1__step_kernel i arg2 harg2 arg3 harg3 arg4 harg4 arg5 harg5 arg6 harg6 arg7 harg7 arg8 harg8 arg9 harg9 arg10 harg10 arg11 harg11 arg12 harg12 arg13 harg13) K } := by
  refine ⟨[], ?_, fun xi10 E K => ?run⟩
  case run =>
    simp only [cc1__step_kernel_eq_skeleton]; unfold cc1__step_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; iexact HS0

end Cert.Kernel.Hand

end
-- ==== Proof.K.R1.RunB.lean ====
/- Region 1, case B of the body: the tile's messages are added to the accumulator; nothing is stored to the output block. The body's triple on whole staging memrefs, with the
   pieces each written buffer ends with as the witness. -/
import proofs.«172293_j20512763806108_2_alg».proof.Proof.K.R1.RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- (the run's proof term is large)
set_option maxHeartbeats 1000000 in
/-- On whole memrefs — the ten inputs at their contents, the output block at contents handed back untouched, the accumulator at what the point before left — the body runs to the continuation holding the inputs as they were and the accumulator with its pieces written. -/
noncomputable def kernelRun1_B (c : Dev nD) (i : grid1.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond1_0 i) (hc1 : ¬cond1_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) :
    Σ' (L10 : List (View.Piece (Elt F) S512x128 .f32)), { LS0 : List (View.Piece (Elt F) S512x128 .f32) //
      ∀ (xi10 : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ (∃ f, arg13.view.loc (c : Thread nD τ) ↦[arg13.view.set]{fullShare} arg13.view.writes (Elt F) f LS0)) -∗ K ⟨⟩))
          ⊢ wp frame (wpE (defs₀ (F := F)) Variants.none c none) E (cc1__step_kernel i arg2 harg2 arg3 harg3 arg4 harg4 arg5 harg5 arg6 harg6 arg7 harg7 arg8 harg8 arg9 harg9 arg10 harg10 arg11 harg11 arg12 harg12 arg13 harg13) K } := by
  refine ⟨[], ?_, fun xi10 E K => ?run⟩
  case run =>
    simp only [cc1__step_kernel_eq_skeleton]; unfold cc1__step_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; iexact HS0

end Cert.Kernel.Hand

end
-- ==== Proof.K.R1.RunC.lean ====
/- Region 1, case C of the body: the tile's messages are added to the accumulator, then the update and the layer normalisation of the row block are stored to the output block. The body's triple on whole staging memrefs, with the
   pieces each written buffer ends with as the witness. -/
import proofs.«172293_j20512763806108_2_alg».proof.Proof.K.R1.RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- (the run's proof term is large)
set_option maxHeartbeats 1000000 in
/-- On whole memrefs — the ten inputs at their contents, the output block at anything, the accumulator at what the point before left — the body runs to the continuation holding the inputs as they were, the output block with its pieces written and the accumulator with its pieces written. -/
noncomputable def kernelRun1_C (c : Dev nD) (i : grid1.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond1_0 i) (hc1 : cond1_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) :
    Σ' (L10 : List (View.Piece (Elt F) S512x128 .f32)), { LS0 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0)) -∗ K ⟨⟩))
          ⊢ wp frame (wpE (defs₀ (F := F)) Variants.none c none) E (cc1__step_kernel i arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc1__step_kernel_eq_skeleton]; unfold cc1__step_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    iexists _; iexact HS0

end Cert.Kernel.Hand

end
-- ==== Proof.K.R1.Body.lean ====
/- Region 1: what the output block and the accumulator hold after each grid point, the proof data of the
   pipeline over an entry valuation, and the body obligation at every point. -/
import proofs.«172293_j20512763806108_2_alg».proof.Proof.K.R1.RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b)) (q : Fin 11 → PosShare TreeShare)

/-! ## What each case leaves -/

/-- Case A stores nothing into the output block: a placeholder nothing consults (the window is idle there). -/
def out1_A_10 (c : Dev nD) (i : grid1.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : cond1_0 i) (hc1 : ¬cond1_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) : Vec F S512x128 .f32 :=
  VO1_10.read (Elt F) (VO1_10.writes (Elt F) VO1_10.junk (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).1)

/-- Case A's pieces for the accumulator cover it. -/
theorem scover1_A_0 (c : Dev nD) (i : grid1.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : cond1_0 i) (hc1 : ¬cond1_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (y : S512x128.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).2.1 S512x128.size (by sl_kernel_rfl) y

/-- What case A leaves in the accumulator: its pieces read back. -/
def sout1_A_0 (c : Dev nD) (i : grid1.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : cond1_0 i) (hc1 : ¬cond1_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) : Vec F S512x128 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).2.1)

/-- Case B stores nothing into the output block: a placeholder nothing consults. -/
def out1_B_10 (c : Dev nD) (i : grid1.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond1_0 i) (hc1 : ¬cond1_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) : Vec F S512x128 .f32 :=
  VO1_10.read (Elt F) (VO1_10.writes (Elt F) VO1_10.junk (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).1)

/-- Case B's pieces for the accumulator cover it. -/
theorem scover1_B_0 (c : Dev nD) (i : grid1.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond1_0 i) (hc1 : ¬cond1_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) (y : S512x128.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1 S512x128.size (by sl_kernel_rfl) y

/-- What case B leaves in the accumulator. -/
def sout1_B_0 (c : Dev nD) (i : grid1.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond1_0 i) (hc1 : ¬cond1_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) : Vec F S512x128 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1)

/-- Case C's pieces for the output block cover it (one whole store). -/
theorem cover1_C_10 (c : Dev nD) (i : grid1.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond1_0 i) (hc1 : cond1_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) (y : S512x128.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).1 S512x128.size (by sl_kernel_rfl) y

/-- What case C leaves in the output block's staging buffer. -/
def out1_C_10 (c : Dev nD) (i : grid1.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond1_0 i) (hc1 : cond1_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) : Vec F S512x128 .f32 :=
  VO1_10.read (Elt F) (VO1_10.writes (Elt F) VO1_10.junk (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).1)

/-- Case C's pieces for the accumulator cover it. -/
theorem scover1_C_0 (c : Dev nD) (i : grid1.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond1_0 i) (hc1 : cond1_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) (y : S512x128.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1 S512x128.size (by sl_kernel_rfl) y

/-- What case C leaves in the accumulator. -/
def sout1_C_0 (c : Dev nD) (i : grid1.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond1_0 i) (hc1 : cond1_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) : Vec F S512x128 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1)

/-! ## What the output block and the accumulator hold after each point -/

/-- After the body at position `n`: (the output window's staging contents, the accumulator's contents) — the case the
    position selects, run at the point's memrefs and input blocks over what the point before left in the accumulator. -/
def outsAt1 (c : Dev nD) : (n : ℕ) → n < cfg1.N → Vec F S512x128 .f32 × Vec F S512x128 .f32
  | 0, hn => (out1_A_10 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩))
  | n + 1, hn =>
    if h0 : (n + 1) % 4 = 0 then
      if h1 : (n + 1) % 4 = 3 then
        False.elim (by omega)
      else
        (out1_A_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩))
    else
      if h1 : (n + 1) % 4 = 3 then
        (out1_C_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2)
      else
        (out1_B_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the accumulator at what the
    point before left, the other scoped buffers unopened, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ restBut1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ restBut1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ restBut1 c) ∗ (∃ r, prngReg c r)) := by
  cases n with
  | zero => exact absurd rfl hz
  | succ n => rfl

/-! ## The pipeline's proof data -/

/-- The proof data of region 1 on core `c`: the arrays as the region finds them; after the body each input's buffer at its
    block, the output's at `outsAt1`; the invariant `PhiS1`; nothing owed; the shares a parameter. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => (outsAt1 V c t.val t.isLt).1
  Φ t := PhiS1 V c t.val (Nat.le_of_lt_succ t.isLt)
  q := q
  owed _ := 0

theorem A_eq1 (c : Dev nD) (w : Fin cfg1.W) : (dat1 V q c).A w = V c (Pipeline.arrRef spec1 w) := by
  dsimp only [dat1]

theorem PhiS1_castSucc (c : Dev nD) (t : Fin cfg1.N) :
    (dat1 V q c).Φ t.castSucc = PhiS1 V c t.val (Nat.le_of_lt t.isLt) := by
  dsimp only [dat1]; simp only [Fin.coe_castSucc]

theorem after1_0 (c : Dev nD) (t : Fin cfg1.N) : (dat1 V q c).after 0 t = iblk1 V c 0 t := by dsimp only [dat1]
theorem after1_1 (c : Dev nD) (t : Fin cfg1.N) : (dat1 V q c).after 1 t = iblk1 V c 1 t := by dsimp only [dat1]
theorem after1_2 (c : Dev nD) (t : Fin cfg1.N) : (dat1 V q c).after 2 t = iblk1 V c 2 t := by dsimp only [dat1]
theorem after1_3 (c : Dev nD) (t : Fin cfg1.N) : (dat1 V q c).after 3 t = iblk1 V c 3 t := by dsimp only [dat1]
theorem after1_4 (c : Dev nD) (t : Fin cfg1.N) : (dat1 V q c).after 4 t = iblk1 V c 4 t := by dsimp only [dat1]
theorem after1_5 (c : Dev nD) (t : Fin cfg1.N) : (dat1 V q c).after 5 t = iblk1 V c 5 t := by dsimp only [dat1]
theorem after1_6 (c : Dev nD) (t : Fin cfg1.N) : (dat1 V q c).after 6 t = iblk1 V c 6 t := by dsimp only [dat1]
theorem after1_7 (c : Dev nD) (t : Fin cfg1.N) : (dat1 V q c).after 7 t = iblk1 V c 7 t := by dsimp only [dat1]
theorem after1_8 (c : Dev nD) (t : Fin cfg1.N) : (dat1 V q c).after 8 t = iblk1 V c 8 t := by dsimp only [dat1]
theorem after1_9 (c : Dev nD) (t : Fin cfg1.N) : (dat1 V q c).after 9 t = iblk1 V c 9 t := by dsimp only [dat1]
theorem after1_10 (c : Dev nD) (t : Fin cfg1.N) : (dat1 V q c).after 10 t = (outsAt1 V c t.val t.isLt).1 := by dsimp only [dat1]

theorem before1_0 (c : Dev nD) (t : Fin cfg1.N) (d) : (dat1 V q c).before 0 t d = iblk1 V c 0 t :=
  before1_0_of V (dat1 V q c) (A_eq1 V q c 0) (after1_0 V q c) t d
theorem before1_1 (c : Dev nD) (t : Fin cfg1.N) (d) : (dat1 V q c).before 1 t d = iblk1 V c 1 t :=
  before1_1_of V (dat1 V q c) (A_eq1 V q c 1) (after1_1 V q c) t d
theorem before1_2 (c : Dev nD) (t : Fin cfg1.N) (d) : (dat1 V q c).before 2 t d = iblk1 V c 2 t :=
  before1_2_of V (dat1 V q c) (A_eq1 V q c 2) (after1_2 V q c) t d
theorem before1_3 (c : Dev nD) (t : Fin cfg1.N) (d) : (dat1 V q c).before 3 t d = iblk1 V c 3 t :=
  before1_3_of V (dat1 V q c) (A_eq1 V q c 3) (after1_3 V q c) t d
theorem before1_4 (c : Dev nD) (t : Fin cfg1.N) (d) : (dat1 V q c).before 4 t d = iblk1 V c 4 t :=
  before1_4_of V (dat1 V q c) (A_eq1 V q c 4) (after1_4 V q c) t d
theorem before1_5 (c : Dev nD) (t : Fin cfg1.N) (d) : (dat1 V q c).before 5 t d = iblk1 V c 5 t :=
  before1_5_of V (dat1 V q c) (A_eq1 V q c 5) (after1_5 V q c) t d
theorem before1_6 (c : Dev nD) (t : Fin cfg1.N) (d) : (dat1 V q c).before 6 t d = iblk1 V c 6 t :=
  before1_6_of V (dat1 V q c) (A_eq1 V q c 6) (after1_6 V q c) t d
theorem before1_7 (c : Dev nD) (t : Fin cfg1.N) (d) : (dat1 V q c).before 7 t d = iblk1 V c 7 t :=
  before1_7_of V (dat1 V q c) (A_eq1 V q c 7) (after1_7 V q c) t d
theorem before1_8 (c : Dev nD) (t : Fin cfg1.N) (d) : (dat1 V q c).before 8 t d = iblk1 V c 8 t :=
  before1_8_of V (dat1 V q c) (A_eq1 V q c 8) (after1_8 V q c) t d
theorem before1_9 (c : Dev nD) (t : Fin cfg1.N) (d) : (dat1 V q c).before 9 t d = iblk1 V c 9 t :=
  before1_9_of V (dat1 V q c) (A_eq1 V q c 9) (after1_9 V q c) t d

/-! ## The body obligation, at a generic point -/

def bodyPre1 (c : Dev nD) (t : Fin cfg1.N) : sProp 𝕄 :=
  iprop((dat1 V q c).Φ t.castSucc ∗ (dat1 V q c).owesAt () t.castSucc
    ∗ (∃ d, owns (c : Thread nD τ) (ms1_0 t) fullShare ((dat1 V q c).before 0 t d))
    ∗ (∃ d, owns (c : Thread nD τ) (ms1_1 t) fullShare ((dat1 V q c).before 1 t d))
    ∗ (∃ d, owns (c : Thread nD τ) (ms1_2 t) fullShare ((dat1 V q c).before 2 t d))
    ∗ (∃ d, owns (c : Thread nD τ) (ms1_3 t) fullShare ((dat1 V q c).before 3 t d))
    ∗ (∃ d, owns (c : Thread nD τ) (ms1_4 t) fullShare ((dat1 V q c).before 4 t d))
    ∗ (∃ d, owns (c : Thread nD τ) (ms1_5 t) fullShare ((dat1 V q c).before 5 t d))
    ∗ (∃ d, owns (c : Thread nD τ) (ms1_6 t) fullShare ((dat1 V q c).before 6 t d))
    ∗ (∃ d, owns (c : Thread nD τ) (ms1_7 t) fullShare ((dat1 V q c).before 7 t d))
    ∗ (∃ d, owns (c : Thread nD τ) (ms1_8 t) fullShare ((dat1 V q c).before 8 t d))
    ∗ (∃ d, owns (c : Thread nD τ) (ms1_9 t) fullShare ((dat1 V q c).before 9 t d))
    ∗ (∃ d, owns (c : Thread nD τ) (ms1_10 t) fullShare ((dat1 V q c).before 10 t d)))

def bodyPost1 (c : Dev nD) (t : Fin cfg1.N) : sProp 𝕄 :=
  iprop((dat1 V q c).Φ t.succ ∗ (dat1 V q c).owesAt () t.succ
    ∗ (dat1 V q c).leavesExact 0 t
    ∗ (dat1 V q c).leavesExact 1 t
    ∗ (dat1 V q c).leavesExact 2 t
    ∗ (dat1 V q c).leavesExact 3 t
    ∗ (dat1 V q c).leavesExact 4 t
    ∗ (dat1 V q c).leavesExact 5 t
    ∗ (dat1 V q c).leavesExact 6 t
    ∗ (dat1 V q c).leavesExact 7 t
    ∗ (dat1 V q c).leavesExact 8 t
    ∗ (dat1 V q c).leavesExact 9 t
    ∗ (dat1 V q c).leavesExact 10 t)

set_option maxHeartbeats 4800000 in
/-- The body at any point: the inputs' memrefs hold their blocks; the position says which case the point is in; the run of
    that case applies; the invariant hands the body the accumulator at what the point before left (at anything at the
    first point) and takes it back at this point's contents. -/
theorem sound_body1 (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1, before1_2, before1_3, before1_4, before1_5, before1_6, before1_7, before1_8, before1_9]
  rw [show (dat1 V q c).owesAt () t.succ = (dat1 V q c).owesAt () t.castSucc from rfl]
  rw [show (dat1 V q c).Φ t.succ = PhiS1 V c (t.val + 1) t.isLt from rfl, PhiS1_succ]
  have hN : t.val < 32 := lt_of_lt_of_eq t.isLt (show cfg1.N = 32 from N_1)
  by_cases h0 : t.val % 4 = 0
  · by_cases h1 : t.val % 4 = 3
    · exfalso; omega
    · rw [show (dat1 V q c).leavesExact 0 t = owns (c : Thread nD τ) (ms1_0 t) fullShare ((dat1 V q c).after 0 t) from by
        unfold Dat.leavesExact; rw [liveAt1_0 t], after1_0]
      rw [show (dat1 V q c).leavesExact 1 t = owns (c : Thread nD τ) (ms1_1 t) fullShare ((dat1 V q c).after 1 t) from by
        unfold Dat.leavesExact; rw [liveAt1_1 t], after1_1]
      rw [show (dat1 V q c).leavesExact 2 t = owns (c : Thread nD τ) (ms1_2 t) fullShare ((dat1 V q c).after 2 t) from by
        unfold Dat.leavesExact; rw [liveAt1_2 t], after1_2]
      rw [show (dat1 V q c).leavesExact 3 t = owns (c : Thread nD τ) (ms1_3 t) fullShare ((dat1 V q c).after 3 t) from by
        unfold Dat.leavesExact; rw [liveAt1_3 t], after1_3]
      rw [show (dat1 V q c).leavesExact 4 t = owns (c : Thread nD τ) (ms1_4 t) fullShare ((dat1 V q c).after 4 t) from by
        unfold Dat.leavesExact; rw [liveAt1_4 t], after1_4]
      rw [show (dat1 V q c).leavesExact 5 t = owns (c : Thread nD τ) (ms1_5 t) fullShare ((dat1 V q c).after 5 t) from by
        unfold Dat.leavesExact; rw [liveAt1_5 t], after1_5]
      rw [show (dat1 V q c).leavesExact 6 t = owns (c : Thread nD τ) (ms1_6 t) fullShare ((dat1 V q c).after 6 t) from by
        unfold Dat.leavesExact; rw [liveAt1_6 t], after1_6]
      rw [show (dat1 V q c).leavesExact 7 t = owns (c : Thread nD τ) (ms1_7 t) fullShare ((dat1 V q c).after 7 t) from by
        unfold Dat.leavesExact; rw [liveAt1_7 t], after1_7]
      rw [show (dat1 V q c).leavesExact 8 t = owns (c : Thread nD τ) (ms1_8 t) fullShare ((dat1 V q c).after 8 t) from by
        unfold Dat.leavesExact; rw [liveAt1_8 t], after1_8]
      rw [show (dat1 V q c).leavesExact 9 t = owns (c : Thread nD τ) (ms1_9 t) fullShare ((dat1 V q c).after 9 t) from by
        unfold Dat.leavesExact; rw [liveAt1_9 t], after1_9]
      rw [Dat.leavesExact_idle (dat1 V q c) 10 t (idleAt1_10_A t ((hcond1_0 t).mpr h0) (fun h => h1 ((hcond1_1 t).mp h))) (noFlush1_10_A t ((hcond1_0 t).mpr h0) (fun h => h1 ((hcond1_1 t).mp h)))]
      rw [outsAt1_A V c t h0 h1]
      unfold sout1_A_0; (try dsimp only)
      by_cases hz : t.val = 0
      · rw [PhiS1_castSucc V q c t, PhiS1_zero V c _ _ hz, PhiA1_eq]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun1_A c (grid1.coords t) _ _ _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        iintro ⟨H0, H1, H2, H3, H4, H5, H6, H7, H8, H9, H10, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexists _; iexact H10
      · rw [PhiS1_castSucc V q c t, PhiS1_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun1_A c (grid1.coords t) _ _ _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexists _; iexact HS0
        iintro ⟨H0, H1, H2, H3, H4, H5, H6, H7, H8, H9, H10, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexists _; iexact H10
  · by_cases h1 : t.val % 4 = 3
    · rw [show (dat1 V q c).leavesExact 0 t = owns (c : Thread nD τ) (ms1_0 t) fullShare ((dat1 V q c).after 0 t) from by
        unfold Dat.leavesExact; rw [liveAt1_0 t], after1_0]
      rw [show (dat1 V q c).leavesExact 1 t = owns (c : Thread nD τ) (ms1_1 t) fullShare ((dat1 V q c).after 1 t) from by
        unfold Dat.leavesExact; rw [liveAt1_1 t], after1_1]
      rw [show (dat1 V q c).leavesExact 2 t = owns (c : Thread nD τ) (ms1_2 t) fullShare ((dat1 V q c).after 2 t) from by
        unfold Dat.leavesExact; rw [liveAt1_2 t], after1_2]
      rw [show (dat1 V q c).leavesExact 3 t = owns (c : Thread nD τ) (ms1_3 t) fullShare ((dat1 V q c).after 3 t) from by
        unfold Dat.leavesExact; rw [liveAt1_3 t], after1_3]
      rw [show (dat1 V q c).leavesExact 4 t = owns (c : Thread nD τ) (ms1_4 t) fullShare ((dat1 V q c).after 4 t) from by
        unfold Dat.leavesExact; rw [liveAt1_4 t], after1_4]
      rw [show (dat1 V q c).leavesExact 5 t = owns (c : Thread nD τ) (ms1_5 t) fullShare ((dat1 V q c).after 5 t) from by
        unfold Dat.leavesExact; rw [liveAt1_5 t], after1_5]
      rw [show (dat1 V q c).leavesExact 6 t = owns (c : Thread nD τ) (ms1_6 t) fullShare ((dat1 V q c).after 6 t) from by
        unfold Dat.leavesExact; rw [liveAt1_6 t], after1_6]
      rw [show (dat1 V q c).leavesExact 7 t = owns (c : Thread nD τ) (ms1_7 t) fullShare ((dat1 V q c).after 7 t) from by
        unfold Dat.leavesExact; rw [liveAt1_7 t], after1_7]
      rw [show (dat1 V q c).leavesExact 8 t = owns (c : Thread nD τ) (ms1_8 t) fullShare ((dat1 V q c).after 8 t) from by
        unfold Dat.leavesExact; rw [liveAt1_8 t], after1_8]
      rw [show (dat1 V q c).leavesExact 9 t = owns (c : Thread nD τ) (ms1_9 t) fullShare ((dat1 V q c).after 9 t) from by
        unfold Dat.leavesExact; rw [liveAt1_9 t], after1_9]
      rw [show (dat1 V q c).leavesExact 10 t = owns (c : Thread nD τ) (ms1_10 t) fullShare ((dat1 V q c).after 10 t) from by
        unfold Dat.leavesExact; rw [liveAt1_10_C t (fun h => h0 ((hcond1_0 t).mp h)) ((hcond1_1 t).mpr h1)], after1_10]
      rw [outsAt1_C V c t h0 h1]
      unfold out1_C_10 sout1_C_0; (try dsimp only)
      by_cases hz : t.val = 0
      · exfalso; omega
      · rw [PhiS1_castSucc V q c t, PhiS1_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun1_C c (grid1.coords t) _ _ _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [HS0]; · iexact HS0
        iintro ⟨H0, H1, H2, H3, H4, H5, H6, H7, H8, H9, ⟨%e10, H10⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        unfold owns; iexists _; isplitr
        swap; · iexact H10
        ipureintro; exact View.read_writes_of_cover _ _ _ _ _ (cover1_C_10 c _ _ _ _ _ _ _ _ _ _ _ _ _ _ _ _ _ _ _ _ _ _ _ _ _ _ _ _ _ _ _ _ _ _ _ _ _ _)
    · rw [show (dat1 V q c).leavesExact 0 t = owns (c : Thread nD τ) (ms1_0 t) fullShare ((dat1 V q c).after 0 t) from by
        unfold Dat.leavesExact; rw [liveAt1_0 t], after1_0]
      rw [show (dat1 V q c).leavesExact 1 t = owns (c : Thread nD τ) (ms1_1 t) fullShare ((dat1 V q c).after 1 t) from by
        unfold Dat.leavesExact; rw [liveAt1_1 t], after1_1]
      rw [show (dat1 V q c).leavesExact 2 t = owns (c : Thread nD τ) (ms1_2 t) fullShare ((dat1 V q c).after 2 t) from by
        unfold Dat.leavesExact; rw [liveAt1_2 t], after1_2]
      rw [show (dat1 V q c).leavesExact 3 t = owns (c : Thread nD τ) (ms1_3 t) fullShare ((dat1 V q c).after 3 t) from by
        unfold Dat.leavesExact; rw [liveAt1_3 t], after1_3]
      rw [show (dat1 V q c).leavesExact 4 t = owns (c : Thread nD τ) (ms1_4 t) fullShare ((dat1 V q c).after 4 t) from by
        unfold Dat.leavesExact; rw [liveAt1_4 t], after1_4]
      rw [show (dat1 V q c).leavesExact 5 t = owns (c : Thread nD τ) (ms1_5 t) fullShare ((dat1 V q c).after 5 t) from by
        unfold Dat.leavesExact; rw [liveAt1_5 t], after1_5]
      rw [show (dat1 V q c).leavesExact 6 t = owns (c : Thread nD τ) (ms1_6 t) fullShare ((dat1 V q c).after 6 t) from by
        unfold Dat.leavesExact; rw [liveAt1_6 t], after1_6]
      rw [show (dat1 V q c).leavesExact 7 t = owns (c : Thread nD τ) (ms1_7 t) fullShare ((dat1 V q c).after 7 t) from by
        unfold Dat.leavesExact; rw [liveAt1_7 t], after1_7]
      rw [show (dat1 V q c).leavesExact 8 t = owns (c : Thread nD τ) (ms1_8 t) fullShare ((dat1 V q c).after 8 t) from by
        unfold Dat.leavesExact; rw [liveAt1_8 t], after1_8]
      rw [show (dat1 V q c).leavesExact 9 t = owns (c : Thread nD τ) (ms1_9 t) fullShare ((dat1 V q c).after 9 t) from by
        unfold Dat.leavesExact; rw [liveAt1_9 t], after1_9]
      rw [Dat.leavesExact_idle (dat1 V q c) 10 t (idleAt1_10_B t (fun h => h0 ((hcond1_0 t).mp h)) (fun h => h1 ((hcond1_1 t).mp h))) (noFlush1_10_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V q c t, PhiS1_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun1_B c (grid1.coords t) _ _ _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        iintro ⟨H0, H1, H2, H3, H4, H5, H6, H7, H8, H9, H10, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexists _; iexact H10

/-- The library's body obligation, at every point. -/
theorem body_obligation1 (c : Dev nD) : BodyObligation (dat1 (F := F) V q c) (defs₀ (F := F)) Variants.none () Set.univ := fun t => by
  rw [bigSep_W1, bigSep_W1]
  exact sound_body1 V q c t

/-- What the launch hands the region is the invariant before the first point. -/
theorem hin1 (c : Dev nD) : Pipeline.ΦA spec1 c ⊢ (dat1 V q c).Φ 0 := by
  rw [show (dat1 V q c).Φ 0 = PhiS1 V c 0 (Nat.zero_le _) from rfl, PhiS1_zero V c 0 _ rfl]
  try exact Idealize.SL.BI.Entails.refl _

/-- After any point but the first the invariant gives the class's back: the accumulator's contents are forgotten. -/
theorem Phi_out1 (c : Dev nD) (t : Fin (cfg1.N + 1)) (ht : t.val ≠ 0) : (dat1 V q c).Φ t ⊢ Pipeline.ΦA spec1 c := by
  rw [show (dat1 V q c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

/-- The same after the last point. -/
theorem hout1 (c : Dev nD) : (dat1 V q c).Φ (Fin.last cfg1.N) ⊢ Pipeline.ΦA spec1 c :=
  Phi_out1 V q c _ (by rw [Fin.val_last]; have : cfg1.N = 32 := N_1; omega)

end Cert.Kernel.Hand

end
-- ==== Proof.K.R2.Runs.lean ====
/- Region 2 (the first message-passing step): what the three runs of the body share — the entry
   valuation's blocks, the two branch conditions decided over the 32 grid points, where the output window is
   idle, the staging and scratch memrefs, and the region invariant with the scratch as an owned memref. -/
import proofs.«172293_j20512763806108_2_alg».proof.Proof.Gen.Kernel.Launch
import proofs.«172293_j20512763806108_2_alg».proof.Proof.Gen.Kernel.Skeleton
import proofs.«172293_j20512763806108_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point, fetched there or not. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- Input window 9's current staging buffer holds its block at every point, fetched there or not. -/
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the first conditional (reset of the accumulator), from the grid coordinates. -/
abbrev cond2_0 (i : grid2.Coords) : Prop := (Scalar.cmpi .ne (Scalar.extui (Scalar.cmpi .eq (BitVec.ofNat 32 (i 1).val) 0#32)) 0#32) = 1#1
/-- It holds at the points ≡ 0 (mod 4). -/
theorem hcond2_0 : ∀ t : Fin cfg2.N, cond2_0 (grid2.coords t) ↔ t.val % 4 = 0 :=
  (by decide +kernel : ∀ t : Fin grid2.N, cond2_0 (grid2.coords t) ↔ t.val % 4 = 0)

/-- The condition of the second conditional (the update and the output store). -/
abbrev cond2_1 (i : grid2.Coords) : Prop := k2_cond2 i = 1#1
/-- It holds at the points ≡ 3 (mod 4). -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel
theorem liveAt2_7 : ∀ t : Fin cfg2.N, cfg2.idle 7 (grid2.coords t) = false := by decide +kernel
theorem liveAt2_8 : ∀ t : Fin cfg2.N, cfg2.idle 8 (grid2.coords t) = false := by decide +kernel
theorem liveAt2_9 : ∀ t : Fin cfg2.N, cfg2.idle 9 (grid2.coords t) = false := by decide +kernel
/-- Case A (reset): nothing is stored into the output window, and it is not written back. -/
theorem idleAt2_10_A : ∀ t : Fin cfg2.N, cond2_0 (grid2.coords t) → ¬cond2_1 (grid2.coords t) → cfg2.idle 10 (grid2.coords t) = true := by decide +kernel
theorem noFlush2_10_A : ∀ t : Fin cfg2.N, cond2_0 (grid2.coords t) → ¬cond2_1 (grid2.coords t) → (cfg2.win 10).flush t = false := by decide +kernel
/-- Case B (accumulate only): likewise. -/
theorem idleAt2_10_B : ∀ t : Fin cfg2.N, ¬cond2_0 (grid2.coords t) → ¬cond2_1 (grid2.coords t) → cfg2.idle 10 (grid2.coords t) = true := by decide +kernel
theorem noFlush2_10_B : ∀ t : Fin cfg2.N, ¬cond2_0 (grid2.coords t) → ¬cond2_1 (grid2.coords t) → (cfg2.win 10).flush t = false := by decide +kernel
/-- Case C (finish): the output window is live. -/
theorem liveAt2_10_C : ∀ t : Fin cfg2.N, ¬cond2_0 (grid2.coords t) → cond2_1 (grid2.coords t) → cfg2.idle 10 (grid2.coords t) = false := by decide +kernel

/-! ## The staging and scratch memrefs -/

/-- One staging buffer of the output window, through which its contents are stated. -/
abbrev VO2_10 : View sig .tc .vmem S512x128 .f32 := (Memref.whole cc2_stg10_0 : Memref sig .tc .vmem S512x128 .f32).view
abbrev ms2_0 (t : Fin cfg2.N) : Memref sig .tc .vmem S512x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4096x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x1024 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S256x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S128x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x128 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x128 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S1x128 .f32 := win2_9.stage (cfg2.slots t 9)
abbrev hs2_9 (t : Fin cfg2.N) : (ms2_9 t).IsWhole := hstage2_9 ((cfg2.slots t 9).cast nbuf2_9)
abbrev ms2_10 (t : Fin cfg2.N) : Memref sig .tc .vmem S512x128 .f32 := win2_10.stage (cfg2.slots t 10)
abbrev hs2_10 (t : Fin cfg2.N) : (ms2_10 t).IsWhole := hstage2_10 ((cfg2.slots t 10).cast nbuf2_10)
/-- The scratch accumulator: a whole scoped buffer of the kernel's own, carried between points. -/
abbrev scM2_0 : Memref sig .tc .vmem S512x128 .f32 := Memref.whole cc2_scratch0
abbrev VS2_0 : View sig .tc .vmem S512x128 .f32 := scM2_0.view

/-- The rest of the core's scoped buffers, which the body never opens. -/
abbrev restBut2 (c : Dev nD) : sProp 𝕄 :=
  Pipeline.scopedRestBut (Ix := Unit) (Name := ℕ) (U := UR sig nD τ) (Lvl := ℕ) (Val := Elt F) spec2 c [cc2_scratch0]

/-- The class's invariant with the scratch as a memref owned at some contents. -/
theorem PhiA2_eq (c : Dev nD) :
    (Pipeline.ΦA spec2 c : sProp 𝕄)
      = iprop(iprop((∃ d, owns (c : Thread nD τ) scM2_0 fullShare d) ∗ restBut2 c) ∗ (∃ r, prngReg c r)) := by
  unfold Pipeline.ΦA; rw [scopedRest2_split]; simp only [scM2_0, owns_whole]; try rfl

end Cert.Kernel.Hand

end
-- ==== Proof.K.R2.RunA.lean ====
/- Region 2, case A of the body: the accumulator is reset (first column block of a row block), then the tile's messages are added; nothing is stored to the output block. The body's triple on whole staging memrefs, with the
   pieces each written buffer ends with as the witness. -/
import proofs.«172293_j20512763806108_2_alg».proof.Proof.K.R2.Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- (the run's proof term is large)
set_option maxHeartbeats 1000000 in
/-- On whole memrefs — the ten inputs at their contents, the output block at contents handed back untouched, the accumulator at anything — the body runs to the continuation holding the inputs as they were and the accumulator with its pieces written. -/
noncomputable def kernelRun2_A (c : Dev nD) (i : grid2.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : cond2_0 i) (hc1 : ¬cond2_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) :
    Σ' (L10 : List (View.Piece (Elt F) S512x128 .f32)), { LS0 : List (View.Piece (Elt F) S512x128 .f32) //
      ∀ (xi10 : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ (∃ f, arg13.view.loc (c : Thread nD τ) ↦[arg13.view.set]{fullShare} arg13.view.writes (Elt F) f LS0)) -∗ K ⟨⟩))
          ⊢ wp frame (wpE (defs₀ (F := F)) Variants.none c none) E (cc2__step_kernel i arg2 harg2 arg3 harg3 arg4 harg4 arg5 harg5 arg6 harg6 arg7 harg7 arg8 harg8 arg9 harg9 arg10 harg10 arg11 harg11 arg12 harg12 arg13 harg13) K } := by
  refine ⟨[], ?_, fun xi10 E K => ?run⟩
  case run =>
    simp only [cc2__step_kernel_eq_skeleton]; unfold cc2__step_kernel_skel
    simp only [k2_part1_eq_skeleton, k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; iexact HS0

end Cert.Kernel.Hand

end
-- ==== Proof.K.R2.RunB.lean ====
/- Region 2, case B of the body: the tile's messages are added to the accumulator; nothing is stored to the output block. The body's triple on whole staging memrefs, with the
   pieces each written buffer ends with as the witness. -/
import proofs.«172293_j20512763806108_2_alg».proof.Proof.K.R2.RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- (the run's proof term is large)
set_option maxHeartbeats 1000000 in
/-- On whole memrefs — the ten inputs at their contents, the output block at contents handed back untouched, the accumulator at what the point before left — the body runs to the continuation holding the inputs as they were and the accumulator with its pieces written. -/
noncomputable def kernelRun2_B (c : Dev nD) (i : grid2.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond2_0 i) (hc1 : ¬cond2_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) :
    Σ' (L10 : List (View.Piece (Elt F) S512x128 .f32)), { LS0 : List (View.Piece (Elt F) S512x128 .f32) //
      ∀ (xi10 : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ (∃ f, arg13.view.loc (c : Thread nD τ) ↦[arg13.view.set]{fullShare} arg13.view.writes (Elt F) f LS0)) -∗ K ⟨⟩))
          ⊢ wp frame (wpE (defs₀ (F := F)) Variants.none c none) E (cc2__step_kernel i arg2 harg2 arg3 harg3 arg4 harg4 arg5 harg5 arg6 harg6 arg7 harg7 arg8 harg8 arg9 harg9 arg10 harg10 arg11 harg11 arg12 harg12 arg13 harg13) K } := by
  refine ⟨[], ?_, fun xi10 E K => ?run⟩
  case run =>
    simp only [cc2__step_kernel_eq_skeleton]; unfold cc2__step_kernel_skel
    simp only [k2_part1_eq_skeleton, k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; iexact HS0

end Cert.Kernel.Hand

end
-- ==== Proof.K.R2.RunC.lean ====
/- Region 2, case C of the body: the tile's messages are added to the accumulator, then the update and the layer normalisation of the row block are stored to the output block. The body's triple on whole staging memrefs, with the
   pieces each written buffer ends with as the witness. -/
import proofs.«172293_j20512763806108_2_alg».proof.Proof.K.R2.RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- (the run's proof term is large)
set_option maxHeartbeats 1000000 in
/-- On whole memrefs — the ten inputs at their contents, the output block at anything, the accumulator at what the point before left — the body runs to the continuation holding the inputs as they were, the output block with its pieces written and the accumulator with its pieces written. -/
noncomputable def kernelRun2_C (c : Dev nD) (i : grid2.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond2_0 i) (hc1 : cond2_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) :
    Σ' (L10 : List (View.Piece (Elt F) S512x128 .f32)), { LS0 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0)) -∗ K ⟨⟩))
          ⊢ wp frame (wpE (defs₀ (F := F)) Variants.none c none) E (cc2__step_kernel i arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc2__step_kernel_eq_skeleton]; unfold cc2__step_kernel_skel
    simp only [k2_part1_eq_skeleton, k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    iexists _; iexact HS0

end Cert.Kernel.Hand

end
-- ==== Proof.K.R2.Body.lean ====
/- Region 2: what the output block and the accumulator hold after each grid point, the proof data of the
   pipeline over an entry valuation, and the body obligation at every point. -/
import proofs.«172293_j20512763806108_2_alg».proof.Proof.K.R2.RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b)) (q : Fin 11 → PosShare TreeShare)

/-! ## What each case leaves -/

/-- Case A stores nothing into the output block: a placeholder nothing consults (the window is idle there). -/
def out2_A_10 (c : Dev nD) (i : grid2.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : cond2_0 i) (hc1 : ¬cond2_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) : Vec F S512x128 .f32 :=
  VO2_10.read (Elt F) (VO2_10.writes (Elt F) VO2_10.junk (kernelRun2_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).1)

/-- Case A's pieces for the accumulator cover it. -/
theorem scover2_A_0 (c : Dev nD) (i : grid2.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : cond2_0 i) (hc1 : ¬cond2_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (y : S512x128.Idx) :
    ∃ pc ∈ (kernelRun2_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).2.1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).2.1 S512x128.size (by sl_kernel_rfl) y

/-- What case A leaves in the accumulator: its pieces read back. -/
def sout2_A_0 (c : Dev nD) (i : grid2.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : cond2_0 i) (hc1 : ¬cond2_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) : Vec F S512x128 .f32 :=
  VS2_0.read (Elt F) (VS2_0.writes (Elt F) VS2_0.junk (kernelRun2_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).2.1)

/-- Case B stores nothing into the output block: a placeholder nothing consults. -/
def out2_B_10 (c : Dev nD) (i : grid2.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond2_0 i) (hc1 : ¬cond2_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) : Vec F S512x128 .f32 :=
  VO2_10.read (Elt F) (VO2_10.writes (Elt F) VO2_10.junk (kernelRun2_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).1)

/-- Case B's pieces for the accumulator cover it. -/
theorem scover2_B_0 (c : Dev nD) (i : grid2.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond2_0 i) (hc1 : ¬cond2_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) (y : S512x128.Idx) :
    ∃ pc ∈ (kernelRun2_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1 S512x128.size (by sl_kernel_rfl) y

/-- What case B leaves in the accumulator. -/
def sout2_B_0 (c : Dev nD) (i : grid2.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond2_0 i) (hc1 : ¬cond2_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) : Vec F S512x128 .f32 :=
  VS2_0.read (Elt F) (VS2_0.writes (Elt F) VS2_0.junk (kernelRun2_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1)

/-- Case C's pieces for the output block cover it (one whole store). -/
theorem cover2_C_10 (c : Dev nD) (i : grid2.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond2_0 i) (hc1 : cond2_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) (y : S512x128.Idx) :
    ∃ pc ∈ (kernelRun2_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).1 S512x128.size (by sl_kernel_rfl) y

/-- What case C leaves in the output block's staging buffer. -/
def out2_C_10 (c : Dev nD) (i : grid2.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond2_0 i) (hc1 : cond2_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) : Vec F S512x128 .f32 :=
  VO2_10.read (Elt F) (VO2_10.writes (Elt F) VO2_10.junk (kernelRun2_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).1)

/-- Case C's pieces for the accumulator cover it. -/
theorem scover2_C_0 (c : Dev nD) (i : grid2.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond2_0 i) (hc1 : cond2_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) (y : S512x128.Idx) :
    ∃ pc ∈ (kernelRun2_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1 S512x128.size (by sl_kernel_rfl) y

/-- What case C leaves in the accumulator. -/
def sout2_C_0 (c : Dev nD) (i : grid2.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond2_0 i) (hc1 : cond2_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) : Vec F S512x128 .f32 :=
  VS2_0.read (Elt F) (VS2_0.writes (Elt F) VS2_0.junk (kernelRun2_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1)

/-! ## What the output block and the accumulator hold after each point -/

/-- After the body at position `n`: (the output window's staging contents, the accumulator's contents) — the case the
    position selects, run at the point's memrefs and input blocks over what the point before left in the accumulator. -/
def outsAt2 (c : Dev nD) : (n : ℕ) → n < cfg2.N → Vec F S512x128 .f32 × Vec F S512x128 .f32
  | 0, hn => (out2_A_10 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) (ms2_10 ⟨0, hn⟩) (hs2_10 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩) (iblk2 V c 9 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) (ms2_10 ⟨0, hn⟩) (hs2_10 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩) (iblk2 V c 9 ⟨0, hn⟩))
  | n + 1, hn =>
    if h0 : (n + 1) % 4 = 0 then
      if h1 : (n + 1) % 4 = 3 then
        False.elim (by omega)
      else
        (out2_A_10 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩))
    else
      if h1 : (n + 1) % 4 = 3 then
        (out2_C_10 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (outsAt2 c n (Nat.lt_of_succ_lt hn)).2)
      else
        (out2_B_10 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (outsAt2 c n (Nat.lt_of_succ_lt hn)).2)

theorem outsAt2_A (c : Dev nD) (t : Fin cfg2.N) (h0 : t.val % 4 = 0) (h1 : ¬t.val % 4 = 3) :
    outsAt2 V c t.val t.isLt = (out2_A_10 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)) := by
  obtain ⟨n, hn⟩ := t
  cases n with
  | zero => exact rfl
  | succ n => exact (dif_pos h0).trans ((dif_neg h1).trans rfl)

theorem outsAt2_B (c : Dev nD) (t : Fin cfg2.N) (h0 : ¬t.val % 4 = 0) (h1 : ¬t.val % 4 = 3) :
    outsAt2 V c t.val t.isLt = (out2_B_10 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (out2_C_10 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the accumulator at what the
    point before left, the other scoped buffers unopened, the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ restBut2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2) ∗ restBut2 c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ restBut2 c) ∗ (∃ r, prngReg c r)) := by
  cases n with
  | zero => exact absurd rfl hz
  | succ n => rfl

/-! ## The pipeline's proof data -/

/-- The proof data of region 2 on core `c`: the arrays as the region finds them; after the body each input's buffer at its
    block, the output's at `outsAt2`; the invariant `PhiS2`; nothing owed; the shares a parameter. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => (outsAt2 V c t.val t.isLt).1
  Φ t := PhiS2 V c t.val (Nat.le_of_lt_succ t.isLt)
  q := q
  owed _ := 0

theorem A_eq2 (c : Dev nD) (w : Fin cfg2.W) : (dat2 V q c).A w = V c (Pipeline.arrRef spec2 w) := by
  dsimp only [dat2]

theorem PhiS2_castSucc (c : Dev nD) (t : Fin cfg2.N) :
    (dat2 V q c).Φ t.castSucc = PhiS2 V c t.val (Nat.le_of_lt t.isLt) := by
  dsimp only [dat2]; simp only [Fin.coe_castSucc]

theorem after2_0 (c : Dev nD) (t : Fin cfg2.N) : (dat2 V q c).after 0 t = iblk2 V c 0 t := by dsimp only [dat2]
theorem after2_1 (c : Dev nD) (t : Fin cfg2.N) : (dat2 V q c).after 1 t = iblk2 V c 1 t := by dsimp only [dat2]
theorem after2_2 (c : Dev nD) (t : Fin cfg2.N) : (dat2 V q c).after 2 t = iblk2 V c 2 t := by dsimp only [dat2]
theorem after2_3 (c : Dev nD) (t : Fin cfg2.N) : (dat2 V q c).after 3 t = iblk2 V c 3 t := by dsimp only [dat2]
theorem after2_4 (c : Dev nD) (t : Fin cfg2.N) : (dat2 V q c).after 4 t = iblk2 V c 4 t := by dsimp only [dat2]
theorem after2_5 (c : Dev nD) (t : Fin cfg2.N) : (dat2 V q c).after 5 t = iblk2 V c 5 t := by dsimp only [dat2]
theorem after2_6 (c : Dev nD) (t : Fin cfg2.N) : (dat2 V q c).after 6 t = iblk2 V c 6 t := by dsimp only [dat2]
theorem after2_7 (c : Dev nD) (t : Fin cfg2.N) : (dat2 V q c).after 7 t = iblk2 V c 7 t := by dsimp only [dat2]
theorem after2_8 (c : Dev nD) (t : Fin cfg2.N) : (dat2 V q c).after 8 t = iblk2 V c 8 t := by dsimp only [dat2]
theorem after2_9 (c : Dev nD) (t : Fin cfg2.N) : (dat2 V q c).after 9 t = iblk2 V c 9 t := by dsimp only [dat2]
theorem after2_10 (c : Dev nD) (t : Fin cfg2.N) : (dat2 V q c).after 10 t = (outsAt2 V c t.val t.isLt).1 := by dsimp only [dat2]

theorem before2_0 (c : Dev nD) (t : Fin cfg2.N) (d) : (dat2 V q c).before 0 t d = iblk2 V c 0 t :=
  before2_0_of V (dat2 V q c) (A_eq2 V q c 0) (after2_0 V q c) t d
theorem before2_1 (c : Dev nD) (t : Fin cfg2.N) (d) : (dat2 V q c).before 1 t d = iblk2 V c 1 t :=
  before2_1_of V (dat2 V q c) (A_eq2 V q c 1) (after2_1 V q c) t d
theorem before2_2 (c : Dev nD) (t : Fin cfg2.N) (d) : (dat2 V q c).before 2 t d = iblk2 V c 2 t :=
  before2_2_of V (dat2 V q c) (A_eq2 V q c 2) (after2_2 V q c) t d
theorem before2_3 (c : Dev nD) (t : Fin cfg2.N) (d) : (dat2 V q c).before 3 t d = iblk2 V c 3 t :=
  before2_3_of V (dat2 V q c) (A_eq2 V q c 3) (after2_3 V q c) t d
theorem before2_4 (c : Dev nD) (t : Fin cfg2.N) (d) : (dat2 V q c).before 4 t d = iblk2 V c 4 t :=
  before2_4_of V (dat2 V q c) (A_eq2 V q c 4) (after2_4 V q c) t d
theorem before2_5 (c : Dev nD) (t : Fin cfg2.N) (d) : (dat2 V q c).before 5 t d = iblk2 V c 5 t :=
  before2_5_of V (dat2 V q c) (A_eq2 V q c 5) (after2_5 V q c) t d
theorem before2_6 (c : Dev nD) (t : Fin cfg2.N) (d) : (dat2 V q c).before 6 t d = iblk2 V c 6 t :=
  before2_6_of V (dat2 V q c) (A_eq2 V q c 6) (after2_6 V q c) t d
theorem before2_7 (c : Dev nD) (t : Fin cfg2.N) (d) : (dat2 V q c).before 7 t d = iblk2 V c 7 t :=
  before2_7_of V (dat2 V q c) (A_eq2 V q c 7) (after2_7 V q c) t d
theorem before2_8 (c : Dev nD) (t : Fin cfg2.N) (d) : (dat2 V q c).before 8 t d = iblk2 V c 8 t :=
  before2_8_of V (dat2 V q c) (A_eq2 V q c 8) (after2_8 V q c) t d
theorem before2_9 (c : Dev nD) (t : Fin cfg2.N) (d) : (dat2 V q c).before 9 t d = iblk2 V c 9 t :=
  before2_9_of V (dat2 V q c) (A_eq2 V q c 9) (after2_9 V q c) t d

/-! ## The body obligation, at a generic point -/

def bodyPre2 (c : Dev nD) (t : Fin cfg2.N) : sProp 𝕄 :=
  iprop((dat2 V q c).Φ t.castSucc ∗ (dat2 V q c).owesAt () t.castSucc
    ∗ (∃ d, owns (c : Thread nD τ) (ms2_0 t) fullShare ((dat2 V q c).before 0 t d))
    ∗ (∃ d, owns (c : Thread nD τ) (ms2_1 t) fullShare ((dat2 V q c).before 1 t d))
    ∗ (∃ d, owns (c : Thread nD τ) (ms2_2 t) fullShare ((dat2 V q c).before 2 t d))
    ∗ (∃ d, owns (c : Thread nD τ) (ms2_3 t) fullShare ((dat2 V q c).before 3 t d))
    ∗ (∃ d, owns (c : Thread nD τ) (ms2_4 t) fullShare ((dat2 V q c).before 4 t d))
    ∗ (∃ d, owns (c : Thread nD τ) (ms2_5 t) fullShare ((dat2 V q c).before 5 t d))
    ∗ (∃ d, owns (c : Thread nD τ) (ms2_6 t) fullShare ((dat2 V q c).before 6 t d))
    ∗ (∃ d, owns (c : Thread nD τ) (ms2_7 t) fullShare ((dat2 V q c).before 7 t d))
    ∗ (∃ d, owns (c : Thread nD τ) (ms2_8 t) fullShare ((dat2 V q c).before 8 t d))
    ∗ (∃ d, owns (c : Thread nD τ) (ms2_9 t) fullShare ((dat2 V q c).before 9 t d))
    ∗ (∃ d, owns (c : Thread nD τ) (ms2_10 t) fullShare ((dat2 V q c).before 10 t d)))

def bodyPost2 (c : Dev nD) (t : Fin cfg2.N) : sProp 𝕄 :=
  iprop((dat2 V q c).Φ t.succ ∗ (dat2 V q c).owesAt () t.succ
    ∗ (dat2 V q c).leavesExact 0 t
    ∗ (dat2 V q c).leavesExact 1 t
    ∗ (dat2 V q c).leavesExact 2 t
    ∗ (dat2 V q c).leavesExact 3 t
    ∗ (dat2 V q c).leavesExact 4 t
    ∗ (dat2 V q c).leavesExact 5 t
    ∗ (dat2 V q c).leavesExact 6 t
    ∗ (dat2 V q c).leavesExact 7 t
    ∗ (dat2 V q c).leavesExact 8 t
    ∗ (dat2 V q c).leavesExact 9 t
    ∗ (dat2 V q c).leavesExact 10 t)

set_option maxHeartbeats 4800000 in
/-- The body at any point: the inputs' memrefs hold their blocks; the position says which case the point is in; the run of
    that case applies; the invariant hands the body the accumulator at what the point before left (at anything at the
    first point) and takes it back at this point's contents. -/
theorem sound_body2 (c : Dev nD) (t : Fin cfg2.N) :
    bodyPre2 V q c t ⊢ wp frame (wpE (defs₀ (F := F)) Variants.none c none) Set.univ (bodyAt2 t) (fun _ => bodyPost2 V q c t) := by
  unfold bodyPre2 bodyPost2 bodyAt2
  simp only [before2_0, before2_1, before2_2, before2_3, before2_4, before2_5, before2_6, before2_7, before2_8, before2_9]
  rw [show (dat2 V q c).owesAt () t.succ = (dat2 V q c).owesAt () t.castSucc from rfl]
  rw [show (dat2 V q c).Φ t.succ = PhiS2 V c (t.val + 1) t.isLt from rfl, PhiS2_succ]
  have hN : t.val < 32 := lt_of_lt_of_eq t.isLt (show cfg2.N = 32 from N_2)
  by_cases h0 : t.val % 4 = 0
  · by_cases h1 : t.val % 4 = 3
    · exfalso; omega
    · rw [show (dat2 V q c).leavesExact 0 t = owns (c : Thread nD τ) (ms2_0 t) fullShare ((dat2 V q c).after 0 t) from by
        unfold Dat.leavesExact; rw [liveAt2_0 t], after2_0]
      rw [show (dat2 V q c).leavesExact 1 t = owns (c : Thread nD τ) (ms2_1 t) fullShare ((dat2 V q c).after 1 t) from by
        unfold Dat.leavesExact; rw [liveAt2_1 t], after2_1]
      rw [show (dat2 V q c).leavesExact 2 t = owns (c : Thread nD τ) (ms2_2 t) fullShare ((dat2 V q c).after 2 t) from by
        unfold Dat.leavesExact; rw [liveAt2_2 t], after2_2]
      rw [show (dat2 V q c).leavesExact 3 t = owns (c : Thread nD τ) (ms2_3 t) fullShare ((dat2 V q c).after 3 t) from by
        unfold Dat.leavesExact; rw [liveAt2_3 t], after2_3]
      rw [show (dat2 V q c).leavesExact 4 t = owns (c : Thread nD τ) (ms2_4 t) fullShare ((dat2 V q c).after 4 t) from by
        unfold Dat.leavesExact; rw [liveAt2_4 t], after2_4]
      rw [show (dat2 V q c).leavesExact 5 t = owns (c : Thread nD τ) (ms2_5 t) fullShare ((dat2 V q c).after 5 t) from by
        unfold Dat.leavesExact; rw [liveAt2_5 t], after2_5]
      rw [show (dat2 V q c).leavesExact 6 t = owns (c : Thread nD τ) (ms2_6 t) fullShare ((dat2 V q c).after 6 t) from by
        unfold Dat.leavesExact; rw [liveAt2_6 t], after2_6]
      rw [show (dat2 V q c).leavesExact 7 t = owns (c : Thread nD τ) (ms2_7 t) fullShare ((dat2 V q c).after 7 t) from by
        unfold Dat.leavesExact; rw [liveAt2_7 t], after2_7]
      rw [show (dat2 V q c).leavesExact 8 t = owns (c : Thread nD τ) (ms2_8 t) fullShare ((dat2 V q c).after 8 t) from by
        unfold Dat.leavesExact; rw [liveAt2_8 t], after2_8]
      rw [show (dat2 V q c).leavesExact 9 t = owns (c : Thread nD τ) (ms2_9 t) fullShare ((dat2 V q c).after 9 t) from by
        unfold Dat.leavesExact; rw [liveAt2_9 t], after2_9]
      rw [Dat.leavesExact_idle (dat2 V q c) 10 t (idleAt2_10_A t ((hcond2_0 t).mpr h0) (fun h => h1 ((hcond2_1 t).mp h))) (noFlush2_10_A t ((hcond2_0 t).mpr h0) (fun h => h1 ((hcond2_1 t).mp h)))]
      rw [outsAt2_A V c t h0 h1]
      unfold sout2_A_0; (try dsimp only)
      by_cases hz : t.val = 0
      · rw [PhiS2_castSucc V q c t, PhiS2_zero V c _ _ hz, PhiA2_eq]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun2_A c (grid2.coords t) _ _ _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        iintro ⟨H0, H1, H2, H3, H4, H5, H6, H7, H8, H9, H10, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexists _; iexact H10
      · rw [PhiS2_castSucc V q c t, PhiS2_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun2_A c (grid2.coords t) _ _ _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexists _; iexact HS0
        iintro ⟨H0, H1, H2, H3, H4, H5, H6, H7, H8, H9, H10, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexists _; iexact H10
  · by_cases h1 : t.val % 4 = 3
    · rw [show (dat2 V q c).leavesExact 0 t = owns (c : Thread nD τ) (ms2_0 t) fullShare ((dat2 V q c).after 0 t) from by
        unfold Dat.leavesExact; rw [liveAt2_0 t], after2_0]
      rw [show (dat2 V q c).leavesExact 1 t = owns (c : Thread nD τ) (ms2_1 t) fullShare ((dat2 V q c).after 1 t) from by
        unfold Dat.leavesExact; rw [liveAt2_1 t], after2_1]
      rw [show (dat2 V q c).leavesExact 2 t = owns (c : Thread nD τ) (ms2_2 t) fullShare ((dat2 V q c).after 2 t) from by
        unfold Dat.leavesExact; rw [liveAt2_2 t], after2_2]
      rw [show (dat2 V q c).leavesExact 3 t = owns (c : Thread nD τ) (ms2_3 t) fullShare ((dat2 V q c).after 3 t) from by
        unfold Dat.leavesExact; rw [liveAt2_3 t], after2_3]
      rw [show (dat2 V q c).leavesExact 4 t = owns (c : Thread nD τ) (ms2_4 t) fullShare ((dat2 V q c).after 4 t) from by
        unfold Dat.leavesExact; rw [liveAt2_4 t], after2_4]
      rw [show (dat2 V q c).leavesExact 5 t = owns (c : Thread nD τ) (ms2_5 t) fullShare ((dat2 V q c).after 5 t) from by
        unfold Dat.leavesExact; rw [liveAt2_5 t], after2_5]
      rw [show (dat2 V q c).leavesExact 6 t = owns (c : Thread nD τ) (ms2_6 t) fullShare ((dat2 V q c).after 6 t) from by
        unfold Dat.leavesExact; rw [liveAt2_6 t], after2_6]
      rw [show (dat2 V q c).leavesExact 7 t = owns (c : Thread nD τ) (ms2_7 t) fullShare ((dat2 V q c).after 7 t) from by
        unfold Dat.leavesExact; rw [liveAt2_7 t], after2_7]
      rw [show (dat2 V q c).leavesExact 8 t = owns (c : Thread nD τ) (ms2_8 t) fullShare ((dat2 V q c).after 8 t) from by
        unfold Dat.leavesExact; rw [liveAt2_8 t], after2_8]
      rw [show (dat2 V q c).leavesExact 9 t = owns (c : Thread nD τ) (ms2_9 t) fullShare ((dat2 V q c).after 9 t) from by
        unfold Dat.leavesExact; rw [liveAt2_9 t], after2_9]
      rw [show (dat2 V q c).leavesExact 10 t = owns (c : Thread nD τ) (ms2_10 t) fullShare ((dat2 V q c).after 10 t) from by
        unfold Dat.leavesExact; rw [liveAt2_10_C t (fun h => h0 ((hcond2_0 t).mp h)) ((hcond2_1 t).mpr h1)], after2_10]
      rw [outsAt2_C V c t h0 h1]
      unfold out2_C_10 sout2_C_0; (try dsimp only)
      by_cases hz : t.val = 0
      · exfalso; omega
      · rw [PhiS2_castSucc V q c t, PhiS2_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun2_C c (grid2.coords t) _ _ _ _ _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [HS0]; · iexact HS0
        iintro ⟨H0, H1, H2, H3, H4, H5, H6, H7, H8, H9, ⟨%e10, H10⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        unfold owns; iexists _; isplitr
        swap; · iexact H10
        ipureintro; exact View.read_writes_of_cover _ _ _ _ _ (cover2_C_10 c _ _ _ _ _ _ _ _ _ _ _ _ _ _ _ _ _ _ _ _ _ _ _ _ _ _ _ _ _ _ _ _ _ _ _ _ _ _)
    · rw [show (dat2 V q c).leavesExact 0 t = owns (c : Thread nD τ) (ms2_0 t) fullShare ((dat2 V q c).after 0 t) from by
        unfold Dat.leavesExact; rw [liveAt2_0 t], after2_0]
      rw [show (dat2 V q c).leavesExact 1 t = owns (c : Thread nD τ) (ms2_1 t) fullShare ((dat2 V q c).after 1 t) from by
        unfold Dat.leavesExact; rw [liveAt2_1 t], after2_1]
      rw [show (dat2 V q c).leavesExact 2 t = owns (c : Thread nD τ) (ms2_2 t) fullShare ((dat2 V q c).after 2 t) from by
        unfold Dat.leavesExact; rw [liveAt2_2 t], after2_2]
      rw [show (dat2 V q c).leavesExact 3 t = owns (c : Thread nD τ) (ms2_3 t) fullShare ((dat2 V q c).after 3 t) from by
        unfold Dat.leavesExact; rw [liveAt2_3 t], after2_3]
      rw [show (dat2 V q c).leavesExact 4 t = owns (c : Thread nD τ) (ms2_4 t) fullShare ((dat2 V q c).after 4 t) from by
        unfold Dat.leavesExact; rw [liveAt2_4 t], after2_4]
      rw [show (dat2 V q c).leavesExact 5 t = owns (c : Thread nD τ) (ms2_5 t) fullShare ((dat2 V q c).after 5 t) from by
        unfold Dat.leavesExact; rw [liveAt2_5 t], after2_5]
      rw [show (dat2 V q c).leavesExact 6 t = owns (c : Thread nD τ) (ms2_6 t) fullShare ((dat2 V q c).after 6 t) from by
        unfold Dat.leavesExact; rw [liveAt2_6 t], after2_6]
      rw [show (dat2 V q c).leavesExact 7 t = owns (c : Thread nD τ) (ms2_7 t) fullShare ((dat2 V q c).after 7 t) from by
        unfold Dat.leavesExact; rw [liveAt2_7 t], after2_7]
      rw [show (dat2 V q c).leavesExact 8 t = owns (c : Thread nD τ) (ms2_8 t) fullShare ((dat2 V q c).after 8 t) from by
        unfold Dat.leavesExact; rw [liveAt2_8 t], after2_8]
      rw [show (dat2 V q c).leavesExact 9 t = owns (c : Thread nD τ) (ms2_9 t) fullShare ((dat2 V q c).after 9 t) from by
        unfold Dat.leavesExact; rw [liveAt2_9 t], after2_9]
      rw [Dat.leavesExact_idle (dat2 V q c) 10 t (idleAt2_10_B t (fun h => h0 ((hcond2_0 t).mp h)) (fun h => h1 ((hcond2_1 t).mp h))) (noFlush2_10_B t (fun h => h0 ((hcond2_0 t).mp h)) (fun h => h1 ((hcond2_1 t).mp h)))]
      rw [outsAt2_B V c t h0 h1]
      unfold sout2_B_0; (try dsimp only)
      by_cases hz : t.val = 0
      · exfalso; omega
      · rw [PhiS2_castSucc V q c t, PhiS2_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun2_B c (grid2.coords t) _ _ _ _ _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        iintro ⟨H0, H1, H2, H3, H4, H5, H6, H7, H8, H9, H10, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexists _; iexact H10

/-- The library's body obligation, at every point. -/
theorem body_obligation2 (c : Dev nD) : BodyObligation (dat2 (F := F) V q c) (defs₀ (F := F)) Variants.none () Set.univ := fun t => by
  rw [bigSep_W2, bigSep_W2]
  exact sound_body2 V q c t

/-- What the launch hands the region is the invariant before the first point. -/
theorem hin2 (c : Dev nD) : Pipeline.ΦA spec2 c ⊢ (dat2 V q c).Φ 0 := by
  rw [show (dat2 V q c).Φ 0 = PhiS2 V c 0 (Nat.zero_le _) from rfl, PhiS2_zero V c 0 _ rfl]
  try exact Idealize.SL.BI.Entails.refl _

/-- After any point but the first the invariant gives the class's back: the accumulator's contents are forgotten. -/
theorem Phi_out2 (c : Dev nD) (t : Fin (cfg2.N + 1)) (ht : t.val ≠ 0) : (dat2 V q c).Φ t ⊢ Pipeline.ΦA spec2 c := by
  rw [show (dat2 V q c).Φ t = PhiS2 V c t.val (Nat.le_of_lt_succ t.isLt) from rfl, PhiS2_pos V c _ _ ht, PhiA2_eq]
  iintro ⟨⟨HS0, Hr⟩, Hg⟩
  isplitl [HS0 Hr]
  · isplitl [HS0]
    · iexists _; iexact HS0
    iexact Hr
  iexact Hg

/-- The same after the last point. -/
theorem hout2 (c : Dev nD) : (dat2 V q c).Φ (Fin.last cfg2.N) ⊢ Pipeline.ΦA spec2 c :=
  Phi_out2 V q c _ (by rw [Fin.val_last]; have : cfg2.N = 32 := N_2; omega)

end Cert.Kernel.Hand

end
-- ==== Proof.K.Share0.lean ====
import proofs.«172293_j20512763806108_2_alg».proof.Proof.Gen.Kernel.Launch
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-- How the full share of each array is dealt among the windows on it: the feature matrix is read through two windows
    (a row block, and the whole matrix), each of which gets a half; every other array has one window. -/
def qsh : Fin 11 → PosShare TreeShare := fun w => if w = 0 then fullShare.left else if w = 1 then fullShare.right else fullShare

/-- The distinct buffers behind the arrays of call 0's windows, one by one. -/
theorem arrBufs0_list (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v3) ↦{fullShare} V main_v3) ∗ (((c : Thread nD τ).loc main_arg2) ↦{fullShare} V main_arg2) ∗ (((c : Thread nD τ).loc main_v4) ↦{fullShare} V main_v4) ∗ (((c : Thread nD τ).loc main_arg7) ↦{fullShare} V main_arg7) ∗ (((c : Thread nD τ).loc main_v5) ↦{fullShare} V main_v5) ∗ (((c : Thread nD τ).loc main_arg9) ↦{fullShare} V main_arg9) ∗ (((c : Thread nD τ).loc main_v6) ↦{fullShare} V main_v6) ∗ (((c : Thread nD τ).loc main_v7) ↦{fullShare} V main_v7) ∗ (((c : Thread nD τ).loc main_v8) ↦{fullShare} V main_v8) ∗ (((c : Thread nD τ).loc main_v9) ↦{fullShare} V main_v9)) := by
  unfold Pipeline.arrBufs
  exact bigSep_eq_bigSepL_of_eq [main_v3, main_arg2, main_v4, main_arg7, main_v5, main_arg9, main_v6, main_v7, main_v8, main_v9] (by decide) (by decide) _

/-- A window's share: an output window holds its array whole, an input window what the proof data deal it. -/
theorem share_eq0 {c : Dev nD} (dat : Dat τ (Elt F) Unit ℕ (UR sig nD τ) ℕ cfg0 c) (hq : dat.q = qsh) (w : Fin cfg0.W) :
    dat.share w = if (cfg0.win w).isOut then fullShare else qsh w := by unfold Dat.share; rw [hq]

set_option maxHeartbeats 1600000 in
/-- ENTRY: the buffers behind the arrays, each whole at the full share at contents `V`, are the windows' arrays at the
    proof data's shares — the feature matrix's buffer split into the two halves its two windows hold. -/
theorem arrays_in0 {c : Dev nD} (dat : Dat τ (Elt F) Unit ℕ (UR sig nD τ) ℕ cfg0 c) (hq : dat.q = qsh)
    (V : (b : Ref sig .tc) → Buf (Elt F) ((c : Thread nD τ).loc b))
    (G : (w : Fin cfg0.W) → Buf (Elt F) ((cfg0.win w).arr.view.loc (c : Thread nD τ))) (hG : ∀ w, G w = V (Pipeline.arrRef spec0 w)) :
    (Pipeline.arrBufs (Ix := Unit) (Name := ℕ) (U := UR sig nD τ) (Lvl := ℕ) spec0 c V : sProp 𝕄) ⊢ dat.arrays G := by
  obtain rfl : G = fun w => V (Pipeline.arrRef spec0 w) := funext hG
  have s0 : dat.share (0 : Fin cfg0.W) = fullShare.left := (share_eq0 dat hq 0).trans rfl
  have s1 : dat.share (1 : Fin cfg0.W) = fullShare.right := (share_eq0 dat hq 1).trans rfl
  have s2 : dat.share (2 : Fin cfg0.W) = fullShare := (share_eq0 dat hq 2).trans rfl
  have s3 : dat.share (3 : Fin cfg0.W) = fullShare := (share_eq0 dat hq 3).trans rfl
  have s4 : dat.share (4 : Fin cfg0.W) = fullShare := (share_eq0 dat hq 4).trans rfl
  have s5 : dat.share (5 : Fin cfg0.W) = fullShare := (share_eq0 dat hq 5).trans rfl
  have s6 : dat.share (6 : Fin cfg0.W) = fullShare := (share_eq0 dat hq 6).trans rfl
  have s7 : dat.share (7 : Fin cfg0.W) = fullShare := (share_eq0 dat hq 7).trans rfl
  have s8 : dat.share (8 : Fin cfg0.W) = fullShare := (share_eq0 dat hq 8).trans rfl
  have s9 : dat.share (9 : Fin cfg0.W) = fullShare := (share_eq0 dat hq 9).trans rfl
  have s10 : dat.share (10 : Fin cfg0.W) = fullShare := (share_eq0 dat hq 10).trans rfl
  rw [arrBufs0_list]
  unfold Dat.arrays
  rw [bigSep_W0]
  rw [(arr_whole0 0).set_eq_univ, (arr_whole0 2).set_eq_univ, (arr_whole0 3).set_eq_univ, (arr_whole0 4).set_eq_univ, (arr_whole0 5).set_eq_univ, (arr_whole0 6).set_eq_univ, (arr_whole0 7).set_eq_univ, (arr_whole0 8).set_eq_univ, (arr_whole0 9).set_eq_univ, (arr_whole0 10).set_eq_univ]
  rw [s0, s1, s2, s3, s4, s5, s6, s7, s8, s9, s10]
  iintro ⟨Hh, H2, H4, H7, H5, H9, H6, H7b, H8, Ho⟩
  ihave Hs := (pointsTo_share (PosShare.mem_left_op_right fullShare)).1 $$ Hh
  icases Hs with ⟨Ha, Hb⟩
  isplitl [Ha]; · iexact Ha
  isplitl [Hb]; · iexact Hb
  isplitl [H2]; · iexact H2
  isplitl [H4]; · iexact H4
  isplitl [H7]; · iexact H7
  isplitl [H5]; · iexact H5
  isplitl [H9]; · iexact H9
  isplitl [H6]; · iexact H6
  isplitl [H7b]; · iexact H7b
  isplitl [H8]; · iexact H8
  iexact Ho

set_option maxHeartbeats 1600000 in
/-- EXIT: the windows' arrays at contents read off `V`, each at its share, are the buffers behind them whole at the full
    share — the two halves of the feature matrix's buffer, holding the same contents, joined. -/
theorem arrays_out0 {c : Dev nD} (dat : Dat τ (Elt F) Unit ℕ (UR sig nD τ) ℕ cfg0 c) (hq : dat.q = qsh)
    (V : (b : Ref sig .tc) → Buf (Elt F) ((c : Thread nD τ).loc b))
    (G : (w : Fin cfg0.W) → Buf (Elt F) ((cfg0.win w).arr.view.loc (c : Thread nD τ))) (hG : ∀ w, G w = V (Pipeline.arrRef spec0 w)) :
    dat.arrays G ⊢ (Pipeline.arrBufs (Ix := Unit) (Name := ℕ) (U := UR sig nD τ) (Lvl := ℕ) spec0 c V : sProp 𝕄) := by
  obtain rfl : G = fun w => V (Pipeline.arrRef spec0 w) := funext hG
  have s0 : dat.share (0 : Fin cfg0.W) = fullShare.left := (share_eq0 dat hq 0).trans rfl
  have s1 : dat.share (1 : Fin cfg0.W) = fullShare.right := (share_eq0 dat hq 1).trans rfl
  have s2 : dat.share (2 : Fin cfg0.W) = fullShare := (share_eq0 dat hq 2).trans rfl
  have s3 : dat.share (3 : Fin cfg0.W) = fullShare := (share_eq0 dat hq 3).trans rfl
  have s4 : dat.share (4 : Fin cfg0.W) = fullShare := (share_eq0 dat hq 4).trans rfl
  have s5 : dat.share (5 : Fin cfg0.W) = fullShare := (share_eq0 dat hq 5).trans rfl
  have s6 : dat.share (6 : Fin cfg0.W) = fullShare := (share_eq0 dat hq 6).trans rfl
  have s7 : dat.share (7 : Fin cfg0.W) = fullShare := (share_eq0 dat hq 7).trans rfl
  have s8 : dat.share (8 : Fin cfg0.W) = fullShare := (share_eq0 dat hq 8).trans rfl
  have s9 : dat.share (9 : Fin cfg0.W) = fullShare := (share_eq0 dat hq 9).trans rfl
  have s10 : dat.share (10 : Fin cfg0.W) = fullShare := (share_eq0 dat hq 10).trans rfl
  rw [arrBufs0_list]
  unfold Dat.arrays
  rw [bigSep_W0]
  rw [(arr_whole0 0).set_eq_univ, (arr_whole0 2).set_eq_univ, (arr_whole0 3).set_eq_univ, (arr_whole0 4).set_eq_univ, (arr_whole0 5).set_eq_univ, (arr_whole0 6).set_eq_univ, (arr_whole0 7).set_eq_univ, (arr_whole0 8).set_eq_univ, (arr_whole0 9).set_eq_univ, (arr_whole0 10).set_eq_univ]
  rw [s0, s1, s2, s3, s4, s5, s6, s7, s8, s9, s10]
  iintro ⟨Ha, Hb, H2, H4, H7, H5, H9, H6, H7b, H8, Ho⟩
  ihave Hh := (pointsTo_share (PosShare.mem_left_op_right fullShare)).2 $$ [Ha Hb]
  · isplitl [Ha]; · iexact Ha
    iexact Hb
  isplitl [Hh]; · iexact Hh
  isplitl [H2]; · iexact H2
  isplitl [H4]; · iexact H4
  isplitl [H7]; · iexact H7
  isplitl [H5]; · iexact H5
  isplitl [H9]; · iexact H9
  isplitl [H6]; · iexact H6
  isplitl [H7b]; · iexact H7b
  isplitl [H8]; · iexact H8
  iexact Ho

end Cert.Kernel.Hand

end
-- ==== Proof.K.Vals.lean ====
import proofs.«172293_j20512763806108_2_alg».proof.Proof.K.R0.Body
import proofs.«172293_j20512763806108_2_alg».proof.Proof.K.R1.Body
import proofs.«172293_j20512763806108_2_alg».proof.Proof.K.R2.Body
import proofs.«172293_j20512763806108_2_alg».proof.Proof.K.Share0
import proofs.«172293_j20512763806108_2_alg».proof.Proof.Gen.Kernel.Regions
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items of @main

Core `c`'s unscoped buffers hold: at launch the memory `m`; after the host operations before the first call, their
results over it (`Wa`); after each call, the same with the call's output array at what its write-backs leave
(`Wb`, `Wc`, `Wd`: the features after one, two and three steps sit in `main_v9`, `main_v10`, `main_v11`). -/

/-- A valuation read at the TensorCore's references: what a call's proof data take as entry contents. -/
abbrev Vr (W : Dev nD → Valuation τ sig (Elt F)) : (c : Dev nD) → (b : Ref sig .tc) → Buf (Elt F) ((c : Thread nD τ).loc b) := fun c b => W c b

abbrev Wa (c : Dev nD) : Valuation τ sig (Elt F) := StableHlo.after hostOps0 (fun b => m (c, b))

/-- What call 0 leaves in `main_v9`: its output window's write-backs folded over the array. -/
def res0 (c : Dev nD) : Buf (Elt F) ((c : Thread nD τ).loc main_v9) := (dat0 (Vr (Wa m)) qsh c).arrAt 10 cfg0.N
theorem res0_eq (c : Dev nD) : res0 m c = (dat0 (Vr (Wa m)) qsh c).arrAt 10 cfg0.N := rfl
-- named, and from here on never unfolded: the fold of 32 write-backs
attribute [irreducible] res0
def Wb (c : Dev nD) : Valuation τ sig (Elt F) := Function.update (Wa m c) (Proc.devRef .tc main_v9) (res0 m c)

theorem Wb_out (c : Dev nD) : Wb m c (Proc.devRef .tc main_v9) = res0 m c := by unfold Wb; exact Function.update_self ..
theorem Wb_of_ne (c : Dev nD) (b : Ref sig .tc) (h : b ≠ main_v9) : Wb m c (Proc.devRef .tc b) = Wa m c (Proc.devRef .tc b) := by
  unfold Wb; exact Function.update_of_ne (StableHlo.devRef_ne_of_ne h) ..

/-- What call 1 leaves in `main_v10`: its output window's write-backs folded over the array. -/
def res1 (c : Dev nD) : Buf (Elt F) ((c : Thread nD τ).loc main_v10) := (dat1 (Vr (Wb m)) qsh c).arrAt 10 cfg1.N
theorem res1_eq (c : Dev nD) : res1 m c = (dat1 (Vr (Wb m)) qsh c).arrAt 10 cfg1.N := rfl
-- named, and from here on never unfolded: the fold of 32 write-backs
attribute [irreducible] res1
def Wc (c : Dev nD) : Valuation τ sig (Elt F) := Function.update (Wb m c) (Proc.devRef .tc main_v10) (res1 m c)

theorem Wc_out (c : Dev nD) : Wc m c (Proc.devRef .tc main_v10) = res1 m c := by unfold Wc; exact Function.update_self ..
theorem Wc_of_ne (c : Dev nD) (b : Ref sig .tc) (h : b ≠ main_v10) : Wc m c (Proc.devRef .tc b) = Wb m c (Proc.devRef .tc b) := by
  unfold Wc; exact Function.update_of_ne (StableHlo.devRef_ne_of_ne h) ..

/-- What call 2 leaves in `main_v11`: its output window's write-backs folded over the array. -/
def res2 (c : Dev nD) : Buf (Elt F) ((c : Thread nD τ).loc main_v11) := (dat2 (Vr (Wc m)) qsh c).arrAt 10 cfg2.N
theorem res2_eq (c : Dev nD) : res2 m c = (dat2 (Vr (Wc m)) qsh c).arrAt 10 cfg2.N := rfl
-- named, and from here on never unfolded: the fold of 32 write-backs
attribute [irreducible] res2
def Wd (c : Dev nD) : Valuation τ sig (Elt F) := Function.update (Wc m c) (Proc.devRef .tc main_v11) (res2 m c)

theorem Wd_out (c : Dev nD) : Wd m c (Proc.devRef .tc main_v11) = res2 m c := by unfold Wd; exact Function.update_self ..
theorem Wd_of_ne (c : Dev nD) (b : Ref sig .tc) (h : b ≠ main_v11) : Wd m c (Proc.devRef .tc b) = Wc m c (Proc.devRef .tc b) := by
  unfold Wd; exact Function.update_of_ne (StableHlo.devRef_ne_of_ne h) ..

end Cert.Kernel.Hand

end
-- ==== Proof.K.Share1.lean ====
import proofs.«172293_j20512763806108_2_alg».proof.Proof.Gen.Kernel.Launch
import Idealize.ShloMosaic.Lib.Pipeline.Frame
import proofs.«172293_j20512763806108_2_alg».proof.Proof.K.Share0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-- The distinct buffers behind the arrays of call 1's windows, one by one. -/
theorem arrBufs1_list (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v9) ↦{fullShare} V main_v9) ∗ (((c : Thread nD τ).loc main_arg2) ↦{fullShare} V main_arg2) ∗ (((c : Thread nD τ).loc main_v4) ↦{fullShare} V main_v4) ∗ (((c : Thread nD τ).loc main_arg7) ↦{fullShare} V main_arg7) ∗ (((c : Thread nD τ).loc main_v5) ↦{fullShare} V main_v5) ∗ (((c : Thread nD τ).loc main_arg9) ↦{fullShare} V main_arg9) ∗ (((c : Thread nD τ).loc main_v6) ↦{fullShare} V main_v6) ∗ (((c : Thread nD τ).loc main_v7) ↦{fullShare} V main_v7) ∗ (((c : Thread nD τ).loc main_v8) ↦{fullShare} V main_v8) ∗ (((c : Thread nD τ).loc main_v10) ↦{fullShare} V main_v10)) := by
  unfold Pipeline.arrBufs
  exact bigSep_eq_bigSepL_of_eq [main_v9, main_arg2, main_v4, main_arg7, main_v5, main_arg9, main_v6, main_v7, main_v8, main_v10] (by decide) (by decide) _

/-- A window's share: an output window holds its array whole, an input window what the proof data deal it. -/
theorem share_eq1 {c : Dev nD} (dat : Dat τ (Elt F) Unit ℕ (UR sig nD τ) ℕ cfg1 c) (hq : dat.q = qsh) (w : Fin cfg1.W) :
    dat.share w = if (cfg1.win w).isOut then fullShare else qsh w := by unfold Dat.share; rw [hq]

set_option maxHeartbeats 1600000 in
/-- ENTRY: the buffers behind the arrays, each whole at the full share at contents `V`, are the windows' arrays at the
    proof data's shares — the feature matrix's buffer split into the two halves its two windows hold. -/
theorem arrays_in1 {c : Dev nD} (dat : Dat τ (Elt F) Unit ℕ (UR sig nD τ) ℕ cfg1 c) (hq : dat.q = qsh)
    (V : (b : Ref sig .tc) → Buf (Elt F) ((c : Thread nD τ).loc b))
    (G : (w : Fin cfg1.W) → Buf (Elt F) ((cfg1.win w).arr.view.loc (c : Thread nD τ))) (hG : ∀ w, G w = V (Pipeline.arrRef spec1 w)) :
    (Pipeline.arrBufs (Ix := Unit) (Name := ℕ) (U := UR sig nD τ) (Lvl := ℕ) spec1 c V : sProp 𝕄) ⊢ dat.arrays G := by
  obtain rfl : G = fun w => V (Pipeline.arrRef spec1 w) := funext hG
  have s0 : dat.share (0 : Fin cfg1.W) = fullShare.left := (share_eq1 dat hq 0).trans rfl
  have s1 : dat.share (1 : Fin cfg1.W) = fullShare.right := (share_eq1 dat hq 1).trans rfl
  have s2 : dat.share (2 : Fin cfg1.W) = fullShare := (share_eq1 dat hq 2).trans rfl
  have s3 : dat.share (3 : Fin cfg1.W) = fullShare := (share_eq1 dat hq 3).trans rfl
  have s4 : dat.share (4 : Fin cfg1.W) = fullShare := (share_eq1 dat hq 4).trans rfl
  have s5 : dat.share (5 : Fin cfg1.W) = fullShare := (share_eq1 dat hq 5).trans rfl
  have s6 : dat.share (6 : Fin cfg1.W) = fullShare := (share_eq1 dat hq 6).trans rfl
  have s7 : dat.share (7 : Fin cfg1.W) = fullShare := (share_eq1 dat hq 7).trans rfl
  have s8 : dat.share (8 : Fin cfg1.W) = fullShare := (share_eq1 dat hq 8).trans rfl
  have s9 : dat.share (9 : Fin cfg1.W) = fullShare := (share_eq1 dat hq 9).trans rfl
  have s10 : dat.share (10 : Fin cfg1.W) = fullShare := (share_eq1 dat hq 10).trans rfl
  rw [arrBufs1_list]
  unfold Dat.arrays
  rw [bigSep_W1]
  rw [(arr_whole1 0).set_eq_univ, (arr_whole1 2).set_eq_univ, (arr_whole1 3).set_eq_univ, (arr_whole1 4).set_eq_univ, (arr_whole1 5).set_eq_univ, (arr_whole1 6).set_eq_univ, (arr_whole1 7).set_eq_univ, (arr_whole1 8).set_eq_univ, (arr_whole1 9).set_eq_univ, (arr_whole1 10).set_eq_univ]
  rw [s0, s1, s2, s3, s4, s5, s6, s7, s8, s9, s10]
  iintro ⟨Hh, H2, H4, H7, H5, H9, H6, H7b, H8, Ho⟩
  ihave Hs := (pointsTo_share (PosShare.mem_left_op_right fullShare)).1 $$ Hh
  icases Hs with ⟨Ha, Hb⟩
  isplitl [Ha]; · iexact Ha
  isplitl [Hb]; · iexact Hb
  isplitl [H2]; · iexact H2
  isplitl [H4]; · iexact H4
  isplitl [H7]; · iexact H7
  isplitl [H5]; · iexact H5
  isplitl [H9]; · iexact H9
  isplitl [H6]; · iexact H6
  isplitl [H7b]; · iexact H7b
  isplitl [H8]; · iexact H8
  iexact Ho

set_option maxHeartbeats 1600000 in
/-- EXIT: the windows' arrays at contents read off `V`, each at its share, are the buffers behind them whole at the full
    share — the two halves of the feature matrix's buffer, holding the same contents, joined. -/
theorem arrays_out1 {c : Dev nD} (dat : Dat τ (Elt F) Unit ℕ (UR sig nD τ) ℕ cfg1 c) (hq : dat.q = qsh)
    (V : (b : Ref sig .tc) → Buf (Elt F) ((c : Thread nD τ).loc b))
    (G : (w : Fin cfg1.W) → Buf (Elt F) ((cfg1.win w).arr.view.loc (c : Thread nD τ))) (hG : ∀ w, G w = V (Pipeline.arrRef spec1 w)) :
    dat.arrays G ⊢ (Pipeline.arrBufs (Ix := Unit) (Name := ℕ) (U := UR sig nD τ) (Lvl := ℕ) spec1 c V : sProp 𝕄) := by
  obtain rfl : G = fun w => V (Pipeline.arrRef spec1 w) := funext hG
  have s0 : dat.share (0 : Fin cfg1.W) = fullShare.left := (share_eq1 dat hq 0).trans rfl
  have s1 : dat.share (1 : Fin cfg1.W) = fullShare.right := (share_eq1 dat hq 1).trans rfl
  have s2 : dat.share (2 : Fin cfg1.W) = fullShare := (share_eq1 dat hq 2).trans rfl
  have s3 : dat.share (3 : Fin cfg1.W) = fullShare := (share_eq1 dat hq 3).trans rfl
  have s4 : dat.share (4 : Fin cfg1.W) = fullShare := (share_eq1 dat hq 4).trans rfl
  have s5 : dat.share (5 : Fin cfg1.W) = fullShare := (share_eq1 dat hq 5).trans rfl
  have s6 : dat.share (6 : Fin cfg1.W) = fullShare := (share_eq1 dat hq 6).trans rfl
  have s7 : dat.share (7 : Fin cfg1.W) = fullShare := (share_eq1 dat hq 7).trans rfl
  have s8 : dat.share (8 : Fin cfg1.W) = fullShare := (share_eq1 dat hq 8).trans rfl
  have s9 : dat.share (9 : Fin cfg1.W) = fullShare := (share_eq1 dat hq 9).trans rfl
  have s10 : dat.share (10 : Fin cfg1.W) = fullShare := (share_eq1 dat hq 10).trans rfl
  rw [arrBufs1_list]
  unfold Dat.arrays
  rw [bigSep_W1]
  rw [(arr_whole1 0).set_eq_univ, (arr_whole1 2).set_eq_univ, (arr_whole1 3).set_eq_univ, (arr_whole1 4).set_eq_univ, (arr_whole1 5).set_eq_univ, (arr_whole1 6).set_eq_univ, (arr_whole1 7).set_eq_univ, (arr_whole1 8).set_eq_univ, (arr_whole1 9).set_eq_univ, (arr_whole1 10).set_eq_univ]
  rw [s0, s1, s2, s3, s4, s5, s6, s7, s8, s9, s10]
  iintro ⟨Ha, Hb, H2, H4, H7, H5, H9, H6, H7b, H8, Ho⟩
  ihave Hh := (pointsTo_share (PosShare.mem_left_op_right fullShare)).2 $$ [Ha Hb]
  · isplitl [Ha]; · iexact Ha
    iexact Hb
  isplitl [Hh]; · iexact Hh
  isplitl [H2]; · iexact H2
  isplitl [H4]; · iexact H4
  isplitl [H7]; · iexact H7
  isplitl [H5]; · iexact H5
  isplitl [H9]; · iexact H9
  isplitl [H6]; · iexact H6
  isplitl [H7b]; · iexact H7b
  isplitl [H8]; · iexact H8
  iexact Ho

end Cert.Kernel.Hand

end
-- ==== Proof.K.Share2.lean ====
import proofs.«172293_j20512763806108_2_alg».proof.Proof.Gen.Kernel.Launch
import Idealize.ShloMosaic.Lib.Pipeline.Frame
import proofs.«172293_j20512763806108_2_alg».proof.Proof.K.Share0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-- The distinct buffers behind the arrays of call 2's windows, one by one. -/
theorem arrBufs2_list (c : Dev nD) (V : (b : Ref sig .tc) → Buf (Elt F) ((c : Thread nD τ).loc b)) :
    (Pipeline.arrBufs (Ix := Unit) (Name := ℕ) (U := UR sig nD τ) (Lvl := ℕ) spec2 c V : sProp 𝕄)
      = iprop((((c : Thread nD τ).loc main_v10) ↦{fullShare} V main_v10) ∗ (((c : Thread nD τ).loc main_arg2) ↦{fullShare} V main_arg2) ∗ (((c : Thread nD τ).loc main_v4) ↦{fullShare} V main_v4) ∗ (((c : Thread nD τ).loc main_arg7) ↦{fullShare} V main_arg7) ∗ (((c : Thread nD τ).loc main_v5) ↦{fullShare} V main_v5) ∗ (((c : Thread nD τ).loc main_arg9) ↦{fullShare} V main_arg9) ∗ (((c : Thread nD τ).loc main_v6) ↦{fullShare} V main_v6) ∗ (((c : Thread nD τ).loc main_v7) ↦{fullShare} V main_v7) ∗ (((c : Thread nD τ).loc main_v8) ↦{fullShare} V main_v8) ∗ (((c : Thread nD τ).loc main_v11) ↦{fullShare} V main_v11)) := by
  unfold Pipeline.arrBufs
  exact bigSep_eq_bigSepL_of_eq [main_v10, main_arg2, main_v4, main_arg7, main_v5, main_arg9, main_v6, main_v7, main_v8, main_v11] (by decide) (by decide) _

/-- A window's share: an output window holds its array whole, an input window what the proof data deal it. -/
theorem share_eq2 {c : Dev nD} (dat : Dat τ (Elt F) Unit ℕ (UR sig nD τ) ℕ cfg2 c) (hq : dat.q = qsh) (w : Fin cfg2.W) :
    dat.share w = if (cfg2.win w).isOut then fullShare else qsh w := by unfold Dat.share; rw [hq]

set_option maxHeartbeats 1600000 in
/-- ENTRY: the buffers behind the arrays, each whole at the full share at contents `V`, are the windows' arrays at the
    proof data's shares — the feature matrix's buffer split into the two halves its two windows hold. -/
theorem arrays_in2 {c : Dev nD} (dat : Dat τ (Elt F) Unit ℕ (UR sig nD τ) ℕ cfg2 c) (hq : dat.q = qsh)
    (V : (b : Ref sig .tc) → Buf (Elt F) ((c : Thread nD τ).loc b))
    (G : (w : Fin cfg2.W) → Buf (Elt F) ((cfg2.win w).arr.view.loc (c : Thread nD τ))) (hG : ∀ w, G w = V (Pipeline.arrRef spec2 w)) :
    (Pipeline.arrBufs (Ix := Unit) (Name := ℕ) (U := UR sig nD τ) (Lvl := ℕ) spec2 c V : sProp 𝕄) ⊢ dat.arrays G := by
  obtain rfl : G = fun w => V (Pipeline.arrRef spec2 w) := funext hG
  have s0 : dat.share (0 : Fin cfg2.W) = fullShare.left := (share_eq2 dat hq 0).trans rfl
  have s1 : dat.share (1 : Fin cfg2.W) = fullShare.right := (share_eq2 dat hq 1).trans rfl
  have s2 : dat.share (2 : Fin cfg2.W) = fullShare := (share_eq2 dat hq 2).trans rfl
  have s3 : dat.share (3 : Fin cfg2.W) = fullShare := (share_eq2 dat hq 3).trans rfl
  have s4 : dat.share (4 : Fin cfg2.W) = fullShare := (share_eq2 dat hq 4).trans rfl
  have s5 : dat.share (5 : Fin cfg2.W) = fullShare := (share_eq2 dat hq 5).trans rfl
  have s6 : dat.share (6 : Fin cfg2.W) = fullShare := (share_eq2 dat hq 6).trans rfl
  have s7 : dat.share (7 : Fin cfg2.W) = fullShare := (share_eq2 dat hq 7).trans rfl
  have s8 : dat.share (8 : Fin cfg2.W) = fullShare := (share_eq2 dat hq 8).trans rfl
  have s9 : dat.share (9 : Fin cfg2.W) = fullShare := (share_eq2 dat hq 9).trans rfl
  have s10 : dat.share (10 : Fin cfg2.W) = fullShare := (share_eq2 dat hq 10).trans rfl
  rw [arrBufs2_list]
  unfold Dat.arrays
  rw [bigSep_W2]
  rw [(arr_whole2 0).set_eq_univ, (arr_whole2 2).set_eq_univ, (arr_whole2 3).set_eq_univ, (arr_whole2 4).set_eq_univ, (arr_whole2 5).set_eq_univ, (arr_whole2 6).set_eq_univ, (arr_whole2 7).set_eq_univ, (arr_whole2 8).set_eq_univ, (arr_whole2 9).set_eq_univ, (arr_whole2 10).set_eq_univ]
  rw [s0, s1, s2, s3, s4, s5, s6, s7, s8, s9, s10]
  iintro ⟨Hh, H2, H4, H7, H5, H9, H6, H7b, H8, Ho⟩
  ihave Hs := (pointsTo_share (PosShare.mem_left_op_right fullShare)).1 $$ Hh
  icases Hs with ⟨Ha, Hb⟩
  isplitl [Ha]; · iexact Ha
  isplitl [Hb]; · iexact Hb
  isplitl [H2]; · iexact H2
  isplitl [H4]; · iexact H4
  isplitl [H7]; · iexact H7
  isplitl [H5]; · iexact H5
  isplitl [H9]; · iexact H9
  isplitl [H6]; · iexact H6
  isplitl [H7b]; · iexact H7b
  isplitl [H8]; · iexact H8
  iexact Ho

set_option maxHeartbeats 1600000 in
/-- EXIT: the windows' arrays at contents read off `V`, each at its share, are the buffers behind them whole at the full
    share — the two halves of the feature matrix's buffer, holding the same contents, joined. -/
theorem arrays_out2 {c : Dev nD} (dat : Dat τ (Elt F) Unit ℕ (UR sig nD τ) ℕ cfg2 c) (hq : dat.q = qsh)
    (V : (b : Ref sig .tc) → Buf (Elt F) ((c : Thread nD τ).loc b))
    (G : (w : Fin cfg2.W) → Buf (Elt F) ((cfg2.win w).arr.view.loc (c : Thread nD τ))) (hG : ∀ w, G w = V (Pipeline.arrRef spec2 w)) :
    dat.arrays G ⊢ (Pipeline.arrBufs (Ix := Unit) (Name := ℕ) (U := UR sig nD τ) (Lvl := ℕ) spec2 c V : sProp 𝕄) := by
  obtain rfl : G = fun w => V (Pipeline.arrRef spec2 w) := funext hG
  have s0 : dat.share (0 : Fin cfg2.W) = fullShare.left := (share_eq2 dat hq 0).trans rfl
  have s1 : dat.share (1 : Fin cfg2.W) = fullShare.right := (share_eq2 dat hq 1).trans rfl
  have s2 : dat.share (2 : Fin cfg2.W) = fullShare := (share_eq2 dat hq 2).trans rfl
  have s3 : dat.share (3 : Fin cfg2.W) = fullShare := (share_eq2 dat hq 3).trans rfl
  have s4 : dat.share (4 : Fin cfg2.W) = fullShare := (share_eq2 dat hq 4).trans rfl
  have s5 : dat.share (5 : Fin cfg2.W) = fullShare := (share_eq2 dat hq 5).trans rfl
  have s6 : dat.share (6 : Fin cfg2.W) = fullShare := (share_eq2 dat hq 6).trans rfl
  have s7 : dat.share (7 : Fin cfg2.W) = fullShare := (share_eq2 dat hq 7).trans rfl
  have s8 : dat.share (8 : Fin cfg2.W) = fullShare := (share_eq2 dat hq 8).trans rfl
  have s9 : dat.share (9 : Fin cfg2.W) = fullShare := (share_eq2 dat hq 9).trans rfl
  have s10 : dat.share (10 : Fin cfg2.W) = fullShare := (share_eq2 dat hq 10).trans rfl
  rw [arrBufs2_list]
  unfold Dat.arrays
  rw [bigSep_W2]
  rw [(arr_whole2 0).set_eq_univ, (arr_whole2 2).set_eq_univ, (arr_whole2 3).set_eq_univ, (arr_whole2 4).set_eq_univ, (arr_whole2 5).set_eq_univ, (arr_whole2 6).set_eq_univ, (arr_whole2 7).set_eq_univ, (arr_whole2 8).set_eq_univ, (arr_whole2 9).set_eq_univ, (arr_whole2 10).set_eq_univ]
  rw [s0, s1, s2, s3, s4, s5, s6, s7, s8, s9, s10]
  iintro ⟨Ha, Hb, H2, H4, H7, H5, H9, H6, H7b, H8, Ho⟩
  ihave Hh := (pointsTo_share (PosShare.mem_left_op_right fullShare)).2 $$ [Ha Hb]
  · isplitl [Ha]; · iexact Ha
    iexact Hb
  isplitl [Hh]; · iexact Hh
  isplitl [H2]; · iexact H2
  isplitl [H4]; · iexact H4
  isplitl [H7]; · iexact H7
  isplitl [H5]; · iexact H5
  isplitl [H9]; · iexact H9
  isplitl [H6]; · iexact H6
  isplitl [H7b]; · iexact H7b
  isplitl [H8]; · iexact H8
  iexact Ho

end Cert.Kernel.Hand

end
-- ==== Proof.K.Segs.lean ====
import proofs.«172293_j20512763806108_2_alg».proof.Proof.K.Vals
import proofs.«172293_j20512763806108_2_alg».proof.Proof.K.Share0
import proofs.«172293_j20512763806108_2_alg».proof.Proof.K.Share1
import proofs.«172293_j20512763806108_2_alg».proof.Proof.K.Share2
import proofs.«172293_j20512763806108_2_alg».proof.Proof.Gen.Kernel.Regions
import Idealize.ShloMosaic.Lib.Pipeline.Regions
import Idealize.ShloMosaic.Lib.Pipeline.RegionsLoop
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and what rides beside the buffers -/

/-- Every call's proof data, each at its entry contents — a literal `match` on the call's number. -/
def pdats : (p : Fin 3) → (c : Dev nD) → Dat τ (Elt F) Unit ℕ (UR sig nD τ) ℕ (Pipeline.pin (pcfgs (F := F)) adm p) c
  | ⟨0, _⟩ => fun c => dat0 (Vr (Wa m)) qsh c
  | ⟨1, _⟩ => fun c => dat1 (Vr (Wb m)) qsh c
  | ⟨2, _⟩ => fun c => dat2 (Vr (Wc m)) qsh c

abbrev 𝒱₀ : Variants := Variants.none
/-- No core owes another anything: no level is assigned. -/
abbrev Lz : GSem nD τ sig → Finset Unit := fun _ => ∅
abbrev lvz : GSem nD τ sig → Unit → ℕ := fun _ _ => 0
/-- Beside the buffers every item carries the core's generator register at some state and its dues, none. -/
abbrev Rr (c : Dev nD) : sProp 𝕄 := iprop((∃ r, prngReg c r) ∗ ∃ W, owes (c : Thread nD τ) (0 : CellTallies nD τ sig Unit) W)

/-! ### Call 0 -/

/-- At call 0's exit each of its arrays holds what the pipeline leaves: an input array its entry contents (never
    written), the output array the folded write-backs. -/
theorem exit0_in (c : Dev nD) (w : Fin cfg0.W) (hw : (cfg0.win w).isOut = false) (hne : Pipeline.arrRef spec0 w ≠ main_v9) :
    (dat0 (Vr (Wa m)) qsh c).arrAt w cfg0.N = Vr (Wb m) c (Pipeline.arrRef spec0 w) :=
  ((dat0 (Vr (Wa m)) qsh c).arrAt_in w hw _).trans ((A_eq0 (Vr (Wa m)) qsh c w).trans (Wb_of_ne m c _ hne).symm)

theorem exit0 (c : Dev nD) (w : Fin cfg0.W) :
    (dat0 (Vr (Wa m)) qsh c).arrAt w cfg0.N = Vr (Wb m) c (Pipeline.arrRef spec0 w) := by
  match w with
  | ⟨0, _⟩ => exact exit0_in m c (0 : Fin cfg0.W) rfl (by decide)
  | ⟨1, _⟩ => exact exit0_in m c (1 : Fin cfg0.W) rfl (by decide)
  | ⟨2, _⟩ => exact exit0_in m c (2 : Fin cfg0.W) rfl (by decide)
  | ⟨3, _⟩ => exact exit0_in m c (3 : Fin cfg0.W) rfl (by decide)
  | ⟨4, _⟩ => exact exit0_in m c (4 : Fin cfg0.W) rfl (by decide)
  | ⟨5, _⟩ => exact exit0_in m c (5 : Fin cfg0.W) rfl (by decide)
  | ⟨6, _⟩ => exact exit0_in m c (6 : Fin cfg0.W) rfl (by decide)
  | ⟨7, _⟩ => exact exit0_in m c (7 : Fin cfg0.W) rfl (by decide)
  | ⟨8, _⟩ => exact exit0_in m c (8 : Fin cfg0.W) rfl (by decide)
  | ⟨9, _⟩ => exact exit0_in m c (9 : Fin cfg0.W) rfl (by decide)
  | ⟨10, _⟩ => exact (res0_eq m c).symm.trans (Wb_out m c).symm

/-- A core's unscoped buffers are the buffers behind call 0's arrays and the rest. -/
theorem split0 (c : Dev nD) (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec0 c V ∗ Pipeline.unscopedRest spec0 c V) :=
  Pipeline.unscopedBufs_split₀ (Pipeline.pin (pcfgs (F := F)) adm) 0 winFacts₀0.arr_unscoped c V

/-- The unscoped buffers that are no array of call 0 are as they were. -/
theorem rest0 (c : Dev nD) :
    (Pipeline.unscopedRest (Ix := Unit) (Name := ℕ) (U := UR sig nD τ) (Lvl := ℕ) spec0 c (Vr (Wa m) c) : sProp 𝕄)
      = Pipeline.unscopedRest spec0 c (Vr (Wb m) c) := by
  unfold Pipeline.unscopedRest
  exact bigSep_congr fun b hb => by
    rw [show Vr (Wb m) c b = Vr (Wa m) c b from Wb_of_ne m c b fun e =>
      (Finset.mem_sdiff.mp hb).2 (Finset.mem_image.mpr ⟨10, Finset.mem_univ _, e.symm⟩)]

/-- ENTRY of call 0, the buffers' part: every unscoped buffer at `Wa` is the call's arrays at their entry contents
    (each window at its share) beside the unscoped rest. -/
theorem entry0 (c : Dev nD) :
    (StableHlo.held (c : Thread nD τ) (Pipeline.ucRefs τ sig) (Wa m c) : sProp 𝕄)
      ⊢ iprop((dat0 (Vr (Wa m)) qsh c).arrays (fun w => (dat0 (Vr (Wa m)) qsh c).arrAt w 0) ∗ Pipeline.unscopedRest spec0 c (Vr (Wa m) c)) := by
  rw [← Pipeline.unscopedBufs_held (Ix := Unit) (Name := ℕ) (U := UR sig nD τ) (Lvl := ℕ) c (Wa m c),
    split0 c (Vr (Wa m) c)]
  exact sep_mono (arrays_in0 (dat0 (Vr (Wa m)) qsh c) rfl (Vr (Wa m) c) _ (fun w => A_eq0 (Vr (Wa m)) qsh c w)) .rfl

set_option maxHeartbeats 1600000 in
/-- EXIT of call 0, the buffers' part: the arrays at what the pipeline leaves beside the unscoped rest are every unscoped
    buffer at `Wb`. -/
theorem leave0 (c : Dev nD) :
    iprop((dat0 (Vr (Wa m)) qsh c).arrays (fun w => (dat0 (Vr (Wa m)) qsh c).arrAt w cfg0.N) ∗ Pipeline.unscopedRest spec0 c (Vr (Wa m) c))
      ⊢ (StableHlo.held (c : Thread nD τ) (Pipeline.ucRefs τ sig) (Wb m c) : sProp 𝕄) := by
  rw [← Pipeline.unscopedBufs_held (Ix := Unit) (Name := ℕ) (U := UR sig nD τ) (Lvl := ℕ) c (Wb m c),
    split0 c (Vr (Wb m) c)]
  refine BIClass.sep_mono ?_ ?_
  · exact arrays_out0 (dat0 (Vr (Wa m)) qsh c) rfl (Vr (Wb m) c) _ (exit0 m c)
  · exact BIBase.Entails.of_eq (rest0 m c)

set_option backward.isDefEq.respectTransparency.types false in
/-- Call 0 over the thread state: entered from every unscoped buffer at `Wa`, left at `Wb`. Its arrays are
    split out of the unscoped buffers (the feature matrix's buffer dealt in halves to its two windows) and put back at the
    exit contents; the generator register goes into the body's invariant and comes back; nothing is owed; the kernel has
    no semaphore of its own. -/
def reg0 : RegionSeg (pcfgs (F := F)) adm (pdats m) () defs₀ 𝒱₀ Lz lvz 0 where
  win := winFacts₀0
  block_pos := block_pos0
  stage_whole := stage_whole0
  K := PEmpty
  osem k := k.elim
  ho := Pipeline.OwnSemFacts.none _
  hbody c := (body_obligation0 (Vr (Wa m)) qsh c).loose
  hwaits := Pipeline.hwaits_of_owed_zero _ _ _ _ Lz lvz 0 fun _ _ => rfl
  pre c := iprop(StableHlo.held (c : Thread nD τ) (Pipeline.ucRefs τ sig) (Wa m c) ∗ Rr c)
  post c := iprop(StableHlo.held (c : Thread nD τ) (Pipeline.ucRefs τ sig) (Wb m c) ∗ Rr c)
  X c := iprop(∃ r, prngReg c r)
  Y c := iprop(∃ r, prngReg c r)
  Z c := Pipeline.unscopedRest (Ix := Unit) (Name := ℕ) (U := UR sig nD τ) (Lvl := ℕ) spec0 c (Vr (Wa m) c)
  hentry c := by
    rw [Pipeline.ownSems0_none]
    iintro ⟨⟨Hub, Hp, HO⟩, -, -⟩
    ihave H := (entry0 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Vr (Wa m)) qsh c)
    unfold Pipeline.ΦA
    iintro ⟨Hp, -, Hr⟩
    isplitl [Hr]; · iexact Hr
    iexact Hp
  hout c := by
    rw [Pipeline.ownSems0_none]
    refine BIBase.Entails.trans (hout0 (Vr (Wa m)) qsh c) ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (leave0 m c); isplitl [Ha]; · iexact Ha
      iexact Hrest
    isplitl [HY]; · iexact HY
    unfold Pipeline.Dat.owesAt Pipeline.owesWithin
    icases HO with ⟨%W, -, HO⟩; iexists W; iexact HO

/-! ### Call 1 -/

/-- At call 1's exit each of its arrays holds what the pipeline leaves: an input array its entry contents (never
    written), the output array the folded write-backs. -/
theorem exit1_in (c : Dev nD) (w : Fin cfg1.W) (hw : (cfg1.win w).isOut = false) (hne : Pipeline.arrRef spec1 w ≠ main_v10) :
    (dat1 (Vr (Wb m)) qsh c).arrAt w cfg1.N = Vr (Wc m) c (Pipeline.arrRef spec1 w) :=
  ((dat1 (Vr (Wb m)) qsh c).arrAt_in w hw _).trans ((A_eq1 (Vr (Wb m)) qsh c w).trans (Wc_of_ne m c _ hne).symm)

theorem exit1 (c : Dev nD) (w : Fin cfg1.W) :
    (dat1 (Vr (Wb m)) qsh c).arrAt w cfg1.N = Vr (Wc m) c (Pipeline.arrRef spec1 w) := by
  match w with
  | ⟨0, _⟩ => exact exit1_in m c (0 : Fin cfg1.W) rfl (by decide)
  | ⟨1, _⟩ => exact exit1_in m c (1 : Fin cfg1.W) rfl (by decide)
  | ⟨2, _⟩ => exact exit1_in m c (2 : Fin cfg1.W) rfl (by decide)
  | ⟨3, _⟩ => exact exit1_in m c (3 : Fin cfg1.W) rfl (by decide)
  | ⟨4, _⟩ => exact exit1_in m c (4 : Fin cfg1.W) rfl (by decide)
  | ⟨5, _⟩ => exact exit1_in m c (5 : Fin cfg1.W) rfl (by decide)
  | ⟨6, _⟩ => exact exit1_in m c (6 : Fin cfg1.W) rfl (by decide)
  | ⟨7, _⟩ => exact exit1_in m c (7 : Fin cfg1.W) rfl (by decide)
  | ⟨8, _⟩ => exact exit1_in m c (8 : Fin cfg1.W) rfl (by decide)
  | ⟨9, _⟩ => exact exit1_in m c (9 : Fin cfg1.W) rfl (by decide)
  | ⟨10, _⟩ => exact (res1_eq m c).symm.trans (Wc_out m c).symm

/-- A core's unscoped buffers are the buffers behind call 1's arrays and the rest. -/
theorem split1 (c : Dev nD) (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec1 c V ∗ Pipeline.unscopedRest spec1 c V) :=
  Pipeline.unscopedBufs_split₀ (Pipeline.pin (pcfgs (F := F)) adm) 1 winFacts₀1.arr_unscoped c V

/-- The unscoped buffers that are no array of call 1 are as they were. -/
theorem rest1 (c : Dev nD) :
    (Pipeline.unscopedRest (Ix := Unit) (Name := ℕ) (U := UR sig nD τ) (Lvl := ℕ) spec1 c (Vr (Wb m) c) : sProp 𝕄)
      = Pipeline.unscopedRest spec1 c (Vr (Wc m) c) := by
  unfold Pipeline.unscopedRest
  exact bigSep_congr fun b hb => by
    rw [show Vr (Wc m) c b = Vr (Wb m) c b from Wc_of_ne m c b fun e =>
      (Finset.mem_sdiff.mp hb).2 (Finset.mem_image.mpr ⟨10, Finset.mem_univ _, e.symm⟩)]

/-- ENTRY of call 1, the buffers' part: every unscoped buffer at `Wb` is the call's arrays at their entry contents
    (each window at its share) beside the unscoped rest. -/
theorem entry1 (c : Dev nD) :
    (StableHlo.held (c : Thread nD τ) (Pipeline.ucRefs τ sig) (Wb m c) : sProp 𝕄)
      ⊢ iprop((dat1 (Vr (Wb m)) qsh c).arrays (fun w => (dat1 (Vr (Wb m)) qsh c).arrAt w 0) ∗ Pipeline.unscopedRest spec1 c (Vr (Wb m) c)) := by
  rw [← Pipeline.unscopedBufs_held (Ix := Unit) (Name := ℕ) (U := UR sig nD τ) (Lvl := ℕ) c (Wb m c),
    split1 c (Vr (Wb m) c)]
  exact sep_mono (arrays_in1 (dat1 (Vr (Wb m)) qsh c) rfl (Vr (Wb m) c) _ (fun w => A_eq1 (Vr (Wb m)) qsh c w)) .rfl

set_option maxHeartbeats 1600000 in
/-- EXIT of call 1, the buffers' part: the arrays at what the pipeline leaves beside the unscoped rest are every unscoped
    buffer at `Wc`. -/
theorem leave1 (c : Dev nD) :
    iprop((dat1 (Vr (Wb m)) qsh c).arrays (fun w => (dat1 (Vr (Wb m)) qsh c).arrAt w cfg1.N) ∗ Pipeline.unscopedRest spec1 c (Vr (Wb m) c))
      ⊢ (StableHlo.held (c : Thread nD τ) (Pipeline.ucRefs τ sig) (Wc m c) : sProp 𝕄) := by
  rw [← Pipeline.unscopedBufs_held (Ix := Unit) (Name := ℕ) (U := UR sig nD τ) (Lvl := ℕ) c (Wc m c),
    split1 c (Vr (Wc m) c)]
  refine BIClass.sep_mono ?_ ?_
  · exact arrays_out1 (dat1 (Vr (Wb m)) qsh c) rfl (Vr (Wc m) c) _ (exit1 m c)
  · exact BIBase.Entails.of_eq (rest1 m c)

set_option backward.isDefEq.respectTransparency.types false in
/-- Call 1 over the thread state: entered from every unscoped buffer at `Wb`, left at `Wc`. Its arrays are
    split out of the unscoped buffers (the feature matrix's buffer dealt in halves to its two windows) and put back at the
    exit contents; the generator register goes into the body's invariant and comes back; nothing is owed; the kernel has
    no semaphore of its own. -/
def reg1 : RegionSeg (pcfgs (F := F)) adm (pdats m) () defs₀ 𝒱₀ Lz lvz 1 where
  win := winFacts₀1
  block_pos := block_pos1
  stage_whole := stage_whole1
  K := PEmpty
  osem k := k.elim
  ho := Pipeline.OwnSemFacts.none _
  hbody c := (body_obligation1 (Vr (Wb m)) qsh c).loose
  hwaits := Pipeline.hwaits_of_owed_zero _ _ _ _ Lz lvz 1 fun _ _ => rfl
  pre c := iprop(StableHlo.held (c : Thread nD τ) (Pipeline.ucRefs τ sig) (Wb m c) ∗ Rr c)
  post c := iprop(StableHlo.held (c : Thread nD τ) (Pipeline.ucRefs τ sig) (Wc m c) ∗ Rr c)
  X c := iprop(∃ r, prngReg c r)
  Y c := iprop(∃ r, prngReg c r)
  Z c := Pipeline.unscopedRest (Ix := Unit) (Name := ℕ) (U := UR sig nD τ) (Lvl := ℕ) spec1 c (Vr (Wb m) c)
  hentry c := by
    rw [Pipeline.ownSems0_none]
    iintro ⟨⟨Hub, Hp, HO⟩, -, -⟩
    ihave H := (entry1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vr (Wb m)) qsh c)
    unfold Pipeline.ΦA
    iintro ⟨Hp, -, Hr⟩
    isplitl [Hr]; · iexact Hr
    iexact Hp
  hout c := by
    rw [Pipeline.ownSems0_none]
    refine BIBase.Entails.trans (hout1 (Vr (Wb m)) qsh c) ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (leave1 m c); isplitl [Ha]; · iexact Ha
      iexact Hrest
    isplitl [HY]; · iexact HY
    unfold Pipeline.Dat.owesAt Pipeline.owesWithin
    icases HO with ⟨%W, -, HO⟩; iexists W; iexact HO

/-! ### Call 2 -/

/-- At call 2's exit each of its arrays holds what the pipeline leaves: an input array its entry contents (never
    written), the output array the folded write-backs. -/
theorem exit2_in (c : Dev nD) (w : Fin cfg2.W) (hw : (cfg2.win w).isOut = false) (hne : Pipeline.arrRef spec2 w ≠ main_v11) :
    (dat2 (Vr (Wc m)) qsh c).arrAt w cfg2.N = Vr (Wd m) c (Pipeline.arrRef spec2 w) :=
  ((dat2 (Vr (Wc m)) qsh c).arrAt_in w hw _).trans ((A_eq2 (Vr (Wc m)) qsh c w).trans (Wd_of_ne m c _ hne).symm)

theorem exit2 (c : Dev nD) (w : Fin cfg2.W) :
    (dat2 (Vr (Wc m)) qsh c).arrAt w cfg2.N = Vr (Wd m) c (Pipeline.arrRef spec2 w) := by
  match w with
  | ⟨0, _⟩ => exact exit2_in m c (0 : Fin cfg2.W) rfl (by decide)
  | ⟨1, _⟩ => exact exit2_in m c (1 : Fin cfg2.W) rfl (by decide)
  | ⟨2, _⟩ => exact exit2_in m c (2 : Fin cfg2.W) rfl (by decide)
  | ⟨3, _⟩ => exact exit2_in m c (3 : Fin cfg2.W) rfl (by decide)
  | ⟨4, _⟩ => exact exit2_in m c (4 : Fin cfg2.W) rfl (by decide)
  | ⟨5, _⟩ => exact exit2_in m c (5 : Fin cfg2.W) rfl (by decide)
  | ⟨6, _⟩ => exact exit2_in m c (6 : Fin cfg2.W) rfl (by decide)
  | ⟨7, _⟩ => exact exit2_in m c (7 : Fin cfg2.W) rfl (by decide)
  | ⟨8, _⟩ => exact exit2_in m c (8 : Fin cfg2.W) rfl (by decide)
  | ⟨9, _⟩ => exact exit2_in m c (9 : Fin cfg2.W) rfl (by decide)
  | ⟨10, _⟩ => exact (res2_eq m c).symm.trans (Wd_out m c).symm

/-- A core's unscoped buffers are the buffers behind call 2's arrays and the rest. -/
theorem split2 (c : Dev nD) (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec2 c V ∗ Pipeline.unscopedRest spec2 c V) :=
  Pipeline.unscopedBufs_split₀ (Pipeline.pin (pcfgs (F := F)) adm) 2 winFacts₀2.arr_unscoped c V

/-- The unscoped buffers that are no array of call 2 are as they were. -/
theorem rest2 (c : Dev nD) :
    (Pipeline.unscopedRest (Ix := Unit) (Name := ℕ) (U := UR sig nD τ) (Lvl := ℕ) spec2 c (Vr (Wc m) c) : sProp 𝕄)
      = Pipeline.unscopedRest spec2 c (Vr (Wd m) c) := by
  unfold Pipeline.unscopedRest
  exact bigSep_congr fun b hb => by
    rw [show Vr (Wd m) c b = Vr (Wc m) c b from Wd_of_ne m c b fun e =>
      (Finset.mem_sdiff.mp hb).2 (Finset.mem_image.mpr ⟨10, Finset.mem_univ _, e.symm⟩)]

/-- ENTRY of call 2, the buffers' part: every unscoped buffer at `Wc` is the call's arrays at their entry contents
    (each window at its share) beside the unscoped rest. -/
theorem entry2 (c : Dev nD) :
    (StableHlo.held (c : Thread nD τ) (Pipeline.ucRefs τ sig) (Wc m c) : sProp 𝕄)
      ⊢ iprop((dat2 (Vr (Wc m)) qsh c).arrays (fun w => (dat2 (Vr (Wc m)) qsh c).arrAt w 0) ∗ Pipeline.unscopedRest spec2 c (Vr (Wc m) c)) := by
  rw [← Pipeline.unscopedBufs_held (Ix := Unit) (Name := ℕ) (U := UR sig nD τ) (Lvl := ℕ) c (Wc m c),
    split2 c (Vr (Wc m) c)]
  exact sep_mono (arrays_in2 (dat2 (Vr (Wc m)) qsh c) rfl (Vr (Wc m) c) _ (fun w => A_eq2 (Vr (Wc m)) qsh c w)) .rfl

set_option maxHeartbeats 1600000 in
/-- EXIT of call 2, the buffers' part: the arrays at what the pipeline leaves beside the unscoped rest are every unscoped
    buffer at `Wd`. -/
theorem leave2 (c : Dev nD) :
    iprop((dat2 (Vr (Wc m)) qsh c).arrays (fun w => (dat2 (Vr (Wc m)) qsh c).arrAt w cfg2.N) ∗ Pipeline.unscopedRest spec2 c (Vr (Wc m) c))
      ⊢ (StableHlo.held (c : Thread nD τ) (Pipeline.ucRefs τ sig) (Wd m c) : sProp 𝕄) := by
  rw [← Pipeline.unscopedBufs_held (Ix := Unit) (Name := ℕ) (U := UR sig nD τ) (Lvl := ℕ) c (Wd m c),
    split2 c (Vr (Wd m) c)]
  refine BIClass.sep_mono ?_ ?_
  · exact arrays_out2 (dat2 (Vr (Wc m)) qsh c) rfl (Vr (Wd m) c) _ (exit2 m c)
  · exact BIBase.Entails.of_eq (rest2 m c)

set_option backward.isDefEq.respectTransparency.types false in
/-- Call 2 over the thread state: entered from every unscoped buffer at `Wc`, left at `Wd`. Its arrays are
    split out of the unscoped buffers (the feature matrix's buffer dealt in halves to its two windows) and put back at the
    exit contents; the generator register goes into the body's invariant and comes back; nothing is owed; the kernel has
    no semaphore of its own. -/
def reg2 : RegionSeg (pcfgs (F := F)) adm (pdats m) () defs₀ 𝒱₀ Lz lvz 2 where
  win := winFacts₀2
  block_pos := block_pos2
  stage_whole := stage_whole2
  K := PEmpty
  osem k := k.elim
  ho := Pipeline.OwnSemFacts.none _
  hbody c := (body_obligation2 (Vr (Wc m)) qsh c).loose
  hwaits := Pipeline.hwaits_of_owed_zero _ _ _ _ Lz lvz 2 fun _ _ => rfl
  pre c := iprop(StableHlo.held (c : Thread nD τ) (Pipeline.ucRefs τ sig) (Wc m c) ∗ Rr c)
  post c := iprop(StableHlo.held (c : Thread nD τ) (Pipeline.ucRefs τ sig) (Wd m c) ∗ Rr c)
  X c := iprop(∃ r, prngReg c r)
  Y c := iprop(∃ r, prngReg c r)
  Z c := Pipeline.unscopedRest (Ix := Unit) (Name := ℕ) (U := UR sig nD τ) (Lvl := ℕ) spec2 c (Vr (Wc m) c)
  hentry c := by
    rw [Pipeline.ownSems0_none]
    iintro ⟨⟨Hub, Hp, HO⟩, -, -⟩
    ihave H := (entry2 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (Vr (Wc m)) qsh c)
    unfold Pipeline.ΦA
    iintro ⟨Hp, -, Hr⟩
    isplitl [Hr]; · iexact Hr
    iexact Hp
  hout c := by
    rw [Pipeline.ownSems0_none]
    refine BIBase.Entails.trans (hout2 (Vr (Wc m)) qsh c) ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (leave2 m c); isplitl [Ha]; · iexact Ha
      iexact Hrest
    isplitl [HY]; · iexact HY
    unfold Pipeline.Dat.owesAt Pipeline.owesWithin
    icases HO with ⟨%W, -, HO⟩; iexists W; iexact HO

/-! ## @main as segments, and the run -/

/-- Core `c`'s unscoped buffers at launch. -/
abbrev W0 (c : Dev nD) : Valuation τ sig (Elt F) := fun b => m (c, b)

/-- The host operations before the first call, as a segment over every unscoped buffer, from the launch contents. -/
abbrev hostSeg : HostSeg (Name := ℕ) (U := UR sig nD τ) (pcfgs (F := F)) defs₀ 𝒱₀ Lz lvz :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) Rr

/-- @main's four items in order. -/
abbrev segs : List (Seg (pcfgs (F := F)) adm (pdats m) () defs₀ 𝒱₀ Lz lvz) :=
  [.host (hostSeg m), .region (reg0 m), .region (reg1 m), .region (reg2 m)]

theorem main_run (c : Dev nD) : main (F := F) c = Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A buffer that no host operation and no call writes reaches the end as launched. -/
theorem Wd_kept (c : Dev nD) (r : Ref sig .tc) (h9 : r ≠ main_v9) (h10 : r ≠ main_v10) (h11 : r ≠ main_v11) (hW : r ∉ hostOps0_W) :
    Wd m c (Proc.devRef .tc r) = m ((c : Thread nD τ).loc r) :=
  (Wd_of_ne m c r h11).trans <| (Wc_of_ne m c r h10).trans <| (Wb_of_ne m c r h9).trans (V1_of m c r hW)

/-- The last thread state without the dues: every unscoped buffer at the last contents, the generator register at some state. -/
abbrev Tn (c : Dev nD) : sProp 𝕄 := iprop(StableHlo.held (c : Thread nD τ) (Pipeline.ucRefs τ sig) (Wd m c) ∗ ∃ r, prngReg c r)

set_option backward.isDefEq.respectTransparency.types false in
/-- THE RUN. At the compiled mesh, at any float instance, from any memory with zero counters: every weakly fair execution of
    @main on the TensorCores terminates, nothing faulting, and every final state has the result array `main_v11` at what the
    third call's write-backs leave (`res2`) and every argument array as launched. -/
theorem run : θ_run defs (onTc (τ := τ) (main (F := F))) ⟨m, fun _ => 0, ρ⟩ (fun r => ∀ c : Dev nD,
      r.2.mem ((c.tc : Thread nD τ).loc main_v11) = res2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m) () cellOf_inj emb₁ defs₀ 𝒱₀ Lz lvz m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU _ : sProp 𝕄) ⊢ BI.own (emb₁ (initOf (Pipeline.cells (Pipeline.pin (pcfgs (F := F)) adm) cellOf_inj)
          (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rr c)) (Tₙ := Tn m)
    (hch := ⟨fun _ => .rfl, fun _ => .rfl, fun _ => .rfl, fun _ => .rfl, fun c => by
      show iprop(StableHlo.held (c : Thread nD τ) (Pipeline.ucRefs τ sig) (Wd m c) ∗ Rr c)
        ⊢ iprop(Tn m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach Lz lvz fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wd m c b)
    (hfin := fun c s' => by
      iintro ⟨⟨Hh, -⟩, HSI⟩
      unfold StableHlo.held
      imodintro
      iapply (pointsTo_read_all (Pipeline.ucRefs τ sig) (fun b => (((c : Thread nD τ)).1, b)) (Wd m c) s')
      isplitl [Hh] <;> iassumption)
    (hQ := fun s h c =>
      ⟨(h c _ (mem_uc main_v11 (by decide))).trans (Wd_out m c),
       (h c _ (mem_uc main_arg0 (by decide))).trans (Wd_kept m c main_arg0 (by decide) (by decide) (by decide) (by decide)),
       (h c _ (mem_uc main_arg1 (by decide))).trans (Wd_kept m c main_arg1 (by decide) (by decide) (by decide) (by decide)),
       (h c _ (mem_uc main_arg2 (by decide))).trans (Wd_kept m c main_arg2 (by decide) (by decide) (by decide) (by decide)),
       (h c _ (mem_uc main_arg3 (by decide))).trans (Wd_kept m c main_arg3 (by decide) (by decide) (by decide) (by decide)),
       (h c _ (mem_uc main_arg4 (by decide))).trans (Wd_kept m c main_arg4 (by decide) (by decide) (by decide) (by decide)),
       (h c _ (mem_uc main_arg5 (by decide))).trans (Wd_kept m c main_arg5 (by decide) (by decide) (by decide) (by decide)),
       (h c _ (mem_uc main_arg6 (by decide))).trans (Wd_kept m c main_arg6 (by decide) (by decide) (by decide) (by decide)),
       (h c _ (mem_uc main_arg7 (by decide))).trans (Wd_kept m c main_arg7 (by decide) (by decide) (by decide) (by decide)),
       (h c _ (mem_uc main_arg8 (by decide))).trans (Wd_kept m c main_arg8 (by decide) (by decide) (by decide) (by decide)),
       (h c _ (mem_uc main_arg9 (by decide))).trans (Wd_kept m c main_arg9 (by decide) (by decide) (by decide) (by decide)),
       (h c _ (mem_uc main_arg10 (by decide))).trans (Wd_kept m c main_arg10 (by decide) (by decide) (by decide) (by decide)),
       (h c _ (mem_uc main_arg11 (by decide))).trans (Wd_kept m c main_arg11 (by decide) (by decide) (by decide) (by decide)),
       (h c _ (mem_uc main_arg12 (by decide))).trans (Wd_kept m c main_arg12 (by decide) (by decide) (by decide) (by decide))⟩)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => (h c).2) (run m ρ)

end Cert.Kernel.Hand

end
-- ==== Proof.KI.R0.Runs.lean ====
/- Region 0 (the first message-passing step): what the three runs of the body share — the entry
   valuation's blocks, the two branch conditions decided over the 32 grid points, where the output window is
   idle, the staging and scratch memrefs, and the region invariant with the scratch as an owned memref. -/
import proofs.«172293_j20512763806108_2_alg».proof.Proof.Gen.KernelIdeal.Launch
import proofs.«172293_j20512763806108_2_alg».proof.Proof.Gen.KernelIdeal.Skeleton
import proofs.«172293_j20512763806108_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, fetched there or not. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Input window 9's current staging buffer holds its block at every point, fetched there or not. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the first conditional (reset of the accumulator), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The condition of the second conditional (the update and the output store). -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
/-- Case A (reset): nothing is stored into the output window, and it is not written back. -/
theorem idleAt0_10_A : ∀ t : Fin cfg0.N, cond0_0 (grid0.coords t) → ¬cond0_1 (grid0.coords t) → cfg0.idle 10 (grid0.coords t) = true := by decide +kernel
theorem noFlush0_10_A : ∀ t : Fin cfg0.N, cond0_0 (grid0.coords t) → ¬cond0_1 (grid0.coords t) → (cfg0.win 10).flush t = false := by decide +kernel
/-- Case B (accumulate only): likewise. -/
theorem idleAt0_10_B : ∀ t : Fin cfg0.N, ¬cond0_0 (grid0.coords t) → ¬cond0_1 (grid0.coords t) → cfg0.idle 10 (grid0.coords t) = true := by decide +kernel
theorem noFlush0_10_B : ∀ t : Fin cfg0.N, ¬cond0_0 (grid0.coords t) → ¬cond0_1 (grid0.coords t) → (cfg0.win 10).flush t = false := by decide +kernel
/-- Case C (finish): the output window is live. -/
theorem liveAt0_10_C : ∀ t : Fin cfg0.N, ¬cond0_0 (grid0.coords t) → cond0_1 (grid0.coords t) → cfg0.idle 10 (grid0.coords t) = false := by decide +kernel

/-! ## The staging and scratch memrefs -/

/-- One staging buffer of the output window, through which its contents are stated. -/
abbrev VO0_10 : View sig .tc .vmem S512x128 .f32 := (Memref.whole cc0_stg10_0 : Memref sig .tc .vmem S512x128 .f32).view
abbrev ms0_0 (t : Fin cfg0.N) : Memref sig .tc .vmem S512x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x128 .f32 := win0_10.stage (cfg0.slots t 10)
abbrev hs0_10 (t : Fin cfg0.N) : (ms0_10 t).IsWhole := hstage0_10 ((cfg0.slots t 10).cast nbuf0_10)
/-- The scratch accumulator: a whole scoped buffer of the kernel's own, carried between points. -/
abbrev scM0_0 : Memref sig .tc .vmem S512x128 .f32 := Memref.whole cc0_scratch0
abbrev VS0_0 : View sig .tc .vmem S512x128 .f32 := scM0_0.view

/-- The rest of the core's scoped buffers, which the body never opens. -/
abbrev restBut0 (c : Dev nD) : sProp 𝕄 :=
  Pipeline.scopedRestBut (Ix := Unit) (Name := ℕ) (U := UR sig nD τ) (Lvl := ℕ) (Val := Elt F) spec0 c [cc0_scratch0]

/-- The class's invariant with the scratch as a memref owned at some contents. -/
theorem PhiA0_eq (c : Dev nD) :
    (Pipeline.ΦA spec0 c : sProp 𝕄)
      = iprop(iprop((∃ d, owns (c : Thread nD τ) scM0_0 fullShare d) ∗ restBut0 c) ∗ (∃ r, prngReg c r)) := by
  unfold Pipeline.ΦA; rw [scopedRest0_split]; simp only [scM0_0, owns_whole]; try rfl

end Cert.KernelIdeal.Hand

end
-- ==== Proof.KI.R0.RunA.lean ====
/- Region 0, case A of the body: the accumulator is reset (first column block of a row block), then the tile's messages are added; nothing is stored to the output block. The body's triple on whole staging memrefs, with the
   pieces each written buffer ends with as the witness. -/
import proofs.«172293_j20512763806108_2_alg».proof.Proof.KI.R0.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- (the run's proof term is large)
set_option maxHeartbeats 1000000 in
/-- On whole memrefs — the ten inputs at their contents, the output block at contents handed back untouched, the accumulator at anything — the body runs to the continuation holding the inputs as they were and the accumulator with its pieces written. -/
noncomputable def kernelRun0_A (c : Dev nD) (i : grid0.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : cond0_0 i) (hc1 : ¬cond0_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) :
    Σ' (L10 : List (View.Piece (Elt F) S512x128 .f32)), { LS0 : List (View.Piece (Elt F) S512x128 .f32) //
      ∀ (xi10 : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ (∃ f, arg13.view.loc (c : Thread nD τ) ↦[arg13.view.set]{fullShare} arg13.view.writes (Elt F) f LS0)) -∗ K ⟨⟩))
          ⊢ wp frame (wpE (defs₀ (F := F)) Variants.none c none) E (cc0__step_kernel i arg2 harg2 arg3 harg3 arg4 harg4 arg5 harg5 arg6 harg6 arg7 harg7 arg8 harg8 arg9 harg9 arg10 harg10 arg11 harg11 arg12 harg12 arg13 harg13) K } := by
  refine ⟨[], ?_, fun xi10 E K => ?run⟩
  case run =>
    simp only [cc0__step_kernel_eq_skeleton]; unfold cc0__step_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; iexact HS0

end Cert.KernelIdeal.Hand

end
-- ==== Proof.KI.R0.RunB.lean ====
/- Region 0, case B of the body: the tile's messages are added to the accumulator; nothing is stored to the output block. The body's triple on whole staging memrefs, with the
   pieces each written buffer ends with as the witness. -/
import proofs.«172293_j20512763806108_2_alg».proof.Proof.KI.R0.RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- (the run's proof term is large)
set_option maxHeartbeats 1000000 in
/-- On whole memrefs — the ten inputs at their contents, the output block at contents handed back untouched, the accumulator at what the point before left — the body runs to the continuation holding the inputs as they were and the accumulator with its pieces written. -/
noncomputable def kernelRun0_B (c : Dev nD) (i : grid0.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond0_0 i) (hc1 : ¬cond0_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) :
    Σ' (L10 : List (View.Piece (Elt F) S512x128 .f32)), { LS0 : List (View.Piece (Elt F) S512x128 .f32) //
      ∀ (xi10 : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ (∃ f, arg13.view.loc (c : Thread nD τ) ↦[arg13.view.set]{fullShare} arg13.view.writes (Elt F) f LS0)) -∗ K ⟨⟩))
          ⊢ wp frame (wpE (defs₀ (F := F)) Variants.none c none) E (cc0__step_kernel i arg2 harg2 arg3 harg3 arg4 harg4 arg5 harg5 arg6 harg6 arg7 harg7 arg8 harg8 arg9 harg9 arg10 harg10 arg11 harg11 arg12 harg12 arg13 harg13) K } := by
  refine ⟨[], ?_, fun xi10 E K => ?run⟩
  case run =>
    simp only [cc0__step_kernel_eq_skeleton]; unfold cc0__step_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; iexact HS0

end Cert.KernelIdeal.Hand

end
-- ==== Proof.KI.R0.RunC.lean ====
/- Region 0, case C of the body: the tile's messages are added to the accumulator, then the update and the layer normalisation of the row block are stored to the output block. The body's triple on whole staging memrefs, with the
   pieces each written buffer ends with as the witness. -/
import proofs.«172293_j20512763806108_2_alg».proof.Proof.KI.R0.RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- (the run's proof term is large)
set_option maxHeartbeats 1000000 in
/-- On whole memrefs — the ten inputs at their contents, the output block at anything, the accumulator at what the point before left — the body runs to the continuation holding the inputs as they were, the output block with its pieces written and the accumulator with its pieces written. -/
noncomputable def kernelRun0_C (c : Dev nD) (i : grid0.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond0_0 i) (hc1 : cond0_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) :
    Σ' (L10 : List (View.Piece (Elt F) S512x128 .f32)), { LS0 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0)) -∗ K ⟨⟩))
          ⊢ wp frame (wpE (defs₀ (F := F)) Variants.none c none) E (cc0__step_kernel i arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0__step_kernel_eq_skeleton]; unfold cc0__step_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    iexists _; iexact HS0

end Cert.KernelIdeal.Hand

end
-- ==== Proof.KI.R0.Body.lean ====
/- Region 0: what the output block and the accumulator hold after each grid point, the proof data of the
   pipeline over an entry valuation, and the body obligation at every point. -/
import proofs.«172293_j20512763806108_2_alg».proof.Proof.KI.R0.RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b)) (q : Fin 11 → PosShare TreeShare)

/-! ## What each case leaves -/

/-- Case A stores nothing into the output block: a placeholder nothing consults (the window is idle there). -/
def out0_A_10 (c : Dev nD) (i : grid0.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : cond0_0 i) (hc1 : ¬cond0_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) : Vec F S512x128 .f32 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).1)

/-- Case A's pieces for the accumulator cover it. -/
theorem scover0_A_0 (c : Dev nD) (i : grid0.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : cond0_0 i) (hc1 : ¬cond0_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (y : S512x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).2.1 S512x128.size (by sl_kernel_rfl) y

/-- What case A leaves in the accumulator: its pieces read back. -/
def sout0_A_0 (c : Dev nD) (i : grid0.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : cond0_0 i) (hc1 : ¬cond0_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) : Vec F S512x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).2.1)

/-- Case B stores nothing into the output block: a placeholder nothing consults. -/
def out0_B_10 (c : Dev nD) (i : grid0.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond0_0 i) (hc1 : ¬cond0_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) : Vec F S512x128 .f32 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).1)

/-- Case B's pieces for the accumulator cover it. -/
theorem scover0_B_0 (c : Dev nD) (i : grid0.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond0_0 i) (hc1 : ¬cond0_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) (y : S512x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1 S512x128.size (by sl_kernel_rfl) y

/-- What case B leaves in the accumulator. -/
def sout0_B_0 (c : Dev nD) (i : grid0.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond0_0 i) (hc1 : ¬cond0_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) : Vec F S512x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1)

/-- Case C's pieces for the output block cover it (one whole store). -/
theorem cover0_C_10 (c : Dev nD) (i : grid0.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond0_0 i) (hc1 : cond0_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) (y : S512x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).1 S512x128.size (by sl_kernel_rfl) y

/-- What case C leaves in the output block's staging buffer. -/
def out0_C_10 (c : Dev nD) (i : grid0.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond0_0 i) (hc1 : cond0_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) : Vec F S512x128 .f32 :=
  VO0_10.read (Elt F) (VO0_10.writes (Elt F) VO0_10.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).1)

/-- Case C's pieces for the accumulator cover it. -/
theorem scover0_C_0 (c : Dev nD) (i : grid0.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond0_0 i) (hc1 : cond0_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) (y : S512x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1 S512x128.size (by sl_kernel_rfl) y

/-- What case C leaves in the accumulator. -/
def sout0_C_0 (c : Dev nD) (i : grid0.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond0_0 i) (hc1 : cond0_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) : Vec F S512x128 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1)

/-! ## What the output block and the accumulator hold after each point -/

/-- After the body at position `n`: (the output window's staging contents, the accumulator's contents) — the case the
    position selects, run at the point's memrefs and input blocks over what the point before left in the accumulator. -/
def outsAt0 (c : Dev nD) : (n : ℕ) → n < cfg0.N → Vec F S512x128 .f32 × Vec F S512x128 .f32
  | 0, hn => (out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩))
  | n + 1, hn =>
    if h0 : (n + 1) % 4 = 0 then
      if h1 : (n + 1) % 4 = 3 then
        False.elim (by omega)
      else
        (out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩))
    else
      if h1 : (n + 1) % 4 = 3 then
        (out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2)
      else
        (out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2)

theorem outsAt0_A (c : Dev nD) (t : Fin cfg0.N) (h0 : t.val % 4 = 0) (h1 : ¬t.val % 4 = 3) :
    outsAt0 V c t.val t.isLt = (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the accumulator at what the
    point before left, the other scoped buffers unopened, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restBut0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ restBut0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ restBut0 c) ∗ (∃ r, prngReg c r)) := by
  cases n with
  | zero => exact absurd rfl hz
  | succ n => rfl

/-! ## The pipeline's proof data -/

/-- The proof data of region 0 on core `c`: the arrays as the region finds them; after the body each input's buffer at its
    block, the output's at `outsAt0`; the invariant `PhiS0`; nothing owed; the shares a parameter. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => (outsAt0 V c t.val t.isLt).1
  Φ t := PhiS0 V c t.val (Nat.le_of_lt_succ t.isLt)
  q := q
  owed _ := 0

theorem A_eq0 (c : Dev nD) (w : Fin cfg0.W) : (dat0 V q c).A w = V c (Pipeline.arrRef spec0 w) := by
  dsimp only [dat0]

theorem PhiS0_castSucc (c : Dev nD) (t : Fin cfg0.N) :
    (dat0 V q c).Φ t.castSucc = PhiS0 V c t.val (Nat.le_of_lt t.isLt) := by
  dsimp only [dat0]; simp only [Fin.coe_castSucc]

theorem after0_0 (c : Dev nD) (t : Fin cfg0.N) : (dat0 V q c).after 0 t = iblk0 V c 0 t := by dsimp only [dat0]
theorem after0_1 (c : Dev nD) (t : Fin cfg0.N) : (dat0 V q c).after 1 t = iblk0 V c 1 t := by dsimp only [dat0]
theorem after0_2 (c : Dev nD) (t : Fin cfg0.N) : (dat0 V q c).after 2 t = iblk0 V c 2 t := by dsimp only [dat0]
theorem after0_3 (c : Dev nD) (t : Fin cfg0.N) : (dat0 V q c).after 3 t = iblk0 V c 3 t := by dsimp only [dat0]
theorem after0_4 (c : Dev nD) (t : Fin cfg0.N) : (dat0 V q c).after 4 t = iblk0 V c 4 t := by dsimp only [dat0]
theorem after0_5 (c : Dev nD) (t : Fin cfg0.N) : (dat0 V q c).after 5 t = iblk0 V c 5 t := by dsimp only [dat0]
theorem after0_6 (c : Dev nD) (t : Fin cfg0.N) : (dat0 V q c).after 6 t = iblk0 V c 6 t := by dsimp only [dat0]
theorem after0_7 (c : Dev nD) (t : Fin cfg0.N) : (dat0 V q c).after 7 t = iblk0 V c 7 t := by dsimp only [dat0]
theorem after0_8 (c : Dev nD) (t : Fin cfg0.N) : (dat0 V q c).after 8 t = iblk0 V c 8 t := by dsimp only [dat0]
theorem after0_9 (c : Dev nD) (t : Fin cfg0.N) : (dat0 V q c).after 9 t = iblk0 V c 9 t := by dsimp only [dat0]
theorem after0_10 (c : Dev nD) (t : Fin cfg0.N) : (dat0 V q c).after 10 t = (outsAt0 V c t.val t.isLt).1 := by dsimp only [dat0]

theorem before0_0 (c : Dev nD) (t : Fin cfg0.N) (d) : (dat0 V q c).before 0 t d = iblk0 V c 0 t :=
  before0_0_of V (dat0 V q c) (A_eq0 V q c 0) (after0_0 V q c) t d
theorem before0_1 (c : Dev nD) (t : Fin cfg0.N) (d) : (dat0 V q c).before 1 t d = iblk0 V c 1 t :=
  before0_1_of V (dat0 V q c) (A_eq0 V q c 1) (after0_1 V q c) t d
theorem before0_2 (c : Dev nD) (t : Fin cfg0.N) (d) : (dat0 V q c).before 2 t d = iblk0 V c 2 t :=
  before0_2_of V (dat0 V q c) (A_eq0 V q c 2) (after0_2 V q c) t d
theorem before0_3 (c : Dev nD) (t : Fin cfg0.N) (d) : (dat0 V q c).before 3 t d = iblk0 V c 3 t :=
  before0_3_of V (dat0 V q c) (A_eq0 V q c 3) (after0_3 V q c) t d
theorem before0_4 (c : Dev nD) (t : Fin cfg0.N) (d) : (dat0 V q c).before 4 t d = iblk0 V c 4 t :=
  before0_4_of V (dat0 V q c) (A_eq0 V q c 4) (after0_4 V q c) t d
theorem before0_5 (c : Dev nD) (t : Fin cfg0.N) (d) : (dat0 V q c).before 5 t d = iblk0 V c 5 t :=
  before0_5_of V (dat0 V q c) (A_eq0 V q c 5) (after0_5 V q c) t d
theorem before0_6 (c : Dev nD) (t : Fin cfg0.N) (d) : (dat0 V q c).before 6 t d = iblk0 V c 6 t :=
  before0_6_of V (dat0 V q c) (A_eq0 V q c 6) (after0_6 V q c) t d
theorem before0_7 (c : Dev nD) (t : Fin cfg0.N) (d) : (dat0 V q c).before 7 t d = iblk0 V c 7 t :=
  before0_7_of V (dat0 V q c) (A_eq0 V q c 7) (after0_7 V q c) t d
theorem before0_8 (c : Dev nD) (t : Fin cfg0.N) (d) : (dat0 V q c).before 8 t d = iblk0 V c 8 t :=
  before0_8_of V (dat0 V q c) (A_eq0 V q c 8) (after0_8 V q c) t d
theorem before0_9 (c : Dev nD) (t : Fin cfg0.N) (d) : (dat0 V q c).before 9 t d = iblk0 V c 9 t :=
  before0_9_of V (dat0 V q c) (A_eq0 V q c 9) (after0_9 V q c) t d

/-! ## The body obligation, at a generic point -/

def bodyPre0 (c : Dev nD) (t : Fin cfg0.N) : sProp 𝕄 :=
  iprop((dat0 V q c).Φ t.castSucc ∗ (dat0 V q c).owesAt () t.castSucc
    ∗ (∃ d, owns (c : Thread nD τ) (ms0_0 t) fullShare ((dat0 V q c).before 0 t d))
    ∗ (∃ d, owns (c : Thread nD τ) (ms0_1 t) fullShare ((dat0 V q c).before 1 t d))
    ∗ (∃ d, owns (c : Thread nD τ) (ms0_2 t) fullShare ((dat0 V q c).before 2 t d))
    ∗ (∃ d, owns (c : Thread nD τ) (ms0_3 t) fullShare ((dat0 V q c).before 3 t d))
    ∗ (∃ d, owns (c : Thread nD τ) (ms0_4 t) fullShare ((dat0 V q c).before 4 t d))
    ∗ (∃ d, owns (c : Thread nD τ) (ms0_5 t) fullShare ((dat0 V q c).before 5 t d))
    ∗ (∃ d, owns (c : Thread nD τ) (ms0_6 t) fullShare ((dat0 V q c).before 6 t d))
    ∗ (∃ d, owns (c : Thread nD τ) (ms0_7 t) fullShare ((dat0 V q c).before 7 t d))
    ∗ (∃ d, owns (c : Thread nD τ) (ms0_8 t) fullShare ((dat0 V q c).before 8 t d))
    ∗ (∃ d, owns (c : Thread nD τ) (ms0_9 t) fullShare ((dat0 V q c).before 9 t d))
    ∗ (∃ d, owns (c : Thread nD τ) (ms0_10 t) fullShare ((dat0 V q c).before 10 t d)))

def bodyPost0 (c : Dev nD) (t : Fin cfg0.N) : sProp 𝕄 :=
  iprop((dat0 V q c).Φ t.succ ∗ (dat0 V q c).owesAt () t.succ
    ∗ (dat0 V q c).leavesExact 0 t
    ∗ (dat0 V q c).leavesExact 1 t
    ∗ (dat0 V q c).leavesExact 2 t
    ∗ (dat0 V q c).leavesExact 3 t
    ∗ (dat0 V q c).leavesExact 4 t
    ∗ (dat0 V q c).leavesExact 5 t
    ∗ (dat0 V q c).leavesExact 6 t
    ∗ (dat0 V q c).leavesExact 7 t
    ∗ (dat0 V q c).leavesExact 8 t
    ∗ (dat0 V q c).leavesExact 9 t
    ∗ (dat0 V q c).leavesExact 10 t)

set_option maxHeartbeats 4800000 in
/-- The body at any point: the inputs' memrefs hold their blocks; the position says which case the point is in; the run of
    that case applies; the invariant hands the body the accumulator at what the point before left (at anything at the
    first point) and takes it back at this point's contents. -/
theorem sound_body0 (c : Dev nD) (t : Fin cfg0.N) :
    bodyPre0 V q c t ⊢ wp frame (wpE (defs₀ (F := F)) Variants.none c none) Set.univ (bodyAt0 t) (fun _ => bodyPost0 V q c t) := by
  unfold bodyPre0 bodyPost0 bodyAt0
  simp only [before0_0, before0_1, before0_2, before0_3, before0_4, before0_5, before0_6, before0_7, before0_8, before0_9]
  rw [show (dat0 V q c).owesAt () t.succ = (dat0 V q c).owesAt () t.castSucc from rfl]
  rw [show (dat0 V q c).Φ t.succ = PhiS0 V c (t.val + 1) t.isLt from rfl, PhiS0_succ]
  have hN : t.val < 32 := lt_of_lt_of_eq t.isLt (show cfg0.N = 32 from N_0)
  by_cases h0 : t.val % 4 = 0
  · by_cases h1 : t.val % 4 = 3
    · exfalso; omega
    · rw [show (dat0 V q c).leavesExact 0 t = owns (c : Thread nD τ) (ms0_0 t) fullShare ((dat0 V q c).after 0 t) from by
        unfold Dat.leavesExact; rw [liveAt0_0 t], after0_0]
      rw [show (dat0 V q c).leavesExact 1 t = owns (c : Thread nD τ) (ms0_1 t) fullShare ((dat0 V q c).after 1 t) from by
        unfold Dat.leavesExact; rw [liveAt0_1 t], after0_1]
      rw [show (dat0 V q c).leavesExact 2 t = owns (c : Thread nD τ) (ms0_2 t) fullShare ((dat0 V q c).after 2 t) from by
        unfold Dat.leavesExact; rw [liveAt0_2 t], after0_2]
      rw [show (dat0 V q c).leavesExact 3 t = owns (c : Thread nD τ) (ms0_3 t) fullShare ((dat0 V q c).after 3 t) from by
        unfold Dat.leavesExact; rw [liveAt0_3 t], after0_3]
      rw [show (dat0 V q c).leavesExact 4 t = owns (c : Thread nD τ) (ms0_4 t) fullShare ((dat0 V q c).after 4 t) from by
        unfold Dat.leavesExact; rw [liveAt0_4 t], after0_4]
      rw [show (dat0 V q c).leavesExact 5 t = owns (c : Thread nD τ) (ms0_5 t) fullShare ((dat0 V q c).after 5 t) from by
        unfold Dat.leavesExact; rw [liveAt0_5 t], after0_5]
      rw [show (dat0 V q c).leavesExact 6 t = owns (c : Thread nD τ) (ms0_6 t) fullShare ((dat0 V q c).after 6 t) from by
        unfold Dat.leavesExact; rw [liveAt0_6 t], after0_6]
      rw [show (dat0 V q c).leavesExact 7 t = owns (c : Thread nD τ) (ms0_7 t) fullShare ((dat0 V q c).after 7 t) from by
        unfold Dat.leavesExact; rw [liveAt0_7 t], after0_7]
      rw [show (dat0 V q c).leavesExact 8 t = owns (c : Thread nD τ) (ms0_8 t) fullShare ((dat0 V q c).after 8 t) from by
        unfold Dat.leavesExact; rw [liveAt0_8 t], after0_8]
      rw [show (dat0 V q c).leavesExact 9 t = owns (c : Thread nD τ) (ms0_9 t) fullShare ((dat0 V q c).after 9 t) from by
        unfold Dat.leavesExact; rw [liveAt0_9 t], after0_9]
      rw [Dat.leavesExact_idle (dat0 V q c) 10 t (idleAt0_10_A t ((hcond0_0 t).mpr h0) (fun h => h1 ((hcond0_1 t).mp h))) (noFlush0_10_A t ((hcond0_0 t).mpr h0) (fun h => h1 ((hcond0_1 t).mp h)))]
      rw [outsAt0_A V c t h0 h1]
      unfold sout0_A_0; (try dsimp only)
      by_cases hz : t.val = 0
      · rw [PhiS0_castSucc V q c t, PhiS0_zero V c _ _ hz, PhiA0_eq]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_A c (grid0.coords t) _ _ _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        iintro ⟨H0, H1, H2, H3, H4, H5, H6, H7, H8, H9, H10, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexists _; iexact H10
      · rw [PhiS0_castSucc V q c t, PhiS0_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_A c (grid0.coords t) _ _ _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexists _; iexact HS0
        iintro ⟨H0, H1, H2, H3, H4, H5, H6, H7, H8, H9, H10, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexists _; iexact H10
  · by_cases h1 : t.val % 4 = 3
    · rw [show (dat0 V q c).leavesExact 0 t = owns (c : Thread nD τ) (ms0_0 t) fullShare ((dat0 V q c).after 0 t) from by
        unfold Dat.leavesExact; rw [liveAt0_0 t], after0_0]
      rw [show (dat0 V q c).leavesExact 1 t = owns (c : Thread nD τ) (ms0_1 t) fullShare ((dat0 V q c).after 1 t) from by
        unfold Dat.leavesExact; rw [liveAt0_1 t], after0_1]
      rw [show (dat0 V q c).leavesExact 2 t = owns (c : Thread nD τ) (ms0_2 t) fullShare ((dat0 V q c).after 2 t) from by
        unfold Dat.leavesExact; rw [liveAt0_2 t], after0_2]
      rw [show (dat0 V q c).leavesExact 3 t = owns (c : Thread nD τ) (ms0_3 t) fullShare ((dat0 V q c).after 3 t) from by
        unfold Dat.leavesExact; rw [liveAt0_3 t], after0_3]
      rw [show (dat0 V q c).leavesExact 4 t = owns (c : Thread nD τ) (ms0_4 t) fullShare ((dat0 V q c).after 4 t) from by
        unfold Dat.leavesExact; rw [liveAt0_4 t], after0_4]
      rw [show (dat0 V q c).leavesExact 5 t = owns (c : Thread nD τ) (ms0_5 t) fullShare ((dat0 V q c).after 5 t) from by
        unfold Dat.leavesExact; rw [liveAt0_5 t], after0_5]
      rw [show (dat0 V q c).leavesExact 6 t = owns (c : Thread nD τ) (ms0_6 t) fullShare ((dat0 V q c).after 6 t) from by
        unfold Dat.leavesExact; rw [liveAt0_6 t], after0_6]
      rw [show (dat0 V q c).leavesExact 7 t = owns (c : Thread nD τ) (ms0_7 t) fullShare ((dat0 V q c).after 7 t) from by
        unfold Dat.leavesExact; rw [liveAt0_7 t], after0_7]
      rw [show (dat0 V q c).leavesExact 8 t = owns (c : Thread nD τ) (ms0_8 t) fullShare ((dat0 V q c).after 8 t) from by
        unfold Dat.leavesExact; rw [liveAt0_8 t], after0_8]
      rw [show (dat0 V q c).leavesExact 9 t = owns (c : Thread nD τ) (ms0_9 t) fullShare ((dat0 V q c).after 9 t) from by
        unfold Dat.leavesExact; rw [liveAt0_9 t], after0_9]
      rw [show (dat0 V q c).leavesExact 10 t = owns (c : Thread nD τ) (ms0_10 t) fullShare ((dat0 V q c).after 10 t) from by
        unfold Dat.leavesExact; rw [liveAt0_10_C t (fun h => h0 ((hcond0_0 t).mp h)) ((hcond0_1 t).mpr h1)], after0_10]
      rw [outsAt0_C V c t h0 h1]
      unfold out0_C_10 sout0_C_0; (try dsimp only)
      by_cases hz : t.val = 0
      · exfalso; omega
      · rw [PhiS0_castSucc V q c t, PhiS0_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_C c (grid0.coords t) _ _ _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [HS0]; · iexact HS0
        iintro ⟨H0, H1, H2, H3, H4, H5, H6, H7, H8, H9, ⟨%e10, H10⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        unfold owns; iexists _; isplitr
        swap; · iexact H10
        ipureintro; exact View.read_writes_of_cover _ _ _ _ _ (cover0_C_10 c _ _ _ _ _ _ _ _ _ _ _ _ _ _ _ _ _ _ _ _ _ _ _ _ _ _ _ _ _ _ _ _ _ _ _ _ _ _)
    · rw [show (dat0 V q c).leavesExact 0 t = owns (c : Thread nD τ) (ms0_0 t) fullShare ((dat0 V q c).after 0 t) from by
        unfold Dat.leavesExact; rw [liveAt0_0 t], after0_0]
      rw [show (dat0 V q c).leavesExact 1 t = owns (c : Thread nD τ) (ms0_1 t) fullShare ((dat0 V q c).after 1 t) from by
        unfold Dat.leavesExact; rw [liveAt0_1 t], after0_1]
      rw [show (dat0 V q c).leavesExact 2 t = owns (c : Thread nD τ) (ms0_2 t) fullShare ((dat0 V q c).after 2 t) from by
        unfold Dat.leavesExact; rw [liveAt0_2 t], after0_2]
      rw [show (dat0 V q c).leavesExact 3 t = owns (c : Thread nD τ) (ms0_3 t) fullShare ((dat0 V q c).after 3 t) from by
        unfold Dat.leavesExact; rw [liveAt0_3 t], after0_3]
      rw [show (dat0 V q c).leavesExact 4 t = owns (c : Thread nD τ) (ms0_4 t) fullShare ((dat0 V q c).after 4 t) from by
        unfold Dat.leavesExact; rw [liveAt0_4 t], after0_4]
      rw [show (dat0 V q c).leavesExact 5 t = owns (c : Thread nD τ) (ms0_5 t) fullShare ((dat0 V q c).after 5 t) from by
        unfold Dat.leavesExact; rw [liveAt0_5 t], after0_5]
      rw [show (dat0 V q c).leavesExact 6 t = owns (c : Thread nD τ) (ms0_6 t) fullShare ((dat0 V q c).after 6 t) from by
        unfold Dat.leavesExact; rw [liveAt0_6 t], after0_6]
      rw [show (dat0 V q c).leavesExact 7 t = owns (c : Thread nD τ) (ms0_7 t) fullShare ((dat0 V q c).after 7 t) from by
        unfold Dat.leavesExact; rw [liveAt0_7 t], after0_7]
      rw [show (dat0 V q c).leavesExact 8 t = owns (c : Thread nD τ) (ms0_8 t) fullShare ((dat0 V q c).after 8 t) from by
        unfold Dat.leavesExact; rw [liveAt0_8 t], after0_8]
      rw [show (dat0 V q c).leavesExact 9 t = owns (c : Thread nD τ) (ms0_9 t) fullShare ((dat0 V q c).after 9 t) from by
        unfold Dat.leavesExact; rw [liveAt0_9 t], after0_9]
      rw [Dat.leavesExact_idle (dat0 V q c) 10 t (idleAt0_10_B t (fun h => h0 ((hcond0_0 t).mp h)) (fun h => h1 ((hcond0_1 t).mp h))) (noFlush0_10_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS0_castSucc V q c t, PhiS0_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_B c (grid0.coords t) _ _ _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        iintro ⟨H0, H1, H2, H3, H4, H5, H6, H7, H8, H9, H10, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexists _; iexact H10

/-- The library's body obligation, at every point. -/
theorem body_obligation0 (c : Dev nD) : BodyObligation (dat0 (F := F) V q c) (defs₀ (F := F)) Variants.none () Set.univ := fun t => by
  rw [bigSep_W0, bigSep_W0]
  exact sound_body0 V q c t

/-- What the launch hands the region is the invariant before the first point. -/
theorem hin0 (c : Dev nD) : Pipeline.ΦA spec0 c ⊢ (dat0 V q c).Φ 0 := by
  rw [show (dat0 V q c).Φ 0 = PhiS0 V c 0 (Nat.zero_le _) from rfl, PhiS0_zero V c 0 _ rfl]
  try exact Idealize.SL.BI.Entails.refl _

/-- After any point but the first the invariant gives the class's back: the accumulator's contents are forgotten. -/
theorem Phi_out0 (c : Dev nD) (t : Fin (cfg0.N + 1)) (ht : t.val ≠ 0) : (dat0 V q c).Φ t ⊢ Pipeline.ΦA spec0 c := by
  rw [show (dat0 V q c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V q c).Φ (Fin.last cfg0.N) ⊢ Pipeline.ΦA spec0 c :=
  Phi_out0 V q c _ (by rw [Fin.val_last]; have : cfg0.N = 32 := N_0; omega)

end Cert.KernelIdeal.Hand

end
-- ==== Proof.KI.R1.Runs.lean ====
/- Region 1 (the first message-passing step): what the three runs of the body share — the entry
   valuation's blocks, the two branch conditions decided over the 32 grid points, where the output window is
   idle, the staging and scratch memrefs, and the region invariant with the scratch as an owned memref. -/
import proofs.«172293_j20512763806108_2_alg».proof.Proof.Gen.KernelIdeal.Launch
import proofs.«172293_j20512763806108_2_alg».proof.Proof.Gen.KernelIdeal.Skeleton
import proofs.«172293_j20512763806108_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9's current staging buffer holds its block at every point, fetched there or not. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the first conditional (reset of the accumulator), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the second conditional (the update and the output store). -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
theorem liveAt1_8 : ∀ t : Fin cfg1.N, cfg1.idle 8 (grid1.coords t) = false := by decide +kernel
theorem liveAt1_9 : ∀ t : Fin cfg1.N, cfg1.idle 9 (grid1.coords t) = false := by decide +kernel
/-- Case A (reset): nothing is stored into the output window, and it is not written back. -/
theorem idleAt1_10_A : ∀ t : Fin cfg1.N, cond1_0 (grid1.coords t) → ¬cond1_1 (grid1.coords t) → cfg1.idle 10 (grid1.coords t) = true := by decide +kernel
theorem noFlush1_10_A : ∀ t : Fin cfg1.N, cond1_0 (grid1.coords t) → ¬cond1_1 (grid1.coords t) → (cfg1.win 10).flush t = false := by decide +kernel
/-- Case B (accumulate only): likewise. -/
theorem idleAt1_10_B : ∀ t : Fin cfg1.N, ¬cond1_0 (grid1.coords t) → ¬cond1_1 (grid1.coords t) → cfg1.idle 10 (grid1.coords t) = true := by decide +kernel
theorem noFlush1_10_B : ∀ t : Fin cfg1.N, ¬cond1_0 (grid1.coords t) → ¬cond1_1 (grid1.coords t) → (cfg1.win 10).flush t = false := by decide +kernel
/-- Case C (finish): the output window is live. -/
theorem liveAt1_10_C : ∀ t : Fin cfg1.N, ¬cond1_0 (grid1.coords t) → cond1_1 (grid1.coords t) → cfg1.idle 10 (grid1.coords t) = false := by decide +kernel

/-! ## The staging and scratch memrefs -/

/-- One staging buffer of the output window, through which its contents are stated. -/
abbrev VO1_10 : View sig .tc .vmem S512x128 .f32 := (Memref.whole cc1_stg10_0 : Memref sig .tc .vmem S512x128 .f32).view
abbrev ms1_0 (t : Fin cfg1.N) : Memref sig .tc .vmem S512x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x128 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x128 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S512x128 .f32 := win1_10.stage (cfg1.slots t 10)
abbrev hs1_10 (t : Fin cfg1.N) : (ms1_10 t).IsWhole := hstage1_10 ((cfg1.slots t 10).cast nbuf1_10)
/-- The scratch accumulator: a whole scoped buffer of the kernel's own, carried between points. -/
abbrev scM1_0 : Memref sig .tc .vmem S512x128 .f32 := Memref.whole cc1_scratch0
abbrev VS1_0 : View sig .tc .vmem S512x128 .f32 := scM1_0.view

/-- The rest of the core's scoped buffers, which the body never opens. -/
abbrev restBut1 (c : Dev nD) : sProp 𝕄 :=
  Pipeline.scopedRestBut (Ix := Unit) (Name := ℕ) (U := UR sig nD τ) (Lvl := ℕ) (Val := Elt F) spec1 c [cc1_scratch0]

/-- The class's invariant with the scratch as a memref owned at some contents. -/
theorem PhiA1_eq (c : Dev nD) :
    (Pipeline.ΦA spec1 c : sProp 𝕄)
      = iprop(iprop((∃ d, owns (c : Thread nD τ) scM1_0 fullShare d) ∗ restBut1 c) ∗ (∃ r, prngReg c r)) := by
  unfold Pipeline.ΦA; rw [scopedRest1_split]; simp only [scM1_0, owns_whole]; try rfl

end Cert.KernelIdeal.Hand

end
-- ==== Proof.KI.R1.RunA.lean ====
/- Region 1, case A of the body: the accumulator is reset (first column block of a row block), then the tile's messages are added; nothing is stored to the output block. The body's triple on whole staging memrefs, with the
   pieces each written buffer ends with as the witness. -/
import proofs.«172293_j20512763806108_2_alg».proof.Proof.KI.R1.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- (the run's proof term is large)
set_option maxHeartbeats 1000000 in
/-- On whole memrefs — the ten inputs at their contents, the output block at contents handed back untouched, the accumulator at anything — the body runs to the continuation holding the inputs as they were and the accumulator with its pieces written. -/
noncomputable def kernelRun1_A (c : Dev nD) (i : grid1.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : cond1_0 i) (hc1 : ¬cond1_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) :
    Σ' (L10 : List (View.Piece (Elt F) S512x128 .f32)), { LS0 : List (View.Piece (Elt F) S512x128 .f32) //
      ∀ (xi10 : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ (∃ f, arg13.view.loc (c : Thread nD τ) ↦[arg13.view.set]{fullShare} arg13.view.writes (Elt F) f LS0)) -∗ K ⟨⟩))
          ⊢ wp frame (wpE (defs₀ (F := F)) Variants.none c none) E (cc1__step_kernel i arg2 harg2 arg3 harg3 arg4 harg4 arg5 harg5 arg6 harg6 arg7 harg7 arg8 harg8 arg9 harg9 arg10 harg10 arg11 harg11 arg12 harg12 arg13 harg13) K } := by
  refine ⟨[], ?_, fun xi10 E K => ?run⟩
  case run =>
    simp only [cc1__step_kernel_eq_skeleton]; unfold cc1__step_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; iexact HS0

end Cert.KernelIdeal.Hand

end
-- ==== Proof.KI.R1.RunB.lean ====
/- Region 1, case B of the body: the tile's messages are added to the accumulator; nothing is stored to the output block. The body's triple on whole staging memrefs, with the
   pieces each written buffer ends with as the witness. -/
import proofs.«172293_j20512763806108_2_alg».proof.Proof.KI.R1.RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- (the run's proof term is large)
set_option maxHeartbeats 1000000 in
/-- On whole memrefs — the ten inputs at their contents, the output block at contents handed back untouched, the accumulator at what the point before left — the body runs to the continuation holding the inputs as they were and the accumulator with its pieces written. -/
noncomputable def kernelRun1_B (c : Dev nD) (i : grid1.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond1_0 i) (hc1 : ¬cond1_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) :
    Σ' (L10 : List (View.Piece (Elt F) S512x128 .f32)), { LS0 : List (View.Piece (Elt F) S512x128 .f32) //
      ∀ (xi10 : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ (∃ f, arg13.view.loc (c : Thread nD τ) ↦[arg13.view.set]{fullShare} arg13.view.writes (Elt F) f LS0)) -∗ K ⟨⟩))
          ⊢ wp frame (wpE (defs₀ (F := F)) Variants.none c none) E (cc1__step_kernel i arg2 harg2 arg3 harg3 arg4 harg4 arg5 harg5 arg6 harg6 arg7 harg7 arg8 harg8 arg9 harg9 arg10 harg10 arg11 harg11 arg12 harg12 arg13 harg13) K } := by
  refine ⟨[], ?_, fun xi10 E K => ?run⟩
  case run =>
    simp only [cc1__step_kernel_eq_skeleton]; unfold cc1__step_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; iexact HS0

end Cert.KernelIdeal.Hand

end
-- ==== Proof.KI.R1.RunC.lean ====
/- Region 1, case C of the body: the tile's messages are added to the accumulator, then the update and the layer normalisation of the row block are stored to the output block. The body's triple on whole staging memrefs, with the
   pieces each written buffer ends with as the witness. -/
import proofs.«172293_j20512763806108_2_alg».proof.Proof.KI.R1.RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- (the run's proof term is large)
set_option maxHeartbeats 1000000 in
/-- On whole memrefs — the ten inputs at their contents, the output block at anything, the accumulator at what the point before left — the body runs to the continuation holding the inputs as they were, the output block with its pieces written and the accumulator with its pieces written. -/
noncomputable def kernelRun1_C (c : Dev nD) (i : grid1.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond1_0 i) (hc1 : cond1_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) :
    Σ' (L10 : List (View.Piece (Elt F) S512x128 .f32)), { LS0 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0)) -∗ K ⟨⟩))
          ⊢ wp frame (wpE (defs₀ (F := F)) Variants.none c none) E (cc1__step_kernel i arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc1__step_kernel_eq_skeleton]; unfold cc1__step_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    iexists _; iexact HS0

end Cert.KernelIdeal.Hand

end
-- ==== Proof.KI.R1.Body.lean ====
/- Region 1: what the output block and the accumulator hold after each grid point, the proof data of the
   pipeline over an entry valuation, and the body obligation at every point. -/
import proofs.«172293_j20512763806108_2_alg».proof.Proof.KI.R1.RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b)) (q : Fin 11 → PosShare TreeShare)

/-! ## What each case leaves -/

/-- Case A stores nothing into the output block: a placeholder nothing consults (the window is idle there). -/
def out1_A_10 (c : Dev nD) (i : grid1.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : cond1_0 i) (hc1 : ¬cond1_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) : Vec F S512x128 .f32 :=
  VO1_10.read (Elt F) (VO1_10.writes (Elt F) VO1_10.junk (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).1)

/-- Case A's pieces for the accumulator cover it. -/
theorem scover1_A_0 (c : Dev nD) (i : grid1.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : cond1_0 i) (hc1 : ¬cond1_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (y : S512x128.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).2.1 S512x128.size (by sl_kernel_rfl) y

/-- What case A leaves in the accumulator: its pieces read back. -/
def sout1_A_0 (c : Dev nD) (i : grid1.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : cond1_0 i) (hc1 : ¬cond1_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) : Vec F S512x128 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).2.1)

/-- Case B stores nothing into the output block: a placeholder nothing consults. -/
def out1_B_10 (c : Dev nD) (i : grid1.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond1_0 i) (hc1 : ¬cond1_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) : Vec F S512x128 .f32 :=
  VO1_10.read (Elt F) (VO1_10.writes (Elt F) VO1_10.junk (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).1)

/-- Case B's pieces for the accumulator cover it. -/
theorem scover1_B_0 (c : Dev nD) (i : grid1.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond1_0 i) (hc1 : ¬cond1_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) (y : S512x128.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1 S512x128.size (by sl_kernel_rfl) y

/-- What case B leaves in the accumulator. -/
def sout1_B_0 (c : Dev nD) (i : grid1.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond1_0 i) (hc1 : ¬cond1_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) : Vec F S512x128 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1)

/-- Case C's pieces for the output block cover it (one whole store). -/
theorem cover1_C_10 (c : Dev nD) (i : grid1.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond1_0 i) (hc1 : cond1_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) (y : S512x128.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).1 S512x128.size (by sl_kernel_rfl) y

/-- What case C leaves in the output block's staging buffer. -/
def out1_C_10 (c : Dev nD) (i : grid1.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond1_0 i) (hc1 : cond1_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) : Vec F S512x128 .f32 :=
  VO1_10.read (Elt F) (VO1_10.writes (Elt F) VO1_10.junk (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).1)

/-- Case C's pieces for the accumulator cover it. -/
theorem scover1_C_0 (c : Dev nD) (i : grid1.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond1_0 i) (hc1 : cond1_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) (y : S512x128.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1 S512x128.size (by sl_kernel_rfl) y

/-- What case C leaves in the accumulator. -/
def sout1_C_0 (c : Dev nD) (i : grid1.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond1_0 i) (hc1 : cond1_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) : Vec F S512x128 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1)

/-! ## What the output block and the accumulator hold after each point -/

/-- After the body at position `n`: (the output window's staging contents, the accumulator's contents) — the case the
    position selects, run at the point's memrefs and input blocks over what the point before left in the accumulator. -/
def outsAt1 (c : Dev nD) : (n : ℕ) → n < cfg1.N → Vec F S512x128 .f32 × Vec F S512x128 .f32
  | 0, hn => (out1_A_10 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩))
  | n + 1, hn =>
    if h0 : (n + 1) % 4 = 0 then
      if h1 : (n + 1) % 4 = 3 then
        False.elim (by omega)
      else
        (out1_A_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩))
    else
      if h1 : (n + 1) % 4 = 3 then
        (out1_C_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2)
      else
        (out1_B_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the accumulator at what the
    point before left, the other scoped buffers unopened, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ restBut1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ restBut1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ restBut1 c) ∗ (∃ r, prngReg c r)) := by
  cases n with
  | zero => exact absurd rfl hz
  | succ n => rfl

/-! ## The pipeline's proof data -/

/-- The proof data of region 1 on core `c`: the arrays as the region finds them; after the body each input's buffer at its
    block, the output's at `outsAt1`; the invariant `PhiS1`; nothing owed; the shares a parameter. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => (outsAt1 V c t.val t.isLt).1
  Φ t := PhiS1 V c t.val (Nat.le_of_lt_succ t.isLt)
  q := q
  owed _ := 0

theorem A_eq1 (c : Dev nD) (w : Fin cfg1.W) : (dat1 V q c).A w = V c (Pipeline.arrRef spec1 w) := by
  dsimp only [dat1]

theorem PhiS1_castSucc (c : Dev nD) (t : Fin cfg1.N) :
    (dat1 V q c).Φ t.castSucc = PhiS1 V c t.val (Nat.le_of_lt t.isLt) := by
  dsimp only [dat1]; simp only [Fin.coe_castSucc]

theorem after1_0 (c : Dev nD) (t : Fin cfg1.N) : (dat1 V q c).after 0 t = iblk1 V c 0 t := by dsimp only [dat1]
theorem after1_1 (c : Dev nD) (t : Fin cfg1.N) : (dat1 V q c).after 1 t = iblk1 V c 1 t := by dsimp only [dat1]
theorem after1_2 (c : Dev nD) (t : Fin cfg1.N) : (dat1 V q c).after 2 t = iblk1 V c 2 t := by dsimp only [dat1]
theorem after1_3 (c : Dev nD) (t : Fin cfg1.N) : (dat1 V q c).after 3 t = iblk1 V c 3 t := by dsimp only [dat1]
theorem after1_4 (c : Dev nD) (t : Fin cfg1.N) : (dat1 V q c).after 4 t = iblk1 V c 4 t := by dsimp only [dat1]
theorem after1_5 (c : Dev nD) (t : Fin cfg1.N) : (dat1 V q c).after 5 t = iblk1 V c 5 t := by dsimp only [dat1]
theorem after1_6 (c : Dev nD) (t : Fin cfg1.N) : (dat1 V q c).after 6 t = iblk1 V c 6 t := by dsimp only [dat1]
theorem after1_7 (c : Dev nD) (t : Fin cfg1.N) : (dat1 V q c).after 7 t = iblk1 V c 7 t := by dsimp only [dat1]
theorem after1_8 (c : Dev nD) (t : Fin cfg1.N) : (dat1 V q c).after 8 t = iblk1 V c 8 t := by dsimp only [dat1]
theorem after1_9 (c : Dev nD) (t : Fin cfg1.N) : (dat1 V q c).after 9 t = iblk1 V c 9 t := by dsimp only [dat1]
theorem after1_10 (c : Dev nD) (t : Fin cfg1.N) : (dat1 V q c).after 10 t = (outsAt1 V c t.val t.isLt).1 := by dsimp only [dat1]

theorem before1_0 (c : Dev nD) (t : Fin cfg1.N) (d) : (dat1 V q c).before 0 t d = iblk1 V c 0 t :=
  before1_0_of V (dat1 V q c) (A_eq1 V q c 0) (after1_0 V q c) t d
theorem before1_1 (c : Dev nD) (t : Fin cfg1.N) (d) : (dat1 V q c).before 1 t d = iblk1 V c 1 t :=
  before1_1_of V (dat1 V q c) (A_eq1 V q c 1) (after1_1 V q c) t d
theorem before1_2 (c : Dev nD) (t : Fin cfg1.N) (d) : (dat1 V q c).before 2 t d = iblk1 V c 2 t :=
  before1_2_of V (dat1 V q c) (A_eq1 V q c 2) (after1_2 V q c) t d
theorem before1_3 (c : Dev nD) (t : Fin cfg1.N) (d) : (dat1 V q c).before 3 t d = iblk1 V c 3 t :=
  before1_3_of V (dat1 V q c) (A_eq1 V q c 3) (after1_3 V q c) t d
theorem before1_4 (c : Dev nD) (t : Fin cfg1.N) (d) : (dat1 V q c).before 4 t d = iblk1 V c 4 t :=
  before1_4_of V (dat1 V q c) (A_eq1 V q c 4) (after1_4 V q c) t d
theorem before1_5 (c : Dev nD) (t : Fin cfg1.N) (d) : (dat1 V q c).before 5 t d = iblk1 V c 5 t :=
  before1_5_of V (dat1 V q c) (A_eq1 V q c 5) (after1_5 V q c) t d
theorem before1_6 (c : Dev nD) (t : Fin cfg1.N) (d) : (dat1 V q c).before 6 t d = iblk1 V c 6 t :=
  before1_6_of V (dat1 V q c) (A_eq1 V q c 6) (after1_6 V q c) t d
theorem before1_7 (c : Dev nD) (t : Fin cfg1.N) (d) : (dat1 V q c).before 7 t d = iblk1 V c 7 t :=
  before1_7_of V (dat1 V q c) (A_eq1 V q c 7) (after1_7 V q c) t d
theorem before1_8 (c : Dev nD) (t : Fin cfg1.N) (d) : (dat1 V q c).before 8 t d = iblk1 V c 8 t :=
  before1_8_of V (dat1 V q c) (A_eq1 V q c 8) (after1_8 V q c) t d
theorem before1_9 (c : Dev nD) (t : Fin cfg1.N) (d) : (dat1 V q c).before 9 t d = iblk1 V c 9 t :=
  before1_9_of V (dat1 V q c) (A_eq1 V q c 9) (after1_9 V q c) t d

/-! ## The body obligation, at a generic point -/

def bodyPre1 (c : Dev nD) (t : Fin cfg1.N) : sProp 𝕄 :=
  iprop((dat1 V q c).Φ t.castSucc ∗ (dat1 V q c).owesAt () t.castSucc
    ∗ (∃ d, owns (c : Thread nD τ) (ms1_0 t) fullShare ((dat1 V q c).before 0 t d))
    ∗ (∃ d, owns (c : Thread nD τ) (ms1_1 t) fullShare ((dat1 V q c).before 1 t d))
    ∗ (∃ d, owns (c : Thread nD τ) (ms1_2 t) fullShare ((dat1 V q c).before 2 t d))
    ∗ (∃ d, owns (c : Thread nD τ) (ms1_3 t) fullShare ((dat1 V q c).before 3 t d))
    ∗ (∃ d, owns (c : Thread nD τ) (ms1_4 t) fullShare ((dat1 V q c).before 4 t d))
    ∗ (∃ d, owns (c : Thread nD τ) (ms1_5 t) fullShare ((dat1 V q c).before 5 t d))
    ∗ (∃ d, owns (c : Thread nD τ) (ms1_6 t) fullShare ((dat1 V q c).before 6 t d))
    ∗ (∃ d, owns (c : Thread nD τ) (ms1_7 t) fullShare ((dat1 V q c).before 7 t d))
    ∗ (∃ d, owns (c : Thread nD τ) (ms1_8 t) fullShare ((dat1 V q c).before 8 t d))
    ∗ (∃ d, owns (c : Thread nD τ) (ms1_9 t) fullShare ((dat1 V q c).before 9 t d))
    ∗ (∃ d, owns (c : Thread nD τ) (ms1_10 t) fullShare ((dat1 V q c).before 10 t d)))

def bodyPost1 (c : Dev nD) (t : Fin cfg1.N) : sProp 𝕄 :=
  iprop((dat1 V q c).Φ t.succ ∗ (dat1 V q c).owesAt () t.succ
    ∗ (dat1 V q c).leavesExact 0 t
    ∗ (dat1 V q c).leavesExact 1 t
    ∗ (dat1 V q c).leavesExact 2 t
    ∗ (dat1 V q c).leavesExact 3 t
    ∗ (dat1 V q c).leavesExact 4 t
    ∗ (dat1 V q c).leavesExact 5 t
    ∗ (dat1 V q c).leavesExact 6 t
    ∗ (dat1 V q c).leavesExact 7 t
    ∗ (dat1 V q c).leavesExact 8 t
    ∗ (dat1 V q c).leavesExact 9 t
    ∗ (dat1 V q c).leavesExact 10 t)

set_option maxHeartbeats 4800000 in
/-- The body at any point: the inputs' memrefs hold their blocks; the position says which case the point is in; the run of
    that case applies; the invariant hands the body the accumulator at what the point before left (at anything at the
    first point) and takes it back at this point's contents. -/
theorem sound_body1 (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1, before1_2, before1_3, before1_4, before1_5, before1_6, before1_7, before1_8, before1_9]
  rw [show (dat1 V q c).owesAt () t.succ = (dat1 V q c).owesAt () t.castSucc from rfl]
  rw [show (dat1 V q c).Φ t.succ = PhiS1 V c (t.val + 1) t.isLt from rfl, PhiS1_succ]
  have hN : t.val < 32 := lt_of_lt_of_eq t.isLt (show cfg1.N = 32 from N_1)
  by_cases h0 : t.val % 4 = 0
  · by_cases h1 : t.val % 4 = 3
    · exfalso; omega
    · rw [show (dat1 V q c).leavesExact 0 t = owns (c : Thread nD τ) (ms1_0 t) fullShare ((dat1 V q c).after 0 t) from by
        unfold Dat.leavesExact; rw [liveAt1_0 t], after1_0]
      rw [show (dat1 V q c).leavesExact 1 t = owns (c : Thread nD τ) (ms1_1 t) fullShare ((dat1 V q c).after 1 t) from by
        unfold Dat.leavesExact; rw [liveAt1_1 t], after1_1]
      rw [show (dat1 V q c).leavesExact 2 t = owns (c : Thread nD τ) (ms1_2 t) fullShare ((dat1 V q c).after 2 t) from by
        unfold Dat.leavesExact; rw [liveAt1_2 t], after1_2]
      rw [show (dat1 V q c).leavesExact 3 t = owns (c : Thread nD τ) (ms1_3 t) fullShare ((dat1 V q c).after 3 t) from by
        unfold Dat.leavesExact; rw [liveAt1_3 t], after1_3]
      rw [show (dat1 V q c).leavesExact 4 t = owns (c : Thread nD τ) (ms1_4 t) fullShare ((dat1 V q c).after 4 t) from by
        unfold Dat.leavesExact; rw [liveAt1_4 t], after1_4]
      rw [show (dat1 V q c).leavesExact 5 t = owns (c : Thread nD τ) (ms1_5 t) fullShare ((dat1 V q c).after 5 t) from by
        unfold Dat.leavesExact; rw [liveAt1_5 t], after1_5]
      rw [show (dat1 V q c).leavesExact 6 t = owns (c : Thread nD τ) (ms1_6 t) fullShare ((dat1 V q c).after 6 t) from by
        unfold Dat.leavesExact; rw [liveAt1_6 t], after1_6]
      rw [show (dat1 V q c).leavesExact 7 t = owns (c : Thread nD τ) (ms1_7 t) fullShare ((dat1 V q c).after 7 t) from by
        unfold Dat.leavesExact; rw [liveAt1_7 t], after1_7]
      rw [show (dat1 V q c).leavesExact 8 t = owns (c : Thread nD τ) (ms1_8 t) fullShare ((dat1 V q c).after 8 t) from by
        unfold Dat.leavesExact; rw [liveAt1_8 t], after1_8]
      rw [show (dat1 V q c).leavesExact 9 t = owns (c : Thread nD τ) (ms1_9 t) fullShare ((dat1 V q c).after 9 t) from by
        unfold Dat.leavesExact; rw [liveAt1_9 t], after1_9]
      rw [Dat.leavesExact_idle (dat1 V q c) 10 t (idleAt1_10_A t ((hcond1_0 t).mpr h0) (fun h => h1 ((hcond1_1 t).mp h))) (noFlush1_10_A t ((hcond1_0 t).mpr h0) (fun h => h1 ((hcond1_1 t).mp h)))]
      rw [outsAt1_A V c t h0 h1]
      unfold sout1_A_0; (try dsimp only)
      by_cases hz : t.val = 0
      · rw [PhiS1_castSucc V q c t, PhiS1_zero V c _ _ hz, PhiA1_eq]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun1_A c (grid1.coords t) _ _ _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        iintro ⟨H0, H1, H2, H3, H4, H5, H6, H7, H8, H9, H10, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexists _; iexact H10
      · rw [PhiS1_castSucc V q c t, PhiS1_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun1_A c (grid1.coords t) _ _ _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexists _; iexact HS0
        iintro ⟨H0, H1, H2, H3, H4, H5, H6, H7, H8, H9, H10, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexists _; iexact H10
  · by_cases h1 : t.val % 4 = 3
    · rw [show (dat1 V q c).leavesExact 0 t = owns (c : Thread nD τ) (ms1_0 t) fullShare ((dat1 V q c).after 0 t) from by
        unfold Dat.leavesExact; rw [liveAt1_0 t], after1_0]
      rw [show (dat1 V q c).leavesExact 1 t = owns (c : Thread nD τ) (ms1_1 t) fullShare ((dat1 V q c).after 1 t) from by
        unfold Dat.leavesExact; rw [liveAt1_1 t], after1_1]
      rw [show (dat1 V q c).leavesExact 2 t = owns (c : Thread nD τ) (ms1_2 t) fullShare ((dat1 V q c).after 2 t) from by
        unfold Dat.leavesExact; rw [liveAt1_2 t], after1_2]
      rw [show (dat1 V q c).leavesExact 3 t = owns (c : Thread nD τ) (ms1_3 t) fullShare ((dat1 V q c).after 3 t) from by
        unfold Dat.leavesExact; rw [liveAt1_3 t], after1_3]
      rw [show (dat1 V q c).leavesExact 4 t = owns (c : Thread nD τ) (ms1_4 t) fullShare ((dat1 V q c).after 4 t) from by
        unfold Dat.leavesExact; rw [liveAt1_4 t], after1_4]
      rw [show (dat1 V q c).leavesExact 5 t = owns (c : Thread nD τ) (ms1_5 t) fullShare ((dat1 V q c).after 5 t) from by
        unfold Dat.leavesExact; rw [liveAt1_5 t], after1_5]
      rw [show (dat1 V q c).leavesExact 6 t = owns (c : Thread nD τ) (ms1_6 t) fullShare ((dat1 V q c).after 6 t) from by
        unfold Dat.leavesExact; rw [liveAt1_6 t], after1_6]
      rw [show (dat1 V q c).leavesExact 7 t = owns (c : Thread nD τ) (ms1_7 t) fullShare ((dat1 V q c).after 7 t) from by
        unfold Dat.leavesExact; rw [liveAt1_7 t], after1_7]
      rw [show (dat1 V q c).leavesExact 8 t = owns (c : Thread nD τ) (ms1_8 t) fullShare ((dat1 V q c).after 8 t) from by
        unfold Dat.leavesExact; rw [liveAt1_8 t], after1_8]
      rw [show (dat1 V q c).leavesExact 9 t = owns (c : Thread nD τ) (ms1_9 t) fullShare ((dat1 V q c).after 9 t) from by
        unfold Dat.leavesExact; rw [liveAt1_9 t], after1_9]
      rw [show (dat1 V q c).leavesExact 10 t = owns (c : Thread nD τ) (ms1_10 t) fullShare ((dat1 V q c).after 10 t) from by
        unfold Dat.leavesExact; rw [liveAt1_10_C t (fun h => h0 ((hcond1_0 t).mp h)) ((hcond1_1 t).mpr h1)], after1_10]
      rw [outsAt1_C V c t h0 h1]
      unfold out1_C_10 sout1_C_0; (try dsimp only)
      by_cases hz : t.val = 0
      · exfalso; omega
      · rw [PhiS1_castSucc V q c t, PhiS1_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun1_C c (grid1.coords t) _ _ _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [HS0]; · iexact HS0
        iintro ⟨H0, H1, H2, H3, H4, H5, H6, H7, H8, H9, ⟨%e10, H10⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        unfold owns; iexists _; isplitr
        swap; · iexact H10
        ipureintro; exact View.read_writes_of_cover _ _ _ _ _ (cover1_C_10 c _ _ _ _ _ _ _ _ _ _ _ _ _ _ _ _ _ _ _ _ _ _ _ _ _ _ _ _ _ _ _ _ _ _ _ _ _ _)
    · rw [show (dat1 V q c).leavesExact 0 t = owns (c : Thread nD τ) (ms1_0 t) fullShare ((dat1 V q c).after 0 t) from by
        unfold Dat.leavesExact; rw [liveAt1_0 t], after1_0]
      rw [show (dat1 V q c).leavesExact 1 t = owns (c : Thread nD τ) (ms1_1 t) fullShare ((dat1 V q c).after 1 t) from by
        unfold Dat.leavesExact; rw [liveAt1_1 t], after1_1]
      rw [show (dat1 V q c).leavesExact 2 t = owns (c : Thread nD τ) (ms1_2 t) fullShare ((dat1 V q c).after 2 t) from by
        unfold Dat.leavesExact; rw [liveAt1_2 t], after1_2]
      rw [show (dat1 V q c).leavesExact 3 t = owns (c : Thread nD τ) (ms1_3 t) fullShare ((dat1 V q c).after 3 t) from by
        unfold Dat.leavesExact; rw [liveAt1_3 t], after1_3]
      rw [show (dat1 V q c).leavesExact 4 t = owns (c : Thread nD τ) (ms1_4 t) fullShare ((dat1 V q c).after 4 t) from by
        unfold Dat.leavesExact; rw [liveAt1_4 t], after1_4]
      rw [show (dat1 V q c).leavesExact 5 t = owns (c : Thread nD τ) (ms1_5 t) fullShare ((dat1 V q c).after 5 t) from by
        unfold Dat.leavesExact; rw [liveAt1_5 t], after1_5]
      rw [show (dat1 V q c).leavesExact 6 t = owns (c : Thread nD τ) (ms1_6 t) fullShare ((dat1 V q c).after 6 t) from by
        unfold Dat.leavesExact; rw [liveAt1_6 t], after1_6]
      rw [show (dat1 V q c).leavesExact 7 t = owns (c : Thread nD τ) (ms1_7 t) fullShare ((dat1 V q c).after 7 t) from by
        unfold Dat.leavesExact; rw [liveAt1_7 t], after1_7]
      rw [show (dat1 V q c).leavesExact 8 t = owns (c : Thread nD τ) (ms1_8 t) fullShare ((dat1 V q c).after 8 t) from by
        unfold Dat.leavesExact; rw [liveAt1_8 t], after1_8]
      rw [show (dat1 V q c).leavesExact 9 t = owns (c : Thread nD τ) (ms1_9 t) fullShare ((dat1 V q c).after 9 t) from by
        unfold Dat.leavesExact; rw [liveAt1_9 t], after1_9]
      rw [Dat.leavesExact_idle (dat1 V q c) 10 t (idleAt1_10_B t (fun h => h0 ((hcond1_0 t).mp h)) (fun h => h1 ((hcond1_1 t).mp h))) (noFlush1_10_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V q c t, PhiS1_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun1_B c (grid1.coords t) _ _ _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        iintro ⟨H0, H1, H2, H3, H4, H5, H6, H7, H8, H9, H10, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexists _; iexact H10

/-- The library's body obligation, at every point. -/
theorem body_obligation1 (c : Dev nD) : BodyObligation (dat1 (F := F) V q c) (defs₀ (F := F)) Variants.none () Set.univ := fun t => by
  rw [bigSep_W1, bigSep_W1]
  exact sound_body1 V q c t

/-- What the launch hands the region is the invariant before the first point. -/
theorem hin1 (c : Dev nD) : Pipeline.ΦA spec1 c ⊢ (dat1 V q c).Φ 0 := by
  rw [show (dat1 V q c).Φ 0 = PhiS1 V c 0 (Nat.zero_le _) from rfl, PhiS1_zero V c 0 _ rfl]
  try exact Idealize.SL.BI.Entails.refl _

/-- After any point but the first the invariant gives the class's back: the accumulator's contents are forgotten. -/
theorem Phi_out1 (c : Dev nD) (t : Fin (cfg1.N + 1)) (ht : t.val ≠ 0) : (dat1 V q c).Φ t ⊢ Pipeline.ΦA spec1 c := by
  rw [show (dat1 V q c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

/-- The same after the last point. -/
theorem hout1 (c : Dev nD) : (dat1 V q c).Φ (Fin.last cfg1.N) ⊢ Pipeline.ΦA spec1 c :=
  Phi_out1 V q c _ (by rw [Fin.val_last]; have : cfg1.N = 32 := N_1; omega)

end Cert.KernelIdeal.Hand

end
-- ==== Proof.KI.R2.Runs.lean ====
/- Region 2 (the first message-passing step): what the three runs of the body share — the entry
   valuation's blocks, the two branch conditions decided over the 32 grid points, where the output window is
   idle, the staging and scratch memrefs, and the region invariant with the scratch as an owned memref. -/
import proofs.«172293_j20512763806108_2_alg».proof.Proof.Gen.KernelIdeal.Launch
import proofs.«172293_j20512763806108_2_alg».proof.Proof.Gen.KernelIdeal.Skeleton
import proofs.«172293_j20512763806108_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point, fetched there or not. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- Input window 9's current staging buffer holds its block at every point, fetched there or not. -/
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the first conditional (reset of the accumulator), from the grid coordinates. -/
abbrev cond2_0 (i : grid2.Coords) : Prop := (Scalar.cmpi .ne (Scalar.extui (Scalar.cmpi .eq (BitVec.ofNat 32 (i 1).val) 0#32)) 0#32) = 1#1
/-- It holds at the points ≡ 0 (mod 4). -/
theorem hcond2_0 : ∀ t : Fin cfg2.N, cond2_0 (grid2.coords t) ↔ t.val % 4 = 0 :=
  (by decide +kernel : ∀ t : Fin grid2.N, cond2_0 (grid2.coords t) ↔ t.val % 4 = 0)

/-- The condition of the second conditional (the update and the output store). -/
abbrev cond2_1 (i : grid2.Coords) : Prop := k2_cond2 i = 1#1
/-- It holds at the points ≡ 3 (mod 4). -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel
theorem liveAt2_7 : ∀ t : Fin cfg2.N, cfg2.idle 7 (grid2.coords t) = false := by decide +kernel
theorem liveAt2_8 : ∀ t : Fin cfg2.N, cfg2.idle 8 (grid2.coords t) = false := by decide +kernel
theorem liveAt2_9 : ∀ t : Fin cfg2.N, cfg2.idle 9 (grid2.coords t) = false := by decide +kernel
/-- Case A (reset): nothing is stored into the output window, and it is not written back. -/
theorem idleAt2_10_A : ∀ t : Fin cfg2.N, cond2_0 (grid2.coords t) → ¬cond2_1 (grid2.coords t) → cfg2.idle 10 (grid2.coords t) = true := by decide +kernel
theorem noFlush2_10_A : ∀ t : Fin cfg2.N, cond2_0 (grid2.coords t) → ¬cond2_1 (grid2.coords t) → (cfg2.win 10).flush t = false := by decide +kernel
/-- Case B (accumulate only): likewise. -/
theorem idleAt2_10_B : ∀ t : Fin cfg2.N, ¬cond2_0 (grid2.coords t) → ¬cond2_1 (grid2.coords t) → cfg2.idle 10 (grid2.coords t) = true := by decide +kernel
theorem noFlush2_10_B : ∀ t : Fin cfg2.N, ¬cond2_0 (grid2.coords t) → ¬cond2_1 (grid2.coords t) → (cfg2.win 10).flush t = false := by decide +kernel
/-- Case C (finish): the output window is live. -/
theorem liveAt2_10_C : ∀ t : Fin cfg2.N, ¬cond2_0 (grid2.coords t) → cond2_1 (grid2.coords t) → cfg2.idle 10 (grid2.coords t) = false := by decide +kernel

/-! ## The staging and scratch memrefs -/

/-- One staging buffer of the output window, through which its contents are stated. -/
abbrev VO2_10 : View sig .tc .vmem S512x128 .f32 := (Memref.whole cc2_stg10_0 : Memref sig .tc .vmem S512x128 .f32).view
abbrev ms2_0 (t : Fin cfg2.N) : Memref sig .tc .vmem S512x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4096x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x1024 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S256x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S128x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x128 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x128 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S1x128 .f32 := win2_9.stage (cfg2.slots t 9)
abbrev hs2_9 (t : Fin cfg2.N) : (ms2_9 t).IsWhole := hstage2_9 ((cfg2.slots t 9).cast nbuf2_9)
abbrev ms2_10 (t : Fin cfg2.N) : Memref sig .tc .vmem S512x128 .f32 := win2_10.stage (cfg2.slots t 10)
abbrev hs2_10 (t : Fin cfg2.N) : (ms2_10 t).IsWhole := hstage2_10 ((cfg2.slots t 10).cast nbuf2_10)
/-- The scratch accumulator: a whole scoped buffer of the kernel's own, carried between points. -/
abbrev scM2_0 : Memref sig .tc .vmem S512x128 .f32 := Memref.whole cc2_scratch0
abbrev VS2_0 : View sig .tc .vmem S512x128 .f32 := scM2_0.view

/-- The rest of the core's scoped buffers, which the body never opens. -/
abbrev restBut2 (c : Dev nD) : sProp 𝕄 :=
  Pipeline.scopedRestBut (Ix := Unit) (Name := ℕ) (U := UR sig nD τ) (Lvl := ℕ) (Val := Elt F) spec2 c [cc2_scratch0]

/-- The class's invariant with the scratch as a memref owned at some contents. -/
theorem PhiA2_eq (c : Dev nD) :
    (Pipeline.ΦA spec2 c : sProp 𝕄)
      = iprop(iprop((∃ d, owns (c : Thread nD τ) scM2_0 fullShare d) ∗ restBut2 c) ∗ (∃ r, prngReg c r)) := by
  unfold Pipeline.ΦA; rw [scopedRest2_split]; simp only [scM2_0, owns_whole]; try rfl

end Cert.KernelIdeal.Hand

end
-- ==== Proof.KI.R2.RunA.lean ====
/- Region 2, case A of the body: the accumulator is reset (first column block of a row block), then the tile's messages are added; nothing is stored to the output block. The body's triple on whole staging memrefs, with the
   pieces each written buffer ends with as the witness. -/
import proofs.«172293_j20512763806108_2_alg».proof.Proof.KI.R2.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- (the run's proof term is large)
set_option maxHeartbeats 1000000 in
/-- On whole memrefs — the ten inputs at their contents, the output block at contents handed back untouched, the accumulator at anything — the body runs to the continuation holding the inputs as they were and the accumulator with its pieces written. -/
noncomputable def kernelRun2_A (c : Dev nD) (i : grid2.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : cond2_0 i) (hc1 : ¬cond2_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) :
    Σ' (L10 : List (View.Piece (Elt F) S512x128 .f32)), { LS0 : List (View.Piece (Elt F) S512x128 .f32) //
      ∀ (xi10 : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ (∃ f, arg13.view.loc (c : Thread nD τ) ↦[arg13.view.set]{fullShare} arg13.view.writes (Elt F) f LS0)) -∗ K ⟨⟩))
          ⊢ wp frame (wpE (defs₀ (F := F)) Variants.none c none) E (cc2__step_kernel i arg2 harg2 arg3 harg3 arg4 harg4 arg5 harg5 arg6 harg6 arg7 harg7 arg8 harg8 arg9 harg9 arg10 harg10 arg11 harg11 arg12 harg12 arg13 harg13) K } := by
  refine ⟨[], ?_, fun xi10 E K => ?run⟩
  case run =>
    simp only [cc2__step_kernel_eq_skeleton]; unfold cc2__step_kernel_skel
    simp only [k2_part1_eq_skeleton, k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; iexact HS0

end Cert.KernelIdeal.Hand

end
-- ==== Proof.KI.R2.RunB.lean ====
/- Region 2, case B of the body: the tile's messages are added to the accumulator; nothing is stored to the output block. The body's triple on whole staging memrefs, with the
   pieces each written buffer ends with as the witness. -/
import proofs.«172293_j20512763806108_2_alg».proof.Proof.KI.R2.RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- (the run's proof term is large)
set_option maxHeartbeats 1000000 in
/-- On whole memrefs — the ten inputs at their contents, the output block at contents handed back untouched, the accumulator at what the point before left — the body runs to the continuation holding the inputs as they were and the accumulator with its pieces written. -/
noncomputable def kernelRun2_B (c : Dev nD) (i : grid2.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond2_0 i) (hc1 : ¬cond2_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) :
    Σ' (L10 : List (View.Piece (Elt F) S512x128 .f32)), { LS0 : List (View.Piece (Elt F) S512x128 .f32) //
      ∀ (xi10 : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ (∃ f, arg13.view.loc (c : Thread nD τ) ↦[arg13.view.set]{fullShare} arg13.view.writes (Elt F) f LS0)) -∗ K ⟨⟩))
          ⊢ wp frame (wpE (defs₀ (F := F)) Variants.none c none) E (cc2__step_kernel i arg2 harg2 arg3 harg3 arg4 harg4 arg5 harg5 arg6 harg6 arg7 harg7 arg8 harg8 arg9 harg9 arg10 harg10 arg11 harg11 arg12 harg12 arg13 harg13) K } := by
  refine ⟨[], ?_, fun xi10 E K => ?run⟩
  case run =>
    simp only [cc2__step_kernel_eq_skeleton]; unfold cc2__step_kernel_skel
    simp only [k2_part1_eq_skeleton, k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; iexact HS0

end Cert.KernelIdeal.Hand

end
-- ==== Proof.KI.R2.RunC.lean ====
/- Region 2, case C of the body: the tile's messages are added to the accumulator, then the update and the layer normalisation of the row block are stored to the output block. The body's triple on whole staging memrefs, with the
   pieces each written buffer ends with as the witness. -/
import proofs.«172293_j20512763806108_2_alg».proof.Proof.KI.R2.RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- (the run's proof term is large)
set_option maxHeartbeats 1000000 in
/-- On whole memrefs — the ten inputs at their contents, the output block at anything, the accumulator at what the point before left — the body runs to the continuation holding the inputs as they were, the output block with its pieces written and the accumulator with its pieces written. -/
noncomputable def kernelRun2_C (c : Dev nD) (i : grid2.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond2_0 i) (hc1 : cond2_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) :
    Σ' (L10 : List (View.Piece (Elt F) S512x128 .f32)), { LS0 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0)) -∗ K ⟨⟩))
          ⊢ wp frame (wpE (defs₀ (F := F)) Variants.none c none) E (cc2__step_kernel i arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc2__step_kernel_eq_skeleton]; unfold cc2__step_kernel_skel
    simp only [k2_part1_eq_skeleton, k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    iexists _; iexact HS0

end Cert.KernelIdeal.Hand

end
-- ==== Proof.KI.R2.Body.lean ====
/- Region 2: what the output block and the accumulator hold after each grid point, the proof data of the
   pipeline over an entry valuation, and the body obligation at every point. -/
import proofs.«172293_j20512763806108_2_alg».proof.Proof.KI.R2.RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b)) (q : Fin 11 → PosShare TreeShare)

/-! ## What each case leaves -/

/-- Case A stores nothing into the output block: a placeholder nothing consults (the window is idle there). -/
def out2_A_10 (c : Dev nD) (i : grid2.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : cond2_0 i) (hc1 : ¬cond2_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) : Vec F S512x128 .f32 :=
  VO2_10.read (Elt F) (VO2_10.writes (Elt F) VO2_10.junk (kernelRun2_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).1)

/-- Case A's pieces for the accumulator cover it. -/
theorem scover2_A_0 (c : Dev nD) (i : grid2.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : cond2_0 i) (hc1 : ¬cond2_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (y : S512x128.Idx) :
    ∃ pc ∈ (kernelRun2_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).2.1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).2.1 S512x128.size (by sl_kernel_rfl) y

/-- What case A leaves in the accumulator: its pieces read back. -/
def sout2_A_0 (c : Dev nD) (i : grid2.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : cond2_0 i) (hc1 : ¬cond2_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) : Vec F S512x128 .f32 :=
  VS2_0.read (Elt F) (VS2_0.writes (Elt F) VS2_0.junk (kernelRun2_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).2.1)

/-- Case B stores nothing into the output block: a placeholder nothing consults. -/
def out2_B_10 (c : Dev nD) (i : grid2.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond2_0 i) (hc1 : ¬cond2_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) : Vec F S512x128 .f32 :=
  VO2_10.read (Elt F) (VO2_10.writes (Elt F) VO2_10.junk (kernelRun2_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).1)

/-- Case B's pieces for the accumulator cover it. -/
theorem scover2_B_0 (c : Dev nD) (i : grid2.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond2_0 i) (hc1 : ¬cond2_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) (y : S512x128.Idx) :
    ∃ pc ∈ (kernelRun2_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1 S512x128.size (by sl_kernel_rfl) y

/-- What case B leaves in the accumulator. -/
def sout2_B_0 (c : Dev nD) (i : grid2.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond2_0 i) (hc1 : ¬cond2_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) : Vec F S512x128 .f32 :=
  VS2_0.read (Elt F) (VS2_0.writes (Elt F) VS2_0.junk (kernelRun2_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1)

/-- Case C's pieces for the output block cover it (one whole store). -/
theorem cover2_C_10 (c : Dev nD) (i : grid2.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond2_0 i) (hc1 : cond2_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) (y : S512x128.Idx) :
    ∃ pc ∈ (kernelRun2_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).1 S512x128.size (by sl_kernel_rfl) y

/-- What case C leaves in the output block's staging buffer. -/
def out2_C_10 (c : Dev nD) (i : grid2.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond2_0 i) (hc1 : cond2_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) : Vec F S512x128 .f32 :=
  VO2_10.read (Elt F) (VO2_10.writes (Elt F) VO2_10.junk (kernelRun2_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).1)

/-- Case C's pieces for the accumulator cover it. -/
theorem scover2_C_0 (c : Dev nD) (i : grid2.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond2_0 i) (hc1 : cond2_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) (y : S512x128.Idx) :
    ∃ pc ∈ (kernelRun2_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1 S512x128.size (by sl_kernel_rfl) y

/-- What case C leaves in the accumulator. -/
def sout2_C_0 (c : Dev nD) (i : grid2.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond2_0 i) (hc1 : cond2_1 i)
    (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) : Vec F S512x128 .f32 :=
  VS2_0.read (Elt F) (VS2_0.writes (Elt F) VS2_0.junk (kernelRun2_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1)

/-! ## What the output block and the accumulator hold after each point -/

/-- After the body at position `n`: (the output window's staging contents, the accumulator's contents) — the case the
    position selects, run at the point's memrefs and input blocks over what the point before left in the accumulator. -/
def outsAt2 (c : Dev nD) : (n : ℕ) → n < cfg2.N → Vec F S512x128 .f32 × Vec F S512x128 .f32
  | 0, hn => (out2_A_10 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) (ms2_10 ⟨0, hn⟩) (hs2_10 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩) (iblk2 V c 9 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) (ms2_10 ⟨0, hn⟩) (hs2_10 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩) (iblk2 V c 9 ⟨0, hn⟩))
  | n + 1, hn =>
    if h0 : (n + 1) % 4 = 0 then
      if h1 : (n + 1) % 4 = 3 then
        False.elim (by omega)
      else
        (out2_A_10 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩))
    else
      if h1 : (n + 1) % 4 = 3 then
        (out2_C_10 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (outsAt2 c n (Nat.lt_of_succ_lt hn)).2)
      else
        (out2_B_10 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (outsAt2 c n (Nat.lt_of_succ_lt hn)).2)

theorem outsAt2_A (c : Dev nD) (t : Fin cfg2.N) (h0 : t.val % 4 = 0) (h1 : ¬t.val % 4 = 3) :
    outsAt2 V c t.val t.isLt = (out2_A_10 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)) := by
  obtain ⟨n, hn⟩ := t
  cases n with
  | zero => exact rfl
  | succ n => exact (dif_pos h0).trans ((dif_neg h1).trans rfl)

theorem outsAt2_B (c : Dev nD) (t : Fin cfg2.N) (h0 : ¬t.val % 4 = 0) (h1 : ¬t.val % 4 = 3) :
    outsAt2 V c t.val t.isLt = (out2_B_10 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (out2_C_10 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the accumulator at what the
    point before left, the other scoped buffers unopened, the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ restBut2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2) ∗ restBut2 c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ restBut2 c) ∗ (∃ r, prngReg c r)) := by
  cases n with
  | zero => exact absurd rfl hz
  | succ n => rfl

/-! ## The pipeline's proof data -/

/-- The proof data of region 2 on core `c`: the arrays as the region finds them; after the body each input's buffer at its
    block, the output's at `outsAt2`; the invariant `PhiS2`; nothing owed; the shares a parameter. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => (outsAt2 V c t.val t.isLt).1
  Φ t := PhiS2 V c t.val (Nat.le_of_lt_succ t.isLt)
  q := q
  owed _ := 0

theorem A_eq2 (c : Dev nD) (w : Fin cfg2.W) : (dat2 V q c).A w = V c (Pipeline.arrRef spec2 w) := by
  dsimp only [dat2]

theorem PhiS2_castSucc (c : Dev nD) (t : Fin cfg2.N) :
    (dat2 V q c).Φ t.castSucc = PhiS2 V c t.val (Nat.le_of_lt t.isLt) := by
  dsimp only [dat2]; simp only [Fin.coe_castSucc]

theorem after2_0 (c : Dev nD) (t : Fin cfg2.N) : (dat2 V q c).after 0 t = iblk2 V c 0 t := by dsimp only [dat2]
theorem after2_1 (c : Dev nD) (t : Fin cfg2.N) : (dat2 V q c).after 1 t = iblk2 V c 1 t := by dsimp only [dat2]
theorem after2_2 (c : Dev nD) (t : Fin cfg2.N) : (dat2 V q c).after 2 t = iblk2 V c 2 t := by dsimp only [dat2]
theorem after2_3 (c : Dev nD) (t : Fin cfg2.N) : (dat2 V q c).after 3 t = iblk2 V c 3 t := by dsimp only [dat2]
theorem after2_4 (c : Dev nD) (t : Fin cfg2.N) : (dat2 V q c).after 4 t = iblk2 V c 4 t := by dsimp only [dat2]
theorem after2_5 (c : Dev nD) (t : Fin cfg2.N) : (dat2 V q c).after 5 t = iblk2 V c 5 t := by dsimp only [dat2]
theorem after2_6 (c : Dev nD) (t : Fin cfg2.N) : (dat2 V q c).after 6 t = iblk2 V c 6 t := by dsimp only [dat2]
theorem after2_7 (c : Dev nD) (t : Fin cfg2.N) : (dat2 V q c).after 7 t = iblk2 V c 7 t := by dsimp only [dat2]
theorem after2_8 (c : Dev nD) (t : Fin cfg2.N) : (dat2 V q c).after 8 t = iblk2 V c 8 t := by dsimp only [dat2]
theorem after2_9 (c : Dev nD) (t : Fin cfg2.N) : (dat2 V q c).after 9 t = iblk2 V c 9 t := by dsimp only [dat2]
theorem after2_10 (c : Dev nD) (t : Fin cfg2.N) : (dat2 V q c).after 10 t = (outsAt2 V c t.val t.isLt).1 := by dsimp only [dat2]

theorem before2_0 (c : Dev nD) (t : Fin cfg2.N) (d) : (dat2 V q c).before 0 t d = iblk2 V c 0 t :=
  before2_0_of V (dat2 V q c) (A_eq2 V q c 0) (after2_0 V q c) t d
theorem before2_1 (c : Dev nD) (t : Fin cfg2.N) (d) : (dat2 V q c).before 1 t d = iblk2 V c 1 t :=
  before2_1_of V (dat2 V q c) (A_eq2 V q c 1) (after2_1 V q c) t d
theorem before2_2 (c : Dev nD) (t : Fin cfg2.N) (d) : (dat2 V q c).before 2 t d = iblk2 V c 2 t :=
  before2_2_of V (dat2 V q c) (A_eq2 V q c 2) (after2_2 V q c) t d
theorem before2_3 (c : Dev nD) (t : Fin cfg2.N) (d) : (dat2 V q c).before 3 t d = iblk2 V c 3 t :=
  before2_3_of V (dat2 V q c) (A_eq2 V q c 3) (after2_3 V q c) t d
theorem before2_4 (c : Dev nD) (t : Fin cfg2.N) (d) : (dat2 V q c).before 4 t d = iblk2 V c 4 t :=
  before2_4_of V (dat2 V q c) (A_eq2 V q c 4) (after2_4 V q c) t d
theorem before2_5 (c : Dev nD) (t : Fin cfg2.N) (d) : (dat2 V q c).before 5 t d = iblk2 V c 5 t :=
  before2_5_of V (dat2 V q c) (A_eq2 V q c 5) (after2_5 V q c) t d
theorem before2_6 (c : Dev nD) (t : Fin cfg2.N) (d) : (dat2 V q c).before 6 t d = iblk2 V c 6 t :=
  before2_6_of V (dat2 V q c) (A_eq2 V q c 6) (after2_6 V q c) t d
theorem before2_7 (c : Dev nD) (t : Fin cfg2.N) (d) : (dat2 V q c).before 7 t d = iblk2 V c 7 t :=
  before2_7_of V (dat2 V q c) (A_eq2 V q c 7) (after2_7 V q c) t d
theorem before2_8 (c : Dev nD) (t : Fin cfg2.N) (d) : (dat2 V q c).before 8 t d = iblk2 V c 8 t :=
  before2_8_of V (dat2 V q c) (A_eq2 V q c 8) (after2_8 V q c) t d
theorem before2_9 (c : Dev nD) (t : Fin cfg2.N) (d) : (dat2 V q c).before 9 t d = iblk2 V c 9 t :=
  before2_9_of V (dat2 V q c) (A_eq2 V q c 9) (after2_9 V q c) t d

/-! ## The body obligation, at a generic point -/

def bodyPre2 (c : Dev nD) (t : Fin cfg2.N) : sProp 𝕄 :=
  iprop((dat2 V q c).Φ t.castSucc ∗ (dat2 V q c).owesAt () t.castSucc
    ∗ (∃ d, owns (c : Thread nD τ) (ms2_0 t) fullShare ((dat2 V q c).before 0 t d))
    ∗ (∃ d, owns (c : Thread nD τ) (ms2_1 t) fullShare ((dat2 V q c).before 1 t d))
    ∗ (∃ d, owns (c : Thread nD τ) (ms2_2 t) fullShare ((dat2 V q c).before 2 t d))
    ∗ (∃ d, owns (c : Thread nD τ) (ms2_3 t) fullShare ((dat2 V q c).before 3 t d))
    ∗ (∃ d, owns (c : Thread nD τ) (ms2_4 t) fullShare ((dat2 V q c).before 4 t d))
    ∗ (∃ d, owns (c : Thread nD τ) (ms2_5 t) fullShare ((dat2 V q c).before 5 t d))
    ∗ (∃ d, owns (c : Thread nD τ) (ms2_6 t) fullShare ((dat2 V q c).before 6 t d))
    ∗ (∃ d, owns (c : Thread nD τ) (ms2_7 t) fullShare ((dat2 V q c).before 7 t d))
    ∗ (∃ d, owns (c : Thread nD τ) (ms2_8 t) fullShare ((dat2 V q c).before 8 t d))
    ∗ (∃ d, owns (c : Thread nD τ) (ms2_9 t) fullShare ((dat2 V q c).before 9 t d))
    ∗ (∃ d, owns (c : Thread nD τ) (ms2_10 t) fullShare ((dat2 V q c).before 10 t d)))

def bodyPost2 (c : Dev nD) (t : Fin cfg2.N) : sProp 𝕄 :=
  iprop((dat2 V q c).Φ t.succ ∗ (dat2 V q c).owesAt () t.succ
    ∗ (dat2 V q c).leavesExact 0 t
    ∗ (dat2 V q c).leavesExact 1 t
    ∗ (dat2 V q c).leavesExact 2 t
    ∗ (dat2 V q c).leavesExact 3 t
    ∗ (dat2 V q c).leavesExact 4 t
    ∗ (dat2 V q c).leavesExact 5 t
    ∗ (dat2 V q c).leavesExact 6 t
    ∗ (dat2 V q c).leavesExact 7 t
    ∗ (dat2 V q c).leavesExact 8 t
    ∗ (dat2 V q c).leavesExact 9 t
    ∗ (dat2 V q c).leavesExact 10 t)

set_option maxHeartbeats 4800000 in
/-- The body at any point: the inputs' memrefs hold their blocks; the position says which case the point is in; the run of
    that case applies; the invariant hands the body the accumulator at what the point before left (at anything at the
    first point) and takes it back at this point's contents. -/
theorem sound_body2 (c : Dev nD) (t : Fin cfg2.N) :
    bodyPre2 V q c t ⊢ wp frame (wpE (defs₀ (F := F)) Variants.none c none) Set.univ (bodyAt2 t) (fun _ => bodyPost2 V q c t) := by
  unfold bodyPre2 bodyPost2 bodyAt2
  simp only [before2_0, before2_1, before2_2, before2_3, before2_4, before2_5, before2_6, before2_7, before2_8, before2_9]
  rw [show (dat2 V q c).owesAt () t.succ = (dat2 V q c).owesAt () t.castSucc from rfl]
  rw [show (dat2 V q c).Φ t.succ = PhiS2 V c (t.val + 1) t.isLt from rfl, PhiS2_succ]
  have hN : t.val < 32 := lt_of_lt_of_eq t.isLt (show cfg2.N = 32 from N_2)
  by_cases h0 : t.val % 4 = 0
  · by_cases h1 : t.val % 4 = 3
    · exfalso; omega
    · rw [show (dat2 V q c).leavesExact 0 t = owns (c : Thread nD τ) (ms2_0 t) fullShare ((dat2 V q c).after 0 t) from by
        unfold Dat.leavesExact; rw [liveAt2_0 t], after2_0]
      rw [show (dat2 V q c).leavesExact 1 t = owns (c : Thread nD τ) (ms2_1 t) fullShare ((dat2 V q c).after 1 t) from by
        unfold Dat.leavesExact; rw [liveAt2_1 t], after2_1]
      rw [show (dat2 V q c).leavesExact 2 t = owns (c : Thread nD τ) (ms2_2 t) fullShare ((dat2 V q c).after 2 t) from by
        unfold Dat.leavesExact; rw [liveAt2_2 t], after2_2]
      rw [show (dat2 V q c).leavesExact 3 t = owns (c : Thread nD τ) (ms2_3 t) fullShare ((dat2 V q c).after 3 t) from by
        unfold Dat.leavesExact; rw [liveAt2_3 t], after2_3]
      rw [show (dat2 V q c).leavesExact 4 t = owns (c : Thread nD τ) (ms2_4 t) fullShare ((dat2 V q c).after 4 t) from by
        unfold Dat.leavesExact; rw [liveAt2_4 t], after2_4]
      rw [show (dat2 V q c).leavesExact 5 t = owns (c : Thread nD τ) (ms2_5 t) fullShare ((dat2 V q c).after 5 t) from by
        unfold Dat.leavesExact; rw [liveAt2_5 t], after2_5]
      rw [show (dat2 V q c).leavesExact 6 t = owns (c : Thread nD τ) (ms2_6 t) fullShare ((dat2 V q c).after 6 t) from by
        unfold Dat.leavesExact; rw [liveAt2_6 t], after2_6]
      rw [show (dat2 V q c).leavesExact 7 t = owns (c : Thread nD τ) (ms2_7 t) fullShare ((dat2 V q c).after 7 t) from by
        unfold Dat.leavesExact; rw [liveAt2_7 t], after2_7]
      rw [show (dat2 V q c).leavesExact 8 t = owns (c : Thread nD τ) (ms2_8 t) fullShare ((dat2 V q c).after 8 t) from by
        unfold Dat.leavesExact; rw [liveAt2_8 t], after2_8]
      rw [show (dat2 V q c).leavesExact 9 t = owns (c : Thread nD τ) (ms2_9 t) fullShare ((dat2 V q c).after 9 t) from by
        unfold Dat.leavesExact; rw [liveAt2_9 t], after2_9]
      rw [Dat.leavesExact_idle (dat2 V q c) 10 t (idleAt2_10_A t ((hcond2_0 t).mpr h0) (fun h => h1 ((hcond2_1 t).mp h))) (noFlush2_10_A t ((hcond2_0 t).mpr h0) (fun h => h1 ((hcond2_1 t).mp h)))]
      rw [outsAt2_A V c t h0 h1]
      unfold sout2_A_0; (try dsimp only)
      by_cases hz : t.val = 0
      · rw [PhiS2_castSucc V q c t, PhiS2_zero V c _ _ hz, PhiA2_eq]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun2_A c (grid2.coords t) _ _ _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        iintro ⟨H0, H1, H2, H3, H4, H5, H6, H7, H8, H9, H10, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexists _; iexact H10
      · rw [PhiS2_castSucc V q c t, PhiS2_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun2_A c (grid2.coords t) _ _ _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexists _; iexact HS0
        iintro ⟨H0, H1, H2, H3, H4, H5, H6, H7, H8, H9, H10, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexists _; iexact H10
  · by_cases h1 : t.val % 4 = 3
    · rw [show (dat2 V q c).leavesExact 0 t = owns (c : Thread nD τ) (ms2_0 t) fullShare ((dat2 V q c).after 0 t) from by
        unfold Dat.leavesExact; rw [liveAt2_0 t], after2_0]
      rw [show (dat2 V q c).leavesExact 1 t = owns (c : Thread nD τ) (ms2_1 t) fullShare ((dat2 V q c).after 1 t) from by
        unfold Dat.leavesExact; rw [liveAt2_1 t], after2_1]
      rw [show (dat2 V q c).leavesExact 2 t = owns (c : Thread nD τ) (ms2_2 t) fullShare ((dat2 V q c).after 2 t) from by
        unfold Dat.leavesExact; rw [liveAt2_2 t], after2_2]
      rw [show (dat2 V q c).leavesExact 3 t = owns (c : Thread nD τ) (ms2_3 t) fullShare ((dat2 V q c).after 3 t) from by
        unfold Dat.leavesExact; rw [liveAt2_3 t], after2_3]
      rw [show (dat2 V q c).leavesExact 4 t = owns (c : Thread nD τ) (ms2_4 t) fullShare ((dat2 V q c).after 4 t) from by
        unfold Dat.leavesExact; rw [liveAt2_4 t], after2_4]
      rw [show (dat2 V q c).leavesExact 5 t = owns (c : Thread nD τ) (ms2_5 t) fullShare ((dat2 V q c).after 5 t) from by
        unfold Dat.leavesExact; rw [liveAt2_5 t], after2_5]
      rw [show (dat2 V q c).leavesExact 6 t = owns (c : Thread nD τ) (ms2_6 t) fullShare ((dat2 V q c).after 6 t) from by
        unfold Dat.leavesExact; rw [liveAt2_6 t], after2_6]
      rw [show (dat2 V q c).leavesExact 7 t = owns (c : Thread nD τ) (ms2_7 t) fullShare ((dat2 V q c).after 7 t) from by
        unfold Dat.leavesExact; rw [liveAt2_7 t], after2_7]
      rw [show (dat2 V q c).leavesExact 8 t = owns (c : Thread nD τ) (ms2_8 t) fullShare ((dat2 V q c).after 8 t) from by
        unfold Dat.leavesExact; rw [liveAt2_8 t], after2_8]
      rw [show (dat2 V q c).leavesExact 9 t = owns (c : Thread nD τ) (ms2_9 t) fullShare ((dat2 V q c).after 9 t) from by
        unfold Dat.leavesExact; rw [liveAt2_9 t], after2_9]
      rw [show (dat2 V q c).leavesExact 10 t = owns (c : Thread nD τ) (ms2_10 t) fullShare ((dat2 V q c).after 10 t) from by
        unfold Dat.leavesExact; rw [liveAt2_10_C t (fun h => h0 ((hcond2_0 t).mp h)) ((hcond2_1 t).mpr h1)], after2_10]
      rw [outsAt2_C V c t h0 h1]
      unfold out2_C_10 sout2_C_0; (try dsimp only)
      by_cases hz : t.val = 0
      · exfalso; omega
      · rw [PhiS2_castSucc V q c t, PhiS2_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun2_C c (grid2.coords t) _ _ _ _ _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [HS0]; · iexact HS0
        iintro ⟨H0, H1, H2, H3, H4, H5, H6, H7, H8, H9, ⟨%e10, H10⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        unfold owns; iexists _; isplitr
        swap; · iexact H10
        ipureintro; exact View.read_writes_of_cover _ _ _ _ _ (cover2_C_10 c _ _ _ _ _ _ _ _ _ _ _ _ _ _ _ _ _ _ _ _ _ _ _ _ _ _ _ _ _ _ _ _ _ _ _ _ _ _)
    · rw [show (dat2 V q c).leavesExact 0 t = owns (c : Thread nD τ) (ms2_0 t) fullShare ((dat2 V q c).after 0 t) from by
        unfold Dat.leavesExact; rw [liveAt2_0 t], after2_0]
      rw [show (dat2 V q c).leavesExact 1 t = owns (c : Thread nD τ) (ms2_1 t) fullShare ((dat2 V q c).after 1 t) from by
        unfold Dat.leavesExact; rw [liveAt2_1 t], after2_1]
      rw [show (dat2 V q c).leavesExact 2 t = owns (c : Thread nD τ) (ms2_2 t) fullShare ((dat2 V q c).after 2 t) from by
        unfold Dat.leavesExact; rw [liveAt2_2 t], after2_2]
      rw [show (dat2 V q c).leavesExact 3 t = owns (c : Thread nD τ) (ms2_3 t) fullShare ((dat2 V q c).after 3 t) from by
        unfold Dat.leavesExact; rw [liveAt2_3 t], after2_3]
      rw [show (dat2 V q c).leavesExact 4 t = owns (c : Thread nD τ) (ms2_4 t) fullShare ((dat2 V q c).after 4 t) from by
        unfold Dat.leavesExact; rw [liveAt2_4 t], after2_4]
      rw [show (dat2 V q c).leavesExact 5 t = owns (c : Thread nD τ) (ms2_5 t) fullShare ((dat2 V q c).after 5 t) from by
        unfold Dat.leavesExact; rw [liveAt2_5 t], after2_5]
      rw [show (dat2 V q c).leavesExact 6 t = owns (c : Thread nD τ) (ms2_6 t) fullShare ((dat2 V q c).after 6 t) from by
        unfold Dat.leavesExact; rw [liveAt2_6 t], after2_6]
      rw [show (dat2 V q c).leavesExact 7 t = owns (c : Thread nD τ) (ms2_7 t) fullShare ((dat2 V q c).after 7 t) from by
        unfold Dat.leavesExact; rw [liveAt2_7 t], after2_7]
      rw [show (dat2 V q c).leavesExact 8 t = owns (c : Thread nD τ) (ms2_8 t) fullShare ((dat2 V q c).after 8 t) from by
        unfold Dat.leavesExact; rw [liveAt2_8 t], after2_8]
      rw [show (dat2 V q c).leavesExact 9 t = owns (c : Thread nD τ) (ms2_9 t) fullShare ((dat2 V q c).after 9 t) from by
        unfold Dat.leavesExact; rw [liveAt2_9 t], after2_9]
      rw [Dat.leavesExact_idle (dat2 V q c) 10 t (idleAt2_10_B t (fun h => h0 ((hcond2_0 t).mp h)) (fun h => h1 ((hcond2_1 t).mp h))) (noFlush2_10_B t (fun h => h0 ((hcond2_0 t).mp h)) (fun h => h1 ((hcond2_1 t).mp h)))]
      rw [outsAt2_B V c t h0 h1]
      unfold sout2_B_0; (try dsimp only)
      by_cases hz : t.val = 0
      · exfalso; omega
      · rw [PhiS2_castSucc V q c t, PhiS2_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun2_B c (grid2.coords t) _ _ _ _ _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        iintro ⟨H0, H1, H2, H3, H4, H5, H6, H7, H8, H9, H10, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexists _; iexact H10

/-- The library's body obligation, at every point. -/
theorem body_obligation2 (c : Dev nD) : BodyObligation (dat2 (F := F) V q c) (defs₀ (F := F)) Variants.none () Set.univ := fun t => by
  rw [bigSep_W2, bigSep_W2]
  exact sound_body2 V q c t

/-- What the launch hands the region is the invariant before the first point. -/
theorem hin2 (c : Dev nD) : Pipeline.ΦA spec2 c ⊢ (dat2 V q c).Φ 0 := by
  rw [show (dat2 V q c).Φ 0 = PhiS2 V c 0 (Nat.zero_le _) from rfl, PhiS2_zero V c 0 _ rfl]
  try exact Idealize.SL.BI.Entails.refl _

/-- After any point but the first the invariant gives the class's back: the accumulator's contents are forgotten. -/
theorem Phi_out2 (c : Dev nD) (t : Fin (cfg2.N + 1)) (ht : t.val ≠ 0) : (dat2 V q c).Φ t ⊢ Pipeline.ΦA spec2 c := by
  rw [show (dat2 V q c).Φ t = PhiS2 V c t.val (Nat.le_of_lt_succ t.isLt) from rfl, PhiS2_pos V c _ _ ht, PhiA2_eq]
  iintro ⟨⟨HS0, Hr⟩, Hg⟩
  isplitl [HS0 Hr]
  · isplitl [HS0]
    · iexists _; iexact HS0
    iexact Hr
  iexact Hg

/-- The same after the last point. -/
theorem hout2 (c : Dev nD) : (dat2 V q c).Φ (Fin.last cfg2.N) ⊢ Pipeline.ΦA spec2 c :=
  Phi_out2 V q c _ (by rw [Fin.val_last]; have : cfg2.N = 32 := N_2; omega)

end Cert.KernelIdeal.Hand

end
-- ==== Proof.KI.Share0.lean ====
import proofs.«172293_j20512763806108_2_alg».proof.Proof.Gen.KernelIdeal.Launch
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-- How the full share of each array is dealt among the windows on it: the feature matrix is read through two windows
    (a row block, and the whole matrix), each of which gets a half; every other array has one window. -/
def qsh : Fin 11 → PosShare TreeShare := fun w => if w = 0 then fullShare.left else if w = 1 then fullShare.right else fullShare

/-- The distinct buffers behind the arrays of call 0's windows, one by one. -/
theorem arrBufs0_list (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v3) ↦{fullShare} V main_v3) ∗ (((c : Thread nD τ).loc main_arg2) ↦{fullShare} V main_arg2) ∗ (((c : Thread nD τ).loc main_v4) ↦{fullShare} V main_v4) ∗ (((c : Thread nD τ).loc main_arg7) ↦{fullShare} V main_arg7) ∗ (((c : Thread nD τ).loc main_v5) ↦{fullShare} V main_v5) ∗ (((c : Thread nD τ).loc main_arg9) ↦{fullShare} V main_arg9) ∗ (((c : Thread nD τ).loc main_v6) ↦{fullShare} V main_v6) ∗ (((c : Thread nD τ).loc main_v7) ↦{fullShare} V main_v7) ∗ (((c : Thread nD τ).loc main_v8) ↦{fullShare} V main_v8) ∗ (((c : Thread nD τ).loc main_v9) ↦{fullShare} V main_v9)) := by
  unfold Pipeline.arrBufs
  exact bigSep_eq_bigSepL_of_eq [main_v3, main_arg2, main_v4, main_arg7, main_v5, main_arg9, main_v6, main_v7, main_v8, main_v9] (by decide) (by decide) _

/-- A window's share: an output window holds its array whole, an input window what the proof data deal it. -/
theorem share_eq0 {c : Dev nD} (dat : Dat τ (Elt F) Unit ℕ (UR sig nD τ) ℕ cfg0 c) (hq : dat.q = qsh) (w : Fin cfg0.W) :
    dat.share w = if (cfg0.win w).isOut then fullShare else qsh w := by unfold Dat.share; rw [hq]

set_option maxHeartbeats 1600000 in
/-- ENTRY: the buffers behind the arrays, each whole at the full share at contents `V`, are the windows' arrays at the
    proof data's shares — the feature matrix's buffer split into the two halves its two windows hold. -/
theorem arrays_in0 {c : Dev nD} (dat : Dat τ (Elt F) Unit ℕ (UR sig nD τ) ℕ cfg0 c) (hq : dat.q = qsh)
    (V : (b : Ref sig .tc) → Buf (Elt F) ((c : Thread nD τ).loc b))
    (G : (w : Fin cfg0.W) → Buf (Elt F) ((cfg0.win w).arr.view.loc (c : Thread nD τ))) (hG : ∀ w, G w = V (Pipeline.arrRef spec0 w)) :
    (Pipeline.arrBufs (Ix := Unit) (Name := ℕ) (U := UR sig nD τ) (Lvl := ℕ) spec0 c V : sProp 𝕄) ⊢ dat.arrays G := by
  obtain rfl : G = fun w => V (Pipeline.arrRef spec0 w) := funext hG
  have s0 : dat.share (0 : Fin cfg0.W) = fullShare.left := (share_eq0 dat hq 0).trans rfl
  have s1 : dat.share (1 : Fin cfg0.W) = fullShare.right := (share_eq0 dat hq 1).trans rfl
  have s2 : dat.share (2 : Fin cfg0.W) = fullShare := (share_eq0 dat hq 2).trans rfl
  have s3 : dat.share (3 : Fin cfg0.W) = fullShare := (share_eq0 dat hq 3).trans rfl
  have s4 : dat.share (4 : Fin cfg0.W) = fullShare := (share_eq0 dat hq 4).trans rfl
  have s5 : dat.share (5 : Fin cfg0.W) = fullShare := (share_eq0 dat hq 5).trans rfl
  have s6 : dat.share (6 : Fin cfg0.W) = fullShare := (share_eq0 dat hq 6).trans rfl
  have s7 : dat.share (7 : Fin cfg0.W) = fullShare := (share_eq0 dat hq 7).trans rfl
  have s8 : dat.share (8 : Fin cfg0.W) = fullShare := (share_eq0 dat hq 8).trans rfl
  have s9 : dat.share (9 : Fin cfg0.W) = fullShare := (share_eq0 dat hq 9).trans rfl
  have s10 : dat.share (10 : Fin cfg0.W) = fullShare := (share_eq0 dat hq 10).trans rfl
  rw [arrBufs0_list]
  unfold Dat.arrays
  rw [bigSep_W0]
  rw [(arr_whole0 0).set_eq_univ, (arr_whole0 2).set_eq_univ, (arr_whole0 3).set_eq_univ, (arr_whole0 4).set_eq_univ, (arr_whole0 5).set_eq_univ, (arr_whole0 6).set_eq_univ, (arr_whole0 7).set_eq_univ, (arr_whole0 8).set_eq_univ, (arr_whole0 9).set_eq_univ, (arr_whole0 10).set_eq_univ]
  rw [s0, s1, s2, s3, s4, s5, s6, s7, s8, s9, s10]
  iintro ⟨Hh, H2, H4, H7, H5, H9, H6, H7b, H8, Ho⟩
  ihave Hs := (pointsTo_share (PosShare.mem_left_op_right fullShare)).1 $$ Hh
  icases Hs with ⟨Ha, Hb⟩
  isplitl [Ha]; · iexact Ha
  isplitl [Hb]; · iexact Hb
  isplitl [H2]; · iexact H2
  isplitl [H4]; · iexact H4
  isplitl [H7]; · iexact H7
  isplitl [H5]; · iexact H5
  isplitl [H9]; · iexact H9
  isplitl [H6]; · iexact H6
  isplitl [H7b]; · iexact H7b
  isplitl [H8]; · iexact H8
  iexact Ho

set_option maxHeartbeats 1600000 in
/-- EXIT: the windows' arrays at contents read off `V`, each at its share, are the buffers behind them whole at the full
    share — the two halves of the feature matrix's buffer, holding the same contents, joined. -/
theorem arrays_out0 {c : Dev nD} (dat : Dat τ (Elt F) Unit ℕ (UR sig nD τ) ℕ cfg0 c) (hq : dat.q = qsh)
    (V : (b : Ref sig .tc) → Buf (Elt F) ((c : Thread nD τ).loc b))
    (G : (w : Fin cfg0.W) → Buf (Elt F) ((cfg0.win w).arr.view.loc (c : Thread nD τ))) (hG : ∀ w, G w = V (Pipeline.arrRef spec0 w)) :
    dat.arrays G ⊢ (Pipeline.arrBufs (Ix := Unit) (Name := ℕ) (U := UR sig nD τ) (Lvl := ℕ) spec0 c V : sProp 𝕄) := by
  obtain rfl : G = fun w => V (Pipeline.arrRef spec0 w) := funext hG
  have s0 : dat.share (0 : Fin cfg0.W) = fullShare.left := (share_eq0 dat hq 0).trans rfl
  have s1 : dat.share (1 : Fin cfg0.W) = fullShare.right := (share_eq0 dat hq 1).trans rfl
  have s2 : dat.share (2 : Fin cfg0.W) = fullShare := (share_eq0 dat hq 2).trans rfl
  have s3 : dat.share (3 : Fin cfg0.W) = fullShare := (share_eq0 dat hq 3).trans rfl
  have s4 : dat.share (4 : Fin cfg0.W) = fullShare := (share_eq0 dat hq 4).trans rfl
  have s5 : dat.share (5 : Fin cfg0.W) = fullShare := (share_eq0 dat hq 5).trans rfl
  have s6 : dat.share (6 : Fin cfg0.W) = fullShare := (share_eq0 dat hq 6).trans rfl
  have s7 : dat.share (7 : Fin cfg0.W) = fullShare := (share_eq0 dat hq 7).trans rfl
  have s8 : dat.share (8 : Fin cfg0.W) = fullShare := (share_eq0 dat hq 8).trans rfl
  have s9 : dat.share (9 : Fin cfg0.W) = fullShare := (share_eq0 dat hq 9).trans rfl
  have s10 : dat.share (10 : Fin cfg0.W) = fullShare := (share_eq0 dat hq 10).trans rfl
  rw [arrBufs0_list]
  unfold Dat.arrays
  rw [bigSep_W0]
  rw [(arr_whole0 0).set_eq_univ, (arr_whole0 2).set_eq_univ, (arr_whole0 3).set_eq_univ, (arr_whole0 4).set_eq_univ, (arr_whole0 5).set_eq_univ, (arr_whole0 6).set_eq_univ, (arr_whole0 7).set_eq_univ, (arr_whole0 8).set_eq_univ, (arr_whole0 9).set_eq_univ, (arr_whole0 10).set_eq_univ]
  rw [s0, s1, s2, s3, s4, s5, s6, s7, s8, s9, s10]
  iintro ⟨Ha, Hb, H2, H4, H7, H5, H9, H6, H7b, H8, Ho⟩
  ihave Hh := (pointsTo_share (PosShare.mem_left_op_right fullShare)).2 $$ [Ha Hb]
  · isplitl [Ha]; · iexact Ha
    iexact Hb
  isplitl [Hh]; · iexact Hh
  isplitl [H2]; · iexact H2
  isplitl [H4]; · iexact H4
  isplitl [H7]; · iexact H7
  isplitl [H5]; · iexact H5
  isplitl [H9]; · iexact H9
  isplitl [H6]; · iexact H6
  isplitl [H7b]; · iexact H7b
  isplitl [H8]; · iexact H8
  iexact Ho

end Cert.KernelIdeal.Hand

end
-- ==== Proof.KI.Vals.lean ====
import proofs.«172293_j20512763806108_2_alg».proof.Proof.KI.R0.Body
import proofs.«172293_j20512763806108_2_alg».proof.Proof.KI.R1.Body
import proofs.«172293_j20512763806108_2_alg».proof.Proof.KI.R2.Body
import proofs.«172293_j20512763806108_2_alg».proof.Proof.KI.Share0
import proofs.«172293_j20512763806108_2_alg».proof.Proof.Gen.KernelIdeal.Regions
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items of @main

Core `c`'s unscoped buffers hold: at launch the memory `m`; after the host operations before the first call, their
results over it (`Wa`); after each call, the same with the call's output array at what its write-backs leave
(`Wb`, `Wc`, `Wd`: the features after one, two and three steps sit in `main_v9`, `main_v10`, `main_v11`). -/

/-- A valuation read at the TensorCore's references: what a call's proof data take as entry contents. -/
abbrev Vr (W : Dev nD → Valuation τ sig (Elt F)) : (c : Dev nD) → (b : Ref sig .tc) → Buf (Elt F) ((c : Thread nD τ).loc b) := fun c b => W c b

abbrev Wa (c : Dev nD) : Valuation τ sig (Elt F) := StableHlo.after hostOps0 (fun b => m (c, b))

/-- What call 0 leaves in `main_v9`: its output window's write-backs folded over the array. -/
def res0 (c : Dev nD) : Buf (Elt F) ((c : Thread nD τ).loc main_v9) := (dat0 (Vr (Wa m)) qsh c).arrAt 10 cfg0.N
theorem res0_eq (c : Dev nD) : res0 m c = (dat0 (Vr (Wa m)) qsh c).arrAt 10 cfg0.N := rfl
-- named, and from here on never unfolded: the fold of 32 write-backs
attribute [irreducible] res0
def Wb (c : Dev nD) : Valuation τ sig (Elt F) := Function.update (Wa m c) (Proc.devRef .tc main_v9) (res0 m c)

theorem Wb_out (c : Dev nD) : Wb m c (Proc.devRef .tc main_v9) = res0 m c := by unfold Wb; exact Function.update_self ..
theorem Wb_of_ne (c : Dev nD) (b : Ref sig .tc) (h : b ≠ main_v9) : Wb m c (Proc.devRef .tc b) = Wa m c (Proc.devRef .tc b) := by
  unfold Wb; exact Function.update_of_ne (StableHlo.devRef_ne_of_ne h) ..

/-- What call 1 leaves in `main_v10`: its output window's write-backs folded over the array. -/
def res1 (c : Dev nD) : Buf (Elt F) ((c : Thread nD τ).loc main_v10) := (dat1 (Vr (Wb m)) qsh c).arrAt 10 cfg1.N
theorem res1_eq (c : Dev nD) : res1 m c = (dat1 (Vr (Wb m)) qsh c).arrAt 10 cfg1.N := rfl
-- named, and from here on never unfolded: the fold of 32 write-backs
attribute [irreducible] res1
def Wc (c : Dev nD) : Valuation τ sig (Elt F) := Function.update (Wb m c) (Proc.devRef .tc main_v10) (res1 m c)

theorem Wc_out (c : Dev nD) : Wc m c (Proc.devRef .tc main_v10) = res1 m c := by unfold Wc; exact Function.update_self ..
theorem Wc_of_ne (c : Dev nD) (b : Ref sig .tc) (h : b ≠ main_v10) : Wc m c (Proc.devRef .tc b) = Wb m c (Proc.devRef .tc b) := by
  unfold Wc; exact Function.update_of_ne (StableHlo.devRef_ne_of_ne h) ..

/-- What call 2 leaves in `main_v11`: its output window's write-backs folded over the array. -/
def res2 (c : Dev nD) : Buf (Elt F) ((c : Thread nD τ).loc main_v11) := (dat2 (Vr (Wc m)) qsh c).arrAt 10 cfg2.N
theorem res2_eq (c : Dev nD) : res2 m c = (dat2 (Vr (Wc m)) qsh c).arrAt 10 cfg2.N := rfl
-- named, and from here on never unfolded: the fold of 32 write-backs
attribute [irreducible] res2
def Wd (c : Dev nD) : Valuation τ sig (Elt F) := Function.update (Wc m c) (Proc.devRef .tc main_v11) (res2 m c)

theorem Wd_out (c : Dev nD) : Wd m c (Proc.devRef .tc main_v11) = res2 m c := by unfold Wd; exact Function.update_self ..
theorem Wd_of_ne (c : Dev nD) (b : Ref sig .tc) (h : b ≠ main_v11) : Wd m c (Proc.devRef .tc b) = Wc m c (Proc.devRef .tc b) := by
  unfold Wd; exact Function.update_of_ne (StableHlo.devRef_ne_of_ne h) ..

end Cert.KernelIdeal.Hand

end
-- ==== Proof.KI.Share1.lean ====
import proofs.«172293_j20512763806108_2_alg».proof.Proof.Gen.KernelIdeal.Launch
import Idealize.ShloMosaic.Lib.Pipeline.Frame
import proofs.«172293_j20512763806108_2_alg».proof.Proof.KI.Share0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-- The distinct buffers behind the arrays of call 1's windows, one by one. -/
theorem arrBufs1_list (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v9) ↦{fullShare} V main_v9) ∗ (((c : Thread nD τ).loc main_arg2) ↦{fullShare} V main_arg2) ∗ (((c : Thread nD τ).loc main_v4) ↦{fullShare} V main_v4) ∗ (((c : Thread nD τ).loc main_arg7) ↦{fullShare} V main_arg7) ∗ (((c : Thread nD τ).loc main_v5) ↦{fullShare} V main_v5) ∗ (((c : Thread nD τ).loc main_arg9) ↦{fullShare} V main_arg9) ∗ (((c : Thread nD τ).loc main_v6) ↦{fullShare} V main_v6) ∗ (((c : Thread nD τ).loc main_v7) ↦{fullShare} V main_v7) ∗ (((c : Thread nD τ).loc main_v8) ↦{fullShare} V main_v8) ∗ (((c : Thread nD τ).loc main_v10) ↦{fullShare} V main_v10)) := by
  unfold Pipeline.arrBufs
  exact bigSep_eq_bigSepL_of_eq [main_v9, main_arg2, main_v4, main_arg7, main_v5, main_arg9, main_v6, main_v7, main_v8, main_v10] (by decide) (by decide) _

/-- A window's share: an output window holds its array whole, an input window what the proof data deal it. -/
theorem share_eq1 {c : Dev nD} (dat : Dat τ (Elt F) Unit ℕ (UR sig nD τ) ℕ cfg1 c) (hq : dat.q = qsh) (w : Fin cfg1.W) :
    dat.share w = if (cfg1.win w).isOut then fullShare else qsh w := by unfold Dat.share; rw [hq]

set_option maxHeartbeats 1600000 in
/-- ENTRY: the buffers behind the arrays, each whole at the full share at contents `V`, are the windows' arrays at the
    proof data's shares — the feature matrix's buffer split into the two halves its two windows hold. -/
theorem arrays_in1 {c : Dev nD} (dat : Dat τ (Elt F) Unit ℕ (UR sig nD τ) ℕ cfg1 c) (hq : dat.q = qsh)
    (V : (b : Ref sig .tc) → Buf (Elt F) ((c : Thread nD τ).loc b))
    (G : (w : Fin cfg1.W) → Buf (Elt F) ((cfg1.win w).arr.view.loc (c : Thread nD τ))) (hG : ∀ w, G w = V (Pipeline.arrRef spec1 w)) :
    (Pipeline.arrBufs (Ix := Unit) (Name := ℕ) (U := UR sig nD τ) (Lvl := ℕ) spec1 c V : sProp 𝕄) ⊢ dat.arrays G := by
  obtain rfl : G = fun w => V (Pipeline.arrRef spec1 w) := funext hG
  have s0 : dat.share (0 : Fin cfg1.W) = fullShare.left := (share_eq1 dat hq 0).trans rfl
  have s1 : dat.share (1 : Fin cfg1.W) = fullShare.right := (share_eq1 dat hq 1).trans rfl
  have s2 : dat.share (2 : Fin cfg1.W) = fullShare := (share_eq1 dat hq 2).trans rfl
  have s3 : dat.share (3 : Fin cfg1.W) = fullShare := (share_eq1 dat hq 3).trans rfl
  have s4 : dat.share (4 : Fin cfg1.W) = fullShare := (share_eq1 dat hq 4).trans rfl
  have s5 : dat.share (5 : Fin cfg1.W) = fullShare := (share_eq1 dat hq 5).trans rfl
  have s6 : dat.share (6 : Fin cfg1.W) = fullShare := (share_eq1 dat hq 6).trans rfl
  have s7 : dat.share (7 : Fin cfg1.W) = fullShare := (share_eq1 dat hq 7).trans rfl
  have s8 : dat.share (8 : Fin cfg1.W) = fullShare := (share_eq1 dat hq 8).trans rfl
  have s9 : dat.share (9 : Fin cfg1.W) = fullShare := (share_eq1 dat hq 9).trans rfl
  have s10 : dat.share (10 : Fin cfg1.W) = fullShare := (share_eq1 dat hq 10).trans rfl
  rw [arrBufs1_list]
  unfold Dat.arrays
  rw [bigSep_W1]
  rw [(arr_whole1 0).set_eq_univ, (arr_whole1 2).set_eq_univ, (arr_whole1 3).set_eq_univ, (arr_whole1 4).set_eq_univ, (arr_whole1 5).set_eq_univ, (arr_whole1 6).set_eq_univ, (arr_whole1 7).set_eq_univ, (arr_whole1 8).set_eq_univ, (arr_whole1 9).set_eq_univ, (arr_whole1 10).set_eq_univ]
  rw [s0, s1, s2, s3, s4, s5, s6, s7, s8, s9, s10]
  iintro ⟨Hh, H2, H4, H7, H5, H9, H6, H7b, H8, Ho⟩
  ihave Hs := (pointsTo_share (PosShare.mem_left_op_right fullShare)).1 $$ Hh
  icases Hs with ⟨Ha, Hb⟩
  isplitl [Ha]; · iexact Ha
  isplitl [Hb]; · iexact Hb
  isplitl [H2]; · iexact H2
  isplitl [H4]; · iexact H4
  isplitl [H7]; · iexact H7
  isplitl [H5]; · iexact H5
  isplitl [H9]; · iexact H9
  isplitl [H6]; · iexact H6
  isplitl [H7b]; · iexact H7b
  isplitl [H8]; · iexact H8
  iexact Ho

set_option maxHeartbeats 1600000 in
/-- EXIT: the windows' arrays at contents read off `V`, each at its share, are the buffers behind them whole at the full
    share — the two halves of the feature matrix's buffer, holding the same contents, joined. -/
theorem arrays_out1 {c : Dev nD} (dat : Dat τ (Elt F) Unit ℕ (UR sig nD τ) ℕ cfg1 c) (hq : dat.q = qsh)
    (V : (b : Ref sig .tc) → Buf (Elt F) ((c : Thread nD τ).loc b))
    (G : (w : Fin cfg1.W) → Buf (Elt F) ((cfg1.win w).arr.view.loc (c : Thread nD τ))) (hG : ∀ w, G w = V (Pipeline.arrRef spec1 w)) :
    dat.arrays G ⊢ (Pipeline.arrBufs (Ix := Unit) (Name := ℕ) (U := UR sig nD τ) (Lvl := ℕ) spec1 c V : sProp 𝕄) := by
  obtain rfl : G = fun w => V (Pipeline.arrRef spec1 w) := funext hG
  have s0 : dat.share (0 : Fin cfg1.W) = fullShare.left := (share_eq1 dat hq 0).trans rfl
  have s1 : dat.share (1 : Fin cfg1.W) = fullShare.right := (share_eq1 dat hq 1).trans rfl
  have s2 : dat.share (2 : Fin cfg1.W) = fullShare := (share_eq1 dat hq 2).trans rfl
  have s3 : dat.share (3 : Fin cfg1.W) = fullShare := (share_eq1 dat hq 3).trans rfl
  have s4 : dat.share (4 : Fin cfg1.W) = fullShare := (share_eq1 dat hq 4).trans rfl
  have s5 : dat.share (5 : Fin cfg1.W) = fullShare := (share_eq1 dat hq 5).trans rfl
  have s6 : dat.share (6 : Fin cfg1.W) = fullShare := (share_eq1 dat hq 6).trans rfl
  have s7 : dat.share (7 : Fin cfg1.W) = fullShare := (share_eq1 dat hq 7).trans rfl
  have s8 : dat.share (8 : Fin cfg1.W) = fullShare := (share_eq1 dat hq 8).trans rfl
  have s9 : dat.share (9 : Fin cfg1.W) = fullShare := (share_eq1 dat hq 9).trans rfl
  have s10 : dat.share (10 : Fin cfg1.W) = fullShare := (share_eq1 dat hq 10).trans rfl
  rw [arrBufs1_list]
  unfold Dat.arrays
  rw [bigSep_W1]
  rw [(arr_whole1 0).set_eq_univ, (arr_whole1 2).set_eq_univ, (arr_whole1 3).set_eq_univ, (arr_whole1 4).set_eq_univ, (arr_whole1 5).set_eq_univ, (arr_whole1 6).set_eq_univ, (arr_whole1 7).set_eq_univ, (arr_whole1 8).set_eq_univ, (arr_whole1 9).set_eq_univ, (arr_whole1 10).set_eq_univ]
  rw [s0, s1, s2, s3, s4, s5, s6, s7, s8, s9, s10]
  iintro ⟨Ha, Hb, H2, H4, H7, H5, H9, H6, H7b, H8, Ho⟩
  ihave Hh := (pointsTo_share (PosShare.mem_left_op_right fullShare)).2 $$ [Ha Hb]
  · isplitl [Ha]; · iexact Ha
    iexact Hb
  isplitl [Hh]; · iexact Hh
  isplitl [H2]; · iexact H2
  isplitl [H4]; · iexact H4
  isplitl [H7]; · iexact H7
  isplitl [H5]; · iexact H5
  isplitl [H9]; · iexact H9
  isplitl [H6]; · iexact H6
  isplitl [H7b]; · iexact H7b
  isplitl [H8]; · iexact H8
  iexact Ho

end Cert.KernelIdeal.Hand

end
-- ==== Proof.KI.Share2.lean ====
import proofs.«172293_j20512763806108_2_alg».proof.Proof.Gen.KernelIdeal.Launch
import Idealize.ShloMosaic.Lib.Pipeline.Frame
import proofs.«172293_j20512763806108_2_alg».proof.Proof.KI.Share0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-- The distinct buffers behind the arrays of call 2's windows, one by one. -/
theorem arrBufs2_list (c : Dev nD) (V : (b : Ref sig .tc) → Buf (Elt F) ((c : Thread nD τ).loc b)) :
    (Pipeline.arrBufs (Ix := Unit) (Name := ℕ) (U := UR sig nD τ) (Lvl := ℕ) spec2 c V : sProp 𝕄)
      = iprop((((c : Thread nD τ).loc main_v10) ↦{fullShare} V main_v10) ∗ (((c : Thread nD τ).loc main_arg2) ↦{fullShare} V main_arg2) ∗ (((c : Thread nD τ).loc main_v4) ↦{fullShare} V main_v4) ∗ (((c : Thread nD τ).loc main_arg7) ↦{fullShare} V main_arg7) ∗ (((c : Thread nD τ).loc main_v5) ↦{fullShare} V main_v5) ∗ (((c : Thread nD τ).loc main_arg9) ↦{fullShare} V main_arg9) ∗ (((c : Thread nD τ).loc main_v6) ↦{fullShare} V main_v6) ∗ (((c : Thread nD τ).loc main_v7) ↦{fullShare} V main_v7) ∗ (((c : Thread nD τ).loc main_v8) ↦{fullShare} V main_v8) ∗ (((c : Thread nD τ).loc main_v11) ↦{fullShare} V main_v11)) := by
  unfold Pipeline.arrBufs
  exact bigSep_eq_bigSepL_of_eq [main_v10, main_arg2, main_v4, main_arg7, main_v5, main_arg9, main_v6, main_v7, main_v8, main_v11] (by decide) (by decide) _

/-- A window's share: an output window holds its array whole, an input window what the proof data deal it. -/
theorem share_eq2 {c : Dev nD} (dat : Dat τ (Elt F) Unit ℕ (UR sig nD τ) ℕ cfg2 c) (hq : dat.q = qsh) (w : Fin cfg2.W) :
    dat.share w = if (cfg2.win w).isOut then fullShare else qsh w := by unfold Dat.share; rw [hq]

set_option maxHeartbeats 1600000 in
/-- ENTRY: the buffers behind the arrays, each whole at the full share at contents `V`, are the windows' arrays at the
    proof data's shares — the feature matrix's buffer split into the two halves its two windows hold. -/
theorem arrays_in2 {c : Dev nD} (dat : Dat τ (Elt F) Unit ℕ (UR sig nD τ) ℕ cfg2 c) (hq : dat.q = qsh)
    (V : (b : Ref sig .tc) → Buf (Elt F) ((c : Thread nD τ).loc b))
    (G : (w : Fin cfg2.W) → Buf (Elt F) ((cfg2.win w).arr.view.loc (c : Thread nD τ))) (hG : ∀ w, G w = V (Pipeline.arrRef spec2 w)) :
    (Pipeline.arrBufs (Ix := Unit) (Name := ℕ) (U := UR sig nD τ) (Lvl := ℕ) spec2 c V : sProp 𝕄) ⊢ dat.arrays G := by
  obtain rfl : G = fun w => V (Pipeline.arrRef spec2 w) := funext hG
  have s0 : dat.share (0 : Fin cfg2.W) = fullShare.left := (share_eq2 dat hq 0).trans rfl
  have s1 : dat.share (1 : Fin cfg2.W) = fullShare.right := (share_eq2 dat hq 1).trans rfl
  have s2 : dat.share (2 : Fin cfg2.W) = fullShare := (share_eq2 dat hq 2).trans rfl
  have s3 : dat.share (3 : Fin cfg2.W) = fullShare := (share_eq2 dat hq 3).trans rfl
  have s4 : dat.share (4 : Fin cfg2.W) = fullShare := (share_eq2 dat hq 4).trans rfl
  have s5 : dat.share (5 : Fin cfg2.W) = fullShare := (share_eq2 dat hq 5).trans rfl
  have s6 : dat.share (6 : Fin cfg2.W) = fullShare := (share_eq2 dat hq 6).trans rfl
  have s7 : dat.share (7 : Fin cfg2.W) = fullShare := (share_eq2 dat hq 7).trans rfl
  have s8 : dat.share (8 : Fin cfg2.W) = fullShare := (share_eq2 dat hq 8).trans rfl
  have s9 : dat.share (9 : Fin cfg2.W) = fullShare := (share_eq2 dat hq 9).trans rfl
  have s10 : dat.share (10 : Fin cfg2.W) = fullShare := (share_eq2 dat hq 10).trans rfl
  rw [arrBufs2_list]
  unfold Dat.arrays
  rw [bigSep_W2]
  rw [(arr_whole2 0).set_eq_univ, (arr_whole2 2).set_eq_univ, (arr_whole2 3).set_eq_univ, (arr_whole2 4).set_eq_univ, (arr_whole2 5).set_eq_univ, (arr_whole2 6).set_eq_univ, (arr_whole2 7).set_eq_univ, (arr_whole2 8).set_eq_univ, (arr_whole2 9).set_eq_univ, (arr_whole2 10).set_eq_univ]
  rw [s0, s1, s2, s3, s4, s5, s6, s7, s8, s9, s10]
  iintro ⟨Hh, H2, H4, H7, H5, H9, H6, H7b, H8, Ho⟩
  ihave Hs := (pointsTo_share (PosShare.mem_left_op_right fullShare)).1 $$ Hh
  icases Hs with ⟨Ha, Hb⟩
  isplitl [Ha]; · iexact Ha
  isplitl [Hb]; · iexact Hb
  isplitl [H2]; · iexact H2
  isplitl [H4]; · iexact H4
  isplitl [H7]; · iexact H7
  isplitl [H5]; · iexact H5
  isplitl [H9]; · iexact H9
  isplitl [H6]; · iexact H6
  isplitl [H7b]; · iexact H7b
  isplitl [H8]; · iexact H8
  iexact Ho

set_option maxHeartbeats 1600000 in
/-- EXIT: the windows' arrays at contents read off `V`, each at its share, are the buffers behind them whole at the full
    share — the two halves of the feature matrix's buffer, holding the same contents, joined. -/
theorem arrays_out2 {c : Dev nD} (dat : Dat τ (Elt F) Unit ℕ (UR sig nD τ) ℕ cfg2 c) (hq : dat.q = qsh)
    (V : (b : Ref sig .tc) → Buf (Elt F) ((c : Thread nD τ).loc b))
    (G : (w : Fin cfg2.W) → Buf (Elt F) ((cfg2.win w).arr.view.loc (c : Thread nD τ))) (hG : ∀ w, G w = V (Pipeline.arrRef spec2 w)) :
    dat.arrays G ⊢ (Pipeline.arrBufs (Ix := Unit) (Name := ℕ) (U := UR sig nD τ) (Lvl := ℕ) spec2 c V : sProp 𝕄) := by
  obtain rfl : G = fun w => V (Pipeline.arrRef spec2 w) := funext hG
  have s0 : dat.share (0 : Fin cfg2.W) = fullShare.left := (share_eq2 dat hq 0).trans rfl
  have s1 : dat.share (1 : Fin cfg2.W) = fullShare.right := (share_eq2 dat hq 1).trans rfl
  have s2 : dat.share (2 : Fin cfg2.W) = fullShare := (share_eq2 dat hq 2).trans rfl
  have s3 : dat.share (3 : Fin cfg2.W) = fullShare := (share_eq2 dat hq 3).trans rfl
  have s4 : dat.share (4 : Fin cfg2.W) = fullShare := (share_eq2 dat hq 4).trans rfl
  have s5 : dat.share (5 : Fin cfg2.W) = fullShare := (share_eq2 dat hq 5).trans rfl
  have s6 : dat.share (6 : Fin cfg2.W) = fullShare := (share_eq2 dat hq 6).trans rfl
  have s7 : dat.share (7 : Fin cfg2.W) = fullShare := (share_eq2 dat hq 7).trans rfl
  have s8 : dat.share (8 : Fin cfg2.W) = fullShare := (share_eq2 dat hq 8).trans rfl
  have s9 : dat.share (9 : Fin cfg2.W) = fullShare := (share_eq2 dat hq 9).trans rfl
  have s10 : dat.share (10 : Fin cfg2.W) = fullShare := (share_eq2 dat hq 10).trans rfl
  rw [arrBufs2_list]
  unfold Dat.arrays
  rw [bigSep_W2]
  rw [(arr_whole2 0).set_eq_univ, (arr_whole2 2).set_eq_univ, (arr_whole2 3).set_eq_univ, (arr_whole2 4).set_eq_univ, (arr_whole2 5).set_eq_univ, (arr_whole2 6).set_eq_univ, (arr_whole2 7).set_eq_univ, (arr_whole2 8).set_eq_univ, (arr_whole2 9).set_eq_univ, (arr_whole2 10).set_eq_univ]
  rw [s0, s1, s2, s3, s4, s5, s6, s7, s8, s9, s10]
  iintro ⟨Ha, Hb, H2, H4, H7, H5, H9, H6, H7b, H8, Ho⟩
  ihave Hh := (pointsTo_share (PosShare.mem_left_op_right fullShare)).2 $$ [Ha Hb]
  · isplitl [Ha]; · iexact Ha
    iexact Hb
  isplitl [Hh]; · iexact Hh
  isplitl [H2]; · iexact H2
  isplitl [H4]; · iexact H4
  isplitl [H7]; · iexact H7
  isplitl [H5]; · iexact H5
  isplitl [H9]; · iexact H9
  isplitl [H6]; · iexact H6
  isplitl [H7b]; · iexact H7b
  isplitl [H8]; · iexact H8
  iexact Ho

end Cert.KernelIdeal.Hand

end
-- ==== Proof.KI.Segs.lean ====
import proofs.«172293_j20512763806108_2_alg».proof.Proof.KI.Vals
import proofs.«172293_j20512763806108_2_alg».proof.Proof.KI.Share0
import proofs.«172293_j20512763806108_2_alg».proof.Proof.KI.Share1
import proofs.«172293_j20512763806108_2_alg».proof.Proof.KI.Share2
import proofs.«172293_j20512763806108_2_alg».proof.Proof.Gen.KernelIdeal.Regions
import Idealize.ShloMosaic.Lib.Pipeline.Regions
import Idealize.ShloMosaic.Lib.Pipeline.RegionsLoop
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and what rides beside the buffers -/

/-- Every call's proof data, each at its entry contents — a literal `match` on the call's number. -/
def pdats : (p : Fin 3) → (c : Dev nD) → Dat τ (Elt F) Unit ℕ (UR sig nD τ) ℕ (Pipeline.pin (pcfgs (F := F)) adm p) c
  | ⟨0, _⟩ => fun c => dat0 (Vr (Wa m)) qsh c
  | ⟨1, _⟩ => fun c => dat1 (Vr (Wb m)) qsh c
  | ⟨2, _⟩ => fun c => dat2 (Vr (Wc m)) qsh c

abbrev 𝒱₀ : Variants := Variants.none
/-- No core owes another anything: no level is assigned. -/
abbrev Lz : GSem nD τ sig → Finset Unit := fun _ => ∅
abbrev lvz : GSem nD τ sig → Unit → ℕ := fun _ _ => 0
/-- Beside the buffers every item carries the core's generator register at some state and its dues, none. -/
abbrev Rr (c : Dev nD) : sProp 𝕄 := iprop((∃ r, prngReg c r) ∗ ∃ W, owes (c : Thread nD τ) (0 : CellTallies nD τ sig Unit) W)

/-! ### Call 0 -/

/-- At call 0's exit each of its arrays holds what the pipeline leaves: an input array its entry contents (never
    written), the output array the folded write-backs. -/
theorem exit0_in (c : Dev nD) (w : Fin cfg0.W) (hw : (cfg0.win w).isOut = false) (hne : Pipeline.arrRef spec0 w ≠ main_v9) :
    (dat0 (Vr (Wa m)) qsh c).arrAt w cfg0.N = Vr (Wb m) c (Pipeline.arrRef spec0 w) :=
  ((dat0 (Vr (Wa m)) qsh c).arrAt_in w hw _).trans ((A_eq0 (Vr (Wa m)) qsh c w).trans (Wb_of_ne m c _ hne).symm)

theorem exit0 (c : Dev nD) (w : Fin cfg0.W) :
    (dat0 (Vr (Wa m)) qsh c).arrAt w cfg0.N = Vr (Wb m) c (Pipeline.arrRef spec0 w) := by
  match w with
  | ⟨0, _⟩ => exact exit0_in m c (0 : Fin cfg0.W) rfl (by decide)
  | ⟨1, _⟩ => exact exit0_in m c (1 : Fin cfg0.W) rfl (by decide)
  | ⟨2, _⟩ => exact exit0_in m c (2 : Fin cfg0.W) rfl (by decide)
  | ⟨3, _⟩ => exact exit0_in m c (3 : Fin cfg0.W) rfl (by decide)
  | ⟨4, _⟩ => exact exit0_in m c (4 : Fin cfg0.W) rfl (by decide)
  | ⟨5, _⟩ => exact exit0_in m c (5 : Fin cfg0.W) rfl (by decide)
  | ⟨6, _⟩ => exact exit0_in m c (6 : Fin cfg0.W) rfl (by decide)
  | ⟨7, _⟩ => exact exit0_in m c (7 : Fin cfg0.W) rfl (by decide)
  | ⟨8, _⟩ => exact exit0_in m c (8 : Fin cfg0.W) rfl (by decide)
  | ⟨9, _⟩ => exact exit0_in m c (9 : Fin cfg0.W) rfl (by decide)
  | ⟨10, _⟩ => exact (res0_eq m c).symm.trans (Wb_out m c).symm

/-- A core's unscoped buffers are the buffers behind call 0's arrays and the rest. -/
theorem split0 (c : Dev nD) (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec0 c V ∗ Pipeline.unscopedRest spec0 c V) :=
  Pipeline.unscopedBufs_split₀ (Pipeline.pin (pcfgs (F := F)) adm) 0 winFacts₀0.arr_unscoped c V

/-- The unscoped buffers that are no array of call 0 are as they were. -/
theorem rest0 (c : Dev nD) :
    (Pipeline.unscopedRest (Ix := Unit) (Name := ℕ) (U := UR sig nD τ) (Lvl := ℕ) spec0 c (Vr (Wa m) c) : sProp 𝕄)
      = Pipeline.unscopedRest spec0 c (Vr (Wb m) c) := by
  unfold Pipeline.unscopedRest
  exact bigSep_congr fun b hb => by
    rw [show Vr (Wb m) c b = Vr (Wa m) c b from Wb_of_ne m c b fun e =>
      (Finset.mem_sdiff.mp hb).2 (Finset.mem_image.mpr ⟨10, Finset.mem_univ _, e.symm⟩)]

/-- ENTRY of call 0, the buffers' part: every unscoped buffer at `Wa` is the call's arrays at their entry contents
    (each window at its share) beside the unscoped rest. -/
theorem entry0 (c : Dev nD) :
    (StableHlo.held (c : Thread nD τ) (Pipeline.ucRefs τ sig) (Wa m c) : sProp 𝕄)
      ⊢ iprop((dat0 (Vr (Wa m)) qsh c).arrays (fun w => (dat0 (Vr (Wa m)) qsh c).arrAt w 0) ∗ Pipeline.unscopedRest spec0 c (Vr (Wa m) c)) := by
  rw [← Pipeline.unscopedBufs_held (Ix := Unit) (Name := ℕ) (U := UR sig nD τ) (Lvl := ℕ) c (Wa m c),
    split0 c (Vr (Wa m) c)]
  exact sep_mono (arrays_in0 (dat0 (Vr (Wa m)) qsh c) rfl (Vr (Wa m) c) _ (fun w => A_eq0 (Vr (Wa m)) qsh c w)) .rfl

set_option maxHeartbeats 1600000 in
/-- EXIT of call 0, the buffers' part: the arrays at what the pipeline leaves beside the unscoped rest are every unscoped
    buffer at `Wb`. -/
theorem leave0 (c : Dev nD) :
    iprop((dat0 (Vr (Wa m)) qsh c).arrays (fun w => (dat0 (Vr (Wa m)) qsh c).arrAt w cfg0.N) ∗ Pipeline.unscopedRest spec0 c (Vr (Wa m) c))
      ⊢ (StableHlo.held (c : Thread nD τ) (Pipeline.ucRefs τ sig) (Wb m c) : sProp 𝕄) := by
  rw [← Pipeline.unscopedBufs_held (Ix := Unit) (Name := ℕ) (U := UR sig nD τ) (Lvl := ℕ) c (Wb m c),
    split0 c (Vr (Wb m) c)]
  refine BIClass.sep_mono ?_ ?_
  · exact arrays_out0 (dat0 (Vr (Wa m)) qsh c) rfl (Vr (Wb m) c) _ (exit0 m c)
  · exact BIBase.Entails.of_eq (rest0 m c)

set_option backward.isDefEq.respectTransparency.types false in
/-- Call 0 over the thread state: entered from every unscoped buffer at `Wa`, left at `Wb`. Its arrays are
    split out of the unscoped buffers (the feature matrix's buffer dealt in halves to its two windows) and put back at the
    exit contents; the generator register goes into the body's invariant and comes back; nothing is owed; the kernel has
    no semaphore of its own. -/
def reg0 : RegionSeg (pcfgs (F := F)) adm (pdats m) () defs₀ 𝒱₀ Lz lvz 0 where
  win := winFacts₀0
  block_pos := block_pos0
  stage_whole := stage_whole0
  K := PEmpty
  osem k := k.elim
  ho := Pipeline.OwnSemFacts.none _
  hbody c := (body_obligation0 (Vr (Wa m)) qsh c).loose
  hwaits := Pipeline.hwaits_of_owed_zero _ _ _ _ Lz lvz 0 fun _ _ => rfl
  pre c := iprop(StableHlo.held (c : Thread nD τ) (Pipeline.ucRefs τ sig) (Wa m c) ∗ Rr c)
  post c := iprop(StableHlo.held (c : Thread nD τ) (Pipeline.ucRefs τ sig) (Wb m c) ∗ Rr c)
  X c := iprop(∃ r, prngReg c r)
  Y c := iprop(∃ r, prngReg c r)
  Z c := Pipeline.unscopedRest (Ix := Unit) (Name := ℕ) (U := UR sig nD τ) (Lvl := ℕ) spec0 c (Vr (Wa m) c)
  hentry c := by
    rw [Pipeline.ownSems0_none]
    iintro ⟨⟨Hub, Hp, HO⟩, -, -⟩
    ihave H := (entry0 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Vr (Wa m)) qsh c)
    unfold Pipeline.ΦA
    iintro ⟨Hp, -, Hr⟩
    isplitl [Hr]; · iexact Hr
    iexact Hp
  hout c := by
    rw [Pipeline.ownSems0_none]
    refine BIBase.Entails.trans (hout0 (Vr (Wa m)) qsh c) ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (leave0 m c); isplitl [Ha]; · iexact Ha
      iexact Hrest
    isplitl [HY]; · iexact HY
    unfold Pipeline.Dat.owesAt Pipeline.owesWithin
    icases HO with ⟨%W, -, HO⟩; iexists W; iexact HO

/-! ### Call 1 -/

/-- At call 1's exit each of its arrays holds what the pipeline leaves: an input array its entry contents (never
    written), the output array the folded write-backs. -/
theorem exit1_in (c : Dev nD) (w : Fin cfg1.W) (hw : (cfg1.win w).isOut = false) (hne : Pipeline.arrRef spec1 w ≠ main_v10) :
    (dat1 (Vr (Wb m)) qsh c).arrAt w cfg1.N = Vr (Wc m) c (Pipeline.arrRef spec1 w) :=
  ((dat1 (Vr (Wb m)) qsh c).arrAt_in w hw _).trans ((A_eq1 (Vr (Wb m)) qsh c w).trans (Wc_of_ne m c _ hne).symm)

theorem exit1 (c : Dev nD) (w : Fin cfg1.W) :
    (dat1 (Vr (Wb m)) qsh c).arrAt w cfg1.N = Vr (Wc m) c (Pipeline.arrRef spec1 w) := by
  match w with
  | ⟨0, _⟩ => exact exit1_in m c (0 : Fin cfg1.W) rfl (by decide)
  | ⟨1, _⟩ => exact exit1_in m c (1 : Fin cfg1.W) rfl (by decide)
  | ⟨2, _⟩ => exact exit1_in m c (2 : Fin cfg1.W) rfl (by decide)
  | ⟨3, _⟩ => exact exit1_in m c (3 : Fin cfg1.W) rfl (by decide)
  | ⟨4, _⟩ => exact exit1_in m c (4 : Fin cfg1.W) rfl (by decide)
  | ⟨5, _⟩ => exact exit1_in m c (5 : Fin cfg1.W) rfl (by decide)
  | ⟨6, _⟩ => exact exit1_in m c (6 : Fin cfg1.W) rfl (by decide)
  | ⟨7, _⟩ => exact exit1_in m c (7 : Fin cfg1.W) rfl (by decide)
  | ⟨8, _⟩ => exact exit1_in m c (8 : Fin cfg1.W) rfl (by decide)
  | ⟨9, _⟩ => exact exit1_in m c (9 : Fin cfg1.W) rfl (by decide)
  | ⟨10, _⟩ => exact (res1_eq m c).symm.trans (Wc_out m c).symm

/-- A core's unscoped buffers are the buffers behind call 1's arrays and the rest. -/
theorem split1 (c : Dev nD) (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec1 c V ∗ Pipeline.unscopedRest spec1 c V) :=
  Pipeline.unscopedBufs_split₀ (Pipeline.pin (pcfgs (F := F)) adm) 1 winFacts₀1.arr_unscoped c V

/-- The unscoped buffers that are no array of call 1 are as they were. -/
theorem rest1 (c : Dev nD) :
    (Pipeline.unscopedRest (Ix := Unit) (Name := ℕ) (U := UR sig nD τ) (Lvl := ℕ) spec1 c (Vr (Wb m) c) : sProp 𝕄)
      = Pipeline.unscopedRest spec1 c (Vr (Wc m) c) := by
  unfold Pipeline.unscopedRest
  exact bigSep_congr fun b hb => by
    rw [show Vr (Wc m) c b = Vr (Wb m) c b from Wc_of_ne m c b fun e =>
      (Finset.mem_sdiff.mp hb).2 (Finset.mem_image.mpr ⟨10, Finset.mem_univ _, e.symm⟩)]

/-- ENTRY of call 1, the buffers' part: every unscoped buffer at `Wb` is the call's arrays at their entry contents
    (each window at its share) beside the unscoped rest. -/
theorem entry1 (c : Dev nD) :
    (StableHlo.held (c : Thread nD τ) (Pipeline.ucRefs τ sig) (Wb m c) : sProp 𝕄)
      ⊢ iprop((dat1 (Vr (Wb m)) qsh c).arrays (fun w => (dat1 (Vr (Wb m)) qsh c).arrAt w 0) ∗ Pipeline.unscopedRest spec1 c (Vr (Wb m) c)) := by
  rw [← Pipeline.unscopedBufs_held (Ix := Unit) (Name := ℕ) (U := UR sig nD τ) (Lvl := ℕ) c (Wb m c),
    split1 c (Vr (Wb m) c)]
  exact sep_mono (arrays_in1 (dat1 (Vr (Wb m)) qsh c) rfl (Vr (Wb m) c) _ (fun w => A_eq1 (Vr (Wb m)) qsh c w)) .rfl

set_option maxHeartbeats 1600000 in
/-- EXIT of call 1, the buffers' part: the arrays at what the pipeline leaves beside the unscoped rest are every unscoped
    buffer at `Wc`. -/
theorem leave1 (c : Dev nD) :
    iprop((dat1 (Vr (Wb m)) qsh c).arrays (fun w => (dat1 (Vr (Wb m)) qsh c).arrAt w cfg1.N) ∗ Pipeline.unscopedRest spec1 c (Vr (Wb m) c))
      ⊢ (StableHlo.held (c : Thread nD τ) (Pipeline.ucRefs τ sig) (Wc m c) : sProp 𝕄) := by
  rw [← Pipeline.unscopedBufs_held (Ix := Unit) (Name := ℕ) (U := UR sig nD τ) (Lvl := ℕ) c (Wc m c),
    split1 c (Vr (Wc m) c)]
  refine BIClass.sep_mono ?_ ?_
  · exact arrays_out1 (dat1 (Vr (Wb m)) qsh c) rfl (Vr (Wc m) c) _ (exit1 m c)
  · exact BIBase.Entails.of_eq (rest1 m c)

set_option backward.isDefEq.respectTransparency.types false in
/-- Call 1 over the thread state: entered from every unscoped buffer at `Wb`, left at `Wc`. Its arrays are
    split out of the unscoped buffers (the feature matrix's buffer dealt in halves to its two windows) and put back at the
    exit contents; the generator register goes into the body's invariant and comes back; nothing is owed; the kernel has
    no semaphore of its own. -/
def reg1 : RegionSeg (pcfgs (F := F)) adm (pdats m) () defs₀ 𝒱₀ Lz lvz 1 where
  win := winFacts₀1
  block_pos := block_pos1
  stage_whole := stage_whole1
  K := PEmpty
  osem k := k.elim
  ho := Pipeline.OwnSemFacts.none _
  hbody c := (body_obligation1 (Vr (Wb m)) qsh c).loose
  hwaits := Pipeline.hwaits_of_owed_zero _ _ _ _ Lz lvz 1 fun _ _ => rfl
  pre c := iprop(StableHlo.held (c : Thread nD τ) (Pipeline.ucRefs τ sig) (Wb m c) ∗ Rr c)
  post c := iprop(StableHlo.held (c : Thread nD τ) (Pipeline.ucRefs τ sig) (Wc m c) ∗ Rr c)
  X c := iprop(∃ r, prngReg c r)
  Y c := iprop(∃ r, prngReg c r)
  Z c := Pipeline.unscopedRest (Ix := Unit) (Name := ℕ) (U := UR sig nD τ) (Lvl := ℕ) spec1 c (Vr (Wb m) c)
  hentry c := by
    rw [Pipeline.ownSems0_none]
    iintro ⟨⟨Hub, Hp, HO⟩, -, -⟩
    ihave H := (entry1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vr (Wb m)) qsh c)
    unfold Pipeline.ΦA
    iintro ⟨Hp, -, Hr⟩
    isplitl [Hr]; · iexact Hr
    iexact Hp
  hout c := by
    rw [Pipeline.ownSems0_none]
    refine BIBase.Entails.trans (hout1 (Vr (Wb m)) qsh c) ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (leave1 m c); isplitl [Ha]; · iexact Ha
      iexact Hrest
    isplitl [HY]; · iexact HY
    unfold Pipeline.Dat.owesAt Pipeline.owesWithin
    icases HO with ⟨%W, -, HO⟩; iexists W; iexact HO

/-! ### Call 2 -/

/-- At call 2's exit each of its arrays holds what the pipeline leaves: an input array its entry contents (never
    written), the output array the folded write-backs. -/
theorem exit2_in (c : Dev nD) (w : Fin cfg2.W) (hw : (cfg2.win w).isOut = false) (hne : Pipeline.arrRef spec2 w ≠ main_v11) :
    (dat2 (Vr (Wc m)) qsh c).arrAt w cfg2.N = Vr (Wd m) c (Pipeline.arrRef spec2 w) :=
  ((dat2 (Vr (Wc m)) qsh c).arrAt_in w hw _).trans ((A_eq2 (Vr (Wc m)) qsh c w).trans (Wd_of_ne m c _ hne).symm)

theorem exit2 (c : Dev nD) (w : Fin cfg2.W) :
    (dat2 (Vr (Wc m)) qsh c).arrAt w cfg2.N = Vr (Wd m) c (Pipeline.arrRef spec2 w) := by
  match w with
  | ⟨0, _⟩ => exact exit2_in m c (0 : Fin cfg2.W) rfl (by decide)
  | ⟨1, _⟩ => exact exit2_in m c (1 : Fin cfg2.W) rfl (by decide)
  | ⟨2, _⟩ => exact exit2_in m c (2 : Fin cfg2.W) rfl (by decide)
  | ⟨3, _⟩ => exact exit2_in m c (3 : Fin cfg2.W) rfl (by decide)
  | ⟨4, _⟩ => exact exit2_in m c (4 : Fin cfg2.W) rfl (by decide)
  | ⟨5, _⟩ => exact exit2_in m c (5 : Fin cfg2.W) rfl (by decide)
  | ⟨6, _⟩ => exact exit2_in m c (6 : Fin cfg2.W) rfl (by decide)
  | ⟨7, _⟩ => exact exit2_in m c (7 : Fin cfg2.W) rfl (by decide)
  | ⟨8, _⟩ => exact exit2_in m c (8 : Fin cfg2.W) rfl (by decide)
  | ⟨9, _⟩ => exact exit2_in m c (9 : Fin cfg2.W) rfl (by decide)
  | ⟨10, _⟩ => exact (res2_eq m c).symm.trans (Wd_out m c).symm

/-- A core's unscoped buffers are the buffers behind call 2's arrays and the rest. -/
theorem split2 (c : Dev nD) (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec2 c V ∗ Pipeline.unscopedRest spec2 c V) :=
  Pipeline.unscopedBufs_split₀ (Pipeline.pin (pcfgs (F := F)) adm) 2 winFacts₀2.arr_unscoped c V

/-- The unscoped buffers that are no array of call 2 are as they were. -/
theorem rest2 (c : Dev nD) :
    (Pipeline.unscopedRest (Ix := Unit) (Name := ℕ) (U := UR sig nD τ) (Lvl := ℕ) spec2 c (Vr (Wc m) c) : sProp 𝕄)
      = Pipeline.unscopedRest spec2 c (Vr (Wd m) c) := by
  unfold Pipeline.unscopedRest
  exact bigSep_congr fun b hb => by
    rw [show Vr (Wd m) c b = Vr (Wc m) c b from Wd_of_ne m c b fun e =>
      (Finset.mem_sdiff.mp hb).2 (Finset.mem_image.mpr ⟨10, Finset.mem_univ _, e.symm⟩)]

/-- ENTRY of call 2, the buffers' part: every unscoped buffer at `Wc` is the call's arrays at their entry contents
    (each window at its share) beside the unscoped rest. -/
theorem entry2 (c : Dev nD) :
    (StableHlo.held (c : Thread nD τ) (Pipeline.ucRefs τ sig) (Wc m c) : sProp 𝕄)
      ⊢ iprop((dat2 (Vr (Wc m)) qsh c).arrays (fun w => (dat2 (Vr (Wc m)) qsh c).arrAt w 0) ∗ Pipeline.unscopedRest spec2 c (Vr (Wc m) c)) := by
  rw [← Pipeline.unscopedBufs_held (Ix := Unit) (Name := ℕ) (U := UR sig nD τ) (Lvl := ℕ) c (Wc m c),
    split2 c (Vr (Wc m) c)]
  exact sep_mono (arrays_in2 (dat2 (Vr (Wc m)) qsh c) rfl (Vr (Wc m) c) _ (fun w => A_eq2 (Vr (Wc m)) qsh c w)) .rfl

set_option maxHeartbeats 1600000 in
/-- EXIT of call 2, the buffers' part: the arrays at what the pipeline leaves beside the unscoped rest are every unscoped
    buffer at `Wd`. -/
theorem leave2 (c : Dev nD) :
    iprop((dat2 (Vr (Wc m)) qsh c).arrays (fun w => (dat2 (Vr (Wc m)) qsh c).arrAt w cfg2.N) ∗ Pipeline.unscopedRest spec2 c (Vr (Wc m) c))
      ⊢ (StableHlo.held (c : Thread nD τ) (Pipeline.ucRefs τ sig) (Wd m c) : sProp 𝕄) := by
  rw [← Pipeline.unscopedBufs_held (Ix := Unit) (Name := ℕ) (U := UR sig nD τ) (Lvl := ℕ) c (Wd m c),
    split2 c (Vr (Wd m) c)]
  refine BIClass.sep_mono ?_ ?_
  · exact arrays_out2 (dat2 (Vr (Wc m)) qsh c) rfl (Vr (Wd m) c) _ (exit2 m c)
  · exact BIBase.Entails.of_eq (rest2 m c)

set_option backward.isDefEq.respectTransparency.types false in
/-- Call 2 over the thread state: entered from every unscoped buffer at `Wc`, left at `Wd`. Its arrays are
    split out of the unscoped buffers (the feature matrix's buffer dealt in halves to its two windows) and put back at the
    exit contents; the generator register goes into the body's invariant and comes back; nothing is owed; the kernel has
    no semaphore of its own. -/
def reg2 : RegionSeg (pcfgs (F := F)) adm (pdats m) () defs₀ 𝒱₀ Lz lvz 2 where
  win := winFacts₀2
  block_pos := block_pos2
  stage_whole := stage_whole2
  K := PEmpty
  osem k := k.elim
  ho := Pipeline.OwnSemFacts.none _
  hbody c := (body_obligation2 (Vr (Wc m)) qsh c).loose
  hwaits := Pipeline.hwaits_of_owed_zero _ _ _ _ Lz lvz 2 fun _ _ => rfl
  pre c := iprop(StableHlo.held (c : Thread nD τ) (Pipeline.ucRefs τ sig) (Wc m c) ∗ Rr c)
  post c := iprop(StableHlo.held (c : Thread nD τ) (Pipeline.ucRefs τ sig) (Wd m c) ∗ Rr c)
  X c := iprop(∃ r, prngReg c r)
  Y c := iprop(∃ r, prngReg c r)
  Z c := Pipeline.unscopedRest (Ix := Unit) (Name := ℕ) (U := UR sig nD τ) (Lvl := ℕ) spec2 c (Vr (Wc m) c)
  hentry c := by
    rw [Pipeline.ownSems0_none]
    iintro ⟨⟨Hub, Hp, HO⟩, -, -⟩
    ihave H := (entry2 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (Vr (Wc m)) qsh c)
    unfold Pipeline.ΦA
    iintro ⟨Hp, -, Hr⟩
    isplitl [Hr]; · iexact Hr
    iexact Hp
  hout c := by
    rw [Pipeline.ownSems0_none]
    refine BIBase.Entails.trans (hout2 (Vr (Wc m)) qsh c) ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (leave2 m c); isplitl [Ha]; · iexact Ha
      iexact Hrest
    isplitl [HY]; · iexact HY
    unfold Pipeline.Dat.owesAt Pipeline.owesWithin
    icases HO with ⟨%W, -, HO⟩; iexists W; iexact HO

/-! ## @main as segments, and the run -/

/-- Core `c`'s unscoped buffers at launch. -/
abbrev W0 (c : Dev nD) : Valuation τ sig (Elt F) := fun b => m (c, b)

/-- The host operations before the first call, as a segment over every unscoped buffer, from the launch contents. -/
abbrev hostSeg : HostSeg (Name := ℕ) (U := UR sig nD τ) (pcfgs (F := F)) defs₀ 𝒱₀ Lz lvz :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) Rr

/-- @main's four items in order. -/
abbrev segs : List (Seg (pcfgs (F := F)) adm (pdats m) () defs₀ 𝒱₀ Lz lvz) :=
  [.host (hostSeg m), .region (reg0 m), .region (reg1 m), .region (reg2 m)]

theorem main_run (c : Dev nD) : main (F := F) c = Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A buffer that no host operation and no call writes reaches the end as launched. -/
theorem Wd_kept (c : Dev nD) (r : Ref sig .tc) (h9 : r ≠ main_v9) (h10 : r ≠ main_v10) (h11 : r ≠ main_v11) (hW : r ∉ hostOps0_W) :
    Wd m c (Proc.devRef .tc r) = m ((c : Thread nD τ).loc r) :=
  (Wd_of_ne m c r h11).trans <| (Wc_of_ne m c r h10).trans <| (Wb_of_ne m c r h9).trans (V1_of m c r hW)

/-- The last thread state without the dues: every unscoped buffer at the last contents, the generator register at some state. -/
abbrev Tn (c : Dev nD) : sProp 𝕄 := iprop(StableHlo.held (c : Thread nD τ) (Pipeline.ucRefs τ sig) (Wd m c) ∗ ∃ r, prngReg c r)

set_option backward.isDefEq.respectTransparency.types false in
/-- THE RUN. At the compiled mesh, at any float instance, from any memory with zero counters: every weakly fair execution of
    @main on the TensorCores terminates, nothing faulting, and every final state has the result array `main_v11` at what the
    third call's write-backs leave (`res2`) and every argument array as launched. -/
theorem run : θ_run defs (onTc (τ := τ) (main (F := F))) ⟨m, fun _ => 0, ρ⟩ (fun r => ∀ c : Dev nD,
      r.2.mem ((c.tc : Thread nD τ).loc main_v11) = res2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m) () cellOf_inj emb₁ defs₀ 𝒱₀ Lz lvz m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU _ : sProp 𝕄) ⊢ BI.own (emb₁ (initOf (Pipeline.cells (Pipeline.pin (pcfgs (F := F)) adm) cellOf_inj)
          (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rr c)) (Tₙ := Tn m)
    (hch := ⟨fun _ => .rfl, fun _ => .rfl, fun _ => .rfl, fun _ => .rfl, fun c => by
      show iprop(StableHlo.held (c : Thread nD τ) (Pipeline.ucRefs τ sig) (Wd m c) ∗ Rr c)
        ⊢ iprop(Tn m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach Lz lvz fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wd m c b)
    (hfin := fun c s' => by
      iintro ⟨⟨Hh, -⟩, HSI⟩
      unfold StableHlo.held
      imodintro
      iapply (pointsTo_read_all (Pipeline.ucRefs τ sig) (fun b => (((c : Thread nD τ)).1, b)) (Wd m c) s')
      isplitl [Hh] <;> iassumption)
    (hQ := fun s h c =>
      ⟨(h c _ (mem_uc main_v11 (by decide))).trans (Wd_out m c),
       (h c _ (mem_uc main_arg0 (by decide))).trans (Wd_kept m c main_arg0 (by decide) (by decide) (by decide) (by decide)),
       (h c _ (mem_uc main_arg1 (by decide))).trans (Wd_kept m c main_arg1 (by decide) (by decide) (by decide) (by decide)),
       (h c _ (mem_uc main_arg2 (by decide))).trans (Wd_kept m c main_arg2 (by decide) (by decide) (by decide) (by decide)),
       (h c _ (mem_uc main_arg3 (by decide))).trans (Wd_kept m c main_arg3 (by decide) (by decide) (by decide) (by decide)),
       (h c _ (mem_uc main_arg4 (by decide))).trans (Wd_kept m c main_arg4 (by decide) (by decide) (by decide) (by decide)),
       (h c _ (mem_uc main_arg5 (by decide))).trans (Wd_kept m c main_arg5 (by decide) (by decide) (by decide) (by decide)),
       (h c _ (mem_uc main_arg6 (by decide))).trans (Wd_kept m c main_arg6 (by decide) (by decide) (by decide) (by decide)),
       (h c _ (mem_uc main_arg7 (by decide))).trans (Wd_kept m c main_arg7 (by decide) (by decide) (by decide) (by decide)),
       (h c _ (mem_uc main_arg8 (by decide))).trans (Wd_kept m c main_arg8 (by decide) (by decide) (by decide) (by decide)),
       (h c _ (mem_uc main_arg9 (by decide))).trans (Wd_kept m c main_arg9 (by decide) (by decide) (by decide) (by decide)),
       (h c _ (mem_uc main_arg10 (by decide))).trans (Wd_kept m c main_arg10 (by decide) (by decide) (by decide) (by decide)),
       (h c _ (mem_uc main_arg11 (by decide))).trans (Wd_kept m c main_arg11 (by decide) (by decide) (by decide) (by decide)),
       (h c _ (mem_uc main_arg12 (by decide))).trans (Wd_kept m c main_arg12 (by decide) (by decide) (by decide) (by decide))⟩)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => (h c).2) (run m ρ)

end Cert.KernelIdeal.Hand

end
-- ==== Proof.Spec.lean ====
/-
  The mathematics both programs compute, stated once over the extended reals, row by row.

  One message-passing step of the network takes the node features h (4096 rows of 128), the pairwise distances and
  the 0/1 adjacency, and returns new features:
    * the potential between nodes i and j:  exp(-d/3) * max(<h_i, h_j>, 0) + 0.1 * (0.4 * (s*s - s)),
      where s = ((3.5 / max(1e-6, d))^2)^3 and d is the distance;
    * the message to node i:  m_i = sum over j of (potential(i,j) * adj(i,j)) * h_j;
    * the update:  u_i = h_i + (max([h_i, m_i] W1 + b1, 0) W2 + b2);
    * the new row:  layer normalisation of u_i (mean and variance over its 128 entries, eps = 1e-5), times gamma, plus beta.
  The float literals are kept as the binary words both programs print; only the zero word is ever evaluated.
-/
import Idealize.ShloMosaic.PureOps.Ideal
import Idealize.ShloMosaic.Lib.ValueIdx

noncomputable section

namespace Cert.Spec

open Idealize.ShloMosaic Idealize.ShloMosaic.ValueIdx
open scoped BigOperators

/-- A matrix and a vector of extended reals over literal extents. -/
abbrev Mat (a b : Nat) : Type := (⟨2, ![a, b]⟩ : Shape).Idx → EReal
abbrev Vec1 (a : Nat) : Type := (⟨1, ![a]⟩ : Shape).Idx → EReal

/-- Row `i` of a matrix, and a rank-1 array, as functions of the column. -/
def row {a b : Nat} (M : Mat a b) (i : Fin a) : Fin b → EReal := fun k => M (ix2 i k)
def vec {a : Nat} (v : Vec1 a) : Fin a → EReal := fun k => v (ix1 k)

/-- The literals of both programs, as the words they print. -/
abbrev cZero : EReal := Ideal.ofBits .f32 0x00000000#32   -- 0
abbrev cTiny : EReal := Ideal.ofBits .f32 0x358637BD#32   -- 1e-6, the clip of the distance
abbrev cSigma : EReal := Ideal.ofBits .f32 0x40600000#32  -- 3.5
abbrev cFourEps : EReal := Ideal.ofBits .f32 0x3ECCCCCD#32 -- 0.4
abbrev cScale : EReal := Ideal.ofBits .f32 0x40400000#32  -- 3.0
abbrev cMix : EReal := Ideal.ofBits .f32 0x3DCCCCCD#32    -- 0.1
abbrev cWidth : EReal := Ideal.ofBits .f32 0x43000000#32  -- 128
abbrev cLnEps : EReal := Ideal.ofBits .f32 0x3727C5AC#32  -- 1e-5

/-- The distance-only part of the potential: `0.1 * (0.4 * (s*s - s))`, `s` the sixth power of `3.5 / max(1e-6, d)`
    taken as `a * (a * a)` with `a` the square. -/
def lj (d : EReal) : EReal :=
  cMix * (cFourEps * (((Ideal.div cSigma (max cTiny d) * Ideal.div cSigma (max cTiny d)) * ((Ideal.div cSigma (max cTiny d) * Ideal.div cSigma (max cTiny d)) * (Ideal.div cSigma (max cTiny d) * Ideal.div cSigma (max cTiny d))))
      * ((Ideal.div cSigma (max cTiny d) * Ideal.div cSigma (max cTiny d)) * ((Ideal.div cSigma (max cTiny d) * Ideal.div cSigma (max cTiny d)) * (Ideal.div cSigma (max cTiny d) * Ideal.div cSigma (max cTiny d))))
      - ((Ideal.div cSigma (max cTiny d) * Ideal.div cSigma (max cTiny d)) * ((Ideal.div cSigma (max cTiny d) * Ideal.div cSigma (max cTiny d)) * (Ideal.div cSigma (max cTiny d) * Ideal.div cSigma (max cTiny d))))))

/-- The decay `exp(-d / 3)`. -/
def decay (d : EReal) : EReal := Ideal.exp (Ideal.div (-d) cScale)

/-- The potential between two nodes from their feature rows and their distance. -/
def pot (hi hj : Fin 128 → EReal) (d : EReal) : EReal :=
  decay d * max (∑ k : Fin 128, hi k * hj k) cZero + lj d

/-- The message to a node: the masked potentials against the features, summed over all nodes. -/
def msg (h : Mat 4096 128) (dist adj : Mat 4096 4096) (i : Fin 4096) : Fin 128 → EReal :=
  fun c => ∑ j : Fin 4096, (pot (row h i) (row h j) (dist (ix2 i j)) * adj (ix2 i j)) * h (ix2 j c)

/-- A node's row and its message side by side: 256 entries. -/
def cat (hi mi : Fin 128 → EReal) (q : Fin 256) : EReal :=
  if hq : q.val < 128 then hi ⟨q.val, hq⟩ else mi ⟨q.val - 128, by omega⟩

/-- The hidden layer of the update. -/
def hid (hi mi : Fin 128 → EReal) (W1 : Mat 256 128) (b1 : Fin 128 → EReal) : Fin 128 → EReal :=
  fun k => max ((∑ q : Fin 256, cat hi mi q * W1 (ix2 q k)) + b1 k) cZero

/-- The updated row before normalisation. -/
def upd (hi mi : Fin 128 → EReal) (W1 : Mat 256 128) (b1 : Fin 128 → EReal) (W2 : Mat 128 128) (b2 : Fin 128 → EReal) :
    Fin 128 → EReal :=
  fun c => hi c + ((∑ k : Fin 128, hid hi mi W1 b1 k * W2 (ix2 k c)) + b2 c)

/-- Mean and variance of a row of 128 entries, and its normalisation. -/
def mean (u : Fin 128 → EReal) : EReal := Ideal.div (∑ c : Fin 128, u c) cWidth
def var (u : Fin 128 → EReal) : EReal := Ideal.div (∑ c : Fin 128, (u c - mean u) * (u c - mean u)) cWidth
def norm (u g b : Fin 128 → EReal) : Fin 128 → EReal :=
  fun c => (u c - mean u) * Ideal.rsqrt (var u + cLnEps) * g c + b c

/-- One row of one step, from the row, its message and the parameters. -/
def stepRow (hi mi : Fin 128 → EReal) (W1 : Mat 256 128) (b1 : Fin 128 → EReal) (W2 : Mat 128 128)
    (b2 g b : Fin 128 → EReal) : Fin 128 → EReal :=
  norm (upd hi mi W1 b1 W2 b2) g b

/-- One step on the whole feature matrix. -/
def step (h : Mat 4096 128) (dist adj : Mat 4096 4096) (W1 : Mat 256 128) (b1 : Vec1 128) (W2 : Mat 128 128)
    (b2 g b : Vec1 128) : Mat 4096 128 :=
  fun idx => stepRow (row h (idx 0)) (msg h dist adj (idx 0)) W1 (vec b1) W2 (vec b2) (vec g) (vec b) (idx 1)

/-- The input projection `x W_in + b_in`. -/
def h0 (x : Mat 4096 64) (Win : Mat 64 128) (bin : Vec1 128) : Mat 4096 128 :=
  fun idx => (∑ k : Fin 64, x (ix2 (idx 0) k) * Win (ix2 k (idx 1))) + bin (ix1 (idx 1))

/-- The whole network: three steps after the projection. -/
def net (x : Mat 4096 64) (adj dist : Mat 4096 4096) (Win : Mat 64 128) (bin : Vec1 128) (W1 : Mat 256 128) (b1 : Vec1 128)
    (W2 : Mat 128 128) (b2 g b : Vec1 128) : Mat 4096 128 :=
  step (step (step (h0 x Win bin) dist adj W1 b1 W2 b2 g b) dist adj W1 b1 W2 b2 g b) dist adj W1 b1 W2 b2 g b

end Cert.Spec

end
-- ==== Proof.KI.Host0.lean ====
/-
  The kernel program's host operations before its first call, read for any contents before them: the input
  projection x W_in + b_in, the adjacency unchanged by the narrowing format change (the identity on extended
  reals), the four parameter vectors as one-row matrices, and the arguments they do not write kept.
-/
import proofs.«172293_j20512763806108_2_alg».proof.Proof.Gen.KernelIdeal.Regions
import proofs.«172293_j20512763806108_2_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.ValueIdx
  Idealize.ShloMosaic.TcCoe Idealize.SL.Sem Idealize.ShloMosaic.StableHlo
open scoped BigOperators

/-! ## The projection's operations at an index -/

theorem host0_dot_l0 (i : S4096x128.Idx) (q : dot_S4096x64_S64x128_S4096x128_1_0_0_1_n_n.contr.Idx) : (dot_S4096x64_S64x128_S4096x128_1_0_0_1_n_n.lhsIdx i q 0).val = (i 0).val := by
  unfold DotDims.lhsIdx
  rw [dif_neg (show ¬(0 : Fin S4096x64.rank) ∈ dot_S4096x64_S64x128_S4096x128_1_0_0_1_n_n.lhsBatch by decide),
    dif_pos (show (0 : Fin S4096x64.rank) ∈ dot_S4096x64_S64x128_S4096x128_1_0_0_1_n_n.lhsNonContracting by decide)]
  rfl
theorem host0_dot_r1 (i : S4096x128.Idx) (q : dot_S4096x64_S64x128_S4096x128_1_0_0_1_n_n.contr.Idx) : (dot_S4096x64_S64x128_S4096x128_1_0_0_1_n_n.rhsIdx i q 1).val = (i 1).val := by
  unfold DotDims.rhsIdx
  rw [dif_neg (show ¬(1 : Fin S64x128.rank) ∈ dot_S4096x64_S64x128_S4096x128_1_0_0_1_n_n.rhsBatch by decide),
    dif_pos (show (1 : Fin S64x128.rank) ∈ dot_S4096x64_S64x128_S4096x128_1_0_0_1_n_n.rhsNonContracting by decide)]
  rfl
/-- The projection's product is the sum over the 64 input features. -/
theorem host0_dot (y0 : FVec Ideal S4096x64 .f32) (y1 : FVec Ideal S64x128 .f32) (r : Fin 4096) (c : Fin 128) :
    Host.dotGeneral (F := Ideal) dot_S4096x64_S64x128_S4096x128_1_0_0_1_n_n none y0 y1 (ix2 r c) = ∑ k : Fin 64, y0 (ix2 r k) * y1 (ix2 k c) := by
  simp only [Host.dotGeneral]
  rw [Ideal.dotGeneral_apply, ← Equiv.sum_comp (ValueIdx.contrEquiv1 dot_S4096x64_S64x128_S4096x128_1_0_0_1_n_n 64 rfl rfl).symm]
  refine Finset.sum_congr rfl fun k _ => ?_
  have hk := ValueIdx.contrEquiv1_symm_val dot_S4096x64_S64x128_S4096x128_1_0_0_1_n_n 64 rfl rfl k
  have el : dot_S4096x64_S64x128_S4096x128_1_0_0_1_n_n.lhsIdx (ix2 r c) ((ValueIdx.contrEquiv1 dot_S4096x64_S64x128_S4096x128_1_0_0_1_n_n 64 rfl rfl).symm k) = ix2 r k :=
    funext fun a => Fin.ext (by
      match a with
      | ⟨0, _⟩ => exact host0_dot_l0 _ _
      | ⟨1, _⟩ => exact (dot_S4096x64_S64x128_S4096x128_1_0_0_1_n_n.lhsIdx_val_of_single rfl _ _).trans hk)
  have er : dot_S4096x64_S64x128_S4096x128_1_0_0_1_n_n.rhsIdx (ix2 r c) ((ValueIdx.contrEquiv1 dot_S4096x64_S64x128_S4096x128_1_0_0_1_n_n 64 rfl rfl).symm k) = ix2 k c :=
    funext fun a => Fin.ext (by
      match a with
      | ⟨0, _⟩ => exact (dot_S4096x64_S64x128_S4096x128_1_0_0_1_n_n.rhsIdx_val_of_single rfl _ _).trans hk
      | ⟨1, _⟩ => exact host0_dot_r1 _ _)
  rw [el, er]

/-- A vector of 128 entries broadcast along the rows reads the vector at the column. -/
theorem host0_bcast_row (v : FVec Ideal S128 .f32) (r : Fin 4096) (c : Fin 128) :
    broadcastInDim S4096x128 ![0, 1] bcast_S1x128_S4096x128_0_1 (broadcastInDim S1x128 ![1] bcast_S128_S1x128_1 v) (ix2 r c)
      = v (ix1 c) :=
  (broadcastInDim_apply _ bcast_S1x128_S4096x128_0_1 _ (ix2 r c) (ix2 (0 : Fin 1) c) (fun a => match a with
    | ⟨0, _⟩ => by show 0 = if (1 : Nat) = 1 then 0 else r.val; rw [if_pos rfl]
    | ⟨1, _⟩ => by show c.val = if (128 : Nat) = 1 then 0 else c.val; rw [if_neg (by decide)])).trans
  (broadcastInDim_apply _ bcast_S128_S1x128_1 v (ix2 (0 : Fin 1) c) (ix1 c) (fun a => match a with
    | ⟨0, _⟩ => by show c.val = if (128 : Nat) = 1 then 0 else c.val; rw [if_neg (by decide)]))

/-- The input projection, composed of the host operations. -/
def host0_h0 (x : FVec Ideal S4096x64 .f32) (Win : FVec Ideal S64x128 .f32) (bin : FVec Ideal S128 .f32) :
    FVec Ideal S4096x128 .f32 :=
  addf (Host.dotGeneral dot_S4096x64_S64x128_S4096x128_1_0_0_1_n_n none x Win)
    (broadcastInDim S4096x128 ![0, 1] bcast_S1x128_S4096x128_0_1 (broadcastInDim S1x128 ![1] bcast_S128_S1x128_1 bin))

theorem host0_h0_eq (x : FVec Ideal S4096x64 .f32) (Win : FVec Ideal S64x128 .f32) (bin : FVec Ideal S128 .f32) :
    host0_h0 x Win bin = Spec.h0 x Win bin := by
  funext i
  obtain ⟨r, c, rfl⟩ : ∃ (r : Fin 4096) (c : Fin 128), i = ix2 r c := ⟨i 0, i 1, eq_ix2 i⟩
  unfold host0_h0
  rw [addf_apply, host0_dot, host0_bcast_row]
  all_goals rfl

/-! ## What the host operations leave -/

section After
variable (W : Valuation τ sig (Elt Ideal))

/-- The projected features. -/
theorem host_h0 : after (hostOps0 (F := Ideal)) W main_v3 = Spec.h0 (W main_arg0) (W main_arg3) (W main_arg4) := by
  refine Eq.trans ?_ (host0_h0_eq _ _ _)
  after_results_simp <;> rfl

/-- The adjacency in the narrower format is the adjacency. -/
theorem host_adj (idx : S4096x4096.Idx) : after (hostOps0 (F := Ideal)) W main_v4 idx = W main_arg1 idx := by
  have e : after (hostOps0 (F := Ideal)) W main_v4
      = (truncf (F := Ideal) (s := S4096x4096) (φ := .f32) .bf16 (W main_arg1) bitsLt_bf16_f32 : FVec Ideal S4096x4096 .bf16) := by
    after_results_simp <;> rfl
  rw [e]
  rfl

/-- The first bias as a one-row matrix. -/
theorem host_b1 (k : Fin 128) : after (hostOps0 (F := Ideal)) W main_v5 (ix2 (0 : Fin 1) k) = W main_arg8 (ix1 k) := by
  have e : after (hostOps0 (F := Ideal)) W main_v5 = shapeCast S1x128 (W main_arg8) shapeCasts_S128_S1x128 := by
    after_results_simp <;> rfl
  rw [e]
  exact shapeCast_a_1a_apply _ _ (0 : Fin 1) k

/-- The second bias as a one-row matrix. -/
theorem host_b2 (k : Fin 128) : after (hostOps0 (F := Ideal)) W main_v6 (ix2 (0 : Fin 1) k) = W main_arg10 (ix1 k) := by
  have e : after (hostOps0 (F := Ideal)) W main_v6 = shapeCast S1x128 (W main_arg10) shapeCasts_S128_S1x128 := by
    after_results_simp <;> rfl
  rw [e]
  exact shapeCast_a_1a_apply _ _ (0 : Fin 1) k

/-- Gamma as a one-row matrix. -/
theorem host_g (k : Fin 128) : after (hostOps0 (F := Ideal)) W main_v7 (ix2 (0 : Fin 1) k) = W main_arg11 (ix1 k) := by
  have e : after (hostOps0 (F := Ideal)) W main_v7 = shapeCast S1x128 (W main_arg11) shapeCasts_S128_S1x128 := by
    after_results_simp <;> rfl
  rw [e]
  exact shapeCast_a_1a_apply _ _ (0 : Fin 1) k

/-- Beta as a one-row matrix. -/
theorem host_b (k : Fin 128) : after (hostOps0 (F := Ideal)) W main_v8 (ix2 (0 : Fin 1) k) = W main_arg12 (ix1 k) := by
  have e : after (hostOps0 (F := Ideal)) W main_v8 = shapeCast S1x128 (W main_arg12) shapeCasts_S128_S1x128 := by
    after_results_simp <;> rfl
  rw [e]
  exact shapeCast_a_1a_apply _ _ (0 : Fin 1) k

/-- A reference the host operations do not write keeps its contents. -/
theorem host_keeps {r : Ref sig .tc} (h : r ∉ hostOps0_W) :
    after (hostOps0 (F := Ideal)) W (Proc.devRef .tc r) = W (Proc.devRef .tc r) :=
  after_of_writes_sub hostOps0 W hostOps0_writes h

theorem host_arg2 : after (hostOps0 (F := Ideal)) W main_arg2 = W main_arg2 := host_keeps W (by decide)
theorem host_arg7 : after (hostOps0 (F := Ideal)) W main_arg7 = W main_arg7 := host_keeps W (by decide)
theorem host_arg9 : after (hostOps0 (F := Ideal)) W main_arg9 = W main_arg9 := host_keeps W (by decide)

end After

end Cert.KernelIdeal.Val

end
-- ==== Proof.KI.Val0Blk.lean ====
/-
  Step 0's windows read at an index: each window's block at a grid point is a part of the array the step finds, located
  by the point's row block and column block.
-/
import proofs.«172293_j20512763806108_2_alg».proof.Proof.KI.R0.Runs
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Cert.KernelIdeal.Hand Idealize.ShloMosaic.ValueIdx

variable {F : FTy → Type} [FloatOps F]
variable (V : (c : Dev nD) → (b : Ref sig .tc) → Buf (Elt F) ((c : Thread nD τ).loc b))

/-! ## The windows' blocks as parts of their arrays

Grid point `t` is row block `t / 4` and column block `t % 4`. The index maps are decided once over the 32 points; a block's
entry sits in its array at block index × block size + the coordinate inside the block. -/

/-- The index maps over the grid, and the offset of the column block's rows inside the whole feature matrix. -/
theorem idx_facts0 : ∀ t : Fin cfg0.N,
    win0_0.index t (0 : Fin 2) = t.val / 4 ∧ win0_0.index t (1 : Fin 2) = 0
    ∧ win0_1.index t (0 : Fin 2) = 0 ∧ win0_1.index t (1 : Fin 2) = 0
    ∧ win0_2.index t (0 : Fin 2) = t.val / 4 ∧ win0_2.index t (1 : Fin 2) = t.val % 4
    ∧ win0_3.index t (0 : Fin 2) = t.val / 4 ∧ win0_3.index t (1 : Fin 2) = t.val % 4
    ∧ win0_10.index t (0 : Fin 2) = t.val / 4 ∧ win0_10.index t (1 : Fin 2) = 0
    ∧ k0_off1 (grid0.coords t) (0 : Fin 2) = 1024 * (t.val % 4) ∧ k0_off1 (grid0.coords t) (1 : Fin 2) = 0 :=
  (by decide +kernel : ∀ t : Fin grid0.N, _)

/-- The parameter windows never move. -/
theorem idx_params0 : ∀ t : Fin cfg0.N,
    win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

theorem point_lt (t : Fin cfg0.N) : t.val < 32 := N_0 ▸ t.isLt

/-- Row `r` of row block `t / 4` is a node. -/
theorem row_lt (t : Fin cfg0.N) (r : Fin 512) : 512 * (t.val / 4) + r.val < 4096 := by
  have := point_lt t; have := r.isLt; omega
/-- Column `s` of column block `t % 4` is a node. -/
theorem col_lt (t : Fin cfg0.N) (s : Fin 1024) : 1024 * (t.val % 4) + s.val < 4096 := by
  have := s.isLt; omega

/-- Window 0: row block `t / 4` of the features. -/
theorem iblk0_0_apply (c : Dev nD) (t : Fin cfg0.N) (r : Fin 512) (k : Fin 128) :
    (iblk0 V c 0 t : Vec F S512x128 .f32) (ix2 r k)
      = (V c main_v3 : S4096x128.Idx → Elt F .f32) (ix2 ⟨512 * (t.val / 4) + r.val, row_lt t r⟩ k) := by
  obtain ⟨e0, e1, -⟩ := idx_facts0 t
  unfold iblk0
  rw [View.read_apply]
  show V c main_v3 _ = V c main_v3 _
  refine congrArg (V c main_v3) (funext fun a => Fin.ext ?_)
  match a with
  | ⟨0, _⟩ => show win0_0.index t (0 : Fin 2) * 512 + 1 * r.val = 512 * (t.val / 4) + r.val; rw [e0]; omega
  | ⟨1, _⟩ => show win0_0.index t (1 : Fin 2) * 128 + 1 * k.val = k.val; rw [e1]; omega

/-- Window 1: the whole feature matrix. -/
theorem iblk0_1_apply (c : Dev nD) (t : Fin cfg0.N) (n : Fin 4096) (k : Fin 128) :
    (iblk0 V c 1 t : Vec F S4096x128 .f32) (ix2 n k) = (V c main_v3 : S4096x128.Idx → Elt F .f32) (ix2 n k) := by
  obtain ⟨-, -, e0, e1, -⟩ := idx_facts0 t
  unfold iblk0
  rw [View.read_apply]
  show V c main_v3 _ = V c main_v3 _
  refine congrArg (V c main_v3) (funext fun a => Fin.ext ?_)
  match a with
  | ⟨0, _⟩ => show win0_1.index t (0 : Fin 2) * 4096 + 1 * n.val = n.val; rw [e0]; omega
  | ⟨1, _⟩ => show win0_1.index t (1 : Fin 2) * 128 + 1 * k.val = k.val; rw [e1]; omega

/-- Window 2: tile `(t / 4, t % 4)` of the distances. -/
theorem iblk0_2_apply (c : Dev nD) (t : Fin cfg0.N) (r : Fin 512) (s : Fin 1024) :
    (iblk0 V c 2 t : Vec F S512x1024 .f32) (ix2 r s)
      = (V c main_arg2 : S4096x4096.Idx → Elt F .f32) (ix2 ⟨512 * (t.val / 4) + r.val, row_lt t r⟩ ⟨1024 * (t.val % 4) + s.val, col_lt t s⟩) := by
  obtain ⟨-, -, -, -, e0, e1, -⟩ := idx_facts0 t
  unfold iblk0
  rw [View.read_apply]
  show V c main_arg2 _ = V c main_arg2 _
  refine congrArg (V c main_arg2) (funext fun a => Fin.ext ?_)
  match a with
  | ⟨0, _⟩ => show win0_2.index t (0 : Fin 2) * 512 + 1 * r.val = 512 * (t.val / 4) + r.val; rw [e0]; omega
  | ⟨1, _⟩ => show win0_2.index t (1 : Fin 2) * 1024 + 1 * s.val = 1024 * (t.val % 4) + s.val; rw [e1]; omega

/-- Window 3: tile `(t / 4, t % 4)` of the adjacency. -/
theorem iblk0_3_apply (c : Dev nD) (t : Fin cfg0.N) (r : Fin 512) (s : Fin 1024) :
    (iblk0 V c 3 t : Vec F S512x1024 .bf16) (ix2 r s)
      = (V c main_v4 : S4096x4096.Idx → Elt F .bf16) (ix2 ⟨512 * (t.val / 4) + r.val, row_lt t r⟩ ⟨1024 * (t.val % 4) + s.val, col_lt t s⟩) := by
  obtain ⟨-, -, -, -, -, -, e0, e1, -⟩ := idx_facts0 t
  unfold iblk0
  rw [View.read_apply]
  show V c main_v4 _ = V c main_v4 _
  refine congrArg (V c main_v4) (funext fun a => Fin.ext ?_)
  match a with
  | ⟨0, _⟩ => show win0_3.index t (0 : Fin 2) * 512 + 1 * r.val = 512 * (t.val / 4) + r.val; rw [e0]; omega
  | ⟨1, _⟩ => show win0_3.index t (1 : Fin 2) * 1024 + 1 * s.val = 1024 * (t.val % 4) + s.val; rw [e1]; omega

/-! ## The column block's rows -/

/-- The 1024 rows of the column block, as the body loads them out of the whole feature matrix. -/
abbrev rows1 (i : grid0.Coords) (x1 : Vec F S4096x128 .f32) : Vec F S1024x128 .f32 :=
  View.ld x1 (Rect.unit (s := S4096x128) (k0_off1 i) S1024x128.size (k0_off1_inb i))

/-- They are rows `1024 (t % 4) …` of it. -/
theorem rows1_apply (t : Fin cfg0.N) (x1 : Vec F S4096x128 .f32) (s : Fin 1024) (k : Fin 128) :
    rows1 (grid0.coords t) x1 (ix2 s k) = x1 (ix2 ⟨1024 * (t.val % 4) + s.val, col_lt t s⟩ k) := by
  obtain ⟨-, -, -, -, -, -, -, -, -, -, e0, e1⟩ := idx_facts0 t
  show x1 ((Rect.unit (s := S4096x128) (k0_off1 (grid0.coords t)) S1024x128.size (k0_off1_inb (grid0.coords t))).emb (ix2 s k)) = _
  refine congrArg x1 (funext fun a => Fin.ext ?_)
  match a with
  | ⟨0, _⟩ => show k0_off1 (grid0.coords t) (0 : Fin 2) + 1 * s.val = 1024 * (t.val % 4) + s.val; rw [e0]; omega
  | ⟨1, _⟩ => show k0_off1 (grid0.coords t) (1 : Fin 2) + 1 * k.val = k.val; rw [e1]; omega

/-! ## The parameter windows -/

/-- Window 4: the whole of its parameter array. -/
theorem iblk0_4_eq (c : Dev nD) (t : Fin cfg0.N) :
    (iblk0 V c 4 t : Vec F S256x128 .f32) = (V c main_arg7 : S256x128.Idx → Elt F .f32) := by
  obtain ⟨e0, e1, -⟩ := idx_params0 t
  funext j
  unfold iblk0
  rw [View.read_apply]
  show V c main_arg7 _ = V c main_arg7 j
  refine congrArg (V c main_arg7) (funext fun a => Fin.ext ?_)
  match a with
  | ⟨0, _⟩ => show win0_4.index t (0 : Fin 2) * 256 + 1 * (j 0).val = (j 0).val; rw [e0]; omega
  | ⟨1, _⟩ => show win0_4.index t (1 : Fin 2) * 128 + 1 * (j 1).val = (j 1).val; rw [e1]; omega

/-- Window 5: the whole of its parameter array. -/
theorem iblk0_5_eq (c : Dev nD) (t : Fin cfg0.N) :
    (iblk0 V c 5 t : Vec F S1x128 .f32) = (V c main_v5 : S1x128.Idx → Elt F .f32) := by
  obtain ⟨-, -, e0, e1, -⟩ := idx_params0 t
  funext j
  unfold iblk0
  rw [View.read_apply]
  show V c main_v5 _ = V c main_v5 j
  refine congrArg (V c main_v5) (funext fun a => Fin.ext ?_)
  match a with
  | ⟨0, _⟩ => show win0_5.index t (0 : Fin 2) * 1 + 1 * (j 0).val = (j 0).val; rw [e0]; omega
  | ⟨1, _⟩ => show win0_5.index t (1 : Fin 2) * 128 + 1 * (j 1).val = (j 1).val; rw [e1]; omega

/-- Window 6: the whole of its parameter array. -/
theorem iblk0_6_eq (c : Dev nD) (t : Fin cfg0.N) :
    (iblk0 V c 6 t : Vec F S128x128 .f32) = (V c main_arg9 : S128x128.Idx → Elt F .f32) := by
  obtain ⟨-, -, -, -, e0, e1, -⟩ := idx_params0 t
  funext j
  unfold iblk0
  rw [View.read_apply]
  show V c main_arg9 _ = V c main_arg9 j
  refine congrArg (V c main_arg9) (funext fun a => Fin.ext ?_)
  match a with
  | ⟨0, _⟩ => show win0_6.index t (0 : Fin 2) * 128 + 1 * (j 0).val = (j 0).val; rw [e0]; omega
  | ⟨1, _⟩ => show win0_6.index t (1 : Fin 2) * 128 + 1 * (j 1).val = (j 1).val; rw [e1]; omega

/-- Window 7: the whole of its parameter array. -/
theorem iblk0_7_eq (c : Dev nD) (t : Fin cfg0.N) :
    (iblk0 V c 7 t : Vec F S1x128 .f32) = (V c main_v6 : S1x128.Idx → Elt F .f32) := by
  obtain ⟨-, -, -, -, -, -, e0, e1, -⟩ := idx_params0 t
  funext j
  unfold iblk0
  rw [View.read_apply]
  show V c main_v6 _ = V c main_v6 j
  refine congrArg (V c main_v6) (funext fun a => Fin.ext ?_)
  match a with
  | ⟨0, _⟩ => show win0_7.index t (0 : Fin 2) * 1 + 1 * (j 0).val = (j 0).val; rw [e0]; omega
  | ⟨1, _⟩ => show win0_7.index t (1 : Fin 2) * 128 + 1 * (j 1).val = (j 1).val; rw [e1]; omega

/-- Window 8: the whole of its parameter array. -/
theorem iblk0_8_eq (c : Dev nD) (t : Fin cfg0.N) :
    (iblk0 V c 8 t : Vec F S1x128 .f32) = (V c main_v7 : S1x128.Idx → Elt F .f32) := by
  obtain ⟨-, -, -, -, -, -, -, -, e0, e1, -⟩ := idx_params0 t
  funext j
  unfold iblk0
  rw [View.read_apply]
  show V c main_v7 _ = V c main_v7 j
  refine congrArg (V c main_v7) (funext fun a => Fin.ext ?_)
  match a with
  | ⟨0, _⟩ => show win0_8.index t (0 : Fin 2) * 1 + 1 * (j 0).val = (j 0).val; rw [e0]; omega
  | ⟨1, _⟩ => show win0_8.index t (1 : Fin 2) * 128 + 1 * (j 1).val = (j 1).val; rw [e1]; omega

/-- Window 9: the whole of its parameter array. -/
theorem iblk0_9_eq (c : Dev nD) (t : Fin cfg0.N) :
    (iblk0 V c 9 t : Vec F S1x128 .f32) = (V c main_v8 : S1x128.Idx → Elt F .f32) := by
  obtain ⟨-, -, -, -, -, -, -, -, -, -, e0, e1⟩ := idx_params0 t
  funext j
  unfold iblk0
  rw [View.read_apply]
  show V c main_v8 _ = V c main_v8 j
  refine congrArg (V c main_v8) (funext fun a => Fin.ext ?_)
  match a with
  | ⟨0, _⟩ => show win0_9.index t (0 : Fin 2) * 1 + 1 * (j 0).val = (j 0).val; rw [e0]; omega
  | ⟨1, _⟩ => show win0_9.index t (1 : Fin 2) * 128 + 1 * (j 1).val = (j 1).val; rw [e1]; omega

end Cert.KernelIdeal.Val

end
-- ==== Proof.KI.Val0Pieces.lean ====
/-
  Step 0's body, case by case: what each control case leaves in the accumulator and in the output block, as the
  payloads of the blocks the point loaded, for any float values; and so what both hold after each grid point.
-/
import proofs.«172293_j20512763806108_2_alg».proof.Proof.KI.R0.Body
import proofs.«172293_j20512763806108_2_alg».proof.Proof.KI.Val0Blk
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Cert.KernelIdeal.Hand Idealize.ShloMosaic.Tactic

variable {F : FTy → Type} [FloatOps F]

/-! ## What each case of the body leaves, as the payloads of the blocks it loaded

For any float values. The accumulator's one covering store holds the accumulation payload of the row block, the 1024
rows of the column block read out of the whole feature matrix, the distance and adjacency tiles, and what the
accumulator held (the reset block, in the first case); the finishing case's output store holds the normalisation payload
over the accumulator as that same case left it. -/

theorem hz : (![0, 0] : Fin 2 → Nat) = fun _ => 0 := funext fun a => by fin_cases a <;> rfl

/-- The accumulation payload of a point's blocks over the accumulator's contents `xs`. -/
abbrev accOf (i : grid0.Coords) (x0 : Vec F S512x128 .f32) (x1 : Vec F S4096x128 .f32) (x2 : Vec F S512x1024 .f32)
    (x3 : Vec F S512x1024 .bf16) (xs : Vec F S512x128 .f32) : Vec F S512x128 .f32 :=
  k0_pay1 (k0_pay11 (rows1 i x1)) (k0_pay12 x3) (k0_pay13 x0 (rows1 i x1) x2) xs

/-- The first column block: the accumulator is reset, then accumulated into. -/
theorem soutA_eq (c : Dev nD) (i : grid0.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : cond0_0 i) (hc1 : ¬cond0_1 i) (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 = accOf i x0 x1 x2 x3 k0_pay9 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9)]
  unfold kernelRun0_A
  dsimp only
  sl_unfold_words
  rw [View.canon_cons_unit_zero (S := S512x128) hz, View.readCov_unit_zero (S := S512x128) _ hz]
  simp only [View.readAt_eq_ld, harg2.read_unread, harg3.read_unread, harg4.read_unread, harg5.read_unread, harg6.read_unread, harg7.read_unread, harg8.read_unread, harg9.read_unread, harg10.read_unread, harg11.read_unread, harg13.read_unread, View.ld_unit_zero (S := S512x128) hz, View.ld_unit_zero (S := S512x1024) hz, View.ld_unit_zero (S := S256x128) hz, View.ld_unit_zero (S := S128x128) hz, View.ld_unit_zero (S := S1x128) hz]
  rfl

/-- A middle column block: accumulated onto what the point before left. -/
theorem soutB_eq (c : Dev nD) (i : grid0.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond0_0 i) (hc1 : ¬cond0_1 i) (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) :
    sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 = accOf i x0 x1 x2 x3 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg13.read_unread, View.ld_unit_zero (S := S512x128) hz, View.ld_unit_zero (S := S512x1024) hz, View.ld_unit_zero (S := S256x128) hz, View.ld_unit_zero (S := S128x128) hz, View.ld_unit_zero (S := S1x128) hz]
  rfl

/-- The last column block leaves the accumulator accumulated likewise … -/
theorem soutC_eq (c : Dev nD) (i : grid0.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond0_0 i) (hc1 : cond0_1 i) (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) :
    sout0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 = accOf i x0 x1 x2 x3 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg13.read_unread, View.ld_unit_zero (S := S512x128) hz, View.ld_unit_zero (S := S512x1024) hz, View.ld_unit_zero (S := S256x128) hz, View.ld_unit_zero (S := S128x128) hz, View.ld_unit_zero (S := S1x128) hz]
  rfl

/-- … and stores, into the output block, the normalised update of the row block by that accumulator. -/
theorem outC_eq (c : Dev nD) (i : grid0.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond0_0 i) (hc1 : cond0_1 i) (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) :
    out0_C_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0
      = k0_pay2 (k0_pay5 (k0_pay10 x0) (accOf i x0 x1 x2 x3 xs0) x4 x5 x6 x7) (k0_pay6 x8) (k0_pay7 x9)
          (k0_pay8 (k0_pay10 x0) (accOf i x0 x1 x2 x3 xs0) x4 x5 x6 x7) (Scalar.ofBits .f32 0x3727C5AC#32) := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0)]
  unfold kernelRun0_C
  dsimp only
  sl_unfold_words
  rw [View.canon_unit_zero hz, View.readCov_unit_zero (S := S512x128) _ hz]
  simp only [View.readAt_eq_ld, harg2.read_unread, harg3.read_unread, harg4.read_unread, harg5.read_unread, harg6.read_unread, harg7.read_unread, harg8.read_unread, harg9.read_unread, harg10.read_unread, harg11.read_unread, harg13.read_unread, View.ld_unit_zero (S := S512x128) hz, View.ld_unit_zero (S := S512x1024) hz, View.ld_unit_zero (S := S256x128) hz, View.ld_unit_zero (S := S128x128) hz, View.ld_unit_zero (S := S1x128) hz]
  rfl

/-! ## The accumulator and the output block after a point, from the point's blocks -/

variable (V : (c : Dev nD) → (b : Ref sig .tc) → Buf (Elt F) ((c : Thread nD τ).loc b))

/-- The finishing payload of a point's blocks over the accumulator's contents `sc`. -/
abbrev finOf (x0 sc : Vec F S512x128 .f32) (x4 : Vec F S256x128 .f32) (x5 : Vec F S1x128 .f32) (x6 : Vec F S128x128 .f32)
    (x7 x8 x9 : Vec F S1x128 .f32) : Vec F S512x128 .f32 :=
  k0_pay2 (k0_pay5 (k0_pay10 x0) sc x4 x5 x6 x7) (k0_pay6 x8) (k0_pay7 x9) (k0_pay8 (k0_pay10 x0) sc x4 x5 x6 x7)
    (Scalar.ofBits .f32 0x3727C5AC#32)

/-- After a point of the first column block the accumulator holds the accumulation onto the reset block. -/
theorem scratch_A (c : Dev nD) (t : Fin cfg0.N) (h0 : t.val % 4 = 0) (h1 : ¬t.val % 4 = 3) :
    (outsAt0 V c t.val t.isLt).2
      = accOf (grid0.coords t) (iblk0 V c 0 t) (iblk0 V c 1 t) (iblk0 V c 2 t) (iblk0 V c 3 t) k0_pay9 :=
  (congrArg Prod.snd (outsAt0_A V c t h0 h1)).trans
    (soutA_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t))

/-- After a point of a middle column block: the accumulation onto what the point before left. -/
theorem scratch_B (c : Dev nD) (t : Fin cfg0.N) (h0 : ¬t.val % 4 = 0) (h1 : ¬t.val % 4 = 3) :
    (outsAt0 V c t.val t.isLt).2
      = accOf (grid0.coords t) (iblk0 V c 0 t) (iblk0 V c 1 t) (iblk0 V c 2 t) (iblk0 V c 3 t) (outsAt0 V c (t.val - 1) (Nat.lt_of_le_of_lt (Nat.sub_le _ _) t.isLt)).2 :=
  (congrArg Prod.snd (outsAt0_B V c t h0 h1)).trans
    (soutB_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2)

/-- After a point of the last column block: likewise. -/
theorem scratch_C (c : Dev nD) (t : Fin cfg0.N) (h0 : ¬t.val % 4 = 0) (h1 : t.val % 4 = 3) :
    (outsAt0 V c t.val t.isLt).2
      = accOf (grid0.coords t) (iblk0 V c 0 t) (iblk0 V c 1 t) (iblk0 V c 2 t) (iblk0 V c 3 t) (outsAt0 V c (t.val - 1) (Nat.lt_of_le_of_lt (Nat.sub_le _ _) t.isLt)).2 :=
  (congrArg Prod.snd (outsAt0_C V c t h0 h1)).trans
    (soutC_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2)

/-- And the output block then holds the finishing payload over that accumulator. -/
theorem out_C (c : Dev nD) (t : Fin cfg0.N) (h0 : ¬t.val % 4 = 0) (h1 : t.val % 4 = 3) :
    (outsAt0 V c t.val t.isLt).1
      = finOf (iblk0 V c 0 t) (outsAt0 V c t.val t.isLt).2 (iblk0 V c 4 t) (iblk0 V c 5 t) (iblk0 V c 6 t) (iblk0 V c 7 t)
          (iblk0 V c 8 t) (iblk0 V c 9 t) := by
  rw [scratch_C V c t h0 h1]
  exact (congrArg Prod.fst (outsAt0_C V c t h0 h1)).trans
    (outC_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2)

end Cert.KernelIdeal.Val

end
-- ==== Proof.KI.PayMM.lean ====
/-
  The four matrix products of the step body, each read at one index of its result at the ideal values: into a zero
  accumulator a product is the sum, over the one contracted coordinate, of the operands' entries multiplied. The first
  contracts the feature axis of two row blocks (rows against rows); the other three are plain row-by-column products.
-/
import proofs.«172293_j20512763806108_2_alg».proof.Proof.Gen.KernelIdeal.Skeleton
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx
open scoped BigOperators

/-! ### The contraction `dot_S512x128_S1024x128_S512x1024_1_1_0_0_n_n` read at an index -/

theorem mmA_lhs0 (i : S512x1024.Idx) (q : dot_S512x128_S1024x128_S512x1024_1_1_0_0_n_n.contr.Idx) : (dot_S512x128_S1024x128_S512x1024_1_1_0_0_n_n.lhsIdx i q 0).val = (i 0).val := by
  unfold DotDims.lhsIdx
  rw [dif_neg (show ¬(0 : Fin S512x128.rank) ∈ dot_S512x128_S1024x128_S512x1024_1_1_0_0_n_n.lhsBatch by decide), dif_pos (show (0 : Fin S512x128.rank) ∈ dot_S512x128_S1024x128_S512x1024_1_1_0_0_n_n.lhsNonContracting by decide)]
  rfl
theorem mmA_lhs1 (i : S512x1024.Idx) (q : dot_S512x128_S1024x128_S512x1024_1_1_0_0_n_n.contr.Idx) : (dot_S512x128_S1024x128_S512x1024_1_1_0_0_n_n.lhsIdx i q 1).val = (q ⟨0, by decide⟩).val :=
  dot_S512x128_S1024x128_S512x1024_1_1_0_0_n_n.lhsIdx_val_of_single rfl i q
theorem mmA_rhs1 (i : S512x1024.Idx) (q : dot_S512x128_S1024x128_S512x1024_1_1_0_0_n_n.contr.Idx) : (dot_S512x128_S1024x128_S512x1024_1_1_0_0_n_n.rhsIdx i q 1).val = (q ⟨0, by decide⟩).val :=
  dot_S512x128_S1024x128_S512x1024_1_1_0_0_n_n.rhsIdx_val_of_single rfl i q
theorem mmA_rhs0 (i : S512x1024.Idx) (q : dot_S512x128_S1024x128_S512x1024_1_1_0_0_n_n.contr.Idx) : (dot_S512x128_S1024x128_S512x1024_1_1_0_0_n_n.rhsIdx i q 0).val = (i 1).val := by
  unfold DotDims.rhsIdx
  rw [dif_neg (show ¬(0 : Fin S1024x128.rank) ∈ dot_S512x128_S1024x128_S512x1024_1_1_0_0_n_n.rhsBatch by decide), dif_pos (show (0 : Fin S1024x128.rank) ∈ dot_S512x128_S1024x128_S512x1024_1_1_0_0_n_n.rhsNonContracting by decide)]
  rfl

/-- The product into a zero accumulator, read at `(r, c)`: the sum over the contracted coordinate of the operands' products. -/
theorem mmA_apply (prec : Option ContractPrecision) (a : FVec Ideal S512x128 .bf16) (b : FVec Ideal S1024x128 .bf16) (r : Fin 512) (c : Fin 1024) :
    matmul dot_S512x128_S1024x128_S512x1024_1_1_0_0_n_n prec a b (constant S512x1024 .f32 0x00000000#32) (ix2 r c)
      = ∑ k : Fin 128, a (ix2 r k) * b (ix2 c k) := by
  refine (Ideal.matmul_constant_zero_apply dot_S512x128_S1024x128_S512x1024_1_1_0_0_n_n prec a b (ix2 r c)).trans ?_
  rw [← Equiv.sum_comp (ValueIdx.contrEquiv1 dot_S512x128_S1024x128_S512x1024_1_1_0_0_n_n 128 rfl rfl).symm]
  refine Finset.sum_congr rfl fun k _ => ?_
  have hk := ValueIdx.contrEquiv1_symm_val dot_S512x128_S1024x128_S512x1024_1_1_0_0_n_n 128 rfl rfl k
  have el : dot_S512x128_S1024x128_S512x1024_1_1_0_0_n_n.lhsIdx (ix2 r c) ((ValueIdx.contrEquiv1 dot_S512x128_S1024x128_S512x1024_1_1_0_0_n_n 128 rfl rfl).symm k) = ix2 r k := funext fun a => Fin.ext (by
    match a with
    | ⟨0, _⟩ => exact mmA_lhs0 _ _
    | ⟨1, _⟩ => exact (mmA_lhs1 _ _).trans hk)
  have er : dot_S512x128_S1024x128_S512x1024_1_1_0_0_n_n.rhsIdx (ix2 r c) ((ValueIdx.contrEquiv1 dot_S512x128_S1024x128_S512x1024_1_1_0_0_n_n 128 rfl rfl).symm k) = ix2 c k := funext fun a => Fin.ext (by
    match a with
    | ⟨1, _⟩ => exact (mmA_rhs1 _ _).trans hk
    | ⟨0, _⟩ => exact mmA_rhs0 _ _)
  rw [el, er]

/-! ### The contraction `dot_S512x1024_S1024x128_S512x128_1_0_0_1_n_n` read at an index -/

theorem mmB_lhs0 (i : S512x128.Idx) (q : dot_S512x1024_S1024x128_S512x128_1_0_0_1_n_n.contr.Idx) : (dot_S512x1024_S1024x128_S512x128_1_0_0_1_n_n.lhsIdx i q 0).val = (i 0).val := by
  unfold DotDims.lhsIdx
  rw [dif_neg (show ¬(0 : Fin S512x1024.rank) ∈ dot_S512x1024_S1024x128_S512x128_1_0_0_1_n_n.lhsBatch by decide), dif_pos (show (0 : Fin S512x1024.rank) ∈ dot_S512x1024_S1024x128_S512x128_1_0_0_1_n_n.lhsNonContracting by decide)]
  rfl
theorem mmB_lhs1 (i : S512x128.Idx) (q : dot_S512x1024_S1024x128_S512x128_1_0_0_1_n_n.contr.Idx) : (dot_S512x1024_S1024x128_S512x128_1_0_0_1_n_n.lhsIdx i q 1).val = (q ⟨0, by decide⟩).val :=
  dot_S512x1024_S1024x128_S512x128_1_0_0_1_n_n.lhsIdx_val_of_single rfl i q
theorem mmB_rhs0 (i : S512x128.Idx) (q : dot_S512x1024_S1024x128_S512x128_1_0_0_1_n_n.contr.Idx) : (dot_S512x1024_S1024x128_S512x128_1_0_0_1_n_n.rhsIdx i q 0).val = (q ⟨0, by decide⟩).val :=
  dot_S512x1024_S1024x128_S512x128_1_0_0_1_n_n.rhsIdx_val_of_single rfl i q
theorem mmB_rhs1 (i : S512x128.Idx) (q : dot_S512x1024_S1024x128_S512x128_1_0_0_1_n_n.contr.Idx) : (dot_S512x1024_S1024x128_S512x128_1_0_0_1_n_n.rhsIdx i q 1).val = (i 1).val := by
  unfold DotDims.rhsIdx
  rw [dif_neg (show ¬(1 : Fin S1024x128.rank) ∈ dot_S512x1024_S1024x128_S512x128_1_0_0_1_n_n.rhsBatch by decide), dif_pos (show (1 : Fin S1024x128.rank) ∈ dot_S512x1024_S1024x128_S512x128_1_0_0_1_n_n.rhsNonContracting by decide)]
  rfl

/-- The product into a zero accumulator, read at `(r, c)`: the sum over the contracted coordinate of the operands' products. -/
theorem mmB_apply (prec : Option ContractPrecision) (a : FVec Ideal S512x1024 .f32) (b : FVec Ideal S1024x128 .f32) (r : Fin 512) (c : Fin 128) :
    matmul dot_S512x1024_S1024x128_S512x128_1_0_0_1_n_n prec a b (constant S512x128 .f32 0x00000000#32) (ix2 r c)
      = ∑ k : Fin 1024, a (ix2 r k) * b (ix2 k c) := by
  refine (Ideal.matmul_constant_zero_apply dot_S512x1024_S1024x128_S512x128_1_0_0_1_n_n prec a b (ix2 r c)).trans ?_
  rw [← Equiv.sum_comp (ValueIdx.contrEquiv1 dot_S512x1024_S1024x128_S512x128_1_0_0_1_n_n 1024 rfl rfl).symm]
  refine Finset.sum_congr rfl fun k _ => ?_
  have hk := ValueIdx.contrEquiv1_symm_val dot_S512x1024_S1024x128_S512x128_1_0_0_1_n_n 1024 rfl rfl k
  have el : dot_S512x1024_S1024x128_S512x128_1_0_0_1_n_n.lhsIdx (ix2 r c) ((ValueIdx.contrEquiv1 dot_S512x1024_S1024x128_S512x128_1_0_0_1_n_n 1024 rfl rfl).symm k) = ix2 r k := funext fun a => Fin.ext (by
    match a with
    | ⟨0, _⟩ => exact mmB_lhs0 _ _
    | ⟨1, _⟩ => exact (mmB_lhs1 _ _).trans hk)
  have er : dot_S512x1024_S1024x128_S512x128_1_0_0_1_n_n.rhsIdx (ix2 r c) ((ValueIdx.contrEquiv1 dot_S512x1024_S1024x128_S512x128_1_0_0_1_n_n 1024 rfl rfl).symm k) = ix2 k c := funext fun a => Fin.ext (by
    match a with
    | ⟨0, _⟩ => exact (mmB_rhs0 _ _).trans hk
    | ⟨1, _⟩ => exact mmB_rhs1 _ _)
  rw [el, er]

/-! ### The contraction `dot_S512x256_S256x128_S512x128_1_0_0_1_n_n` read at an index -/

theorem mmC_lhs0 (i : S512x128.Idx) (q : dot_S512x256_S256x128_S512x128_1_0_0_1_n_n.contr.Idx) : (dot_S512x256_S256x128_S512x128_1_0_0_1_n_n.lhsIdx i q 0).val = (i 0).val := by
  unfold DotDims.lhsIdx
  rw [dif_neg (show ¬(0 : Fin S512x256.rank) ∈ dot_S512x256_S256x128_S512x128_1_0_0_1_n_n.lhsBatch by decide), dif_pos (show (0 : Fin S512x256.rank) ∈ dot_S512x256_S256x128_S512x128_1_0_0_1_n_n.lhsNonContracting by decide)]
  rfl
theorem mmC_lhs1 (i : S512x128.Idx) (q : dot_S512x256_S256x128_S512x128_1_0_0_1_n_n.contr.Idx) : (dot_S512x256_S256x128_S512x128_1_0_0_1_n_n.lhsIdx i q 1).val = (q ⟨0, by decide⟩).val :=
  dot_S512x256_S256x128_S512x128_1_0_0_1_n_n.lhsIdx_val_of_single rfl i q
theorem mmC_rhs0 (i : S512x128.Idx) (q : dot_S512x256_S256x128_S512x128_1_0_0_1_n_n.contr.Idx) : (dot_S512x256_S256x128_S512x128_1_0_0_1_n_n.rhsIdx i q 0).val = (q ⟨0, by decide⟩).val :=
  dot_S512x256_S256x128_S512x128_1_0_0_1_n_n.rhsIdx_val_of_single rfl i q
theorem mmC_rhs1 (i : S512x128.Idx) (q : dot_S512x256_S256x128_S512x128_1_0_0_1_n_n.contr.Idx) : (dot_S512x256_S256x128_S512x128_1_0_0_1_n_n.rhsIdx i q 1).val = (i 1).val := by
  unfold DotDims.rhsIdx
  rw [dif_neg (show ¬(1 : Fin S256x128.rank) ∈ dot_S512x256_S256x128_S512x128_1_0_0_1_n_n.rhsBatch by decide), dif_pos (show (1 : Fin S256x128.rank) ∈ dot_S512x256_S256x128_S512x128_1_0_0_1_n_n.rhsNonContracting by decide)]
  rfl

/-- The product into a zero accumulator, read at `(r, c)`: the sum over the contracted coordinate of the operands' products. -/
theorem mmC_apply (prec : Option ContractPrecision) (a : FVec Ideal S512x256 .bf16) (b : FVec Ideal S256x128 .bf16) (r : Fin 512) (c : Fin 128) :
    matmul dot_S512x256_S256x128_S512x128_1_0_0_1_n_n prec a b (constant S512x128 .f32 0x00000000#32) (ix2 r c)
      = ∑ k : Fin 256, a (ix2 r k) * b (ix2 k c) := by
  refine (Ideal.matmul_constant_zero_apply dot_S512x256_S256x128_S512x128_1_0_0_1_n_n prec a b (ix2 r c)).trans ?_
  rw [← Equiv.sum_comp (ValueIdx.contrEquiv1 dot_S512x256_S256x128_S512x128_1_0_0_1_n_n 256 rfl rfl).symm]
  refine Finset.sum_congr rfl fun k _ => ?_
  have hk := ValueIdx.contrEquiv1_symm_val dot_S512x256_S256x128_S512x128_1_0_0_1_n_n 256 rfl rfl k
  have el : dot_S512x256_S256x128_S512x128_1_0_0_1_n_n.lhsIdx (ix2 r c) ((ValueIdx.contrEquiv1 dot_S512x256_S256x128_S512x128_1_0_0_1_n_n 256 rfl rfl).symm k) = ix2 r k := funext fun a => Fin.ext (by
    match a with
    | ⟨0, _⟩ => exact mmC_lhs0 _ _
    | ⟨1, _⟩ => exact (mmC_lhs1 _ _).trans hk)
  have er : dot_S512x256_S256x128_S512x128_1_0_0_1_n_n.rhsIdx (ix2 r c) ((ValueIdx.contrEquiv1 dot_S512x256_S256x128_S512x128_1_0_0_1_n_n 256 rfl rfl).symm k) = ix2 k c := funext fun a => Fin.ext (by
    match a with
    | ⟨0, _⟩ => exact (mmC_rhs0 _ _).trans hk
    | ⟨1, _⟩ => exact mmC_rhs1 _ _)
  rw [el, er]

/-! ### The contraction `dot_S512x128_S128x128_S512x128_1_0_0_1_n_n` read at an index -/

theorem mmD_lhs0 (i : S512x128.Idx) (q : dot_S512x128_S128x128_S512x128_1_0_0_1_n_n.contr.Idx) : (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
theorem mmD_lhs1 (i : S512x128.Idx) (q : dot_S512x128_S128x128_S512x128_1_0_0_1_n_n.contr.Idx) : (dot_S512x128_S128x128_S512x128_1_0_0_1_n_n.lhsIdx i q 1).val = (q ⟨0, by decide⟩).val :=
  dot_S512x128_S128x128_S512x128_1_0_0_1_n_n.lhsIdx_val_of_single rfl i q
theorem mmD_rhs0 (i : S512x128.Idx) (q : dot_S512x128_S128x128_S512x128_1_0_0_1_n_n.contr.Idx) : (dot_S512x128_S128x128_S512x128_1_0_0_1_n_n.rhsIdx i q 0).val = (q ⟨0, by decide⟩).val :=
  dot_S512x128_S128x128_S512x128_1_0_0_1_n_n.rhsIdx_val_of_single rfl i q
theorem mmD_rhs1 (i : S512x128.Idx) (q : dot_S512x128_S128x128_S512x128_1_0_0_1_n_n.contr.Idx) : (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl

/-- The product into a zero accumulator, read at `(r, c)`: the sum over the contracted coordinate of the operands' products. -/
theorem mmD_apply (prec : Option ContractPrecision) (a : FVec Ideal S512x128 .bf16) (b : FVec Ideal S128x128 .bf16) (r : Fin 512) (c : Fin 128) :
    matmul dot_S512x128_S128x128_S512x128_1_0_0_1_n_n prec a b (constant S512x128 .f32 0x00000000#32) (ix2 r c)
      = ∑ k : Fin 128, a (ix2 r k) * b (ix2 k c) := by
  refine (Ideal.matmul_constant_zero_apply dot_S512x128_S128x128_S512x128_1_0_0_1_n_n prec a b (ix2 r c)).trans ?_
  rw [← Equiv.sum_comp (ValueIdx.contrEquiv1 dot_S512x128_S128x128_S512x128_1_0_0_1_n_n 128 rfl rfl).symm]
  refine Finset.sum_congr rfl fun k _ => ?_
  have hk := ValueIdx.contrEquiv1_symm_val dot_S512x128_S128x128_S512x128_1_0_0_1_n_n 128 rfl rfl k
  have el : dot_S512x128_S128x128_S512x128_1_0_0_1_n_n.lhsIdx (ix2 r c) ((ValueIdx.contrEquiv1 dot_S512x128_S128x128_S512x128_1_0_0_1_n_n 128 rfl rfl).symm k) = ix2 r k := funext fun a => Fin.ext (by
    match a with
    | ⟨0, _⟩ => exact mmD_lhs0 _ _
    | ⟨1, _⟩ => exact (mmD_lhs1 _ _).trans hk)
  have er : dot_S512x128_S128x128_S512x128_1_0_0_1_n_n.rhsIdx (ix2 r c) ((ValueIdx.contrEquiv1 dot_S512x128_S128x128_S512x128_1_0_0_1_n_n 128 rfl rfl).symm k) = ix2 k c := funext fun a => Fin.ext (by
    match a with
    | ⟨0, _⟩ => exact (mmD_rhs0 _ _).trans hk
    | ⟨1, _⟩ => exact mmD_rhs1 _ _)
  rw [el, er]

end Cert.KernelIdeal.Pay

end
-- ==== Proof.LibColumnCast.lean ====
/-
  A vector kept as a column, read at an index: an `[a]` array cast to `[a, 1]` holds, at `(i, 0)`, the vector's entry `i`.
  The cast keeps the row-major position, and the position of `(i, u)` in `[a, 1]` is `i · 1 + u = i`. This is how a
  per-row quantity computed as a vector (a count, a row sum) becomes the column that is then broadcast along the rows
  of a matrix.
-/
import Idealize.ShloMosaic.Lib.Pipeline.Value
import Idealize.ShloMosaic.Lib.ValueIdx
import Idealize.ShloMosaic.Lib.ValueLayout

namespace Cert.Lib

open Idealize.ShloMosaic Idealize.ShloMosaic.ValueIdx

/-- An `[a]` array cast to the column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib
-- ==== Proof.LibBroadcastColumn.lean ====
/-
  A column broadcast along its rows, read at an index: an `[a, 1]` array broadcast to `[a, b]` holds, at `(p, c)`, the
  column's entry of row `p` — the companion of the row form `[1, b] → [a, b]`, which holds the row's entry of column `c`.
  This is how a per-row quantity kept with a trailing unit axis (a row sum, a row norm, a row maximum) meets a matrix.
-/
import Idealize.ShloMosaic.Lib.Pipeline.Value
import Idealize.ShloMosaic.Lib.ValueIdx

namespace Cert.Lib

open Idealize.ShloMosaic Idealize.ShloMosaic.ValueIdx

/-- An `[a, 1]` array broadcast to `[a, b]` reads, at `(p, c)`, the operand's one column at row `p`. On axis 0 the
    operand's coordinate is the result's (or `0` when `a = 1`, where `p` is `0` anyway); on axis 1 it is `0`, the axis
    having extent one. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.KI.PayLib.lean ====
/-
  Two readings shared by the three steps' bodies: the concatenation of a row block and its message block along the
  columns, read at an index, is the specification's side-by-side row; and a sum along the 128 entries of each row of a
  block, read at a row, is the finite sum over the columns.
-/
import proofs.«172293_j20512763806108_2_alg».proof.Proof.KI.PayMM
import proofs.«172293_j20512763806108_2_alg».proof.Proof.Spec
import proofs.«172293_j20512763806108_2_alg».proof.Proof.LibColumnCast
import proofs.«172293_j20512763806108_2_alg».proof.Proof.LibBroadcastColumn
import Idealize.ShloMosaic.Lib.ValueLayout
import Idealize.ShloMosaic.Lib.Pipeline.Value

noncomputable section

namespace Cert.KernelIdeal.Pay

open Cert.KernelIdeal Cert.KernelIdeal.Gen Cert.Spec Idealize.ShloMosaic Idealize.ShloMosaic.ValueIdx
open scoped BigOperators

/-! ## The row beside its message -/

/-- A row and its message side by side: the concatenation along the columns, read at `(r, q)`, is the first block for
    `q < 128` and the second, 128 columns back, otherwise. -/
theorem cat_apply (x1 : FVec Ideal S512x128 .f32) (x2 : Vec Ideal S512x128 .f32) (r : Fin 512) (q : Fin 256) :
    concatenate S512x256 1 [⟨S512x128, x1⟩, ⟨S512x128, x2⟩] concatenates_S512x128_S512x128_S512x256_d1 (ix2 r q)
      = Spec.cat (fun k => x1 (ix2 r k)) (fun k => x2 (ix2 r k)) q := by
  unfold Spec.cat
  split
  · next hq =>
    exact concatenate_pair_apply_left (1 : Fin S512x256.rank) x1 x2 _ (ix2 r q) rfl (ix2 r ⟨q.val, hq⟩)
      (fun b => by match b with | ⟨0, _⟩ => rfl | ⟨1, _⟩ => rfl)
  · next hq =>
    exact concatenate_pair_apply_right (1 : Fin S512x256.rank) x1 x2 _ (ix2 r q) rfl rfl (ix2 r ⟨q.val - 128, by omega⟩)
      (fun b hb => by match b, hb with | ⟨0, _⟩, _ => rfl | ⟨1, _⟩, hb => exact absurd rfl hb)
      (by show q.val - 128 + 128 = q.val; omega)

/-! ## A sum along each row -/

/-- A sum along the rows' 128 entries, read at row `r`, for any witnesses of the two side conditions (the format is a
    float format; the initial word is the sum's neutral element). -/
theorem rowsum_apply (x : FVec Ideal S512x128 .f32) (hφ : FKind.Formats .f32)
    (hacc : (0x00000000#32 : BitVec 32) = FKind.add.neutral .f32 hφ) (r : Fin 512) :
    multiReduction .add [1] S512 x 0x00000000#32 reduces_S512x128_S512 hφ hacc (ix1 r) = ∑ c : Fin 128, x (ix2 r c) := by
  refine (Ideal.multiReduction_add_single x 0x00000000#32 reduces_S512x128_S512 hφ hacc (ix1 r)).trans ?_
  refine Finset.sum_congr rfl fun c _ => congrArg x ?_
  funext a
  match a with
  | ⟨0, _⟩ => rfl
  | ⟨1, _⟩ => rfl

end Cert.KernelIdeal.Pay

end
-- ==== Proof.KI.Pay0.lean ====
/-
  The arithmetic of step 0's body at the ideal values, entry by entry: each pure value the body computes between its
  loads and stores, read at one index, is the specification's quantity of the same name — the potential tile, the
  accumulated message, the updated row, its mean and variance, the centred row, the normalised row — over the rows of
  the blocks the body loaded.
-/
import proofs.«172293_j20512763806108_2_alg».proof.Proof.KI.PayLib

noncomputable section

namespace Cert.KernelIdeal.Pay

open Cert.KernelIdeal Cert.KernelIdeal.Gen Cert.KernelIdeal.Pay Cert.Spec Idealize.ShloMosaic Idealize.ShloMosaic.ValueIdx
open scoped BigOperators

/-! ## The potential tile -/

/-- The tile of potentials: at `(r, s)` the potential between row `r` of the block and row `s` of the other nodes. Every
    elementwise operation reads through at the index; the contraction is the rows' inner product; `0 - d` is `-d`. -/
theorem pay13 (v3 : Vec Ideal S512x128 .f32) (v8 : Vec Ideal S1024x128 .f32) (v13 : Vec Ideal S512x1024 .f32) (r : Fin 512) (s : Fin 1024) :
    k0_pay13 (F := Ideal) v3 v8 v13 (ix2 r s) = Spec.pot (fun k => v3 (ix2 r k)) (fun k => v8 (ix2 s k)) (v13 (ix2 r s)) := by
  have hm := mmA_apply none (truncf .bf16 v3 bitsLt_bf16_f32) (truncf .bf16 v8 bitsLt_bf16_f32) r s
  have hz : Ideal.ofBits .f32 0x00000000#32 - v13 (ix2 r s) = -(v13 (ix2 r s)) := by rw [Ideal.ofBits_zero_f32, zero_sub]
  unfold k0_pay13 k0_pay10 k0_pay11
  simp only [shapeCast_self]
  refine Eq.trans (b := Ideal.exp (Ideal.div (Ideal.ofBits .f32 0x00000000#32 - v13 (ix2 r s)) cScale)
      * max (∑ k : Fin 128, v3 (ix2 r k) * v8 (ix2 s k)) cZero + lj (v13 (ix2 r s))) ?_ ?_
  · exact congrArg (fun m => Ideal.exp (Ideal.div (Ideal.ofBits .f32 0x00000000#32 - v13 (ix2 r s)) cScale) * max m cZero + lj (v13 (ix2 r s))) hm
  · rw [hz]; rfl

/-! ## The accumulation -/

/-- The accumulator after one column block: what it held plus the masked potentials against the other nodes' features. -/
theorem pay1 (v9 : FVec Ideal S1024x128 .f32) (v16 v38 : FVec Ideal S512x1024 .f32) (v40 : Vec Ideal S512x128 .f32) (r : Fin 512) (c : Fin 128) :
    k0_pay1 (F := Ideal) v9 v16 v38 v40 (ix2 r c)
      = v40 (ix2 r c) + ∑ s : Fin 1024, (v38 (ix2 r s) * v16 (ix2 r s)) * v9 (ix2 s c) := by
  unfold k0_pay1
  simp only [shapeCast_self]
  exact congrArg (v40 (ix2 r c) + ·) (mmB_apply (some .fp32) (mulf v38 v16) v9 r c)

/-! ## The update before normalisation -/

/-- The updated row: the row plus the two-layer perceptron of the row and its message. Outermost operation first: the two
    sums, the second product over the hidden layer, the hidden layer's maximum with zero, the first product over the
    concatenation, and the two bias rows broadcast over the block. -/
theorem pay3 (v4 : FVec Ideal S512x128 .f32) (v49 : Vec Ideal S512x128 .f32) (v52 : Vec Ideal S256x128 .f32) (v54 : Vec Ideal S1x128 .f32)
    (v62 : Vec Ideal S128x128 .f32) (v64 : Vec Ideal S1x128 .f32) (r : Fin 512) (c : Fin 128) :
    k0_pay3 (F := Ideal) v4 v49 v52 v54 v62 v64 (ix2 r c)
      = Spec.upd (fun k => v4 (ix2 r k)) (fun k => v49 (ix2 r k)) v52 (fun k => v54 (ix2 (0 : Fin 1) k)) v62
          (fun k => v64 (ix2 (0 : Fin 1) k)) c := by
  unfold k0_pay3 Spec.upd Spec.hid
  simp only [shapeCast_self]
  refine (addf_apply _ _ (ix2 r c)).trans (congrArg (v4 (ix2 r c) + ·) ?_)
  refine (addf_apply _ _ (ix2 r c)).trans (congrArg₂ (· + ·) ?_ ?_)
  · refine (mmD_apply none _ _ r c).trans (Finset.sum_congr rfl fun k _ => congrArg (· * v62 (ix2 k c)) ?_)
    refine (truncf_apply (ψ := .bf16) _ bitsLt_bf16_f32 (ix2 r k)).trans ?_
    refine (maximumf_apply _ _ (ix2 r k)).trans (congrArg₂ max ?_ rfl)
    refine (addf_apply _ _ (ix2 r k)).trans (congrArg₂ (· + ·) ?_ ?_)
    · refine (mmC_apply none _ _ r k).trans (Finset.sum_congr rfl fun q _ => congrArg (· * v52 (ix2 q k)) ?_)
      exact cat_apply v4 v49 r q
    · exact broadcastTo_1b_ab_apply v54 _ r k
  · exact broadcastTo_1b_ab_apply v64 _ r c

/-! ## Mean, variance and the normalised row -/

/-- The mean of the updated row, kept as a column. -/
theorem pay4 (v4 : FVec Ideal S512x128 .f32) (v49 : Vec Ideal S512x128 .f32) (v52 : Vec Ideal S256x128 .f32) (v54 : Vec Ideal S1x128 .f32)
    (v62 : Vec Ideal S128x128 .f32) (v64 : Vec Ideal S1x128 .f32) (r : Fin 512) :
    k0_pay4 (F := Ideal) v4 v49 v52 v54 v62 v64 (ix2 r (0 : Fin 1))
      = Spec.mean (Spec.upd (fun k => v4 (ix2 r k)) (fun k => v49 (ix2 r k)) v52 (fun k => v54 (ix2 (0 : Fin 1) k)) v62
          (fun k => v64 (ix2 (0 : Fin 1) k))) := by
  unfold k0_pay4 Spec.mean
  refine (divf_apply _ _ (ix2 r (0 : Fin 1))).trans (congrArg₂ Ideal.div ?_ rfl)
  refine (Cert.Lib.shapeCast_a_a1_apply _ _ r (0 : Fin 1)).trans ?_
  exact (rowsum_apply _ _ _ r).trans (Finset.sum_congr rfl fun c _ => pay3 v4 v49 v52 v54 v62 v64 r c)

/-- The centred row: the updated row less its mean, the mean's column broadcast along the row. -/
theorem pay8 (v4 : FVec Ideal S512x128 .f32) (v49 : Vec Ideal S512x128 .f32) (v52 : Vec Ideal S256x128 .f32) (v54 : Vec Ideal S1x128 .f32)
    (v62 : Vec Ideal S128x128 .f32) (v64 : Vec Ideal S1x128 .f32) (r : Fin 512) (c : Fin 128) :
    k0_pay8 (F := Ideal) v4 v49 v52 v54 v62 v64 (ix2 r c)
      = Spec.upd (fun k => v4 (ix2 r k)) (fun k => v49 (ix2 r k)) v52 (fun k => v54 (ix2 (0 : Fin 1) k)) v62
          (fun k => v64 (ix2 (0 : Fin 1) k)) c
        - Spec.mean (Spec.upd (fun k => v4 (ix2 r k)) (fun k => v49 (ix2 r k)) v52 (fun k => v54 (ix2 (0 : Fin 1) k)) v62
          (fun k => v64 (ix2 (0 : Fin 1) k))) := by
  unfold k0_pay8
  refine (subf_apply _ _ (ix2 r c)).trans (congrArg₂ (· - ·) (pay3 v4 v49 v52 v54 v62 v64 r c) ?_)
  exact (Cert.Lib.broadcastTo_a1_ab_apply _ _ r c).trans (pay4 v4 v49 v52 v54 v62 v64 r)

/-- The variance of the updated row, kept as a column: the mean of the centred row's squares. -/
theorem pay5 (v4 : FVec Ideal S512x128 .f32) (v49 : Vec Ideal S512x128 .f32) (v52 : Vec Ideal S256x128 .f32) (v54 : Vec Ideal S1x128 .f32)
    (v62 : Vec Ideal S128x128 .f32) (v64 : Vec Ideal S1x128 .f32) (r : Fin 512) :
    k0_pay5 (F := Ideal) v4 v49 v52 v54 v62 v64 (ix2 r (0 : Fin 1))
      = Spec.var (Spec.upd (fun k => v4 (ix2 r k)) (fun k => v49 (ix2 r k)) v52 (fun k => v54 (ix2 (0 : Fin 1) k)) v62
          (fun k => v64 (ix2 (0 : Fin 1) k))) := by
  unfold k0_pay5 Spec.var
  refine (divf_apply _ _ (ix2 r (0 : Fin 1))).trans (congrArg₂ Ideal.div ?_ rfl)
  refine (Cert.Lib.shapeCast_a_a1_apply _ _ r (0 : Fin 1)).trans ?_
  refine (rowsum_apply _ _ _ r).trans (Finset.sum_congr rfl fun c _ => ?_)
  exact (mulf_apply _ _ (ix2 r c)).trans
    (congrArg₂ (· * ·) (pay8 v4 v49 v52 v54 v62 v64 r c) (pay8 v4 v49 v52 v54 v62 v64 r c))

/-- The normalisation of a centred block by a variance column, scaled and shifted by two rows. -/
theorem pay2 (v80 : FVec Ideal S512x1 .f32) (v82 v84 : FVec Ideal S1x128 .f32) (v86 : FVec Ideal S512x128 .f32) (cst : EReal)
    (r : Fin 512) (c : Fin 128) :
    k0_pay2 (F := Ideal) v80 v82 v84 v86 cst (ix2 r c)
      = v86 (ix2 r c) * Ideal.rsqrt (v80 (ix2 r (0 : Fin 1)) + cst) * v82 (ix2 (0 : Fin 1) c) + v84 (ix2 (0 : Fin 1) c) := by
  unfold k0_pay2
  refine (addf_apply _ _ (ix2 r c)).trans (congrArg₂ (· + ·) ?_ (broadcastTo_1b_ab_apply v84 _ r c))
  refine (mulf_apply _ _ (ix2 r c)).trans (congrArg₂ (· * ·) ?_ (broadcastTo_1b_ab_apply v82 _ r c))
  refine (mulf_apply _ _ (ix2 r c)).trans (congrArg (v86 (ix2 r c) * ·) ?_)
  exact Cert.Lib.broadcastTo_a1_ab_apply _ _ r c

/-! ## The casts of a shape to itself, and the zero block -/

theorem pay6 (v81 : Vec Ideal S1x128 .f32) : k0_pay6 (F := Ideal) v81 = v81 := shapeCast_self v81 _
theorem pay7 (v83 : Vec Ideal S1x128 .f32) : k0_pay7 (F := Ideal) v83 = v83 := shapeCast_self v83 _
theorem pay10 (v3 : Vec Ideal S512x128 .f32) : k0_pay10 (F := Ideal) v3 = v3 := shapeCast_self v3 _
theorem pay11 (v8 : Vec Ideal S1024x128 .f32) : k0_pay11 (F := Ideal) v8 = v8 := shapeCast_self v8 _
/-- The adjacency tile widened: at the ideal values a widening is the identity. -/
theorem pay12 (v14 : Vec Ideal S512x1024 .bf16) : k0_pay12 (F := Ideal) v14 = v14 := by
  unfold k0_pay12
  exact (funext fun i => extf_apply (ψ := .f32) _ bitsLt_bf16_f32 i).trans (shapeCast_self v14 _)
/-- The block the accumulator is reset to. -/
theorem pay9 : k0_pay9 (F := Ideal) = fun _ => Ideal.ofBits .f32 0x00000000#32 := by
  unfold k0_pay9
  exact shapeCast_self _ _

/-! ## The row the body stores -/

/-- The stored block at `(r, c)` is the specification's new row from the block's row, the accumulated message and the
    parameters. -/
theorem out_row (v4 : FVec Ideal S512x128 .f32) (v49 : Vec Ideal S512x128 .f32) (v52 : Vec Ideal S256x128 .f32) (v54 : Vec Ideal S1x128 .f32)
    (v62 : Vec Ideal S128x128 .f32) (v64 v81 v83 : Vec Ideal S1x128 .f32) (r : Fin 512) (c : Fin 128) :
    k0_pay2 (F := Ideal) (k0_pay5 v4 v49 v52 v54 v62 v64) (k0_pay6 v81) (k0_pay7 v83) (k0_pay8 v4 v49 v52 v54 v62 v64)
        (Scalar.ofBits .f32 0x3727C5AC#32) (ix2 r c)
      = Spec.stepRow (fun k => v4 (ix2 r k)) (fun k => v49 (ix2 r k)) v52 (fun k => v54 (ix2 (0 : Fin 1) k)) v62
          (fun k => v64 (ix2 (0 : Fin 1) k)) (fun k => v81 (ix2 (0 : Fin 1) k)) (fun k => v83 (ix2 (0 : Fin 1) k)) c := by
  refine (pay2 _ _ _ _ _ r c).trans ?_
  unfold Spec.stepRow Spec.norm
  exact congrArg₂ (· + ·)
    (congrArg₂ (· * ·)
      (congrArg₂ (· * ·) (pay8 v4 v49 v52 v54 v62 v64 r c)
        (congrArg (fun x => Ideal.rsqrt (x + cLnEps)) (pay5 v4 v49 v52 v54 v62 v64 r)))
      (congrFun (pay6 v81) _))
    (congrFun (pay7 v83) _)

end Cert.KernelIdeal.Pay

end
-- ==== Proof.LibBlockSum.lean ====
/- Regrouping a sum over Fin (nb * bs) into nb consecutive blocks of bs terms, in any additive commutative monoid:
   the index r = bs * t + y runs over every r < nb * bs exactly once as t runs over the blocks and y over the places in
   a block. Stated with the blocks indexed by Fin nb and by a range of naturals, and at 10000 = 50 * 200. -/
import Mathlib.Algebra.BigOperators.Fin
import Mathlib.Data.Fintype.BigOperators
import Mathlib.Logic.Equiv.Fin.Basic

namespace Cert.Lib

/-- The place y of block t lies below nb * bs. -/
theorem block_lt {nb bs : ℕ} (t : Fin nb) (y : Fin bs) : bs * t.val + y.val < nb * bs := by
  have h1 : bs * t.val + y.val < bs * (t.val + 1) := by rw [Nat.mul_succ]; exact Nat.add_lt_add_left y.isLt _
  have h2 : bs * (t.val + 1) ≤ bs * nb := Nat.mul_le_mul_left _ t.isLt
  rw [Nat.mul_comm nb bs]
  exact lt_of_lt_of_le h1 h2

/-- The same when the total is named N = nb * bs. -/
theorem block_lt_of_eq {nb bs N : ℕ} (h : nb * bs = N) (t : Fin nb) (y : Fin bs) : bs * t.val + y.val < N :=
  h ▸ block_lt t y

/-- A sum over Fin (nb * bs) is the sum over the nb blocks of the sums over the bs places of each block. -/
theorem sum_blocks {M : Type*} [AddCommMonoid M] (nb bs : ℕ) (f : Fin (nb * bs) → M) :
    ∑ t : Fin nb, ∑ y : Fin bs, f ⟨bs * t.val + y.val, block_lt t y⟩ = ∑ r : Fin (nb * bs), f r := by
  rw [← Equiv.sum_comp (finProdFinEquiv (m := nb) (n := bs)) f, Fintype.sum_prod_type]
  refine Finset.sum_congr rfl (fun t _ => Finset.sum_congr rfl (fun y _ => ?_))
  refine congrArg f (Fin.ext ?_)
  show bs * t.val + y.val = y.val + bs * t.val
  exact Nat.add_comm _ _

/-- The same for a sum over Fin N with N = nb * bs. -/
theorem sum_blocks_of_eq {M : Type*} [AddCommMonoid M] {nb bs N : ℕ} (h : nb * bs = N) (f : Fin N → M) :
    ∑ t : Fin nb, ∑ y : Fin bs, f ⟨bs * t.val + y.val, block_lt_of_eq h t y⟩ = ∑ r : Fin N, f r := by
  subst h
  exact sum_blocks nb bs f

/-- The blocks indexed by a range of naturals: if B t is the sum of block t for every t < nb, the sum of B over
    range nb is the whole sum. -/
theorem sum_range_blocks_of_eq {M : Type*} [AddCommMonoid M] {nb bs N : ℕ} (h : nb * bs = N) (f : Fin N → M)
    (B : ℕ → M)
    (hB : ∀ (t : ℕ) (ht : t < nb), B t = ∑ y : Fin bs, f ⟨bs * t + y.val, block_lt_of_eq h ⟨t, ht⟩ y⟩) :
    ∑ s ∈ Finset.range nb, B s = ∑ r : Fin N, f r := by
  rw [Finset.sum_range, ← sum_blocks_of_eq h f]
  exact Finset.sum_congr rfl (fun t _ => hB t.val t.isLt)

/-- 10000 terms are 50 blocks of 200. -/
theorem sum_blocks_10000 {M : Type*} [AddCommMonoid M] (f : Fin 10000 → M) :
    ∑ t : Fin 50, ∑ y : Fin 200, f ⟨200 * t.val + y.val, by omega⟩ = ∑ r : Fin 10000, f r :=
  sum_blocks_of_eq (nb := 50) (bs := 200) (N := 10000) rfl f

/-- 10000 terms from a range of 50 block sums. -/
theorem sum_range_blocks_10000 {M : Type*} [AddCommMonoid M] (f : Fin 10000 → M) (B : ℕ → M)
    (hB : ∀ (t : ℕ) (ht : t < 50), B t = ∑ y : Fin 200, f ⟨200 * t + y.val, by omega⟩) :
    ∑ s ∈ Finset.range 50, B s = ∑ r : Fin 10000, f r :=
  sum_range_blocks_of_eq (nb := 50) (bs := 200) (N := 10000) rfl f B hB

/-- A running sum: an accumulator that starts at b 0 and adds b (n + 1) at step n + 1 holds, after step n, the sum of
    b over range (n + 1). -/
theorem running_sum {M : Type*} [AddCommMonoid M] (b acc : ℕ → M) (h0 : acc 0 = b 0)
    (hs : ∀ n, acc (n + 1) = acc n + b (n + 1)) (n : ℕ) : acc n = ∑ t ∈ Finset.range (n + 1), b t := by
  induction n with
  | zero => rw [h0, Finset.sum_range_one]
  | succ n ih => rw [hs n, ih, Finset.sum_range_succ _ (n + 1)]

/-- The same with the steps known only below a bound N. -/
theorem running_sum_lt {M : Type*} [AddCommMonoid M] {N : ℕ} (b acc : ℕ → M) (h0 : acc 0 = b 0)
    (hs : ∀ n, n + 1 < N → acc (n + 1) = acc n + b (n + 1)) (n : ℕ) (hn : n < N) :
    acc n = ∑ t ∈ Finset.range (n + 1), b t := by
  induction n with
  | zero => rw [h0, Finset.sum_range_one]
  | succ n ih => rw [hs n hn, ih (Nat.lt_of_succ_lt hn), Finset.sum_range_succ _ (n + 1)]

/-- The same when the accumulator starts from zero plus the first term. -/
theorem running_sum_lt' {M : Type*} [AddCommMonoid M] {N : ℕ} (b acc : ℕ → M) (h0 : acc 0 = 0 + b 0)
    (hs : ∀ n, n + 1 < N → acc (n + 1) = acc n + b (n + 1)) (n : ℕ) (hn : n < N) :
    acc n = ∑ t ∈ Finset.range (n + 1), b t :=
  running_sum_lt b acc (by rw [h0, zero_add]) hs n hn

/-- An accumulator that starts at zero plus block 0 and adds block n + 1 at step n + 1, for 50 blocks of 200, holds
    after step 49 the sum of all 10000 terms. -/
theorem acc_49_10000 {M : Type*} [AddCommMonoid M] (f : Fin 10000 → M) (b acc : ℕ → M)
    (hb : ∀ (t : ℕ) (ht : t < 50), b t = ∑ y : Fin 200, f ⟨200 * t + y.val, by omega⟩)
    (h0 : acc 0 = 0 + b 0) (hs : ∀ n, n + 1 < 50 → acc (n + 1) = acc n + b (n + 1)) :
    acc 49 = ∑ r : Fin 10000, f r := by
  rw [running_sum_lt' b acc h0 hs 49 (by omega)]
  exact sum_range_blocks_10000 f b hb

end Cert.Lib
-- ==== Proof.KI.Val0Math.lean ====
/-
  The mathematics of one row block of a message-passing step, over plain arrays: what one accumulation step adds, what
  the accumulator holds after the first j + 1 column blocks, that after the fourth it holds the whole message, and what
  the finishing step makes of it. Nothing here mentions the pipeline: the blocks are functions related to the whole
  arrays by their coordinates (row block ib of 512 rows, column block jb of 1024 columns).
-/
import proofs.«172293_j20512763806108_2_alg».proof.Proof.KI.Pay0
import proofs.«172293_j20512763806108_2_alg».proof.Proof.LibBlockSum

noncomputable section

namespace Cert.KernelIdeal.Val

open Cert.KernelIdeal Cert.KernelIdeal.Gen Cert.KernelIdeal.Pay Cert.Spec Idealize.ShloMosaic Idealize.ShloMosaic.ValueIdx
open scoped BigOperators

/-! ## The message as a sum of column blocks -/

/-- The term of node `n` in the message to node `i`, column `c`; zero past the last node, so that it is a function of
    a natural number. -/
def msgTerm (h : Mat 4096 128) (dist adj : Mat 4096 4096) (i : Fin 4096) (c : Fin 128) (n : ℕ) : EReal :=
  if hn : n < 4096 then (pot (row h i) (row h ⟨n, hn⟩) (dist (ix2 i ⟨n, hn⟩)) * adj (ix2 i ⟨n, hn⟩)) * h (ix2 ⟨n, hn⟩ c) else 0

/-- The terms of column block `jb`: nodes `1024 jb` to `1024 jb + 1023`. -/
def blockSum (h : Mat 4096 128) (dist adj : Mat 4096 4096) (i : Fin 4096) (c : Fin 128) (jb : ℕ) : EReal :=
  ∑ s : Fin 1024, msgTerm h dist adj i c (1024 * jb + s.val)

/-- The four column blocks together are the message. -/
theorem sum_blockSum (h : Mat 4096 128) (dist adj : Mat 4096 4096) (i : Fin 4096) (c : Fin 128) :
    ∑ jb ∈ Finset.range 4, blockSum h dist adj i c jb = msg h dist adj i c := by
  unfold msg
  refine Cert.Lib.sum_range_blocks_of_eq (nb := 4) (bs := 1024) (N := 4096) rfl
    (fun j : Fin 4096 => (pot (row h i) (row h j) (dist (ix2 i j)) * adj (ix2 i j)) * h (ix2 j c))
    (blockSum h dist adj i c) (fun t ht => ?_)
  unfold blockSum
  refine Finset.sum_congr rfl fun y _ => ?_
  unfold msgTerm
  have hlt : 1024 * t + y.val < 4096 := by have := y.isLt; omega
  rw [dif_pos hlt]

/-! ## One accumulation step -/

/-- One step of the accumulation, on the blocks the body loads: the accumulator gains, at `(r, c)`, the masked
    potentials between row `r` of the row block and the 1024 rows of the column block, against those rows' features. -/
theorem acc_step (x0 : Vec Ideal S512x128 .f32) (v8 : Vec Ideal S1024x128 .f32) (x2 : Vec Ideal S512x1024 .f32)
    (x3 : Vec Ideal S512x1024 .bf16) (xs : Vec Ideal S512x128 .f32) (r : Fin 512) (c : Fin 128) :
    k0_pay1 (F := Ideal) (k0_pay11 v8) (k0_pay12 x3) (k0_pay13 x0 v8 x2) xs (ix2 r c)
      = xs (ix2 r c) + ∑ s : Fin 1024,
          (pot (fun k => x0 (ix2 r k)) (fun k => v8 (ix2 s k)) (x2 (ix2 r s)) * x3 (ix2 r s)) * v8 (ix2 s c) := by
  refine (pay1 _ _ _ xs r c).trans (congrArg (xs (ix2 r c) + ·) (Finset.sum_congr rfl fun s _ => ?_))
  rw [pay13, pay12, pay11]

/-- The same step when the blocks are row block `ib` of the features, rows `1024 jb …` of the features, and tile
    `(ib, jb)` of the distances and of the adjacency: the gain is column block `jb` of the message to node
    `512 ib + r`. -/
theorem acc_step_global (h : Mat 4096 128) (dist adj : Mat 4096 4096) (ib jb : ℕ) (hib : ib < 8) (hjb : jb < 4)
    (x0 : Vec Ideal S512x128 .f32) (v8 : Vec Ideal S1024x128 .f32) (x2 : Vec Ideal S512x1024 .f32)
    (x3 : Vec Ideal S512x1024 .bf16) (xs : Vec Ideal S512x128 .f32)
    (hx0 : ∀ (r : Fin 512) (k : Fin 128), x0 (ix2 r k) = h (ix2 ⟨512 * ib + r.val, by have := r.isLt; omega⟩ k))
    (hv8 : ∀ (s : Fin 1024) (k : Fin 128), v8 (ix2 s k) = h (ix2 ⟨1024 * jb + s.val, by have := s.isLt; omega⟩ k))
    (hx2 : ∀ (r : Fin 512) (s : Fin 1024), x2 (ix2 r s)
      = dist (ix2 ⟨512 * ib + r.val, by have := r.isLt; omega⟩ ⟨1024 * jb + s.val, by have := s.isLt; omega⟩))
    (hx3 : ∀ (r : Fin 512) (s : Fin 1024), x3 (ix2 r s)
      = adj (ix2 ⟨512 * ib + r.val, by have := r.isLt; omega⟩ ⟨1024 * jb + s.val, by have := s.isLt; omega⟩))
    (r : Fin 512) (c : Fin 128) :
    k0_pay1 (F := Ideal) (k0_pay11 v8) (k0_pay12 x3) (k0_pay13 x0 v8 x2) xs (ix2 r c)
      = xs (ix2 r c) + blockSum h dist adj ⟨512 * ib + r.val, by have := r.isLt; omega⟩ c jb := by
  refine (acc_step x0 v8 x2 x3 xs r c).trans (congrArg (xs (ix2 r c) + ·) ?_)
  unfold blockSum
  refine Finset.sum_congr rfl fun s _ => ?_
  unfold msgTerm
  have hlt : 1024 * jb + s.val < 4096 := by have := s.isLt; omega
  rw [dif_pos hlt, hx2, hx3, hv8]
  refine congrArg (fun p => (p * _) * _) (congrArg₂ (fun a b => pot a b _) (funext fun k => hx0 r k) (funext fun k => hv8 s k))

/-- The reset block is zero, so the first step of a row block leaves its column block alone. -/
theorem reset_apply (r : Fin 512) (c : Fin 128) : k0_pay9 (F := Ideal) (ix2 r c) = 0 :=
  (congrFun pay9 (ix2 r c)).trans Ideal.ofBits_zero_f32

/-! ## The finishing step -/

/-- The block the finishing step stores, from the row block, the accumulator and the parameter blocks. -/
theorem out_step (x0 sc : Vec Ideal S512x128 .f32) (x4 : Vec Ideal S256x128 .f32) (x5 : Vec Ideal S1x128 .f32)
    (x6 : Vec Ideal S128x128 .f32) (x7 x8 x9 : Vec Ideal S1x128 .f32) (r : Fin 512) (c : Fin 128) :
    k0_pay2 (F := Ideal) (k0_pay5 (k0_pay10 x0) sc x4 x5 x6 x7) (k0_pay6 x8) (k0_pay7 x9) (k0_pay8 (k0_pay10 x0) sc x4 x5 x6 x7)
        (Scalar.ofBits .f32 0x3727C5AC#32) (ix2 r c)
      = stepRow (fun k => x0 (ix2 r k)) (fun k => sc (ix2 r k)) x4 (fun k => x5 (ix2 (0 : Fin 1) k)) x6
          (fun k => x7 (ix2 (0 : Fin 1) k)) (fun k => x8 (ix2 (0 : Fin 1) k)) (fun k => x9 (ix2 (0 : Fin 1) k)) c := by
  rw [pay10]
  exact out_row x0 sc x4 x5 x6 x7 x8 x9 r c

end Cert.KernelIdeal.Val

end
-- ==== Proof.KI.Val0.lean ====
/-
  Step 0's value at the ideal instance: the array the step's output window ends holding is the specification's step of
  the arrays the step finds. Within a row block the accumulator holds, after column block j, the first j + 1 column
  blocks of each row's message (by induction on the grid point); after the fourth it holds the message, and the
  finishing case stores the specification's new rows; the eight finishing points' blocks tile the output array.
-/
import proofs.«172293_j20512763806108_2_alg».proof.Proof.KI.Val0Pieces
import proofs.«172293_j20512763806108_2_alg».proof.Proof.KI.Val0Math
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Cert.KernelIdeal.Hand Cert.KernelIdeal.Pay Cert.Spec Idealize.ShloMosaic.ValueIdx
open Idealize.SL Idealize.SL.RA
open scoped BigOperators

variable (V : (c : Dev nD) → (b : Ref sig .tc) → Buf (Elt Ideal) ((c : Thread nD τ).loc b)) (q : Fin 11 → PosShare TreeShare)

/-! ## The arrays the step finds -/

/-- The features, the distances and the adjacency as the step finds them, as matrices of extended reals. -/
abbrev feat (c : Dev nD) : Mat 4096 128 := V c main_v3
abbrev dists (c : Dev nD) : Mat 4096 4096 := V c main_arg2
abbrev adjs (c : Dev nD) : Mat 4096 4096 := V c main_v4

/-- The node that row `r` of point `t`'s row block is. -/
def rowOf (t : Fin cfg0.N) (r : Fin 512) : Fin 4096 := ⟨512 * (t.val / 4) + r.val, row_lt t r⟩

/-- The specification's new feature matrix from those arrays. -/
abbrev G (c : Dev nD) : S4096x128.Idx → EReal := fun idx =>
  stepRow (row (feat V c) (idx 0)) (msg (feat V c) (dists V c) (adjs V c) (idx 0)) (V c main_arg7)
    (fun k => V c main_v5 (ix2 (0 : Fin 1) k)) (V c main_arg9) (fun k => V c main_v6 (ix2 (0 : Fin 1) k))
    (fun k => V c main_v7 (ix2 (0 : Fin 1) k)) (fun k => V c main_v8 (ix2 (0 : Fin 1) k)) (idx 1)

/-! ## The accumulator after each point -/

/-- One accumulation at point `t`: the accumulator gains column block `t % 4` of the messages to the row block's nodes. -/
theorem accOf_apply (c : Dev nD) (t : Fin cfg0.N) (xs : Vec Ideal S512x128 .f32) (r : Fin 512) (cc : Fin 128) :
    accOf (grid0.coords t) (iblk0 V c 0 t) (iblk0 V c 1 t) (iblk0 V c 2 t) (iblk0 V c 3 t) xs (ix2 r cc)
      = xs (ix2 r cc) + blockSum (feat V c) (dists V c) (adjs V c) (rowOf t r) cc (t.val % 4) :=
  acc_step_global (feat V c) (dists V c) (adjs V c) (t.val / 4) (t.val % 4) (by have := point_lt t; omega)
    (Nat.mod_lt _ (by decide))
    (iblk0 V c 0 t) (rows1 (grid0.coords t) (iblk0 V c 1 t)) (iblk0 V c 2 t) (iblk0 V c 3 t) xs
    (fun r k => iblk0_0_apply V c t r k)
    (fun s k => (rows1_apply t (iblk0 V c 1 t) s k).trans (iblk0_1_apply V c t _ k))
    (fun r s => iblk0_2_apply V c t r s)
    (fun r s => iblk0_3_apply V c t r s)
    r cc

/-- After point `n` the accumulator holds the first `n % 4 + 1` column blocks of the messages to the nodes of row block
    `n / 4`. -/
theorem scratch_eq (c : Dev nD) : ∀ (n : ℕ) (hn : n < cfg0.N) (r : Fin 512) (cc : Fin 128),
    (outsAt0 V c n hn).2 (ix2 r cc)
      = ∑ jb ∈ Finset.range (n % 4 + 1), blockSum (feat V c) (dists V c) (adjs V c) (rowOf ⟨n, hn⟩ r) cc jb
  | 0, hn, r, cc => by
    refine (congrFun (scratch_A V c ⟨0, hn⟩ rfl (by show ¬(0 % 4 = 3); omega)) (ix2 r cc)).trans ?_
    refine (accOf_apply V c ⟨0, hn⟩ _ r cc).trans ?_
    rw [reset_apply, zero_add]
    exact (Finset.sum_range_one _).symm
  | n + 1, hn, r, cc => by
    by_cases h0 : (n + 1) % 4 = 0
    · have h1 : ¬(n + 1) % 4 = 3 := by omega
      refine (congrFun (scratch_A V c ⟨n + 1, hn⟩ h0 h1) (ix2 r cc)).trans ?_
      refine (accOf_apply V c ⟨n + 1, hn⟩ _ r cc).trans ?_
      rw [reset_apply, zero_add]
      show blockSum _ _ _ _ cc ((n + 1) % 4) = ∑ jb ∈ Finset.range ((n + 1) % 4 + 1), _
      rw [h0]
      exact (Finset.sum_range_one _).symm
    · have hstep : (outsAt0 V c (n + 1) hn).2
          = accOf (grid0.coords ⟨n + 1, hn⟩) (iblk0 V c 0 ⟨n + 1, hn⟩) (iblk0 V c 1 ⟨n + 1, hn⟩) (iblk0 V c 2 ⟨n + 1, hn⟩)
              (iblk0 V c 3 ⟨n + 1, hn⟩) (outsAt0 V c n (Nat.lt_of_succ_lt hn)).2 := by
        by_cases h1 : (n + 1) % 4 = 3
        · exact scratch_C V c ⟨n + 1, hn⟩ h0 h1
        · exact scratch_B V c ⟨n + 1, hn⟩ h0 h1
      have e2 : (n + 1) % 4 = n % 4 + 1 := by omega
      have er : rowOf ⟨n, Nat.lt_of_succ_lt hn⟩ r = rowOf ⟨n + 1, hn⟩ r := Fin.ext (by
        show 512 * (n / 4) + r.val = 512 * ((n + 1) / 4) + r.val
        have : (n + 1) / 4 = n / 4 := by omega
        rw [this])
      refine (congrFun hstep (ix2 r cc)).trans ?_
      refine (accOf_apply V c ⟨n + 1, hn⟩ _ r cc).trans ?_
      rw [scratch_eq c n (Nat.lt_of_succ_lt hn) r cc, er]
      show _ + blockSum _ _ _ _ cc ((n + 1) % 4) = ∑ jb ∈ Finset.range ((n + 1) % 4 + 1), _
      rw [e2, Finset.sum_range_succ _ (n % 4 + 1)]

/-! ## The output block at the finishing points -/

/-- At a finishing point the output block holds the specification's new rows of the row block's nodes. -/
theorem out_eq (c : Dev nD) (t : Fin cfg0.N) (h3 : t.val % 4 = 3) (r : Fin 512) (cc : Fin 128) :
    (outsAt0 V c t.val t.isLt).1 (ix2 r cc) = G V c (ix2 (rowOf t r) cc) := by
  have h0 : ¬t.val % 4 = 0 := by omega
  refine (congrFun (out_C V c t h0 h3) (ix2 r cc)).trans ?_
  refine (out_step (iblk0 V c 0 t) (outsAt0 V c t.val t.isLt).2 (iblk0 V c 4 t) (iblk0 V c 5 t) (iblk0 V c 6 t) (iblk0 V c 7 t)
    (iblk0 V c 8 t) (iblk0 V c 9 t) r cc).trans ?_
  have hrow : (fun k => (iblk0 V c 0 t : Vec Ideal S512x128 .f32) (ix2 r k)) = row (feat V c) (rowOf t r) :=
    funext fun k => iblk0_0_apply V c t r k
  have hmsg : (fun k => (outsAt0 V c t.val t.isLt).2 (ix2 r k)) = msg (feat V c) (dists V c) (adjs V c) (rowOf t r) :=
    funext fun k => by
      rw [scratch_eq V c t.val t.isLt r k, h3]
      exact sum_blockSum _ _ _ _ k
  rw [hrow, hmsg, iblk0_4_eq V c t, iblk0_5_eq V c t, iblk0_6_eq V c t, iblk0_7_eq V c t, iblk0_8_eq V c t, iblk0_9_eq V c t]

/-! ## From the blocks to the array -/

/-- What a finishing point writes back is its block of the specification's matrix. -/
theorem flushed_eq (c : Dev nD) (t : Fin cfg0.N) (hf : (cfg0.win 10).flush t = true) :
    (dat0 V q c).flushed 10 t = ((cfg0.win 10).blk t).view.read (Elt Ideal) (G V c) := by
  have h3 : t.val % 4 = 3 := (flush0_10 t).mp hf
  obtain ⟨-, -, -, -, -, -, -, -, e0, e1, -⟩ := idx_facts0 t
  show (cfg0.win 10).cut (grid0.coords t) ((dat0 V q c).after 10 t) = _
  rw [after0_10]
  funext j
  obtain ⟨r, cc, rfl⟩ : ∃ (r : Fin 512) (cc : Fin 128), j = ix2 r cc := ⟨j 0, j 1, eq_ix2 j⟩
  show (outsAt0 V c t.val t.isLt).1 (ix2 r cc) = G V c (((cfg0.win 10).blk t).view.emb (ix2 r cc))
  rw [out_eq V c t h3 r cc]
  refine congrArg (G V c) (funext fun a => Fin.ext ?_)
  match a with
  | ⟨0, _⟩ => show 512 * (t.val / 4) + r.val = win0_10.index t (0 : Fin 2) * 512 + 1 * r.val; rw [e0]; omega
  | ⟨1, _⟩ => show cc.val = win0_10.index t (1 : Fin 2) * 128 + 1 * cc.val; rw [e1]; omega

/-- An index of the output array is in point `t`'s block iff each coordinate is in the block's range. -/
theorem mem_blk10 (t : Fin cfg0.N) (i : S4096x128.Idx) :
    i ∈ ((cfg0.win 10).blk t).view.set
      ↔ ∀ a : Fin 2, win0_10.index t a * S512x128.size a ≤ (i a).val ∧ (i a).val < win0_10.index t a * S512x128.size a + S512x128.size a := by
  show i ∈ ((View.whole main_v9).slice (win0_10.rect t)).set ↔ _
  rw [View.set_slice_whole, Rect.mem_set_unit]
  exact Iff.rfl

/-- Row `n` of the output array is covered by the finishing point of row block `n / 512`. -/
theorem cover10 (i : S4096x128.Idx) : ∃ t : Fin cfg0.N, (cfg0.win 10).flush t = true ∧ i ∈ ((cfg0.win 10).blk t).view.set := by
  have hi0 : (i 0).val < 4096 := (i 0).isLt
  have hi1 : (i 1).val < 128 := (i 1).isLt
  have hN : cfg0.N = 32 := N_0
  obtain ⟨t, ht⟩ : ∃ t : Fin cfg0.N, t.val = 4 * ((i 0).val / 512) + 3 := ⟨⟨_, by rw [hN]; omega⟩, rfl⟩
  obtain ⟨-, -, -, -, -, -, -, -, e0, e1, -⟩ := idx_facts0 t
  refine ⟨t, (flush0_10 t).mpr (by rw [ht]; omega), ?_⟩
  rw [mem_blk10]
  intro a
  match a with
  | ⟨0, _⟩ =>
    show win0_10.index t (0 : Fin 2) * 512 ≤ (i 0).val ∧ (i 0).val < win0_10.index t (0 : Fin 2) * 512 + 512
    rw [e0, ht]; omega
  | ⟨1, _⟩ =>
    show win0_10.index t (1 : Fin 2) * 128 ≤ (i 1).val ∧ (i 1).val < win0_10.index t (1 : Fin 2) * 128 + 128
    rw [e1]; omega

/-- THE VALUE OF STEP 0: the output array ends holding the specification's step of the arrays the step finds. -/
theorem region0_value (c : Dev nD) (idx : S4096x128.Idx) :
    (dat0 (F := Ideal) V q c).arrAt 10 cfg0.N idx
      = Spec.stepRow (Spec.row (V c main_v3) (idx 0)) (Spec.msg (V c main_v3) (V c main_arg2) (V c main_v4) (idx 0)) (V c main_arg7)
          (fun k => V c main_v5 (ix2 (0 : Fin 1) k)) (V c main_arg9) (fun k => V c main_v6 (ix2 (0 : Fin 1) k))
          (fun k => V c main_v7 (ix2 (0 : Fin 1) k)) (fun k => V c main_v8 (ix2 (0 : Fin 1) k)) (idx 1) :=
  congrFun ((dat0 V q c).arrAt_eq_of_cover 10 (G V c) (flushed_eq V q c) cover10) idx

end Cert.KernelIdeal.Val

end
-- ==== Proof.KI.Val1Blk.lean ====
/-
  Step 1's windows read at an index: each window's block at a grid point is a part of the array the step finds, located
  by the point's row block and column block.
-/
import proofs.«172293_j20512763806108_2_alg».proof.Proof.KI.R1.Runs
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Val1

open Cert.KernelIdeal Cert.KernelIdeal.Gen Cert.KernelIdeal.Hand Idealize.ShloMosaic.ValueIdx

variable {F : FTy → Type} [FloatOps F]
variable (V : (c : Dev nD) → (b : Ref sig .tc) → Buf (Elt F) ((c : Thread nD τ).loc b))

/-! ## The windows' blocks as parts of their arrays

Grid point `t` is row block `t / 4` and column block `t % 4`. The index maps are decided once over the 32 points; a block's
entry sits in its array at block index × block size + the coordinate inside the block. -/

/-- The index maps over the grid, and the offset of the column block's rows inside the whole feature matrix. -/
theorem idx_facts1 : ∀ t : Fin cfg1.N,
    win1_0.index t (0 : Fin 2) = t.val / 4 ∧ win1_0.index t (1 : Fin 2) = 0
    ∧ win1_1.index t (0 : Fin 2) = 0 ∧ win1_1.index t (1 : Fin 2) = 0
    ∧ win1_2.index t (0 : Fin 2) = t.val / 4 ∧ win1_2.index t (1 : Fin 2) = t.val % 4
    ∧ win1_3.index t (0 : Fin 2) = t.val / 4 ∧ win1_3.index t (1 : Fin 2) = t.val % 4
    ∧ win1_10.index t (0 : Fin 2) = t.val / 4 ∧ win1_10.index t (1 : Fin 2) = 0
    ∧ k1_off1 (grid1.coords t) (0 : Fin 2) = 1024 * (t.val % 4) ∧ k1_off1 (grid1.coords t) (1 : Fin 2) = 0 :=
  (by decide +kernel : ∀ t : Fin grid1.N, _)

/-- The parameter windows never move. -/
theorem idx_params1 : ∀ t : Fin cfg1.N,
    win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0 :=
  (by decide +kernel : ∀ t : Fin grid1.N, _)

theorem point_lt (t : Fin cfg1.N) : t.val < 32 := N_1 ▸ t.isLt

/-- Row `r` of row block `t / 4` is a node. -/
theorem row_lt (t : Fin cfg1.N) (r : Fin 512) : 512 * (t.val / 4) + r.val < 4096 := by
  have := point_lt t; have := r.isLt; omega
/-- Column `s` of column block `t % 4` is a node. -/
theorem col_lt (t : Fin cfg1.N) (s : Fin 1024) : 1024 * (t.val % 4) + s.val < 4096 := by
  have := s.isLt; omega

/-- Window 0: row block `t / 4` of the features. -/
theorem iblk1_0_apply (c : Dev nD) (t : Fin cfg1.N) (r : Fin 512) (k : Fin 128) :
    (iblk1 V c 0 t : Vec F S512x128 .f32) (ix2 r k)
      = (V c main_v9 : S4096x128.Idx → Elt F .f32) (ix2 ⟨512 * (t.val / 4) + r.val, row_lt t r⟩ k) := by
  obtain ⟨e0, e1, -⟩ := idx_facts1 t
  unfold iblk1
  rw [View.read_apply]
  show V c main_v9 _ = V c main_v9 _
  refine congrArg (V c main_v9) (funext fun a => Fin.ext ?_)
  match a with
  | ⟨0, _⟩ => show win1_0.index t (0 : Fin 2) * 512 + 1 * r.val = 512 * (t.val / 4) + r.val; rw [e0]; omega
  | ⟨1, _⟩ => show win1_0.index t (1 : Fin 2) * 128 + 1 * k.val = k.val; rw [e1]; omega

/-- Window 1: the whole feature matrix. -/
theorem iblk1_1_apply (c : Dev nD) (t : Fin cfg1.N) (n : Fin 4096) (k : Fin 128) :
    (iblk1 V c 1 t : Vec F S4096x128 .f32) (ix2 n k) = (V c main_v9 : S4096x128.Idx → Elt F .f32) (ix2 n k) := by
  obtain ⟨-, -, e0, e1, -⟩ := idx_facts1 t
  unfold iblk1
  rw [View.read_apply]
  show V c main_v9 _ = V c main_v9 _
  refine congrArg (V c main_v9) (funext fun a => Fin.ext ?_)
  match a with
  | ⟨0, _⟩ => show win1_1.index t (0 : Fin 2) * 4096 + 1 * n.val = n.val; rw [e0]; omega
  | ⟨1, _⟩ => show win1_1.index t (1 : Fin 2) * 128 + 1 * k.val = k.val; rw [e1]; omega

/-- Window 2: tile `(t / 4, t % 4)` of the distances. -/
theorem iblk1_2_apply (c : Dev nD) (t : Fin cfg1.N) (r : Fin 512) (s : Fin 1024) :
    (iblk1 V c 2 t : Vec F S512x1024 .f32) (ix2 r s)
      = (V c main_arg2 : S4096x4096.Idx → Elt F .f32) (ix2 ⟨512 * (t.val / 4) + r.val, row_lt t r⟩ ⟨1024 * (t.val % 4) + s.val, col_lt t s⟩) := by
  obtain ⟨-, -, -, -, e0, e1, -⟩ := idx_facts1 t
  unfold iblk1
  rw [View.read_apply]
  show V c main_arg2 _ = V c main_arg2 _
  refine congrArg (V c main_arg2) (funext fun a => Fin.ext ?_)
  match a with
  | ⟨0, _⟩ => show win1_2.index t (0 : Fin 2) * 512 + 1 * r.val = 512 * (t.val / 4) + r.val; rw [e0]; omega
  | ⟨1, _⟩ => show win1_2.index t (1 : Fin 2) * 1024 + 1 * s.val = 1024 * (t.val % 4) + s.val; rw [e1]; omega

/-- Window 3: tile `(t / 4, t % 4)` of the adjacency. -/
theorem iblk1_3_apply (c : Dev nD) (t : Fin cfg1.N) (r : Fin 512) (s : Fin 1024) :
    (iblk1 V c 3 t : Vec F S512x1024 .bf16) (ix2 r s)
      = (V c main_v4 : S4096x4096.Idx → Elt F .bf16) (ix2 ⟨512 * (t.val / 4) + r.val, row_lt t r⟩ ⟨1024 * (t.val % 4) + s.val, col_lt t s⟩) := by
  obtain ⟨-, -, -, -, -, -, e0, e1, -⟩ := idx_facts1 t
  unfold iblk1
  rw [View.read_apply]
  show V c main_v4 _ = V c main_v4 _
  refine congrArg (V c main_v4) (funext fun a => Fin.ext ?_)
  match a with
  | ⟨0, _⟩ => show win1_3.index t (0 : Fin 2) * 512 + 1 * r.val = 512 * (t.val / 4) + r.val; rw [e0]; omega
  | ⟨1, _⟩ => show win1_3.index t (1 : Fin 2) * 1024 + 1 * s.val = 1024 * (t.val % 4) + s.val; rw [e1]; omega

/-! ## The column block's rows -/

/-- The 1024 rows of the column block, as the body loads them out of the whole feature matrix. -/
abbrev rows1 (i : grid1.Coords) (x1 : Vec F S4096x128 .f32) : Vec F S1024x128 .f32 :=
  View.ld x1 (Rect.unit (s := S4096x128) (k1_off1 i) S1024x128.size (k1_off1_inb i))

/-- They are rows `1024 (t % 4) …` of it. -/
theorem rows1_apply (t : Fin cfg1.N) (x1 : Vec F S4096x128 .f32) (s : Fin 1024) (k : Fin 128) :
    rows1 (grid1.coords t) x1 (ix2 s k) = x1 (ix2 ⟨1024 * (t.val % 4) + s.val, col_lt t s⟩ k) := by
  obtain ⟨-, -, -, -, -, -, -, -, -, -, e0, e1⟩ := idx_facts1 t
  show x1 ((Rect.unit (s := S4096x128) (k1_off1 (grid1.coords t)) S1024x128.size (k1_off1_inb (grid1.coords t))).emb (ix2 s k)) = _
  refine congrArg x1 (funext fun a => Fin.ext ?_)
  match a with
  | ⟨0, _⟩ => show k1_off1 (grid1.coords t) (0 : Fin 2) + 1 * s.val = 1024 * (t.val % 4) + s.val; rw [e0]; omega
  | ⟨1, _⟩ => show k1_off1 (grid1.coords t) (1 : Fin 2) + 1 * k.val = k.val; rw [e1]; omega

/-! ## The parameter windows -/

/-- Window 4: the whole of its parameter array. -/
theorem iblk1_4_eq (c : Dev nD) (t : Fin cfg1.N) :
    (iblk1 V c 4 t : Vec F S256x128 .f32) = (V c main_arg7 : S256x128.Idx → Elt F .f32) := by
  obtain ⟨e0, e1, -⟩ := idx_params1 t
  funext j
  unfold iblk1
  rw [View.read_apply]
  show V c main_arg7 _ = V c main_arg7 j
  refine congrArg (V c main_arg7) (funext fun a => Fin.ext ?_)
  match a with
  | ⟨0, _⟩ => show win1_4.index t (0 : Fin 2) * 256 + 1 * (j 0).val = (j 0).val; rw [e0]; omega
  | ⟨1, _⟩ => show win1_4.index t (1 : Fin 2) * 128 + 1 * (j 1).val = (j 1).val; rw [e1]; omega

/-- Window 5: the whole of its parameter array. -/
theorem iblk1_5_eq (c : Dev nD) (t : Fin cfg1.N) :
    (iblk1 V c 5 t : Vec F S1x128 .f32) = (V c main_v5 : S1x128.Idx → Elt F .f32) := by
  obtain ⟨-, -, e0, e1, -⟩ := idx_params1 t
  funext j
  unfold iblk1
  rw [View.read_apply]
  show V c main_v5 _ = V c main_v5 j
  refine congrArg (V c main_v5) (funext fun a => Fin.ext ?_)
  match a with
  | ⟨0, _⟩ => show win1_5.index t (0 : Fin 2) * 1 + 1 * (j 0).val = (j 0).val; rw [e0]; omega
  | ⟨1, _⟩ => show win1_5.index t (1 : Fin 2) * 128 + 1 * (j 1).val = (j 1).val; rw [e1]; omega

/-- Window 6: the whole of its parameter array. -/
theorem iblk1_6_eq (c : Dev nD) (t : Fin cfg1.N) :
    (iblk1 V c 6 t : Vec F S128x128 .f32) = (V c main_arg9 : S128x128.Idx → Elt F .f32) := by
  obtain ⟨-, -, -, -, e0, e1, -⟩ := idx_params1 t
  funext j
  unfold iblk1
  rw [View.read_apply]
  show V c main_arg9 _ = V c main_arg9 j
  refine congrArg (V c main_arg9) (funext fun a => Fin.ext ?_)
  match a with
  | ⟨0, _⟩ => show win1_6.index t (0 : Fin 2) * 128 + 1 * (j 0).val = (j 0).val; rw [e0]; omega
  | ⟨1, _⟩ => show win1_6.index t (1 : Fin 2) * 128 + 1 * (j 1).val = (j 1).val; rw [e1]; omega

/-- Window 7: the whole of its parameter array. -/
theorem iblk1_7_eq (c : Dev nD) (t : Fin cfg1.N) :
    (iblk1 V c 7 t : Vec F S1x128 .f32) = (V c main_v6 : S1x128.Idx → Elt F .f32) := by
  obtain ⟨-, -, -, -, -, -, e0, e1, -⟩ := idx_params1 t
  funext j
  unfold iblk1
  rw [View.read_apply]
  show V c main_v6 _ = V c main_v6 j
  refine congrArg (V c main_v6) (funext fun a => Fin.ext ?_)
  match a with
  | ⟨0, _⟩ => show win1_7.index t (0 : Fin 2) * 1 + 1 * (j 0).val = (j 0).val; rw [e0]; omega
  | ⟨1, _⟩ => show win1_7.index t (1 : Fin 2) * 128 + 1 * (j 1).val = (j 1).val; rw [e1]; omega

/-- Window 8: the whole of its parameter array. -/
theorem iblk1_8_eq (c : Dev nD) (t : Fin cfg1.N) :
    (iblk1 V c 8 t : Vec F S1x128 .f32) = (V c main_v7 : S1x128.Idx → Elt F .f32) := by
  obtain ⟨-, -, -, -, -, -, -, -, e0, e1, -⟩ := idx_params1 t
  funext j
  unfold iblk1
  rw [View.read_apply]
  show V c main_v7 _ = V c main_v7 j
  refine congrArg (V c main_v7) (funext fun a => Fin.ext ?_)
  match a with
  | ⟨0, _⟩ => show win1_8.index t (0 : Fin 2) * 1 + 1 * (j 0).val = (j 0).val; rw [e0]; omega
  | ⟨1, _⟩ => show win1_8.index t (1 : Fin 2) * 128 + 1 * (j 1).val = (j 1).val; rw [e1]; omega

/-- Window 9: the whole of its parameter array. -/
theorem iblk1_9_eq (c : Dev nD) (t : Fin cfg1.N) :
    (iblk1 V c 9 t : Vec F S1x128 .f32) = (V c main_v8 : S1x128.Idx → Elt F .f32) := by
  obtain ⟨-, -, -, -, -, -, -, -, -, -, e0, e1⟩ := idx_params1 t
  funext j
  unfold iblk1
  rw [View.read_apply]
  show V c main_v8 _ = V c main_v8 j
  refine congrArg (V c main_v8) (funext fun a => Fin.ext ?_)
  match a with
  | ⟨0, _⟩ => show win1_9.index t (0 : Fin 2) * 1 + 1 * (j 0).val = (j 0).val; rw [e0]; omega
  | ⟨1, _⟩ => show win1_9.index t (1 : Fin 2) * 128 + 1 * (j 1).val = (j 1).val; rw [e1]; omega

end Cert.KernelIdeal.Val1

end
-- ==== Proof.KI.Val1Pieces.lean ====
/-
  Step 1's body, case by case: what each control case leaves in the accumulator and in the output block, as the
  payloads of the blocks the point loaded, for any float values; and so what both hold after each grid point.
-/
import proofs.«172293_j20512763806108_2_alg».proof.Proof.KI.R1.Body
import proofs.«172293_j20512763806108_2_alg».proof.Proof.KI.Val1Blk
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Val1

open Cert.KernelIdeal Cert.KernelIdeal.Gen Cert.KernelIdeal.Hand Idealize.ShloMosaic.Tactic

variable {F : FTy → Type} [FloatOps F]

/-! ## What each case of the body leaves, as the payloads of the blocks it loaded

For any float values. The accumulator's one covering store holds the accumulation payload of the row block, the 1024
rows of the column block read out of the whole feature matrix, the distance and adjacency tiles, and what the
accumulator held (the reset block, in the first case); the finishing case's output store holds the normalisation payload
over the accumulator as that same case left it. -/

theorem hz : (![0, 0] : Fin 2 → Nat) = fun _ => 0 := funext fun a => by fin_cases a <;> rfl

/-- The accumulation payload of a point's blocks over the accumulator's contents `xs`. -/
abbrev accOf (i : grid1.Coords) (x0 : Vec F S512x128 .f32) (x1 : Vec F S4096x128 .f32) (x2 : Vec F S512x1024 .f32)
    (x3 : Vec F S512x1024 .bf16) (xs : Vec F S512x128 .f32) : Vec F S512x128 .f32 :=
  k1_pay1 (k1_pay11 (rows1 i x1)) (k1_pay12 x3) (k1_pay13 x0 (rows1 i x1) x2) xs

/-- The first column block: the accumulator is reset, then accumulated into. -/
theorem soutA_eq (c : Dev nD) (i : grid1.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : cond1_0 i) (hc1 : ¬cond1_1 i) (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) :
    sout1_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 = accOf i x0 x1 x2 x3 k1_pay9 := by
  unfold sout1_A_0
  rw [View.read_writes_eq_canon _ _ _ (scover1_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9)]
  unfold kernelRun1_A
  dsimp only
  sl_unfold_words
  rw [View.canon_cons_unit_zero (S := S512x128) hz, View.readCov_unit_zero (S := S512x128) _ hz]
  simp only [View.readAt_eq_ld, harg2.read_unread, harg3.read_unread, harg4.read_unread, harg5.read_unread, harg6.read_unread, harg7.read_unread, harg8.read_unread, harg9.read_unread, harg10.read_unread, harg11.read_unread, harg13.read_unread, View.ld_unit_zero (S := S512x128) hz, View.ld_unit_zero (S := S512x1024) hz, View.ld_unit_zero (S := S256x128) hz, View.ld_unit_zero (S := S128x128) hz, View.ld_unit_zero (S := S1x128) hz]
  rfl

/-- A middle column block: accumulated onto what the point before left. -/
theorem soutB_eq (c : Dev nD) (i : grid1.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond1_0 i) (hc1 : ¬cond1_1 i) (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) :
    sout1_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 = accOf i x0 x1 x2 x3 xs0 := by
  unfold sout1_B_0
  rw [View.read_writes_eq_canon _ _ _ (scover1_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0)]
  unfold kernelRun1_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg13.read_unread, View.ld_unit_zero (S := S512x128) hz, View.ld_unit_zero (S := S512x1024) hz, View.ld_unit_zero (S := S256x128) hz, View.ld_unit_zero (S := S128x128) hz, View.ld_unit_zero (S := S1x128) hz]
  rfl

/-- The last column block leaves the accumulator accumulated likewise … -/
theorem soutC_eq (c : Dev nD) (i : grid1.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond1_0 i) (hc1 : cond1_1 i) (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) :
    sout1_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 = accOf i x0 x1 x2 x3 xs0 := by
  unfold sout1_C_0
  rw [View.read_writes_eq_canon _ _ _ (scover1_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0)]
  unfold kernelRun1_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg13.read_unread, View.ld_unit_zero (S := S512x128) hz, View.ld_unit_zero (S := S512x1024) hz, View.ld_unit_zero (S := S256x128) hz, View.ld_unit_zero (S := S128x128) hz, View.ld_unit_zero (S := S1x128) hz]
  rfl

/-- … and stores, into the output block, the normalised update of the row block by that accumulator. -/
theorem outC_eq (c : Dev nD) (i : grid1.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond1_0 i) (hc1 : cond1_1 i) (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) :
    out1_C_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0
      = k1_pay2 (k1_pay5 (k1_pay10 x0) (accOf i x0 x1 x2 x3 xs0) x4 x5 x6 x7) (k1_pay6 x8) (k1_pay7 x9)
          (k1_pay8 (k1_pay10 x0) (accOf i x0 x1 x2 x3 xs0) x4 x5 x6 x7) (Scalar.ofBits .f32 0x3727C5AC#32) := by
  unfold out1_C_10
  rw [View.read_writes_eq_canon _ _ _ (cover1_C_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0)]
  unfold kernelRun1_C
  dsimp only
  sl_unfold_words
  rw [View.canon_unit_zero hz, View.readCov_unit_zero (S := S512x128) _ hz]
  simp only [View.readAt_eq_ld, harg2.read_unread, harg3.read_unread, harg4.read_unread, harg5.read_unread, harg6.read_unread, harg7.read_unread, harg8.read_unread, harg9.read_unread, harg10.read_unread, harg11.read_unread, harg13.read_unread, View.ld_unit_zero (S := S512x128) hz, View.ld_unit_zero (S := S512x1024) hz, View.ld_unit_zero (S := S256x128) hz, View.ld_unit_zero (S := S128x128) hz, View.ld_unit_zero (S := S1x128) hz]
  rfl

/-! ## The accumulator and the output block after a point, from the point's blocks -/

variable (V : (c : Dev nD) → (b : Ref sig .tc) → Buf (Elt F) ((c : Thread nD τ).loc b))

/-- The finishing payload of a point's blocks over the accumulator's contents `sc`. -/
abbrev finOf (x0 sc : Vec F S512x128 .f32) (x4 : Vec F S256x128 .f32) (x5 : Vec F S1x128 .f32) (x6 : Vec F S128x128 .f32)
    (x7 x8 x9 : Vec F S1x128 .f32) : Vec F S512x128 .f32 :=
  k1_pay2 (k1_pay5 (k1_pay10 x0) sc x4 x5 x6 x7) (k1_pay6 x8) (k1_pay7 x9) (k1_pay8 (k1_pay10 x0) sc x4 x5 x6 x7)
    (Scalar.ofBits .f32 0x3727C5AC#32)

/-- After a point of the first column block the accumulator holds the accumulation onto the reset block. -/
theorem scratch_A (c : Dev nD) (t : Fin cfg1.N) (h0 : t.val % 4 = 0) (h1 : ¬t.val % 4 = 3) :
    (outsAt1 V c t.val t.isLt).2
      = accOf (grid1.coords t) (iblk1 V c 0 t) (iblk1 V c 1 t) (iblk1 V c 2 t) (iblk1 V c 3 t) k1_pay9 :=
  (congrArg Prod.snd (outsAt1_A V c t h0 h1)).trans
    (soutA_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t))

/-- After a point of a middle column block: the accumulation onto what the point before left. -/
theorem scratch_B (c : Dev nD) (t : Fin cfg1.N) (h0 : ¬t.val % 4 = 0) (h1 : ¬t.val % 4 = 3) :
    (outsAt1 V c t.val t.isLt).2
      = accOf (grid1.coords t) (iblk1 V c 0 t) (iblk1 V c 1 t) (iblk1 V c 2 t) (iblk1 V c 3 t) (outsAt1 V c (t.val - 1) (Nat.lt_of_le_of_lt (Nat.sub_le _ _) t.isLt)).2 :=
  (congrArg Prod.snd (outsAt1_B V c t h0 h1)).trans
    (soutB_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2)

/-- After a point of the last column block: likewise. -/
theorem scratch_C (c : Dev nD) (t : Fin cfg1.N) (h0 : ¬t.val % 4 = 0) (h1 : t.val % 4 = 3) :
    (outsAt1 V c t.val t.isLt).2
      = accOf (grid1.coords t) (iblk1 V c 0 t) (iblk1 V c 1 t) (iblk1 V c 2 t) (iblk1 V c 3 t) (outsAt1 V c (t.val - 1) (Nat.lt_of_le_of_lt (Nat.sub_le _ _) t.isLt)).2 :=
  (congrArg Prod.snd (outsAt1_C V c t h0 h1)).trans
    (soutC_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2)

/-- And the output block then holds the finishing payload over that accumulator. -/
theorem out_C (c : Dev nD) (t : Fin cfg1.N) (h0 : ¬t.val % 4 = 0) (h1 : t.val % 4 = 3) :
    (outsAt1 V c t.val t.isLt).1
      = finOf (iblk1 V c 0 t) (outsAt1 V c t.val t.isLt).2 (iblk1 V c 4 t) (iblk1 V c 5 t) (iblk1 V c 6 t) (iblk1 V c 7 t)
          (iblk1 V c 8 t) (iblk1 V c 9 t) := by
  rw [scratch_C V c t h0 h1]
  exact (congrArg Prod.fst (outsAt1_C V c t h0 h1)).trans
    (outC_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2)

end Cert.KernelIdeal.Val1

end
-- ==== Proof.KI.Pay1.lean ====
/-
  The arithmetic of step 1's body at the ideal values, entry by entry: each pure value the body computes between its
  loads and stores, read at one index, is the specification's quantity of the same name — the potential tile, the
  accumulated message, the updated row, its mean and variance, the centred row, the normalised row — over the rows of
  the blocks the body loaded.
-/
import proofs.«172293_j20512763806108_2_alg».proof.Proof.KI.PayLib

noncomputable section

namespace Cert.KernelIdeal.Pay1

open Cert.KernelIdeal Cert.KernelIdeal.Gen Cert.KernelIdeal.Pay Cert.Spec Idealize.ShloMosaic Idealize.ShloMosaic.ValueIdx
open scoped BigOperators

/-! ## The potential tile -/

/-- The tile of potentials: at `(r, s)` the potential between row `r` of the block and row `s` of the other nodes. Every
    elementwise operation reads through at the index; the contraction is the rows' inner product; `0 - d` is `-d`. -/
theorem pay13 (v3 : Vec Ideal S512x128 .f32) (v8 : Vec Ideal S1024x128 .f32) (v13 : Vec Ideal S512x1024 .f32) (r : Fin 512) (s : Fin 1024) :
    k1_pay13 (F := Ideal) v3 v8 v13 (ix2 r s) = Spec.pot (fun k => v3 (ix2 r k)) (fun k => v8 (ix2 s k)) (v13 (ix2 r s)) := by
  have hm := mmA_apply none (truncf .bf16 v3 bitsLt_bf16_f32) (truncf .bf16 v8 bitsLt_bf16_f32) r s
  have hz : Ideal.ofBits .f32 0x00000000#32 - v13 (ix2 r s) = -(v13 (ix2 r s)) := by rw [Ideal.ofBits_zero_f32, zero_sub]
  unfold k1_pay13 k1_pay10 k1_pay11
  simp only [shapeCast_self]
  refine Eq.trans (b := Ideal.exp (Ideal.div (Ideal.ofBits .f32 0x00000000#32 - v13 (ix2 r s)) cScale)
      * max (∑ k : Fin 128, v3 (ix2 r k) * v8 (ix2 s k)) cZero + lj (v13 (ix2 r s))) ?_ ?_
  · exact congrArg (fun m => Ideal.exp (Ideal.div (Ideal.ofBits .f32 0x00000000#32 - v13 (ix2 r s)) cScale) * max m cZero + lj (v13 (ix2 r s))) hm
  · rw [hz]; rfl

/-! ## The accumulation -/

/-- The accumulator after one column block: what it held plus the masked potentials against the other nodes' features. -/
theorem pay1 (v9 : FVec Ideal S1024x128 .f32) (v16 v38 : FVec Ideal S512x1024 .f32) (v40 : Vec Ideal S512x128 .f32) (r : Fin 512) (c : Fin 128) :
    k1_pay1 (F := Ideal) v9 v16 v38 v40 (ix2 r c)
      = v40 (ix2 r c) + ∑ s : Fin 1024, (v38 (ix2 r s) * v16 (ix2 r s)) * v9 (ix2 s c) := by
  unfold k1_pay1
  simp only [shapeCast_self]
  exact congrArg (v40 (ix2 r c) + ·) (mmB_apply (some .fp32) (mulf v38 v16) v9 r c)

/-! ## The update before normalisation -/

/-- The updated row: the row plus the two-layer perceptron of the row and its message. Outermost operation first: the two
    sums, the second product over the hidden layer, the hidden layer's maximum with zero, the first product over the
    concatenation, and the two bias rows broadcast over the block. -/
theorem pay3 (v4 : FVec Ideal S512x128 .f32) (v49 : Vec Ideal S512x128 .f32) (v52 : Vec Ideal S256x128 .f32) (v54 : Vec Ideal S1x128 .f32)
    (v62 : Vec Ideal S128x128 .f32) (v64 : Vec Ideal S1x128 .f32) (r : Fin 512) (c : Fin 128) :
    k1_pay3 (F := Ideal) v4 v49 v52 v54 v62 v64 (ix2 r c)
      = Spec.upd (fun k => v4 (ix2 r k)) (fun k => v49 (ix2 r k)) v52 (fun k => v54 (ix2 (0 : Fin 1) k)) v62
          (fun k => v64 (ix2 (0 : Fin 1) k)) c := by
  unfold k1_pay3 Spec.upd Spec.hid
  simp only [shapeCast_self]
  refine (addf_apply _ _ (ix2 r c)).trans (congrArg (v4 (ix2 r c) + ·) ?_)
  refine (addf_apply _ _ (ix2 r c)).trans (congrArg₂ (· + ·) ?_ ?_)
  · refine (mmD_apply none _ _ r c).trans (Finset.sum_congr rfl fun k _ => congrArg (· * v62 (ix2 k c)) ?_)
    refine (truncf_apply (ψ := .bf16) _ bitsLt_bf16_f32 (ix2 r k)).trans ?_
    refine (maximumf_apply _ _ (ix2 r k)).trans (congrArg₂ max ?_ rfl)
    refine (addf_apply _ _ (ix2 r k)).trans (congrArg₂ (· + ·) ?_ ?_)
    · refine (mmC_apply none _ _ r k).trans (Finset.sum_congr rfl fun q _ => congrArg (· * v52 (ix2 q k)) ?_)
      exact cat_apply v4 v49 r q
    · exact broadcastTo_1b_ab_apply v54 _ r k
  · exact broadcastTo_1b_ab_apply v64 _ r c

/-! ## Mean, variance and the normalised row -/

/-- The mean of the updated row, kept as a column. -/
theorem pay4 (v4 : FVec Ideal S512x128 .f32) (v49 : Vec Ideal S512x128 .f32) (v52 : Vec Ideal S256x128 .f32) (v54 : Vec Ideal S1x128 .f32)
    (v62 : Vec Ideal S128x128 .f32) (v64 : Vec Ideal S1x128 .f32) (r : Fin 512) :
    k1_pay4 (F := Ideal) v4 v49 v52 v54 v62 v64 (ix2 r (0 : Fin 1))
      = Spec.mean (Spec.upd (fun k => v4 (ix2 r k)) (fun k => v49 (ix2 r k)) v52 (fun k => v54 (ix2 (0 : Fin 1) k)) v62
          (fun k => v64 (ix2 (0 : Fin 1) k))) := by
  unfold k1_pay4 Spec.mean
  refine (divf_apply _ _ (ix2 r (0 : Fin 1))).trans (congrArg₂ Ideal.div ?_ rfl)
  refine (Cert.Lib.shapeCast_a_a1_apply _ _ r (0 : Fin 1)).trans ?_
  exact (rowsum_apply _ _ _ r).trans (Finset.sum_congr rfl fun c _ => pay3 v4 v49 v52 v54 v62 v64 r c)

/-- The centred row: the updated row less its mean, the mean's column broadcast along the row. -/
theorem pay8 (v4 : FVec Ideal S512x128 .f32) (v49 : Vec Ideal S512x128 .f32) (v52 : Vec Ideal S256x128 .f32) (v54 : Vec Ideal S1x128 .f32)
    (v62 : Vec Ideal S128x128 .f32) (v64 : Vec Ideal S1x128 .f32) (r : Fin 512) (c : Fin 128) :
    k1_pay8 (F := Ideal) v4 v49 v52 v54 v62 v64 (ix2 r c)
      = Spec.upd (fun k => v4 (ix2 r k)) (fun k => v49 (ix2 r k)) v52 (fun k => v54 (ix2 (0 : Fin 1) k)) v62
          (fun k => v64 (ix2 (0 : Fin 1) k)) c
        - Spec.mean (Spec.upd (fun k => v4 (ix2 r k)) (fun k => v49 (ix2 r k)) v52 (fun k => v54 (ix2 (0 : Fin 1) k)) v62
          (fun k => v64 (ix2 (0 : Fin 1) k))) := by
  unfold k1_pay8
  refine (subf_apply _ _ (ix2 r c)).trans (congrArg₂ (· - ·) (pay3 v4 v49 v52 v54 v62 v64 r c) ?_)
  exact (Cert.Lib.broadcastTo_a1_ab_apply _ _ r c).trans (pay4 v4 v49 v52 v54 v62 v64 r)

/-- The variance of the updated row, kept as a column: the mean of the centred row's squares. -/
theorem pay5 (v4 : FVec Ideal S512x128 .f32) (v49 : Vec Ideal S512x128 .f32) (v52 : Vec Ideal S256x128 .f32) (v54 : Vec Ideal S1x128 .f32)
    (v62 : Vec Ideal S128x128 .f32) (v64 : Vec Ideal S1x128 .f32) (r : Fin 512) :
    k1_pay5 (F := Ideal) v4 v49 v52 v54 v62 v64 (ix2 r (0 : Fin 1))
      = Spec.var (Spec.upd (fun k => v4 (ix2 r k)) (fun k => v49 (ix2 r k)) v52 (fun k => v54 (ix2 (0 : Fin 1) k)) v62
          (fun k => v64 (ix2 (0 : Fin 1) k))) := by
  unfold k1_pay5 Spec.var
  refine (divf_apply _ _ (ix2 r (0 : Fin 1))).trans (congrArg₂ Ideal.div ?_ rfl)
  refine (Cert.Lib.shapeCast_a_a1_apply _ _ r (0 : Fin 1)).trans ?_
  refine (rowsum_apply _ _ _ r).trans (Finset.sum_congr rfl fun c _ => ?_)
  exact (mulf_apply _ _ (ix2 r c)).trans
    (congrArg₂ (· * ·) (pay8 v4 v49 v52 v54 v62 v64 r c) (pay8 v4 v49 v52 v54 v62 v64 r c))

/-- The normalisation of a centred block by a variance column, scaled and shifted by two rows. -/
theorem pay2 (v80 : FVec Ideal S512x1 .f32) (v82 v84 : FVec Ideal S1x128 .f32) (v86 : FVec Ideal S512x128 .f32) (cst : EReal)
    (r : Fin 512) (c : Fin 128) :
    k1_pay2 (F := Ideal) v80 v82 v84 v86 cst (ix2 r c)
      = v86 (ix2 r c) * Ideal.rsqrt (v80 (ix2 r (0 : Fin 1)) + cst) * v82 (ix2 (0 : Fin 1) c) + v84 (ix2 (0 : Fin 1) c) := by
  unfold k1_pay2
  refine (addf_apply _ _ (ix2 r c)).trans (congrArg₂ (· + ·) ?_ (broadcastTo_1b_ab_apply v84 _ r c))
  refine (mulf_apply _ _ (ix2 r c)).trans (congrArg₂ (· * ·) ?_ (broadcastTo_1b_ab_apply v82 _ r c))
  refine (mulf_apply _ _ (ix2 r c)).trans (congrArg (v86 (ix2 r c) * ·) ?_)
  exact Cert.Lib.broadcastTo_a1_ab_apply _ _ r c

/-! ## The casts of a shape to itself, and the zero block -/

theorem pay6 (v81 : Vec Ideal S1x128 .f32) : k1_pay6 (F := Ideal) v81 = v81 := shapeCast_self v81 _
theorem pay7 (v83 : Vec Ideal S1x128 .f32) : k1_pay7 (F := Ideal) v83 = v83 := shapeCast_self v83 _
theorem pay10 (v3 : Vec Ideal S512x128 .f32) : k1_pay10 (F := Ideal) v3 = v3 := shapeCast_self v3 _
theorem pay11 (v8 : Vec Ideal S1024x128 .f32) : k1_pay11 (F := Ideal) v8 = v8 := shapeCast_self v8 _
/-- The adjacency tile widened: at the ideal values a widening is the identity. -/
theorem pay12 (v14 : Vec Ideal S512x1024 .bf16) : k1_pay12 (F := Ideal) v14 = v14 := by
  unfold k1_pay12
  exact (funext fun i => extf_apply (ψ := .f32) _ bitsLt_bf16_f32 i).trans (shapeCast_self v14 _)
/-- The block the accumulator is reset to. -/
theorem pay9 : k1_pay9 (F := Ideal) = fun _ => Ideal.ofBits .f32 0x00000000#32 := by
  unfold k1_pay9
  exact shapeCast_self _ _

/-! ## The row the body stores -/

/-- The stored block at `(r, c)` is the specification's new row from the block's row, the accumulated message and the
    parameters. -/
theorem out_row (v4 : FVec Ideal S512x128 .f32) (v49 : Vec Ideal S512x128 .f32) (v52 : Vec Ideal S256x128 .f32) (v54 : Vec Ideal S1x128 .f32)
    (v62 : Vec Ideal S128x128 .f32) (v64 v81 v83 : Vec Ideal S1x128 .f32) (r : Fin 512) (c : Fin 128) :
    k1_pay2 (F := Ideal) (k1_pay5 v4 v49 v52 v54 v62 v64) (k1_pay6 v81) (k1_pay7 v83) (k1_pay8 v4 v49 v52 v54 v62 v64)
        (Scalar.ofBits .f32 0x3727C5AC#32) (ix2 r c)
      = Spec.stepRow (fun k => v4 (ix2 r k)) (fun k => v49 (ix2 r k)) v52 (fun k => v54 (ix2 (0 : Fin 1) k)) v62
          (fun k => v64 (ix2 (0 : Fin 1) k)) (fun k => v81 (ix2 (0 : Fin 1) k)) (fun k => v83 (ix2 (0 : Fin 1) k)) c := by
  refine (pay2 _ _ _ _ _ r c).trans ?_
  unfold Spec.stepRow Spec.norm
  exact congrArg₂ (· + ·)
    (congrArg₂ (· * ·)
      (congrArg₂ (· * ·) (pay8 v4 v49 v52 v54 v62 v64 r c)
        (congrArg (fun x => Ideal.rsqrt (x + cLnEps)) (pay5 v4 v49 v52 v54 v62 v64 r)))
      (congrFun (pay6 v81) _))
    (congrFun (pay7 v83) _)

end Cert.KernelIdeal.Pay1

end
-- ==== Proof.KI.Val1Math.lean ====
/-
  The mathematics of one row block of a message-passing step, over plain arrays: what one accumulation step adds, what
  the accumulator holds after the first j + 1 column blocks, that after the fourth it holds the whole message, and what
  the finishing step makes of it. Nothing here mentions the pipeline: the blocks are functions related to the whole
  arrays by their coordinates (row block ib of 512 rows, column block jb of 1024 columns).
-/
import proofs.«172293_j20512763806108_2_alg».proof.Proof.KI.Pay1
import proofs.«172293_j20512763806108_2_alg».proof.Proof.LibBlockSum

noncomputable section

namespace Cert.KernelIdeal.Val1

open Cert.KernelIdeal Cert.KernelIdeal.Gen Cert.KernelIdeal.Pay Cert.KernelIdeal.Pay1 Cert.Spec Idealize.ShloMosaic Idealize.ShloMosaic.ValueIdx
open scoped BigOperators

/-! ## The message as a sum of column blocks -/

/-- The term of node `n` in the message to node `i`, column `c`; zero past the last node, so that it is a function of
    a natural number. -/
def msgTerm (h : Mat 4096 128) (dist adj : Mat 4096 4096) (i : Fin 4096) (c : Fin 128) (n : ℕ) : EReal :=
  if hn : n < 4096 then (pot (row h i) (row h ⟨n, hn⟩) (dist (ix2 i ⟨n, hn⟩)) * adj (ix2 i ⟨n, hn⟩)) * h (ix2 ⟨n, hn⟩ c) else 0

/-- The terms of column block `jb`: nodes `1024 jb` to `1024 jb + 1023`. -/
def blockSum (h : Mat 4096 128) (dist adj : Mat 4096 4096) (i : Fin 4096) (c : Fin 128) (jb : ℕ) : EReal :=
  ∑ s : Fin 1024, msgTerm h dist adj i c (1024 * jb + s.val)

/-- The four column blocks together are the message. -/
theorem sum_blockSum (h : Mat 4096 128) (dist adj : Mat 4096 4096) (i : Fin 4096) (c : Fin 128) :
    ∑ jb ∈ Finset.range 4, blockSum h dist adj i c jb = msg h dist adj i c := by
  unfold msg
  refine Cert.Lib.sum_range_blocks_of_eq (nb := 4) (bs := 1024) (N := 4096) rfl
    (fun j : Fin 4096 => (pot (row h i) (row h j) (dist (ix2 i j)) * adj (ix2 i j)) * h (ix2 j c))
    (blockSum h dist adj i c) (fun t ht => ?_)
  unfold blockSum
  refine Finset.sum_congr rfl fun y _ => ?_
  unfold msgTerm
  have hlt : 1024 * t + y.val < 4096 := by have := y.isLt; omega
  rw [dif_pos hlt]

/-! ## One accumulation step -/

/-- One step of the accumulation, on the blocks the body loads: the accumulator gains, at `(r, c)`, the masked
    potentials between row `r` of the row block and the 1024 rows of the column block, against those rows' features. -/
theorem acc_step (x0 : Vec Ideal S512x128 .f32) (v8 : Vec Ideal S1024x128 .f32) (x2 : Vec Ideal S512x1024 .f32)
    (x3 : Vec Ideal S512x1024 .bf16) (xs : Vec Ideal S512x128 .f32) (r : Fin 512) (c : Fin 128) :
    k1_pay1 (F := Ideal) (k1_pay11 v8) (k1_pay12 x3) (k1_pay13 x0 v8 x2) xs (ix2 r c)
      = xs (ix2 r c) + ∑ s : Fin 1024,
          (pot (fun k => x0 (ix2 r k)) (fun k => v8 (ix2 s k)) (x2 (ix2 r s)) * x3 (ix2 r s)) * v8 (ix2 s c) := by
  refine (pay1 _ _ _ xs r c).trans (congrArg (xs (ix2 r c) + ·) (Finset.sum_congr rfl fun s _ => ?_))
  rw [pay13, pay12, pay11]

/-- The same step when the blocks are row block `ib` of the features, rows `1024 jb …` of the features, and tile
    `(ib, jb)` of the distances and of the adjacency: the gain is column block `jb` of the message to node
    `512 ib + r`. -/
theorem acc_step_global (h : Mat 4096 128) (dist adj : Mat 4096 4096) (ib jb : ℕ) (hib : ib < 8) (hjb : jb < 4)
    (x0 : Vec Ideal S512x128 .f32) (v8 : Vec Ideal S1024x128 .f32) (x2 : Vec Ideal S512x1024 .f32)
    (x3 : Vec Ideal S512x1024 .bf16) (xs : Vec Ideal S512x128 .f32)
    (hx0 : ∀ (r : Fin 512) (k : Fin 128), x0 (ix2 r k) = h (ix2 ⟨512 * ib + r.val, by have := r.isLt; omega⟩ k))
    (hv8 : ∀ (s : Fin 1024) (k : Fin 128), v8 (ix2 s k) = h (ix2 ⟨1024 * jb + s.val, by have := s.isLt; omega⟩ k))
    (hx2 : ∀ (r : Fin 512) (s : Fin 1024), x2 (ix2 r s)
      = dist (ix2 ⟨512 * ib + r.val, by have := r.isLt; omega⟩ ⟨1024 * jb + s.val, by have := s.isLt; omega⟩))
    (hx3 : ∀ (r : Fin 512) (s : Fin 1024), x3 (ix2 r s)
      = adj (ix2 ⟨512 * ib + r.val, by have := r.isLt; omega⟩ ⟨1024 * jb + s.val, by have := s.isLt; omega⟩))
    (r : Fin 512) (c : Fin 128) :
    k1_pay1 (F := Ideal) (k1_pay11 v8) (k1_pay12 x3) (k1_pay13 x0 v8 x2) xs (ix2 r c)
      = xs (ix2 r c) + blockSum h dist adj ⟨512 * ib + r.val, by have := r.isLt; omega⟩ c jb := by
  refine (acc_step x0 v8 x2 x3 xs r c).trans (congrArg (xs (ix2 r c) + ·) ?_)
  unfold blockSum
  refine Finset.sum_congr rfl fun s _ => ?_
  unfold msgTerm
  have hlt : 1024 * jb + s.val < 4096 := by have := s.isLt; omega
  rw [dif_pos hlt, hx2, hx3, hv8]
  refine congrArg (fun p => (p * _) * _) (congrArg₂ (fun a b => pot a b _) (funext fun k => hx0 r k) (funext fun k => hv8 s k))

/-- The reset block is zero, so the first step of a row block leaves its column block alone. -/
theorem reset_apply (r : Fin 512) (c : Fin 128) : k1_pay9 (F := Ideal) (ix2 r c) = 0 :=
  (congrFun pay9 (ix2 r c)).trans Ideal.ofBits_zero_f32

/-! ## The finishing step -/

/-- The block the finishing step stores, from the row block, the accumulator and the parameter blocks. -/
theorem out_step (x0 sc : Vec Ideal S512x128 .f32) (x4 : Vec Ideal S256x128 .f32) (x5 : Vec Ideal S1x128 .f32)
    (x6 : Vec Ideal S128x128 .f32) (x7 x8 x9 : Vec Ideal S1x128 .f32) (r : Fin 512) (c : Fin 128) :
    k1_pay2 (F := Ideal) (k1_pay5 (k1_pay10 x0) sc x4 x5 x6 x7) (k1_pay6 x8) (k1_pay7 x9) (k1_pay8 (k1_pay10 x0) sc x4 x5 x6 x7)
        (Scalar.ofBits .f32 0x3727C5AC#32) (ix2 r c)
      = stepRow (fun k => x0 (ix2 r k)) (fun k => sc (ix2 r k)) x4 (fun k => x5 (ix2 (0 : Fin 1) k)) x6
          (fun k => x7 (ix2 (0 : Fin 1) k)) (fun k => x8 (ix2 (0 : Fin 1) k)) (fun k => x9 (ix2 (0 : Fin 1) k)) c := by
  rw [pay10]
  exact out_row x0 sc x4 x5 x6 x7 x8 x9 r c

end Cert.KernelIdeal.Val1

end
-- ==== Proof.KI.Val1.lean ====
/-
  Step 1's value at the ideal instance: the array the step's output window ends holding is the specification's step of
  the arrays the step finds. Within a row block the accumulator holds, after column block j, the first j + 1 column
  blocks of each row's message (by induction on the grid point); after the fourth it holds the message, and the
  finishing case stores the specification's new rows; the eight finishing points' blocks tile the output array.
-/
import proofs.«172293_j20512763806108_2_alg».proof.Proof.KI.Val1Pieces
import proofs.«172293_j20512763806108_2_alg».proof.Proof.KI.Val1Math
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Val1

open Cert.KernelIdeal Cert.KernelIdeal.Gen Cert.KernelIdeal.Hand Cert.KernelIdeal.Pay Cert.KernelIdeal.Pay1 Cert.Spec Idealize.ShloMosaic.ValueIdx
open Idealize.SL Idealize.SL.RA
open scoped BigOperators

variable (V : (c : Dev nD) → (b : Ref sig .tc) → Buf (Elt Ideal) ((c : Thread nD τ).loc b)) (q : Fin 11 → PosShare TreeShare)

/-! ## The arrays the step finds -/

/-- The features, the distances and the adjacency as the step finds them, as matrices of extended reals. -/
abbrev feat (c : Dev nD) : Mat 4096 128 := V c main_v9
abbrev dists (c : Dev nD) : Mat 4096 4096 := V c main_arg2
abbrev adjs (c : Dev nD) : Mat 4096 4096 := V c main_v4

/-- The node that row `r` of point `t`'s row block is. -/
def rowOf (t : Fin cfg1.N) (r : Fin 512) : Fin 4096 := ⟨512 * (t.val / 4) + r.val, row_lt t r⟩

/-- The specification's new feature matrix from those arrays. -/
abbrev G (c : Dev nD) : S4096x128.Idx → EReal := fun idx =>
  stepRow (row (feat V c) (idx 0)) (msg (feat V c) (dists V c) (adjs V c) (idx 0)) (V c main_arg7)
    (fun k => V c main_v5 (ix2 (0 : Fin 1) k)) (V c main_arg9) (fun k => V c main_v6 (ix2 (0 : Fin 1) k))
    (fun k => V c main_v7 (ix2 (0 : Fin 1) k)) (fun k => V c main_v8 (ix2 (0 : Fin 1) k)) (idx 1)

/-! ## The accumulator after each point -/

/-- One accumulation at point `t`: the accumulator gains column block `t % 4` of the messages to the row block's nodes. -/
theorem accOf_apply (c : Dev nD) (t : Fin cfg1.N) (xs : Vec Ideal S512x128 .f32) (r : Fin 512) (cc : Fin 128) :
    accOf (grid1.coords t) (iblk1 V c 0 t) (iblk1 V c 1 t) (iblk1 V c 2 t) (iblk1 V c 3 t) xs (ix2 r cc)
      = xs (ix2 r cc) + blockSum (feat V c) (dists V c) (adjs V c) (rowOf t r) cc (t.val % 4) :=
  acc_step_global (feat V c) (dists V c) (adjs V c) (t.val / 4) (t.val % 4) (by have := point_lt t; omega)
    (Nat.mod_lt _ (by decide))
    (iblk1 V c 0 t) (rows1 (grid1.coords t) (iblk1 V c 1 t)) (iblk1 V c 2 t) (iblk1 V c 3 t) xs
    (fun r k => iblk1_0_apply V c t r k)
    (fun s k => (rows1_apply t (iblk1 V c 1 t) s k).trans (iblk1_1_apply V c t _ k))
    (fun r s => iblk1_2_apply V c t r s)
    (fun r s => iblk1_3_apply V c t r s)
    r cc

/-- After point `n` the accumulator holds the first `n % 4 + 1` column blocks of the messages to the nodes of row block
    `n / 4`. -/
theorem scratch_eq (c : Dev nD) : ∀ (n : ℕ) (hn : n < cfg1.N) (r : Fin 512) (cc : Fin 128),
    (outsAt1 V c n hn).2 (ix2 r cc)
      = ∑ jb ∈ Finset.range (n % 4 + 1), blockSum (feat V c) (dists V c) (adjs V c) (rowOf ⟨n, hn⟩ r) cc jb
  | 0, hn, r, cc => by
    refine (congrFun (scratch_A V c ⟨0, hn⟩ rfl (by show ¬(0 % 4 = 3); omega)) (ix2 r cc)).trans ?_
    refine (accOf_apply V c ⟨0, hn⟩ _ r cc).trans ?_
    rw [reset_apply, zero_add]
    exact (Finset.sum_range_one _).symm
  | n + 1, hn, r, cc => by
    by_cases h0 : (n + 1) % 4 = 0
    · have h1 : ¬(n + 1) % 4 = 3 := by omega
      refine (congrFun (scratch_A V c ⟨n + 1, hn⟩ h0 h1) (ix2 r cc)).trans ?_
      refine (accOf_apply V c ⟨n + 1, hn⟩ _ r cc).trans ?_
      rw [reset_apply, zero_add]
      show blockSum _ _ _ _ cc ((n + 1) % 4) = ∑ jb ∈ Finset.range ((n + 1) % 4 + 1), _
      rw [h0]
      exact (Finset.sum_range_one _).symm
    · have hstep : (outsAt1 V c (n + 1) hn).2
          = accOf (grid1.coords ⟨n + 1, hn⟩) (iblk1 V c 0 ⟨n + 1, hn⟩) (iblk1 V c 1 ⟨n + 1, hn⟩) (iblk1 V c 2 ⟨n + 1, hn⟩)
              (iblk1 V c 3 ⟨n + 1, hn⟩) (outsAt1 V c n (Nat.lt_of_succ_lt hn)).2 := by
        by_cases h1 : (n + 1) % 4 = 3
        · exact scratch_C V c ⟨n + 1, hn⟩ h0 h1
        · exact scratch_B V c ⟨n + 1, hn⟩ h0 h1
      have e2 : (n + 1) % 4 = n % 4 + 1 := by omega
      have er : rowOf ⟨n, Nat.lt_of_succ_lt hn⟩ r = rowOf ⟨n + 1, hn⟩ r := Fin.ext (by
        show 512 * (n / 4) + r.val = 512 * ((n + 1) / 4) + r.val
        have : (n + 1) / 4 = n / 4 := by omega
        rw [this])
      refine (congrFun hstep (ix2 r cc)).trans ?_
      refine (accOf_apply V c ⟨n + 1, hn⟩ _ r cc).trans ?_
      rw [scratch_eq c n (Nat.lt_of_succ_lt hn) r cc, er]
      show _ + blockSum _ _ _ _ cc ((n + 1) % 4) = ∑ jb ∈ Finset.range ((n + 1) % 4 + 1), _
      rw [e2, Finset.sum_range_succ _ (n % 4 + 1)]

/-! ## The output block at the finishing points -/

/-- At a finishing point the output block holds the specification's new rows of the row block's nodes. -/
theorem out_eq (c : Dev nD) (t : Fin cfg1.N) (h3 : t.val % 4 = 3) (r : Fin 512) (cc : Fin 128) :
    (outsAt1 V c t.val t.isLt).1 (ix2 r cc) = G V c (ix2 (rowOf t r) cc) := by
  have h0 : ¬t.val % 4 = 0 := by omega
  refine (congrFun (out_C V c t h0 h3) (ix2 r cc)).trans ?_
  refine (out_step (iblk1 V c 0 t) (outsAt1 V c t.val t.isLt).2 (iblk1 V c 4 t) (iblk1 V c 5 t) (iblk1 V c 6 t) (iblk1 V c 7 t)
    (iblk1 V c 8 t) (iblk1 V c 9 t) r cc).trans ?_
  have hrow : (fun k => (iblk1 V c 0 t : Vec Ideal S512x128 .f32) (ix2 r k)) = row (feat V c) (rowOf t r) :=
    funext fun k => iblk1_0_apply V c t r k
  have hmsg : (fun k => (outsAt1 V c t.val t.isLt).2 (ix2 r k)) = msg (feat V c) (dists V c) (adjs V c) (rowOf t r) :=
    funext fun k => by
      rw [scratch_eq V c t.val t.isLt r k, h3]
      exact sum_blockSum _ _ _ _ k
  rw [hrow, hmsg, iblk1_4_eq V c t, iblk1_5_eq V c t, iblk1_6_eq V c t, iblk1_7_eq V c t, iblk1_8_eq V c t, iblk1_9_eq V c t]

/-! ## From the blocks to the array -/

/-- What a finishing point writes back is its block of the specification's matrix. -/
theorem flushed_eq (c : Dev nD) (t : Fin cfg1.N) (hf : (cfg1.win 10).flush t = true) :
    (dat1 V q c).flushed 10 t = ((cfg1.win 10).blk t).view.read (Elt Ideal) (G V c) := by
  have h3 : t.val % 4 = 3 := (flush1_10 t).mp hf
  obtain ⟨-, -, -, -, -, -, -, -, e0, e1, -⟩ := idx_facts1 t
  show (cfg1.win 10).cut (grid1.coords t) ((dat1 V q c).after 10 t) = _
  rw [after1_10]
  funext j
  obtain ⟨r, cc, rfl⟩ : ∃ (r : Fin 512) (cc : Fin 128), j = ix2 r cc := ⟨j 0, j 1, eq_ix2 j⟩
  show (outsAt1 V c t.val t.isLt).1 (ix2 r cc) = G V c (((cfg1.win 10).blk t).view.emb (ix2 r cc))
  rw [out_eq V c t h3 r cc]
  refine congrArg (G V c) (funext fun a => Fin.ext ?_)
  match a with
  | ⟨0, _⟩ => show 512 * (t.val / 4) + r.val = win1_10.index t (0 : Fin 2) * 512 + 1 * r.val; rw [e0]; omega
  | ⟨1, _⟩ => show cc.val = win1_10.index t (1 : Fin 2) * 128 + 1 * cc.val; rw [e1]; omega

/-- An index of the output array is in point `t`'s block iff each coordinate is in the block's range. -/
theorem mem_blk10 (t : Fin cfg1.N) (i : S4096x128.Idx) :
    i ∈ ((cfg1.win 10).blk t).view.set
      ↔ ∀ a : Fin 2, win1_10.index t a * S512x128.size a ≤ (i a).val ∧ (i a).val < win1_10.index t a * S512x128.size a + S512x128.size a := by
  show i ∈ ((View.whole main_v10).slice (win1_10.rect t)).set ↔ _
  rw [View.set_slice_whole, Rect.mem_set_unit]
  exact Iff.rfl

/-- Row `n` of the output array is covered by the finishing point of row block `n / 512`. -/
theorem cover10 (i : S4096x128.Idx) : ∃ t : Fin cfg1.N, (cfg1.win 10).flush t = true ∧ i ∈ ((cfg1.win 10).blk t).view.set := by
  have hi0 : (i 0).val < 4096 := (i 0).isLt
  have hi1 : (i 1).val < 128 := (i 1).isLt
  have hN : cfg1.N = 32 := N_1
  obtain ⟨t, ht⟩ : ∃ t : Fin cfg1.N, t.val = 4 * ((i 0).val / 512) + 3 := ⟨⟨_, by rw [hN]; omega⟩, rfl⟩
  obtain ⟨-, -, -, -, -, -, -, -, e0, e1, -⟩ := idx_facts1 t
  refine ⟨t, (flush1_10 t).mpr (by rw [ht]; omega), ?_⟩
  rw [mem_blk10]
  intro a
  match a with
  | ⟨0, _⟩ =>
    show win1_10.index t (0 : Fin 2) * 512 ≤ (i 0).val ∧ (i 0).val < win1_10.index t (0 : Fin 2) * 512 + 512
    rw [e0, ht]; omega
  | ⟨1, _⟩ =>
    show win1_10.index t (1 : Fin 2) * 128 ≤ (i 1).val ∧ (i 1).val < win1_10.index t (1 : Fin 2) * 128 + 128
    rw [e1]; omega

/-- THE VALUE OF STEP 1: the output array ends holding the specification's step of the arrays the step finds. -/
theorem region1_value (c : Dev nD) (idx : S4096x128.Idx) :
    (dat1 (F := Ideal) V q c).arrAt 10 cfg1.N idx
      = Spec.stepRow (Spec.row (V c main_v9) (idx 0)) (Spec.msg (V c main_v9) (V c main_arg2) (V c main_v4) (idx 0)) (V c main_arg7)
          (fun k => V c main_v5 (ix2 (0 : Fin 1) k)) (V c main_arg9) (fun k => V c main_v6 (ix2 (0 : Fin 1) k))
          (fun k => V c main_v7 (ix2 (0 : Fin 1) k)) (fun k => V c main_v8 (ix2 (0 : Fin 1) k)) (idx 1) :=
  congrFun ((dat1 V q c).arrAt_eq_of_cover 10 (G V c) (flushed_eq V q c) cover10) idx

end Cert.KernelIdeal.Val1

end
-- ==== Proof.KI.Val2Blk.lean ====
/-
  Step 2's windows read at an index: each window's block at a grid point is a part of the array the step finds, located
  by the point's row block and column block.
-/
import proofs.«172293_j20512763806108_2_alg».proof.Proof.KI.R2.Runs
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Val2

open Cert.KernelIdeal Cert.KernelIdeal.Gen Cert.KernelIdeal.Hand Idealize.ShloMosaic.ValueIdx

variable {F : FTy → Type} [FloatOps F]
variable (V : (c : Dev nD) → (b : Ref sig .tc) → Buf (Elt F) ((c : Thread nD τ).loc b))

/-! ## The windows' blocks as parts of their arrays

Grid point `t` is row block `t / 4` and column block `t % 4`. The index maps are decided once over the 32 points; a block's
entry sits in its array at block index × block size + the coordinate inside the block. -/

/-- The index maps over the grid, and the offset of the column block's rows inside the whole feature matrix. -/
theorem idx_facts2 : ∀ t : Fin cfg2.N,
    win2_0.index t (0 : Fin 2) = t.val / 4 ∧ win2_0.index t (1 : Fin 2) = 0
    ∧ win2_1.index t (0 : Fin 2) = 0 ∧ win2_1.index t (1 : Fin 2) = 0
    ∧ win2_2.index t (0 : Fin 2) = t.val / 4 ∧ win2_2.index t (1 : Fin 2) = t.val % 4
    ∧ win2_3.index t (0 : Fin 2) = t.val / 4 ∧ win2_3.index t (1 : Fin 2) = t.val % 4
    ∧ win2_10.index t (0 : Fin 2) = t.val / 4 ∧ win2_10.index t (1 : Fin 2) = 0
    ∧ k2_off1 (grid2.coords t) (0 : Fin 2) = 1024 * (t.val % 4) ∧ k2_off1 (grid2.coords t) (1 : Fin 2) = 0 :=
  (by decide +kernel : ∀ t : Fin grid2.N, _)

/-- The parameter windows never move. -/
theorem idx_params2 : ∀ t : Fin cfg2.N,
    win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0 :=
  (by decide +kernel : ∀ t : Fin grid2.N, _)

theorem point_lt (t : Fin cfg2.N) : t.val < 32 := N_2 ▸ t.isLt

/-- Row `r` of row block `t / 4` is a node. -/
theorem row_lt (t : Fin cfg2.N) (r : Fin 512) : 512 * (t.val / 4) + r.val < 4096 := by
  have := point_lt t; have := r.isLt; omega
/-- Column `s` of column block `t % 4` is a node. -/
theorem col_lt (t : Fin cfg2.N) (s : Fin 1024) : 1024 * (t.val % 4) + s.val < 4096 := by
  have := s.isLt; omega

/-- Window 0: row block `t / 4` of the features. -/
theorem iblk2_0_apply (c : Dev nD) (t : Fin cfg2.N) (r : Fin 512) (k : Fin 128) :
    (iblk2 V c 0 t : Vec F S512x128 .f32) (ix2 r k)
      = (V c main_v10 : S4096x128.Idx → Elt F .f32) (ix2 ⟨512 * (t.val / 4) + r.val, row_lt t r⟩ k) := by
  obtain ⟨e0, e1, -⟩ := idx_facts2 t
  unfold iblk2
  rw [View.read_apply]
  show V c main_v10 _ = V c main_v10 _
  refine congrArg (V c main_v10) (funext fun a => Fin.ext ?_)
  match a with
  | ⟨0, _⟩ => show win2_0.index t (0 : Fin 2) * 512 + 1 * r.val = 512 * (t.val / 4) + r.val; rw [e0]; omega
  | ⟨1, _⟩ => show win2_0.index t (1 : Fin 2) * 128 + 1 * k.val = k.val; rw [e1]; omega

/-- Window 1: the whole feature matrix. -/
theorem iblk2_1_apply (c : Dev nD) (t : Fin cfg2.N) (n : Fin 4096) (k : Fin 128) :
    (iblk2 V c 1 t : Vec F S4096x128 .f32) (ix2 n k) = (V c main_v10 : S4096x128.Idx → Elt F .f32) (ix2 n k) := by
  obtain ⟨-, -, e0, e1, -⟩ := idx_facts2 t
  unfold iblk2
  rw [View.read_apply]
  show V c main_v10 _ = V c main_v10 _
  refine congrArg (V c main_v10) (funext fun a => Fin.ext ?_)
  match a with
  | ⟨0, _⟩ => show win2_1.index t (0 : Fin 2) * 4096 + 1 * n.val = n.val; rw [e0]; omega
  | ⟨1, _⟩ => show win2_1.index t (1 : Fin 2) * 128 + 1 * k.val = k.val; rw [e1]; omega

/-- Window 2: tile `(t / 4, t % 4)` of the distances. -/
theorem iblk2_2_apply (c : Dev nD) (t : Fin cfg2.N) (r : Fin 512) (s : Fin 1024) :
    (iblk2 V c 2 t : Vec F S512x1024 .f32) (ix2 r s)
      = (V c main_arg2 : S4096x4096.Idx → Elt F .f32) (ix2 ⟨512 * (t.val / 4) + r.val, row_lt t r⟩ ⟨1024 * (t.val % 4) + s.val, col_lt t s⟩) := by
  obtain ⟨-, -, -, -, e0, e1, -⟩ := idx_facts2 t
  unfold iblk2
  rw [View.read_apply]
  show V c main_arg2 _ = V c main_arg2 _
  refine congrArg (V c main_arg2) (funext fun a => Fin.ext ?_)
  match a with
  | ⟨0, _⟩ => show win2_2.index t (0 : Fin 2) * 512 + 1 * r.val = 512 * (t.val / 4) + r.val; rw [e0]; omega
  | ⟨1, _⟩ => show win2_2.index t (1 : Fin 2) * 1024 + 1 * s.val = 1024 * (t.val % 4) + s.val; rw [e1]; omega

/-- Window 3: tile `(t / 4, t % 4)` of the adjacency. -/
theorem iblk2_3_apply (c : Dev nD) (t : Fin cfg2.N) (r : Fin 512) (s : Fin 1024) :
    (iblk2 V c 3 t : Vec F S512x1024 .bf16) (ix2 r s)
      = (V c main_v4 : S4096x4096.Idx → Elt F .bf16) (ix2 ⟨512 * (t.val / 4) + r.val, row_lt t r⟩ ⟨1024 * (t.val % 4) + s.val, col_lt t s⟩) := by
  obtain ⟨-, -, -, -, -, -, e0, e1, -⟩ := idx_facts2 t
  unfold iblk2
  rw [View.read_apply]
  show V c main_v4 _ = V c main_v4 _
  refine congrArg (V c main_v4) (funext fun a => Fin.ext ?_)
  match a with
  | ⟨0, _⟩ => show win2_3.index t (0 : Fin 2) * 512 + 1 * r.val = 512 * (t.val / 4) + r.val; rw [e0]; omega
  | ⟨1, _⟩ => show win2_3.index t (1 : Fin 2) * 1024 + 1 * s.val = 1024 * (t.val % 4) + s.val; rw [e1]; omega

/-! ## The column block's rows -/

/-- The 1024 rows of the column block, as the body loads them out of the whole feature matrix. -/
abbrev rows1 (i : grid2.Coords) (x1 : Vec F S4096x128 .f32) : Vec F S1024x128 .f32 :=
  View.ld x1 (Rect.unit (s := S4096x128) (k2_off1 i) S1024x128.size (k2_off1_inb i))

/-- They are rows `1024 (t % 4) …` of it. -/
theorem rows1_apply (t : Fin cfg2.N) (x1 : Vec F S4096x128 .f32) (s : Fin 1024) (k : Fin 128) :
    rows1 (grid2.coords t) x1 (ix2 s k) = x1 (ix2 ⟨1024 * (t.val % 4) + s.val, col_lt t s⟩ k) := by
  obtain ⟨-, -, -, -, -, -, -, -, -, -, e0, e1⟩ := idx_facts2 t
  show x1 ((Rect.unit (s := S4096x128) (k2_off1 (grid2.coords t)) S1024x128.size (k2_off1_inb (grid2.coords t))).emb (ix2 s k)) = _
  refine congrArg x1 (funext fun a => Fin.ext ?_)
  match a with
  | ⟨0, _⟩ => show k2_off1 (grid2.coords t) (0 : Fin 2) + 1 * s.val = 1024 * (t.val % 4) + s.val; rw [e0]; omega
  | ⟨1, _⟩ => show k2_off1 (grid2.coords t) (1 : Fin 2) + 1 * k.val = k.val; rw [e1]; omega

/-! ## The parameter windows -/

/-- Window 4: the whole of its parameter array. -/
theorem iblk2_4_eq (c : Dev nD) (t : Fin cfg2.N) :
    (iblk2 V c 4 t : Vec F S256x128 .f32) = (V c main_arg7 : S256x128.Idx → Elt F .f32) := by
  obtain ⟨e0, e1, -⟩ := idx_params2 t
  funext j
  unfold iblk2
  rw [View.read_apply]
  show V c main_arg7 _ = V c main_arg7 j
  refine congrArg (V c main_arg7) (funext fun a => Fin.ext ?_)
  match a with
  | ⟨0, _⟩ => show win2_4.index t (0 : Fin 2) * 256 + 1 * (j 0).val = (j 0).val; rw [e0]; omega
  | ⟨1, _⟩ => show win2_4.index t (1 : Fin 2) * 128 + 1 * (j 1).val = (j 1).val; rw [e1]; omega

/-- Window 5: the whole of its parameter array. -/
theorem iblk2_5_eq (c : Dev nD) (t : Fin cfg2.N) :
    (iblk2 V c 5 t : Vec F S1x128 .f32) = (V c main_v5 : S1x128.Idx → Elt F .f32) := by
  obtain ⟨-, -, e0, e1, -⟩ := idx_params2 t
  funext j
  unfold iblk2
  rw [View.read_apply]
  show V c main_v5 _ = V c main_v5 j
  refine congrArg (V c main_v5) (funext fun a => Fin.ext ?_)
  match a with
  | ⟨0, _⟩ => show win2_5.index t (0 : Fin 2) * 1 + 1 * (j 0).val = (j 0).val; rw [e0]; omega
  | ⟨1, _⟩ => show win2_5.index t (1 : Fin 2) * 128 + 1 * (j 1).val = (j 1).val; rw [e1]; omega

/-- Window 6: the whole of its parameter array. -/
theorem iblk2_6_eq (c : Dev nD) (t : Fin cfg2.N) :
    (iblk2 V c 6 t : Vec F S128x128 .f32) = (V c main_arg9 : S128x128.Idx → Elt F .f32) := by
  obtain ⟨-, -, -, -, e0, e1, -⟩ := idx_params2 t
  funext j
  unfold iblk2
  rw [View.read_apply]
  show V c main_arg9 _ = V c main_arg9 j
  refine congrArg (V c main_arg9) (funext fun a => Fin.ext ?_)
  match a with
  | ⟨0, _⟩ => show win2_6.index t (0 : Fin 2) * 128 + 1 * (j 0).val = (j 0).val; rw [e0]; omega
  | ⟨1, _⟩ => show win2_6.index t (1 : Fin 2) * 128 + 1 * (j 1).val = (j 1).val; rw [e1]; omega

/-- Window 7: the whole of its parameter array. -/
theorem iblk2_7_eq (c : Dev nD) (t : Fin cfg2.N) :
    (iblk2 V c 7 t : Vec F S1x128 .f32) = (V c main_v6 : S1x128.Idx → Elt F .f32) := by
  obtain ⟨-, -, -, -, -, -, e0, e1, -⟩ := idx_params2 t
  funext j
  unfold iblk2
  rw [View.read_apply]
  show V c main_v6 _ = V c main_v6 j
  refine congrArg (V c main_v6) (funext fun a => Fin.ext ?_)
  match a with
  | ⟨0, _⟩ => show win2_7.index t (0 : Fin 2) * 1 + 1 * (j 0).val = (j 0).val; rw [e0]; omega
  | ⟨1, _⟩ => show win2_7.index t (1 : Fin 2) * 128 + 1 * (j 1).val = (j 1).val; rw [e1]; omega

/-- Window 8: the whole of its parameter array. -/
theorem iblk2_8_eq (c : Dev nD) (t : Fin cfg2.N) :
    (iblk2 V c 8 t : Vec F S1x128 .f32) = (V c main_v7 : S1x128.Idx → Elt F .f32) := by
  obtain ⟨-, -, -, -, -, -, -, -, e0, e1, -⟩ := idx_params2 t
  funext j
  unfold iblk2
  rw [View.read_apply]
  show V c main_v7 _ = V c main_v7 j
  refine congrArg (V c main_v7) (funext fun a => Fin.ext ?_)
  match a with
  | ⟨0, _⟩ => show win2_8.index t (0 : Fin 2) * 1 + 1 * (j 0).val = (j 0).val; rw [e0]; omega
  | ⟨1, _⟩ => show win2_8.index t (1 : Fin 2) * 128 + 1 * (j 1).val = (j 1).val; rw [e1]; omega

/-- Window 9: the whole of its parameter array. -/
theorem iblk2_9_eq (c : Dev nD) (t : Fin cfg2.N) :
    (iblk2 V c 9 t : Vec F S1x128 .f32) = (V c main_v8 : S1x128.Idx → Elt F .f32) := by
  obtain ⟨-, -, -, -, -, -, -, -, -, -, e0, e1⟩ := idx_params2 t
  funext j
  unfold iblk2
  rw [View.read_apply]
  show V c main_v8 _ = V c main_v8 j
  refine congrArg (V c main_v8) (funext fun a => Fin.ext ?_)
  match a with
  | ⟨0, _⟩ => show win2_9.index t (0 : Fin 2) * 1 + 1 * (j 0).val = (j 0).val; rw [e0]; omega
  | ⟨1, _⟩ => show win2_9.index t (1 : Fin 2) * 128 + 1 * (j 1).val = (j 1).val; rw [e1]; omega

end Cert.KernelIdeal.Val2

end
-- ==== Proof.KI.Val2Pieces.lean ====
/-
  Step 2's body, case by case: what each control case leaves in the accumulator and in the output block, as the
  payloads of the blocks the point loaded, for any float values; and so what both hold after each grid point.
-/
import proofs.«172293_j20512763806108_2_alg».proof.Proof.KI.R2.Body
import proofs.«172293_j20512763806108_2_alg».proof.Proof.KI.Val2Blk
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Val2

open Cert.KernelIdeal Cert.KernelIdeal.Gen Cert.KernelIdeal.Hand Idealize.ShloMosaic.Tactic

variable {F : FTy → Type} [FloatOps F]

/-! ## What each case of the body leaves, as the payloads of the blocks it loaded

For any float values. The accumulator's one covering store holds the accumulation payload of the row block, the 1024
rows of the column block read out of the whole feature matrix, the distance and adjacency tiles, and what the
accumulator held (the reset block, in the first case); the finishing case's output store holds the normalisation payload
over the accumulator as that same case left it. -/

theorem hz : (![0, 0] : Fin 2 → Nat) = fun _ => 0 := funext fun a => by fin_cases a <;> rfl

/-- The accumulation payload of a point's blocks over the accumulator's contents `xs`. -/
abbrev accOf (i : grid2.Coords) (x0 : Vec F S512x128 .f32) (x1 : Vec F S4096x128 .f32) (x2 : Vec F S512x1024 .f32)
    (x3 : Vec F S512x1024 .bf16) (xs : Vec F S512x128 .f32) : Vec F S512x128 .f32 :=
  k2_pay1 (k2_pay11 (rows1 i x1)) (k2_pay12 x3) (k2_pay13 x0 (rows1 i x1) x2) xs

/-- The first column block: the accumulator is reset, then accumulated into. -/
theorem soutA_eq (c : Dev nD) (i : grid2.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : cond2_0 i) (hc1 : ¬cond2_1 i) (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) :
    sout2_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 = accOf i x0 x1 x2 x3 k2_pay9 := by
  unfold sout2_A_0
  rw [View.read_writes_eq_canon _ _ _ (scover2_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9)]
  unfold kernelRun2_A
  dsimp only
  sl_unfold_words
  rw [View.canon_cons_unit_zero (S := S512x128) hz, View.readCov_unit_zero (S := S512x128) _ hz]
  simp only [View.readAt_eq_ld, harg2.read_unread, harg3.read_unread, harg4.read_unread, harg5.read_unread, harg6.read_unread, harg7.read_unread, harg8.read_unread, harg9.read_unread, harg10.read_unread, harg11.read_unread, harg13.read_unread, View.ld_unit_zero (S := S512x128) hz, View.ld_unit_zero (S := S512x1024) hz, View.ld_unit_zero (S := S256x128) hz, View.ld_unit_zero (S := S128x128) hz, View.ld_unit_zero (S := S1x128) hz]
  rfl

/-- A middle column block: accumulated onto what the point before left. -/
theorem soutB_eq (c : Dev nD) (i : grid2.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond2_0 i) (hc1 : ¬cond2_1 i) (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) :
    sout2_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 = accOf i x0 x1 x2 x3 xs0 := by
  unfold sout2_B_0
  rw [View.read_writes_eq_canon _ _ _ (scover2_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0)]
  unfold kernelRun2_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg13.read_unread, View.ld_unit_zero (S := S512x128) hz, View.ld_unit_zero (S := S512x1024) hz, View.ld_unit_zero (S := S256x128) hz, View.ld_unit_zero (S := S128x128) hz, View.ld_unit_zero (S := S1x128) hz]
  rfl

/-- The last column block leaves the accumulator accumulated likewise … -/
theorem soutC_eq (c : Dev nD) (i : grid2.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond2_0 i) (hc1 : cond2_1 i) (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) :
    sout2_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 = accOf i x0 x1 x2 x3 xs0 := by
  unfold sout2_C_0
  rw [View.read_writes_eq_canon _ _ _ (scover2_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0)]
  unfold kernelRun2_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg13.read_unread, View.ld_unit_zero (S := S512x128) hz, View.ld_unit_zero (S := S512x1024) hz, View.ld_unit_zero (S := S256x128) hz, View.ld_unit_zero (S := S128x128) hz, View.ld_unit_zero (S := S1x128) hz]
  rfl

/-- … and stores, into the output block, the normalised update of the row block by that accumulator. -/
theorem outC_eq (c : Dev nD) (i : grid2.Coords) (arg2 : Memref sig .tc .vmem S512x128 .f32) (harg2 : arg2.IsWhole) (arg3 : Memref sig .tc .vmem S4096x128 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (hc0 : ¬cond2_0 i) (hc1 : cond2_1 i) (x0 : Vec F S512x128 .f32) (x1 : Vec F S4096x128 .f32) (x2 : Vec F S512x1024 .f32) (x3 : Vec F S512x1024 .bf16) (x4 : Vec F S256x128 .f32) (x5 : Vec F S1x128 .f32) (x6 : Vec F S128x128 .f32) (x7 : Vec F S1x128 .f32) (x8 : Vec F S1x128 .f32) (x9 : Vec F S1x128 .f32) (xs0 : Vec F S512x128 .f32) :
    out2_C_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0
      = k2_pay2 (k2_pay5 (k2_pay10 x0) (accOf i x0 x1 x2 x3 xs0) x4 x5 x6 x7) (k2_pay6 x8) (k2_pay7 x9)
          (k2_pay8 (k2_pay10 x0) (accOf i x0 x1 x2 x3 xs0) x4 x5 x6 x7) (Scalar.ofBits .f32 0x3727C5AC#32) := by
  unfold out2_C_10
  rw [View.read_writes_eq_canon _ _ _ (cover2_C_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0)]
  unfold kernelRun2_C
  dsimp only
  sl_unfold_words
  rw [View.canon_unit_zero hz, View.readCov_unit_zero (S := S512x128) _ hz]
  simp only [View.readAt_eq_ld, harg2.read_unread, harg3.read_unread, harg4.read_unread, harg5.read_unread, harg6.read_unread, harg7.read_unread, harg8.read_unread, harg9.read_unread, harg10.read_unread, harg11.read_unread, harg13.read_unread, View.ld_unit_zero (S := S512x128) hz, View.ld_unit_zero (S := S512x1024) hz, View.ld_unit_zero (S := S256x128) hz, View.ld_unit_zero (S := S128x128) hz, View.ld_unit_zero (S := S1x128) hz]
  rfl

/-! ## The accumulator and the output block after a point, from the point's blocks -/

variable (V : (c : Dev nD) → (b : Ref sig .tc) → Buf (Elt F) ((c : Thread nD τ).loc b))

/-- The finishing payload of a point's blocks over the accumulator's contents `sc`. -/
abbrev finOf (x0 sc : Vec F S512x128 .f32) (x4 : Vec F S256x128 .f32) (x5 : Vec F S1x128 .f32) (x6 : Vec F S128x128 .f32)
    (x7 x8 x9 : Vec F S1x128 .f32) : Vec F S512x128 .f32 :=
  k2_pay2 (k2_pay5 (k2_pay10 x0) sc x4 x5 x6 x7) (k2_pay6 x8) (k2_pay7 x9) (k2_pay8 (k2_pay10 x0) sc x4 x5 x6 x7)
    (Scalar.ofBits .f32 0x3727C5AC#32)

/-- After a point of the first column block the accumulator holds the accumulation onto the reset block. -/
theorem scratch_A (c : Dev nD) (t : Fin cfg2.N) (h0 : t.val % 4 = 0) (h1 : ¬t.val % 4 = 3) :
    (outsAt2 V c t.val t.isLt).2
      = accOf (grid2.coords t) (iblk2 V c 0 t) (iblk2 V c 1 t) (iblk2 V c 2 t) (iblk2 V c 3 t) k2_pay9 :=
  (congrArg Prod.snd (outsAt2_A V c t h0 h1)).trans
    (soutA_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t))

/-- After a point of a middle column block: the accumulation onto what the point before left. -/
theorem scratch_B (c : Dev nD) (t : Fin cfg2.N) (h0 : ¬t.val % 4 = 0) (h1 : ¬t.val % 4 = 3) :
    (outsAt2 V c t.val t.isLt).2
      = accOf (grid2.coords t) (iblk2 V c 0 t) (iblk2 V c 1 t) (iblk2 V c 2 t) (iblk2 V c 3 t) (outsAt2 V c (t.val - 1) (Nat.lt_of_le_of_lt (Nat.sub_le _ _) t.isLt)).2 :=
  (congrArg Prod.snd (outsAt2_B V c t h0 h1)).trans
    (soutB_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (outsAt2 V c (t.val - 1) (Nat.lt_of_le_of_lt (Nat.sub_le _ _) t.isLt)).2)

/-- After a point of the last column block: likewise. -/
theorem scratch_C (c : Dev nD) (t : Fin cfg2.N) (h0 : ¬t.val % 4 = 0) (h1 : t.val % 4 = 3) :
    (outsAt2 V c t.val t.isLt).2
      = accOf (grid2.coords t) (iblk2 V c 0 t) (iblk2 V c 1 t) (iblk2 V c 2 t) (iblk2 V c 3 t) (outsAt2 V c (t.val - 1) (Nat.lt_of_le_of_lt (Nat.sub_le _ _) t.isLt)).2 :=
  (congrArg Prod.snd (outsAt2_C V c t h0 h1)).trans
    (soutC_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (outsAt2 V c (t.val - 1) (Nat.lt_of_le_of_lt (Nat.sub_le _ _) t.isLt)).2)

/-- And the output block then holds the finishing payload over that accumulator. -/
theorem out_C (c : Dev nD) (t : Fin cfg2.N) (h0 : ¬t.val % 4 = 0) (h1 : t.val % 4 = 3) :
    (outsAt2 V c t.val t.isLt).1
      = finOf (iblk2 V c 0 t) (outsAt2 V c t.val t.isLt).2 (iblk2 V c 4 t) (iblk2 V c 5 t) (iblk2 V c 6 t) (iblk2 V c 7 t)
          (iblk2 V c 8 t) (iblk2 V c 9 t) := by
  rw [scratch_C V c t h0 h1]
  exact (congrArg Prod.fst (outsAt2_C V c t h0 h1)).trans
    (outC_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (outsAt2 V c (t.val - 1) (Nat.lt_of_le_of_lt (Nat.sub_le _ _) t.isLt)).2)

end Cert.KernelIdeal.Val2

end
-- ==== Proof.KI.Pay2.lean ====
/-
  The arithmetic of step 2's body at the ideal values, entry by entry: each pure value the body computes between its
  loads and stores, read at one index, is the specification's quantity of the same name — the potential tile, the
  accumulated message, the updated row, its mean and variance, the centred row, the normalised row — over the rows of
  the blocks the body loaded.
-/
import proofs.«172293_j20512763806108_2_alg».proof.Proof.KI.PayLib

noncomputable section

namespace Cert.KernelIdeal.Pay2

open Cert.KernelIdeal Cert.KernelIdeal.Gen Cert.KernelIdeal.Pay Cert.Spec Idealize.ShloMosaic Idealize.ShloMosaic.ValueIdx
open scoped BigOperators

/-! ## The potential tile -/

/-- The tile of potentials: at `(r, s)` the potential between row `r` of the block and row `s` of the other nodes. Every
    elementwise operation reads through at the index; the contraction is the rows' inner product; `0 - d` is `-d`. -/
theorem pay13 (v3 : Vec Ideal S512x128 .f32) (v8 : Vec Ideal S1024x128 .f32) (v13 : Vec Ideal S512x1024 .f32) (r : Fin 512) (s : Fin 1024) :
    k2_pay13 (F := Ideal) v3 v8 v13 (ix2 r s) = Spec.pot (fun k => v3 (ix2 r k)) (fun k => v8 (ix2 s k)) (v13 (ix2 r s)) := by
  have hm := mmA_apply none (truncf .bf16 v3 bitsLt_bf16_f32) (truncf .bf16 v8 bitsLt_bf16_f32) r s
  have hz : Ideal.ofBits .f32 0x00000000#32 - v13 (ix2 r s) = -(v13 (ix2 r s)) := by rw [Ideal.ofBits_zero_f32, zero_sub]
  unfold k2_pay13 k2_pay10 k2_pay11
  simp only [shapeCast_self]
  refine Eq.trans (b := Ideal.exp (Ideal.div (Ideal.ofBits .f32 0x00000000#32 - v13 (ix2 r s)) cScale)
      * max (∑ k : Fin 128, v3 (ix2 r k) * v8 (ix2 s k)) cZero + lj (v13 (ix2 r s))) ?_ ?_
  · exact congrArg (fun m => Ideal.exp (Ideal.div (Ideal.ofBits .f32 0x00000000#32 - v13 (ix2 r s)) cScale) * max m cZero + lj (v13 (ix2 r s))) hm
  · rw [hz]; rfl

/-! ## The accumulation -/

/-- The accumulator after one column block: what it held plus the masked potentials against the other nodes' features. -/
theorem pay1 (v9 : FVec Ideal S1024x128 .f32) (v16 v38 : FVec Ideal S512x1024 .f32) (v40 : Vec Ideal S512x128 .f32) (r : Fin 512) (c : Fin 128) :
    k2_pay1 (F := Ideal) v9 v16 v38 v40 (ix2 r c)
      = v40 (ix2 r c) + ∑ s : Fin 1024, (v38 (ix2 r s) * v16 (ix2 r s)) * v9 (ix2 s c) := by
  unfold k2_pay1
  simp only [shapeCast_self]
  exact congrArg (v40 (ix2 r c) + ·) (mmB_apply (some .fp32) (mulf v38 v16) v9 r c)

/-! ## The update before normalisation -/

/-- The updated row: the row plus the two-layer perceptron of the row and its message. Outermost operation first: the two
    sums, the second product over the hidden layer, the hidden layer's maximum with zero, the first product over the
    concatenation, and the two bias rows broadcast over the block. -/
theorem pay3 (v4 : FVec Ideal S512x128 .f32) (v49 : Vec Ideal S512x128 .f32) (v52 : Vec Ideal S256x128 .f32) (v54 : Vec Ideal S1x128 .f32)
    (v62 : Vec Ideal S128x128 .f32) (v64 : Vec Ideal S1x128 .f32) (r : Fin 512) (c : Fin 128) :
    k2_pay3 (F := Ideal) v4 v49 v52 v54 v62 v64 (ix2 r c)
      = Spec.upd (fun k => v4 (ix2 r k)) (fun k => v49 (ix2 r k)) v52 (fun k => v54 (ix2 (0 : Fin 1) k)) v62
          (fun k => v64 (ix2 (0 : Fin 1) k)) c := by
  unfold k2_pay3 Spec.upd Spec.hid
  simp only [shapeCast_self]
  refine (addf_apply _ _ (ix2 r c)).trans (congrArg (v4 (ix2 r c) + ·) ?_)
  refine (addf_apply _ _ (ix2 r c)).trans (congrArg₂ (· + ·) ?_ ?_)
  · refine (mmD_apply none _ _ r c).trans (Finset.sum_congr rfl fun k _ => congrArg (· * v62 (ix2 k c)) ?_)
    refine (truncf_apply (ψ := .bf16) _ bitsLt_bf16_f32 (ix2 r k)).trans ?_
    refine (maximumf_apply _ _ (ix2 r k)).trans (congrArg₂ max ?_ rfl)
    refine (addf_apply _ _ (ix2 r k)).trans (congrArg₂ (· + ·) ?_ ?_)
    · refine (mmC_apply none _ _ r k).trans (Finset.sum_congr rfl fun q _ => congrArg (· * v52 (ix2 q k)) ?_)
      exact cat_apply v4 v49 r q
    · exact broadcastTo_1b_ab_apply v54 _ r k
  · exact broadcastTo_1b_ab_apply v64 _ r c

/-! ## Mean, variance and the normalised row -/

/-- The mean of the updated row, kept as a column. -/
theorem pay4 (v4 : FVec Ideal S512x128 .f32) (v49 : Vec Ideal S512x128 .f32) (v52 : Vec Ideal S256x128 .f32) (v54 : Vec Ideal S1x128 .f32)
    (v62 : Vec Ideal S128x128 .f32) (v64 : Vec Ideal S1x128 .f32) (r : Fin 512) :
    k2_pay4 (F := Ideal) v4 v49 v52 v54 v62 v64 (ix2 r (0 : Fin 1))
      = Spec.mean (Spec.upd (fun k => v4 (ix2 r k)) (fun k => v49 (ix2 r k)) v52 (fun k => v54 (ix2 (0 : Fin 1) k)) v62
          (fun k => v64 (ix2 (0 : Fin 1) k))) := by
  unfold k2_pay4 Spec.mean
  refine (divf_apply _ _ (ix2 r (0 : Fin 1))).trans (congrArg₂ Ideal.div ?_ rfl)
  refine (Cert.Lib.shapeCast_a_a1_apply _ _ r (0 : Fin 1)).trans ?_
  exact (rowsum_apply _ _ _ r).trans (Finset.sum_congr rfl fun c _ => pay3 v4 v49 v52 v54 v62 v64 r c)

/-- The centred row: the updated row less its mean, the mean's column broadcast along the row. -/
theorem pay8 (v4 : FVec Ideal S512x128 .f32) (v49 : Vec Ideal S512x128 .f32) (v52 : Vec Ideal S256x128 .f32) (v54 : Vec Ideal S1x128 .f32)
    (v62 : Vec Ideal S128x128 .f32) (v64 : Vec Ideal S1x128 .f32) (r : Fin 512) (c : Fin 128) :
    k2_pay8 (F := Ideal) v4 v49 v52 v54 v62 v64 (ix2 r c)
      = Spec.upd (fun k => v4 (ix2 r k)) (fun k => v49 (ix2 r k)) v52 (fun k => v54 (ix2 (0 : Fin 1) k)) v62
          (fun k => v64 (ix2 (0 : Fin 1) k)) c
        - Spec.mean (Spec.upd (fun k => v4 (ix2 r k)) (fun k => v49 (ix2 r k)) v52 (fun k => v54 (ix2 (0 : Fin 1) k)) v62
          (fun k => v64 (ix2 (0 : Fin 1) k))) := by
  unfold k2_pay8
  refine (subf_apply _ _ (ix2 r c)).trans (congrArg₂ (· - ·) (pay3 v4 v49 v52 v54 v62 v64 r c) ?_)
  exact (Cert.Lib.broadcastTo_a1_ab_apply _ _ r c).trans (pay4 v4 v49 v52 v54 v62 v64 r)

/-- The variance of the updated row, kept as a column: the mean of the centred row's squares. -/
theorem pay5 (v4 : FVec Ideal S512x128 .f32) (v49 : Vec Ideal S512x128 .f32) (v52 : Vec Ideal S256x128 .f32) (v54 : Vec Ideal S1x128 .f32)
    (v62 : Vec Ideal S128x128 .f32) (v64 : Vec Ideal S1x128 .f32) (r : Fin 512) :
    k2_pay5 (F := Ideal) v4 v49 v52 v54 v62 v64 (ix2 r (0 : Fin 1))
      = Spec.var (Spec.upd (fun k => v4 (ix2 r k)) (fun k => v49 (ix2 r k)) v52 (fun k => v54 (ix2 (0 : Fin 1) k)) v62
          (fun k => v64 (ix2 (0 : Fin 1) k))) := by
  unfold k2_pay5 Spec.var
  refine (divf_apply _ _ (ix2 r (0 : Fin 1))).trans (congrArg₂ Ideal.div ?_ rfl)
  refine (Cert.Lib.shapeCast_a_a1_apply _ _ r (0 : Fin 1)).trans ?_
  refine (rowsum_apply _ _ _ r).trans (Finset.sum_congr rfl fun c _ => ?_)
  exact (mulf_apply _ _ (ix2 r c)).trans
    (congrArg₂ (· * ·) (pay8 v4 v49 v52 v54 v62 v64 r c) (pay8 v4 v49 v52 v54 v62 v64 r c))

/-- The normalisation of a centred block by a variance column, scaled and shifted by two rows. -/
theorem pay2 (v80 : FVec Ideal S512x1 .f32) (v82 v84 : FVec Ideal S1x128 .f32) (v86 : FVec Ideal S512x128 .f32) (cst : EReal)
    (r : Fin 512) (c : Fin 128) :
    k2_pay2 (F := Ideal) v80 v82 v84 v86 cst (ix2 r c)
      = v86 (ix2 r c) * Ideal.rsqrt (v80 (ix2 r (0 : Fin 1)) + cst) * v82 (ix2 (0 : Fin 1) c) + v84 (ix2 (0 : Fin 1) c) := by
  unfold k2_pay2
  refine (addf_apply _ _ (ix2 r c)).trans (congrArg₂ (· + ·) ?_ (broadcastTo_1b_ab_apply v84 _ r c))
  refine (mulf_apply _ _ (ix2 r c)).trans (congrArg₂ (· * ·) ?_ (broadcastTo_1b_ab_apply v82 _ r c))
  refine (mulf_apply _ _ (ix2 r c)).trans (congrArg (v86 (ix2 r c) * ·) ?_)
  exact Cert.Lib.broadcastTo_a1_ab_apply _ _ r c

/-! ## The casts of a shape to itself, and the zero block -/

theorem pay6 (v81 : Vec Ideal S1x128 .f32) : k2_pay6 (F := Ideal) v81 = v81 := shapeCast_self v81 _
theorem pay7 (v83 : Vec Ideal S1x128 .f32) : k2_pay7 (F := Ideal) v83 = v83 := shapeCast_self v83 _
theorem pay10 (v3 : Vec Ideal S512x128 .f32) : k2_pay10 (F := Ideal) v3 = v3 := shapeCast_self v3 _
theorem pay11 (v8 : Vec Ideal S1024x128 .f32) : k2_pay11 (F := Ideal) v8 = v8 := shapeCast_self v8 _
/-- The adjacency tile widened: at the ideal values a widening is the identity. -/
theorem pay12 (v14 : Vec Ideal S512x1024 .bf16) : k2_pay12 (F := Ideal) v14 = v14 := by
  unfold k2_pay12
  exact (funext fun i => extf_apply (ψ := .f32) _ bitsLt_bf16_f32 i).trans (shapeCast_self v14 _)
/-- The block the accumulator is reset to. -/
theorem pay9 : k2_pay9 (F := Ideal) = fun _ => Ideal.ofBits .f32 0x00000000#32 := by
  unfold k2_pay9
  exact shapeCast_self _ _

/-! ## The row the body stores -/

/-- The stored block at `(r, c)` is the specification's new row from the block's row, the accumulated message and the
    parameters. -/
theorem out_row (v4 : FVec Ideal S512x128 .f32) (v49 : Vec Ideal S512x128 .f32) (v52 : Vec Ideal S256x128 .f32) (v54 : Vec Ideal S1x128 .f32)
    (v62 : Vec Ideal S128x128 .f32) (v64 v81 v83 : Vec Ideal S1x128 .f32) (r : Fin 512) (c : Fin 128) :
    k2_pay2 (F := Ideal) (k2_pay5 v4 v49 v52 v54 v62 v64) (k2_pay6 v81) (k2_pay7 v83) (k2_pay8 v4 v49 v52 v54 v62 v64)
        (Scalar.ofBits .f32 0x3727C5AC#32) (ix2 r c)
      = Spec.stepRow (fun k => v4 (ix2 r k)) (fun k => v49 (ix2 r k)) v52 (fun k => v54 (ix2 (0 : Fin 1) k)) v62
          (fun k => v64 (ix2 (0 : Fin 1) k)) (fun k => v81 (ix2 (0 : Fin 1) k)) (fun k => v83 (ix2 (0 : Fin 1) k)) c := by
  refine (pay2 _ _ _ _ _ r c).trans ?_
  unfold Spec.stepRow Spec.norm
  exact congrArg₂ (· + ·)
    (congrArg₂ (· * ·)
      (congrArg₂ (· * ·) (pay8 v4 v49 v52 v54 v62 v64 r c)
        (congrArg (fun x => Ideal.rsqrt (x + cLnEps)) (pay5 v4 v49 v52 v54 v62 v64 r)))
      (congrFun (pay6 v81) _))
    (congrFun (pay7 v83) _)

end Cert.KernelIdeal.Pay2

end
-- ==== Proof.KI.Val2Math.lean ====
/-
  The mathematics of one row block of a message-passing step, over plain arrays: what one accumulation step adds, what
  the accumulator holds after the first j + 1 column blocks, that after the fourth it holds the whole message, and what
  the finishing step makes of it. Nothing here mentions the pipeline: the blocks are functions related to the whole
  arrays by their coordinates (row block ib of 512 rows, column block jb of 1024 columns).
-/
import proofs.«172293_j20512763806108_2_alg».proof.Proof.KI.Pay2
import proofs.«172293_j20512763806108_2_alg».proof.Proof.LibBlockSum

noncomputable section

namespace Cert.KernelIdeal.Val2

open Cert.KernelIdeal Cert.KernelIdeal.Gen Cert.KernelIdeal.Pay Cert.KernelIdeal.Pay2 Cert.Spec Idealize.ShloMosaic Idealize.ShloMosaic.ValueIdx
open scoped BigOperators

/-! ## The message as a sum of column blocks -/

/-- The term of node `n` in the message to node `i`, column `c`; zero past the last node, so that it is a function of
    a natural number. -/
def msgTerm (h : Mat 4096 128) (dist adj : Mat 4096 4096) (i : Fin 4096) (c : Fin 128) (n : ℕ) : EReal :=
  if hn : n < 4096 then (pot (row h i) (row h ⟨n, hn⟩) (dist (ix2 i ⟨n, hn⟩)) * adj (ix2 i ⟨n, hn⟩)) * h (ix2 ⟨n, hn⟩ c) else 0

/-- The terms of column block `jb`: nodes `1024 jb` to `1024 jb + 1023`. -/
def blockSum (h : Mat 4096 128) (dist adj : Mat 4096 4096) (i : Fin 4096) (c : Fin 128) (jb : ℕ) : EReal :=
  ∑ s : Fin 1024, msgTerm h dist adj i c (1024 * jb + s.val)

/-- The four column blocks together are the message. -/
theorem sum_blockSum (h : Mat 4096 128) (dist adj : Mat 4096 4096) (i : Fin 4096) (c : Fin 128) :
    ∑ jb ∈ Finset.range 4, blockSum h dist adj i c jb = msg h dist adj i c := by
  unfold msg
  refine Cert.Lib.sum_range_blocks_of_eq (nb := 4) (bs := 1024) (N := 4096) rfl
    (fun j : Fin 4096 => (pot (row h i) (row h j) (dist (ix2 i j)) * adj (ix2 i j)) * h (ix2 j c))
    (blockSum h dist adj i c) (fun t ht => ?_)
  unfold blockSum
  refine Finset.sum_congr rfl fun y _ => ?_
  unfold msgTerm
  have hlt : 1024 * t + y.val < 4096 := by have := y.isLt; omega
  rw [dif_pos hlt]

/-! ## One accumulation step -/

/-- One step of the accumulation, on the blocks the body loads: the accumulator gains, at `(r, c)`, the masked
    potentials between row `r` of the row block and the 1024 rows of the column block, against those rows' features. -/
theorem acc_step (x0 : Vec Ideal S512x128 .f32) (v8 : Vec Ideal S1024x128 .f32) (x2 : Vec Ideal S512x1024 .f32)
    (x3 : Vec Ideal S512x1024 .bf16) (xs : Vec Ideal S512x128 .f32) (r : Fin 512) (c : Fin 128) :
    k2_pay1 (F := Ideal) (k2_pay11 v8) (k2_pay12 x3) (k2_pay13 x0 v8 x2) xs (ix2 r c)
      = xs (ix2 r c) + ∑ s : Fin 1024,
          (pot (fun k => x0 (ix2 r k)) (fun k => v8 (ix2 s k)) (x2 (ix2 r s)) * x3 (ix2 r s)) * v8 (ix2 s c) := by
  refine (pay1 _ _ _ xs r c).trans (congrArg (xs (ix2 r c) + ·) (Finset.sum_congr rfl fun s _ => ?_))
  rw [pay13, pay12, pay11]

/-- The same step when the blocks are row block `ib` of the features, rows `1024 jb …` of the features, and tile
    `(ib, jb)` of the distances and of the adjacency: the gain is column block `jb` of the message to node
    `512 ib + r`. -/
theorem acc_step_global (h : Mat 4096 128) (dist adj : Mat 4096 4096) (ib jb : ℕ) (hib : ib < 8) (hjb : jb < 4)
    (x0 : Vec Ideal S512x128 .f32) (v8 : Vec Ideal S1024x128 .f32) (x2 : Vec Ideal S512x1024 .f32)
    (x3 : Vec Ideal S512x1024 .bf16) (xs : Vec Ideal S512x128 .f32)
    (hx0 : ∀ (r : Fin 512) (k : Fin 128), x0 (ix2 r k) = h (ix2 ⟨512 * ib + r.val, by have := r.isLt; omega⟩ k))
    (hv8 : ∀ (s : Fin 1024) (k : Fin 128), v8 (ix2 s k) = h (ix2 ⟨1024 * jb + s.val, by have := s.isLt; omega⟩ k))
    (hx2 : ∀ (r : Fin 512) (s : Fin 1024), x2 (ix2 r s)
      = dist (ix2 ⟨512 * ib + r.val, by have := r.isLt; omega⟩ ⟨1024 * jb + s.val, by have := s.isLt; omega⟩))
    (hx3 : ∀ (r : Fin 512) (s : Fin 1024), x3 (ix2 r s)
      = adj (ix2 ⟨512 * ib + r.val, by have := r.isLt; omega⟩ ⟨1024 * jb + s.val, by have := s.isLt; omega⟩))
    (r : Fin 512) (c : Fin 128) :
    k2_pay1 (F := Ideal) (k2_pay11 v8) (k2_pay12 x3) (k2_pay13 x0 v8 x2) xs (ix2 r c)
      = xs (ix2 r c) + blockSum h dist adj ⟨512 * ib + r.val, by have := r.isLt; omega⟩ c jb := by
  refine (acc_step x0 v8 x2 x3 xs r c).trans (congrArg (xs (ix2 r c) + ·) ?_)
  unfold blockSum
  refine Finset.sum_congr rfl fun s _ => ?_
  unfold msgTerm
  have hlt : 1024 * jb + s.val < 4096 := by have := s.isLt; omega
  rw [dif_pos hlt, hx2, hx3, hv8]
  refine congrArg (fun p => (p * _) * _) (congrArg₂ (fun a b => pot a b _) (funext fun k => hx0 r k) (funext fun k => hv8 s k))

/-- The reset block is zero, so the first step of a row block leaves its column block alone. -/
theorem reset_apply (r : Fin 512) (c : Fin 128) : k2_pay9 (F := Ideal) (ix2 r c) = 0 :=
  (congrFun pay9 (ix2 r c)).trans Ideal.ofBits_zero_f32

/-! ## The finishing step -/

/-- The block the finishing step stores, from the row block, the accumulator and the parameter blocks. -/
theorem out_step (x0 sc : Vec Ideal S512x128 .f32) (x4 : Vec Ideal S256x128 .f32) (x5 : Vec Ideal S1x128 .f32)
    (x6 : Vec Ideal S128x128 .f32) (x7 x8 x9 : Vec Ideal S1x128 .f32) (r : Fin 512) (c : Fin 128) :
    k2_pay2 (F := Ideal) (k2_pay5 (k2_pay10 x0) sc x4 x5 x6 x7) (k2_pay6 x8) (k2_pay7 x9) (k2_pay8 (k2_pay10 x0) sc x4 x5 x6 x7)
        (Scalar.ofBits .f32 0x3727C5AC#32) (ix2 r c)
      = stepRow (fun k => x0 (ix2 r k)) (fun k => sc (ix2 r k)) x4 (fun k => x5 (ix2 (0 : Fin 1) k)) x6
          (fun k => x7 (ix2 (0 : Fin 1) k)) (fun k => x8 (ix2 (0 : Fin 1) k)) (fun k => x9 (ix2 (0 : Fin 1) k)) c := by
  rw [pay10]
  exact out_row x0 sc x4 x5 x6 x7 x8 x9 r c

end Cert.KernelIdeal.Val2

end
-- ==== Proof.KI.Val2.lean ====
/-
  Step 2's value at the ideal instance: the array the step's output window ends holding is the specification's step of
  the arrays the step finds. Within a row block the accumulator holds, after column block j, the first j + 1 column
  blocks of each row's message (by induction on the grid point); after the fourth it holds the message, and the
  finishing case stores the specification's new rows; the eight finishing points' blocks tile the output array.
-/
import proofs.«172293_j20512763806108_2_alg».proof.Proof.KI.Val2Pieces
import proofs.«172293_j20512763806108_2_alg».proof.Proof.KI.Val2Math
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Val2

open Cert.KernelIdeal Cert.KernelIdeal.Gen Cert.KernelIdeal.Hand Cert.KernelIdeal.Pay Cert.KernelIdeal.Pay2 Cert.Spec Idealize.ShloMosaic.ValueIdx
open Idealize.SL Idealize.SL.RA
open scoped BigOperators

variable (V : (c : Dev nD) → (b : Ref sig .tc) → Buf (Elt Ideal) ((c : Thread nD τ).loc b)) (q : Fin 11 → PosShare TreeShare)

/-! ## The arrays the step finds -/

/-- The features, the distances and the adjacency as the step finds them, as matrices of extended reals. -/
abbrev feat (c : Dev nD) : Mat 4096 128 := V c main_v10
abbrev dists (c : Dev nD) : Mat 4096 4096 := V c main_arg2
abbrev adjs (c : Dev nD) : Mat 4096 4096 := V c main_v4

/-- The node that row `r` of point `t`'s row block is. -/
def rowOf (t : Fin cfg2.N) (r : Fin 512) : Fin 4096 := ⟨512 * (t.val / 4) + r.val, row_lt t r⟩

/-- The specification's new feature matrix from those arrays. -/
abbrev G (c : Dev nD) : S4096x128.Idx → EReal := fun idx =>
  stepRow (row (feat V c) (idx 0)) (msg (feat V c) (dists V c) (adjs V c) (idx 0)) (V c main_arg7)
    (fun k => V c main_v5 (ix2 (0 : Fin 1) k)) (V c main_arg9) (fun k => V c main_v6 (ix2 (0 : Fin 1) k))
    (fun k => V c main_v7 (ix2 (0 : Fin 1) k)) (fun k => V c main_v8 (ix2 (0 : Fin 1) k)) (idx 1)

/-! ## The accumulator after each point -/

/-- One accumulation at point `t`: the accumulator gains column block `t % 4` of the messages to the row block's nodes. -/
theorem accOf_apply (c : Dev nD) (t : Fin cfg2.N) (xs : Vec Ideal S512x128 .f32) (r : Fin 512) (cc : Fin 128) :
    accOf (grid2.coords t) (iblk2 V c 0 t) (iblk2 V c 1 t) (iblk2 V c 2 t) (iblk2 V c 3 t) xs (ix2 r cc)
      = xs (ix2 r cc) + blockSum (feat V c) (dists V c) (adjs V c) (rowOf t r) cc (t.val % 4) :=
  acc_step_global (feat V c) (dists V c) (adjs V c) (t.val / 4) (t.val % 4) (by have := point_lt t; omega)
    (Nat.mod_lt _ (by decide))
    (iblk2 V c 0 t) (rows1 (grid2.coords t) (iblk2 V c 1 t)) (iblk2 V c 2 t) (iblk2 V c 3 t) xs
    (fun r k => iblk2_0_apply V c t r k)
    (fun s k => (rows1_apply t (iblk2 V c 1 t) s k).trans (iblk2_1_apply V c t _ k))
    (fun r s => iblk2_2_apply V c t r s)
    (fun r s => iblk2_3_apply V c t r s)
    r cc

/-- After point `n` the accumulator holds the first `n % 4 + 1` column blocks of the messages to the nodes of row block
    `n / 4`. -/
theorem scratch_eq (c : Dev nD) : ∀ (n : ℕ) (hn : n < cfg2.N) (r : Fin 512) (cc : Fin 128),
    (outsAt2 V c n hn).2 (ix2 r cc)
      = ∑ jb ∈ Finset.range (n % 4 + 1), blockSum (feat V c) (dists V c) (adjs V c) (rowOf ⟨n, hn⟩ r) cc jb
  | 0, hn, r, cc => by
    refine (congrFun (scratch_A V c ⟨0, hn⟩ rfl (by show ¬(0 % 4 = 3); omega)) (ix2 r cc)).trans ?_
    refine (accOf_apply V c ⟨0, hn⟩ _ r cc).trans ?_
    rw [reset_apply, zero_add]
    exact (Finset.sum_range_one _).symm
  | n + 1, hn, r, cc => by
    by_cases h0 : (n + 1) % 4 = 0
    · have h1 : ¬(n + 1) % 4 = 3 := by omega
      refine (congrFun (scratch_A V c ⟨n + 1, hn⟩ h0 h1) (ix2 r cc)).trans ?_
      refine (accOf_apply V c ⟨n + 1, hn⟩ _ r cc).trans ?_
      rw [reset_apply, zero_add]
      show blockSum _ _ _ _ cc ((n + 1) % 4) = ∑ jb ∈ Finset.range ((n + 1) % 4 + 1), _
      rw [h0]
      exact (Finset.sum_range_one _).symm
    · have hstep : (outsAt2 V c (n + 1) hn).2
          = accOf (grid2.coords ⟨n + 1, hn⟩) (iblk2 V c 0 ⟨n + 1, hn⟩) (iblk2 V c 1 ⟨n + 1, hn⟩) (iblk2 V c 2 ⟨n + 1, hn⟩)
              (iblk2 V c 3 ⟨n + 1, hn⟩) (outsAt2 V c n (Nat.lt_of_succ_lt hn)).2 := by
        by_cases h1 : (n + 1) % 4 = 3
        · exact scratch_C V c ⟨n + 1, hn⟩ h0 h1
        · exact scratch_B V c ⟨n + 1, hn⟩ h0 h1
      have e2 : (n + 1) % 4 = n % 4 + 1 := by omega
      have er : rowOf ⟨n, Nat.lt_of_succ_lt hn⟩ r = rowOf ⟨n + 1, hn⟩ r := Fin.ext (by
        show 512 * (n / 4) + r.val = 512 * ((n + 1) / 4) + r.val
        have : (n + 1) / 4 = n / 4 := by omega
        rw [this])
      refine (congrFun hstep (ix2 r cc)).trans ?_
      refine (accOf_apply V c ⟨n + 1, hn⟩ _ r cc).trans ?_
      rw [scratch_eq c n (Nat.lt_of_succ_lt hn) r cc, er]
      show _ + blockSum _ _ _ _ cc ((n + 1) % 4) = ∑ jb ∈ Finset.range ((n + 1) % 4 + 1), _
      rw [e2, Finset.sum_range_succ _ (n % 4 + 1)]

/-! ## The output block at the finishing points -/

/-- At a finishing point the output block holds the specification's new rows of the row block's nodes. -/
theorem out_eq (c : Dev nD) (t : Fin cfg2.N) (h3 : t.val % 4 = 3) (r : Fin 512) (cc : Fin 128) :
    (outsAt2 V c t.val t.isLt).1 (ix2 r cc) = G V c (ix2 (rowOf t r) cc) := by
  have h0 : ¬t.val % 4 = 0 := by omega
  refine (congrFun (out_C V c t h0 h3) (ix2 r cc)).trans ?_
  refine (out_step (iblk2 V c 0 t) (outsAt2 V c t.val t.isLt).2 (iblk2 V c 4 t) (iblk2 V c 5 t) (iblk2 V c 6 t) (iblk2 V c 7 t)
    (iblk2 V c 8 t) (iblk2 V c 9 t) r cc).trans ?_
  have hrow : (fun k => (iblk2 V c 0 t : Vec Ideal S512x128 .f32) (ix2 r k)) = row (feat V c) (rowOf t r) :=
    funext fun k => iblk2_0_apply V c t r k
  have hmsg : (fun k => (outsAt2 V c t.val t.isLt).2 (ix2 r k)) = msg (feat V c) (dists V c) (adjs V c) (rowOf t r) :=
    funext fun k => by
      rw [scratch_eq V c t.val t.isLt r k, h3]
      exact sum_blockSum _ _ _ _ k
  rw [hrow, hmsg, iblk2_4_eq V c t, iblk2_5_eq V c t, iblk2_6_eq V c t, iblk2_7_eq V c t, iblk2_8_eq V c t, iblk2_9_eq V c t]

/-! ## From the blocks to the array -/

/-- What a finishing point writes back is its block of the specification's matrix. -/
theorem flushed_eq (c : Dev nD) (t : Fin cfg2.N) (hf : (cfg2.win 10).flush t = true) :
    (dat2 V q c).flushed 10 t = ((cfg2.win 10).blk t).view.read (Elt Ideal) (G V c) := by
  have h3 : t.val % 4 = 3 := (flush2_10 t).mp hf
  obtain ⟨-, -, -, -, -, -, -, -, e0, e1, -⟩ := idx_facts2 t
  show (cfg2.win 10).cut (grid2.coords t) ((dat2 V q c).after 10 t) = _
  rw [after2_10]
  funext j
  obtain ⟨r, cc, rfl⟩ : ∃ (r : Fin 512) (cc : Fin 128), j = ix2 r cc := ⟨j 0, j 1, eq_ix2 j⟩
  show (outsAt2 V c t.val t.isLt).1 (ix2 r cc) = G V c (((cfg2.win 10).blk t).view.emb (ix2 r cc))
  rw [out_eq V c t h3 r cc]
  refine congrArg (G V c) (funext fun a => Fin.ext ?_)
  match a with
  | ⟨0, _⟩ => show 512 * (t.val / 4) + r.val = win2_10.index t (0 : Fin 2) * 512 + 1 * r.val; rw [e0]; omega
  | ⟨1, _⟩ => show cc.val = win2_10.index t (1 : Fin 2) * 128 + 1 * cc.val; rw [e1]; omega

/-- An index of the output array is in point `t`'s block iff each coordinate is in the block's range. -/
theorem mem_blk10 (t : Fin cfg2.N) (i : S4096x128.Idx) :
    i ∈ ((cfg2.win 10).blk t).view.set
      ↔ ∀ a : Fin 2, win2_10.index t a * S512x128.size a ≤ (i a).val ∧ (i a).val < win2_10.index t a * S512x128.size a + S512x128.size a := by
  show i ∈ ((View.whole main_v11).slice (win2_10.rect t)).set ↔ _
  rw [View.set_slice_whole, Rect.mem_set_unit]
  exact Iff.rfl

/-- Row `n` of the output array is covered by the finishing point of row block `n / 512`. -/
theorem cover10 (i : S4096x128.Idx) : ∃ t : Fin cfg2.N, (cfg2.win 10).flush t = true ∧ i ∈ ((cfg2.win 10).blk t).view.set := by
  have hi0 : (i 0).val < 4096 := (i 0).isLt
  have hi1 : (i 1).val < 128 := (i 1).isLt
  have hN : cfg2.N = 32 := N_2
  obtain ⟨t, ht⟩ : ∃ t : Fin cfg2.N, t.val = 4 * ((i 0).val / 512) + 3 := ⟨⟨_, by rw [hN]; omega⟩, rfl⟩
  obtain ⟨-, -, -, -, -, -, -, -, e0, e1, -⟩ := idx_facts2 t
  refine ⟨t, (flush2_10 t).mpr (by rw [ht]; omega), ?_⟩
  rw [mem_blk10]
  intro a
  match a with
  | ⟨0, _⟩ =>
    show win2_10.index t (0 : Fin 2) * 512 ≤ (i 0).val ∧ (i 0).val < win2_10.index t (0 : Fin 2) * 512 + 512
    rw [e0, ht]; omega
  | ⟨1, _⟩ =>
    show win2_10.index t (1 : Fin 2) * 128 ≤ (i 1).val ∧ (i 1).val < win2_10.index t (1 : Fin 2) * 128 + 128
    rw [e1]; omega

/-- THE VALUE OF STEP 2: the output array ends holding the specification's step of the arrays the step finds. -/
theorem region2_value (c : Dev nD) (idx : S4096x128.Idx) :
    (dat2 (F := Ideal) V q c).arrAt 10 cfg2.N idx
      = Spec.stepRow (Spec.row (V c main_v10) (idx 0)) (Spec.msg (V c main_v10) (V c main_arg2) (V c main_v4) (idx 0)) (V c main_arg7)
          (fun k => V c main_v5 (ix2 (0 : Fin 1) k)) (V c main_arg9) (fun k => V c main_v6 (ix2 (0 : Fin 1) k))
          (fun k => V c main_v7 (ix2 (0 : Fin 1) k)) (fun k => V c main_v8 (ix2 (0 : Fin 1) k)) (idx 1) :=
  congrFun ((dat2 V q c).arrAt_eq_of_cover 10 (G V c) (flushed_eq V q c) cover10) idx

end Cert.KernelIdeal.Val2

end
-- ==== Proof.KI.Net.lean ====
/-
  The kernel program's result is the specification's network of the launch's arguments. Each of the three calls ends
  with its output array at the specification's step of the feature matrix it finds, the parameters read off the buffers
  the host operations before the first call leave: those operations compute the input projection and pass the distances,
  the adjacency, the weights and the four vectors on unchanged, and a call changes its own output array only; so the
  third call's result is three steps after the projection.
-/
import proofs.«172293_j20512763806108_2_alg».proof.Proof.KI.Vals
import proofs.«172293_j20512763806108_2_alg».proof.Proof.KI.Host0
import proofs.«172293_j20512763806108_2_alg».proof.Proof.KI.Val0
import proofs.«172293_j20512763806108_2_alg».proof.Proof.KI.Val1
import proofs.«172293_j20512763806108_2_alg».proof.Proof.KI.Val2

noncomputable section

namespace Cert.KernelIdeal.Val

open Cert.KernelIdeal Cert.KernelIdeal.Gen Cert.KernelIdeal.Hand Idealize.ShloMosaic Idealize.ShloMosaic.ValueIdx
  Idealize.ShloMosaic.TcCoe Idealize.SL.Sem Idealize.ShloMosaic.StableHlo
open Idealize.SL.RA (PosShare TreeShare)

/-! ## The specification's step read off the buffers a call finds -/

/-- The specification's step of the feature matrix `h` with the parameters read off the buffers a call finds: the
    distances in `main_arg2`, the adjacency in `main_v4`, the weights in `main_arg7` and `main_arg9`, the two biases, gamma
    and beta as the one-row matrices `main_v5` … `main_v8`. -/
def stepAt (V : Valuation τ sig (Elt Ideal)) (h : Spec.Mat 4096 128) : Spec.Mat 4096 128 := fun idx =>
  Spec.stepRow (Spec.row h (idx 0)) (Spec.msg h (V main_arg2) (V main_v4) (idx 0)) (V main_arg7)
    (fun k => V main_v5 (ix2 (0 : Fin 1) k)) (V main_arg9) (fun k => V main_v6 (ix2 (0 : Fin 1) k))
    (fun k => V main_v7 (ix2 (0 : Fin 1) k)) (fun k => V main_v8 (ix2 (0 : Fin 1) k)) (idx 1)

/-- It reads the valuation at those eight buffers only. -/
theorem stepAt_congr {V V' : Valuation τ sig (Elt Ideal)} (h : Spec.Mat 4096 128)
    (e2 : V main_arg2 = V' main_arg2) (e4 : V main_v4 = V' main_v4) (e7 : V main_arg7 = V' main_arg7)
    (e5 : V main_v5 = V' main_v5) (e9 : V main_arg9 = V' main_arg9) (e6 : V main_v6 = V' main_v6)
    (eg : V main_v7 = V' main_v7) (eb : V main_v8 = V' main_v8) : stepAt V h = stepAt V' h := by
  unfold stepAt
  rw [e2, e4, e7, e5, e9, e6, eg, eb]

/-- With the parameters the buffers hold named, it is the specification's step. -/
theorem stepAt_eq (V : Valuation τ sig (Elt Ideal)) (h : Spec.Mat 4096 128) (dist adj : Spec.Mat 4096 4096)
    (W1 : Spec.Mat 256 128) (b1 : Spec.Vec1 128) (W2 : Spec.Mat 128 128) (b2 g b : Spec.Vec1 128)
    (e2 : V main_arg2 = dist) (e4 : V main_v4 = adj) (e7 : V main_arg7 = W1)
    (e5 : ∀ k : Fin 128, V main_v5 (ix2 (0 : Fin 1) k) = b1 (ix1 k)) (e9 : V main_arg9 = W2)
    (e6 : ∀ k : Fin 128, V main_v6 (ix2 (0 : Fin 1) k) = b2 (ix1 k))
    (eg : ∀ k : Fin 128, V main_v7 (ix2 (0 : Fin 1) k) = g (ix1 k))
    (eb : ∀ k : Fin 128, V main_v8 (ix2 (0 : Fin 1) k) = b (ix1 k)) :
    stepAt V h = Spec.step h dist adj W1 b1 W2 b2 g b := by
  have h5 : (fun k : Fin 128 => V main_v5 (ix2 (0 : Fin 1) k)) = Spec.vec b1 := funext e5
  have h6 : (fun k : Fin 128 => V main_v6 (ix2 (0 : Fin 1) k)) = Spec.vec b2 := funext e6
  have hg : (fun k : Fin 128 => V main_v7 (ix2 (0 : Fin 1) k)) = Spec.vec g := funext eg
  have hb : (fun k : Fin 128 => V main_v8 (ix2 (0 : Fin 1) k)) = Spec.vec b := funext eb
  funext idx
  unfold stepAt Spec.step
  rw [e2, e4, e7, e9, h5, h6, hg, hb]

/-- Over the buffers the host operations leave it is the step at the launch's arguments. -/
theorem stepAt_host (W : Valuation τ sig (Elt Ideal)) (h : Spec.Mat 4096 128) :
    stepAt (after (hostOps0 (F := Ideal)) W) h
      = Spec.step h (W main_arg2) (W main_arg1) (W main_arg7) (W main_arg8) (W main_arg9) (W main_arg10) (W main_arg11)
          (W main_arg12) :=
  stepAt_eq _ h _ _ _ _ _ _ _ _ (host_arg2 W) (funext (host_adj W)) (host_arg7 W) (host_b1 W) (host_arg9 W) (host_b2 W)
    (host_g W) (host_b W)

/-! ## The three calls composed -/

/-- The three calls composed, over the buffers' contents between them: `A` what the host operations leave from the
    launch contents `W`, `B` and `C` the same with the first and the second call's result in `main_v9`, `main_v10`, each
    call's result the step of the features it finds. The third call's result is the network of the launch's arguments. -/
theorem net_of_steps (W A B C : Valuation τ sig (Elt Ideal)) (r0 r1 r2 : Spec.Mat 4096 128)
    (hA : A = after (hostOps0 (F := Ideal)) W)
    (h0 : r0 = stepAt A (A main_v3))
    (hB9 : B main_v9 = r0) (hB : ∀ b : Ref sig .tc, b ≠ main_v9 → B b = A b)
    (h1 : r1 = stepAt B (B main_v9))
    (hC10 : C main_v10 = r1) (hC : ∀ b : Ref sig .tc, b ≠ main_v10 → C b = B b)
    (h2 : r2 = stepAt C (C main_v10)) :
    r2 = Spec.net (W main_arg0) (W main_arg1) (W main_arg2) (W main_arg3) (W main_arg4) (W main_arg7) (W main_arg8)
      (W main_arg9) (W main_arg10) (W main_arg11) (W main_arg12) := by
  have eBA : ∀ h, stepAt B h = stepAt A h := fun h =>
    stepAt_congr h (hB _ (by decide)) (hB _ (by decide)) (hB _ (by decide)) (hB _ (by decide)) (hB _ (by decide))
      (hB _ (by decide)) (hB _ (by decide)) (hB _ (by decide))
  have eCB : ∀ h, stepAt C h = stepAt B h := fun h =>
    stepAt_congr h (hC _ (by decide)) (hC _ (by decide)) (hC _ (by decide)) (hC _ (by decide)) (hC _ (by decide))
      (hC _ (by decide)) (hC _ (by decide)) (hC _ (by decide))
  have s0 : r0 = Spec.step (Spec.h0 (W main_arg0) (W main_arg3) (W main_arg4)) (W main_arg2) (W main_arg1) (W main_arg7)
      (W main_arg8) (W main_arg9) (W main_arg10) (W main_arg11) (W main_arg12) := by
    rw [h0, hA, host_h0 W]; exact stepAt_host W _
  have s1 : r1 = Spec.step r0 (W main_arg2) (W main_arg1) (W main_arg7) (W main_arg8) (W main_arg9) (W main_arg10)
      (W main_arg11) (W main_arg12) := by
    rw [h1, hB9, eBA, hA]; exact stepAt_host W _
  have s2 : r2 = Spec.step r1 (W main_arg2) (W main_arg1) (W main_arg7) (W main_arg8) (W main_arg9) (W main_arg10)
      (W main_arg11) (W main_arg12) := by
    rw [h2, hC10, eCB, eBA, hA]; exact stepAt_host W _
  rw [s2, s1, s0]
  rfl

/-! ## Each call's output array, and the result -/

section Calls

variable (W : Dev nD → Valuation τ sig (Elt Ideal)) (q : Fin 11 → PosShare TreeShare) (c : Dev nD)

/-- The first call's output array ends at the step of the features in `main_v3`. -/
theorem arr0_stepAt : (dat0 (F := Ideal) (Vr W) q c).arrAt 10 cfg0.N = stepAt (W c) (W c main_v3) :=
  funext fun idx => region0_value (Vr W) q c idx
/-- The second call's, of the features in `main_v9`. -/
theorem arr1_stepAt : (dat1 (F := Ideal) (Vr W) q c).arrAt 10 cfg1.N = stepAt (W c) (W c main_v9) :=
  funext fun idx => Cert.KernelIdeal.Val1.region1_value (Vr W) q c idx
/-- The third call's, of the features in `main_v10`. -/
theorem arr2_stepAt : (dat2 (F := Ideal) (Vr W) q c).arrAt 10 cfg2.N = stepAt (W c) (W c main_v10) :=
  funext fun idx => Cert.KernelIdeal.Val2.region2_value (Vr W) q c idx

end Calls

/-- What the third call leaves in `main_v11` is the network of the launch's arguments. -/
theorem res2_net (m : (ℓ : Loc nD τ sig) → Buf (Elt Ideal) ℓ) (c : Dev nD) :
    res2 (F := Ideal) m c
      = Spec.net (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg7))
          (m ((c : Thread nD τ).loc main_arg8)) (m ((c : Thread nD τ).loc main_arg9)) (m ((c : Thread nD τ).loc main_arg10))
          (m ((c : Thread nD τ).loc main_arg11)) (m ((c : Thread nD τ).loc main_arg12)) :=
  net_of_steps (fun b => m (c, b)) (Wa m c) (Wb m c) (Wc m c) (res0 m c) (res1 m c) (res2 m c) rfl
    ((res0_eq m c).trans (arr0_stepAt (Wa m) qsh c)) (Wb_out m c) (fun b h => Wb_of_ne m c b h)
    ((res1_eq m c).trans (arr1_stepAt (Wb m) qsh c)) (Wc_out m c) (fun b h => Wc_of_ne m c b h)
    ((res2_eq m c).trans (arr2_stepAt (Wc m) qsh c))

end Cert.KernelIdeal.Val

end
-- ==== Proof.RefRun.lean ====
/-
  The reference program's run, staged. Its 180 host operations are cut in four stretches: the prologue (the projection
  of the input features, the clipped distance, and the two factors that depend on the distance only) and the three
  message-passing steps. The fold `after` of a concatenation is the composition of the folds; a stretch leaves every
  buffer it does not write, so no operation writes an argument and the later stretches keep what the earlier ones
  computed; and the run: every weakly fair execution of @main terminates with the result buffer at the fold of the
  four stretches over the launch contents, the arguments unchanged.
-/
import proofs.«172293_j20512763806108_2_alg».proof.Proof.RefOps

noncomputable section

namespace Cert.RefRun

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-! ## The four stretches -/

/-- The prologue: the projection of the input features `main_v3 = main_arg0 · main_arg3 + main_arg4` (the bias along the rows), the distance `main_arg2` clipped from below at 10⁻⁶ (`main_v4`), and the two factors that depend on the distance only: the decay `main_v17 = exp (−main_arg2 / 3)` and the scaled Lennard-Jones term `main_v19 = 0.1 · (0.4 · (s¹² − s⁶))` with `s = 3.5 / main_v4`. -/
abbrev pro : List (HloOp τ sig (Elt F)) :=
  [ binary main_arg0 main_arg3 main_v0 ((fun l r => Host.dotGeneral dot_S4096x64_S64x128_S4096x128_1_0_0_1_n_n none l r) : (⟨S4096x64, .f32⟩ : BufTy).Contents (Elt F) → (⟨S64x128, .f32⟩ : BufTy).Contents (Elt F) → (⟨S4096x128, .f32⟩ : BufTy).Contents (Elt F)),
    unary main_arg4 main_v1 (broadcastInDim S1x128 ![1] bcast_S128_S1x128_1 : (⟨S128, .f32⟩ : BufTy).Contents (Elt F) → (⟨S1x128, .f32⟩ : BufTy).Contents (Elt F)),
    unary main_v1 main_v2 (broadcastInDim S4096x128 ![0, 1] bcast_S1x128_S4096x128_0_1 : (⟨S1x128, .f32⟩ : BufTy).Contents (Elt F) → (⟨S4096x128, .f32⟩ : BufTy).Contents (Elt F)),
    binary main_v0 main_v2 main_v3 (addf : (⟨S4096x128, .f32⟩ : BufTy).Contents (Elt F) → (⟨S4096x128, .f32⟩ : BufTy).Contents (Elt F) → (⟨S4096x128, .f32⟩ : BufTy).Contents (Elt F)),
    nullary main_cst (constant S_ .f32 0x358637BD#32),
    TRef.unary (TRef.of (T := ⟨S_, .f32⟩) main_cst) (TRef.of (T := ⟨S_, .f32⟩) main_call0_v0) id,
    TRef.unary (TRef.of (T := ⟨S_, .f32⟩) main_call0_v0) (TRef.of (T := ⟨S4096x4096, .f32⟩) main_call0_v1) (broadcastInDim S4096x4096 ![] bcast_S_S4096x4096),
    TRef.binary (TRef.of (T := ⟨S4096x4096, .f32⟩) main_call0_v1) (TRef.of (T := ⟨S4096x4096, .f32⟩) main_arg2) (TRef.of (T := ⟨S4096x4096, .f32⟩) main_v4) maximumf,
    nullary main_cst_0 (constant S_ .f32 0x40600000#32),
    unary main_cst_0 main_v5 (broadcastInDim S4096x4096 ![] bcast_S_S4096x4096 : (⟨S_, .f32⟩ : BufTy).Contents (Elt F) → (⟨S4096x4096, .f32⟩ : BufTy).Contents (Elt F)),
    binary main_v5 main_v4 main_v6 (Host.divf : (⟨S4096x4096, .f32⟩ : BufTy).Contents (Elt F) → (⟨S4096x4096, .f32⟩ : BufTy).Contents (Elt F) → (⟨S4096x4096, .f32⟩ : BufTy).Contents (Elt F)),
    binary main_v6 main_v6 main_v7 (mulf : (⟨S4096x4096, .f32⟩ : BufTy).Contents (Elt F) → (⟨S4096x4096, .f32⟩ : BufTy).Contents (Elt F) → (⟨S4096x4096, .f32⟩ : BufTy).Contents (Elt F)),
    binary main_v7 main_v7 main_v8 (mulf : (⟨S4096x4096, .f32⟩ : BufTy).Contents (Elt F) → (⟨S4096x4096, .f32⟩ : BufTy).Contents (Elt F) → (⟨S4096x4096, .f32⟩ : BufTy).Contents (Elt F)),
    binary main_v7 main_v8 main_v9 (mulf : (⟨S4096x4096, .f32⟩ : BufTy).Contents (Elt F) → (⟨S4096x4096, .f32⟩ : BufTy).Contents (Elt F) → (⟨S4096x4096, .f32⟩ : BufTy).Contents (Elt F)),
    binary main_v9 main_v9 main_v10 (mulf : (⟨S4096x4096, .f32⟩ : BufTy).Contents (Elt F) → (⟨S4096x4096, .f32⟩ : BufTy).Contents (Elt F) → (⟨S4096x4096, .f32⟩ : BufTy).Contents (Elt F)),
    binary main_v10 main_v9 main_v11 (subf : (⟨S4096x4096, .f32⟩ : BufTy).Contents (Elt F) → (⟨S4096x4096, .f32⟩ : BufTy).Contents (Elt F) → (⟨S4096x4096, .f32⟩ : BufTy).Contents (Elt F)),
    nullary main_cst_1 (constant S_ .f32 0x3ECCCCCD#32),
    unary main_cst_1 main_v12 (broadcastInDim S4096x4096 ![] bcast_S_S4096x4096 : (⟨S_, .f32⟩ : BufTy).Contents (Elt F) → (⟨S4096x4096, .f32⟩ : BufTy).Contents (Elt F)),
    binary main_v12 main_v11 main_v13 (mulf : (⟨S4096x4096, .f32⟩ : BufTy).Contents (Elt F) → (⟨S4096x4096, .f32⟩ : BufTy).Contents (Elt F) → (⟨S4096x4096, .f32⟩ : BufTy).Contents (Elt F)),
    unary main_arg2 main_v14 (Host.negf : (⟨S4096x4096, .f32⟩ : BufTy).Contents (Elt F) → (⟨S4096x4096, .f32⟩ : BufTy).Contents (Elt F)),
    nullary main_cst_2 (constant S_ .f32 0x40400000#32),
    unary main_cst_2 main_v15 (broadcastInDim S4096x4096 ![] bcast_S_S4096x4096 : (⟨S_, .f32⟩ : BufTy).Contents (Elt F) → (⟨S4096x4096, .f32⟩ : BufTy).Contents (Elt F)),
    binary main_v14 main_v15 main_v16 (Host.divf : (⟨S4096x4096, .f32⟩ : BufTy).Contents (Elt F) → (⟨S4096x4096, .f32⟩ : BufTy).Contents (Elt F) → (⟨S4096x4096, .f32⟩ : BufTy).Contents (Elt F)),
    unary main_v16 main_v17 (Host.exp : (⟨S4096x4096, .f32⟩ : BufTy).Contents (Elt F) → (⟨S4096x4096, .f32⟩ : BufTy).Contents (Elt F)),
    nullary main_cst_3 (constant S_ .f32 0x3DCCCCCD#32),
    unary main_cst_3 main_v18 (broadcastInDim S4096x4096 ![] bcast_S_S4096x4096 : (⟨S_, .f32⟩ : BufTy).Contents (Elt F) → (⟨S4096x4096, .f32⟩ : BufTy).Contents (Elt F)),
    binary main_v18 main_v13 main_v19 (mulf : (⟨S4096x4096, .f32⟩ : BufTy).Contents (Elt F) → (⟨S4096x4096, .f32⟩ : BufTy).Contents (Elt F) → (⟨S4096x4096, .f32⟩ : BufTy).Contents (Elt F)) ]

/-- The first message-passing step: from the features `main_v3` to the normalized update `main_v61`. -/
abbrev st1 : List (HloOp τ sig (Elt F)) :=
  [ unary main_v3 main_v20 ((transpose S128x4096 [1, 0] · transposes_S4096x128_S128x4096_1_0) : (⟨S4096x128, .f32⟩ : BufTy).Contents (Elt F) → (⟨S128x4096, .f32⟩ : BufTy).Contents (Elt F)),
    binary main_v3 main_v20 main_v21 ((fun l r => Host.dotGeneral dot_S4096x128_S128x4096_S4096x4096_1_0_0_1_n_n none l r) : (⟨S4096x128, .f32⟩ : BufTy).Contents (Elt F) → (⟨S128x4096, .f32⟩ : BufTy).Contents (Elt F) → (⟨S4096x4096, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S4096x4096, .f32⟩) main_call1_v0) (broadcastInDim S4096x4096 ![] bcast_S_S4096x4096),
    TRef.binary (TRef.of (T := ⟨S4096x4096, .f32⟩) main_v21) (TRef.of (T := ⟨S4096x4096, .f32⟩) main_call1_v0) (TRef.of (T := ⟨S4096x4096, .f32⟩) main_v22) maximumf,
    binary main_v17 main_v22 main_v23 (mulf : (⟨S4096x4096, .f32⟩ : BufTy).Contents (Elt F) → (⟨S4096x4096, .f32⟩ : BufTy).Contents (Elt F) → (⟨S4096x4096, .f32⟩ : BufTy).Contents (Elt F)),
    binary main_v23 main_v19 main_v24 (addf : (⟨S4096x4096, .f32⟩ : BufTy).Contents (Elt F) → (⟨S4096x4096, .f32⟩ : BufTy).Contents (Elt F) → (⟨S4096x4096, .f32⟩ : BufTy).Contents (Elt F)),
    binary main_v24 main_arg1 main_v25 (mulf : (⟨S4096x4096, .f32⟩ : BufTy).Contents (Elt F) → (⟨S4096x4096, .f32⟩ : BufTy).Contents (Elt F) → (⟨S4096x4096, .f32⟩ : BufTy).Contents (Elt F)),
    binary main_v25 main_v3 main_v26 ((fun l r => Host.dotGeneral dot_S4096x4096_S4096x128_S4096x128_1_0_0_1_n_n none l r) : (⟨S4096x4096, .f32⟩ : BufTy).Contents (Elt F) → (⟨S4096x128, .f32⟩ : BufTy).Contents (Elt F) → (⟨S4096x128, .f32⟩ : BufTy).Contents (Elt F)),
    binary main_v3 main_v26 main_v27 ((fun a b => concatenate S4096x256 1 [⟨S4096x128, a⟩, ⟨S4096x128, b⟩] concatenates_S4096x128_S4096x128_S4096x256_d1) : (⟨S4096x128, .f32⟩ : BufTy).Contents (Elt F) → (⟨S4096x128, .f32⟩ : BufTy).Contents (Elt F) → (⟨S4096x256, .f32⟩ : BufTy).Contents (Elt F)),
    binary main_v27 main_arg7 main_v28 ((fun l r => Host.dotGeneral dot_S4096x256_S256x128_S4096x128_1_0_0_1_n_n none l r) : (⟨S4096x256, .f32⟩ : BufTy).Contents (Elt F) → (⟨S256x128, .f32⟩ : BufTy).Contents (Elt F) → (⟨S4096x128, .f32⟩ : BufTy).Contents (Elt F)),
    unary main_arg8 main_v29 (broadcastInDim S1x128 ![1] bcast_S128_S1x128_1 : (⟨S128, .f32⟩ : BufTy).Contents (Elt F) → (⟨S1x128, .f32⟩ : BufTy).Contents (Elt F)),
    unary main_v29 main_v30 (broadcastInDim S4096x128 ![0, 1] bcast_S1x128_S4096x128_0_1 : (⟨S1x128, .f32⟩ : BufTy).Contents (Elt F) → (⟨S4096x128, .f32⟩ : BufTy).Contents (Elt F)),
    binary main_v28 main_v30 main_v31 (addf : (⟨S4096x128, .f32⟩ : BufTy).Contents (Elt F) → (⟨S4096x128, .f32⟩ : BufTy).Contents (Elt F) → (⟨S4096x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S4096x128, .f32⟩) main_call2_v0) (broadcastInDim S4096x128 ![] bcast_S_S4096x128),
    TRef.binary (TRef.of (T := ⟨S4096x128, .f32⟩) main_v31) (TRef.of (T := ⟨S4096x128, .f32⟩) main_call2_v0) (TRef.of (T := ⟨S4096x128, .f32⟩) main_v32) maximumf,
    binary main_v32 main_arg9 main_v33 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    unary main_arg10 main_v34 (broadcastInDim S1x128 ![1] bcast_S128_S1x128_1 : (⟨S128, .f32⟩ : BufTy).Contents (Elt F) → (⟨S1x128, .f32⟩ : BufTy).Contents (Elt F)),
    unary main_v34 main_v35 (broadcastInDim S4096x128 ![0, 1] bcast_S1x128_S4096x128_0_1 : (⟨S1x128, .f32⟩ : BufTy).Contents (Elt F) → (⟨S4096x128, .f32⟩ : BufTy).Contents (Elt F)),
    binary main_v33 main_v35 main_v36 (addf : (⟨S4096x128, .f32⟩ : BufTy).Contents (Elt F) → (⟨S4096x128, .f32⟩ : BufTy).Contents (Elt F) → (⟨S4096x128, .f32⟩ : BufTy).Contents (Elt F)),
    binary main_v3 main_v36 main_v37 (addf : (⟨S4096x128, .f32⟩ : BufTy).Contents (Elt F) → (⟨S4096x128, .f32⟩ : BufTy).Contents (Elt F) → (⟨S4096x128, .f32⟩ : BufTy).Contents (Elt F)),
    nullary main_cst_4 (constant S_ .f32 0x00000000#32),
    binary main_v37 main_cst_4 main_v38 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
    unary main_v38 main_v39 (broadcastInDim S4096x1 ![0] bcast_S4096_S4096x1_0 : (⟨S4096, .f32⟩ : BufTy).Contents (Elt F) → (⟨S4096x1, .f32⟩ : BufTy).Contents (Elt F)),
    nullary main_cst_5 (constant S_ .f32 0x43000000#32),
    unary main_cst_5 main_v40 (broadcastInDim S4096x1 ![] bcast_S_S4096x1 : (⟨S_, .f32⟩ : BufTy).Contents (Elt F) → (⟨S4096x1, .f32⟩ : BufTy).Contents (Elt F)),
    binary main_v39 main_v40 main_v41 (Host.divf : (⟨S4096x1, .f32⟩ : BufTy).Contents (Elt F) → (⟨S4096x1, .f32⟩ : BufTy).Contents (Elt F) → (⟨S4096x1, .f32⟩ : BufTy).Contents (Elt F)),
    unary main_v41 main_v42 (broadcastInDim S4096x128 ![0, 1] bcast_S4096x1_S4096x128_0_1 : (⟨S4096x1, .f32⟩ : BufTy).Contents (Elt F) → (⟨S4096x128, .f32⟩ : BufTy).Contents (Elt F)),
    binary main_v37 main_v42 main_v43 (subf : (⟨S4096x128, .f32⟩ : BufTy).Contents (Elt F) → (⟨S4096x128, .f32⟩ : BufTy).Contents (Elt F) → (⟨S4096x128, .f32⟩ : BufTy).Contents (Elt F)),
    binary main_v43 main_v43 main_v44 (mulf : (⟨S4096x128, .f32⟩ : BufTy).Contents (Elt F) → (⟨S4096x128, .f32⟩ : BufTy).Contents (Elt F) → (⟨S4096x128, .f32⟩ : BufTy).Contents (Elt F)),
    nullary main_cst_6 (constant S_ .f32 0x00000000#32),
    binary main_v44 main_cst_6 main_v45 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
    unary main_v45 main_v46 (broadcastInDim S4096x1 ![0] bcast_S4096_S4096x1_0 : (⟨S4096, .f32⟩ : BufTy).Contents (Elt F) → (⟨S4096x1, .f32⟩ : BufTy).Contents (Elt F)),
    nullary main_cst_7 (constant S_ .f32 0x43000000#32),
    unary main_cst_7 main_v47 (broadcastInDim S4096x1 ![] bcast_S_S4096x1 : (⟨S_, .f32⟩ : BufTy).Contents (Elt F) → (⟨S4096x1, .f32⟩ : BufTy).Contents (Elt F)),
    binary main_v46 main_v47 main_v48 (Host.divf : (⟨S4096x1, .f32⟩ : BufTy).Contents (Elt F) → (⟨S4096x1, .f32⟩ : BufTy).Contents (Elt F) → (⟨S4096x1, .f32⟩ : BufTy).Contents (Elt F)),
    unary main_v41 main_v49 (broadcastInDim S4096x128 ![0, 1] bcast_S4096x1_S4096x128_0_1 : (⟨S4096x1, .f32⟩ : BufTy).Contents (Elt F) → (⟨S4096x128, .f32⟩ : BufTy).Contents (Elt F)),
    binary main_v37 main_v49 main_v50 (subf : (⟨S4096x128, .f32⟩ : BufTy).Contents (Elt F) → (⟨S4096x128, .f32⟩ : BufTy).Contents (Elt F) → (⟨S4096x128, .f32⟩ : BufTy).Contents (Elt F)),
    nullary main_cst_8 (constant S_ .f32 0x3727C5AC#32),
    unary main_cst_8 main_v51 (broadcastInDim S4096x1 ![] bcast_S_S4096x1 : (⟨S_, .f32⟩ : BufTy).Contents (Elt F) → (⟨S4096x1, .f32⟩ : BufTy).Contents (Elt F)),
    binary main_v48 main_v51 main_v52 (addf : (⟨S4096x1, .f32⟩ : BufTy).Contents (Elt F) → (⟨S4096x1, .f32⟩ : BufTy).Contents (Elt F) → (⟨S4096x1, .f32⟩ : BufTy).Contents (Elt F)),
    unary main_v52 main_v53 (Host.rsqrt : (⟨S4096x1, .f32⟩ : BufTy).Contents (Elt F) → (⟨S4096x1, .f32⟩ : BufTy).Contents (Elt F)),
    unary main_v53 main_v54 (broadcastInDim S4096x128 ![0, 1] bcast_S4096x1_S4096x128_0_1 : (⟨S4096x1, .f32⟩ : BufTy).Contents (Elt F) → (⟨S4096x128, .f32⟩ : BufTy).Contents (Elt F)),
    binary main_v50 main_v54 main_v55 (mulf : (⟨S4096x128, .f32⟩ : BufTy).Contents (Elt F) → (⟨S4096x128, .f32⟩ : BufTy).Contents (Elt F) → (⟨S4096x128, .f32⟩ : BufTy).Contents (Elt F)),
    unary main_arg11 main_v56 (broadcastInDim S1x128 ![1] bcast_S128_S1x128_1 : (⟨S128, .f32⟩ : BufTy).Contents (Elt F) → (⟨S1x128, .f32⟩ : BufTy).Contents (Elt F)),
    unary main_v56 main_v57 (broadcastInDim S4096x128 ![0, 1] bcast_S1x128_S4096x128_0_1 : (⟨S1x128, .f32⟩ : BufTy).Contents (Elt F) → (⟨S4096x128, .f32⟩ : BufTy).Contents (Elt F)),
    binary main_v55 main_v57 main_v58 (mulf : (⟨S4096x128, .f32⟩ : BufTy).Contents (Elt F) → (⟨S4096x128, .f32⟩ : BufTy).Contents (Elt F) → (⟨S4096x128, .f32⟩ : BufTy).Contents (Elt F)),
    unary main_arg12 main_v59 (broadcastInDim S1x128 ![1] bcast_S128_S1x128_1 : (⟨S128, .f32⟩ : BufTy).Contents (Elt F) → (⟨S1x128, .f32⟩ : BufTy).Contents (Elt F)),
    unary main_v59 main_v60 (broadcastInDim S4096x128 ![0, 1] bcast_S1x128_S4096x128_0_1 : (⟨S1x128, .f32⟩ : BufTy).Contents (Elt F) → (⟨S4096x128, .f32⟩ : BufTy).Contents (Elt F)),
    binary main_v58 main_v60 main_v61 (addf : (⟨S4096x128, .f32⟩ : BufTy).Contents (Elt F) → (⟨S4096x128, .f32⟩ : BufTy).Contents (Elt F) → (⟨S4096x128, .f32⟩ : BufTy).Contents (Elt F)) ]

/-- The second message-passing step: from `main_v61` to `main_v103`. -/
abbrev st2 : List (HloOp τ sig (Elt F)) :=
  [ unary main_v61 main_v62 ((transpose S128x4096 [1, 0] · transposes_S4096x128_S128x4096_1_0) : (⟨S4096x128, .f32⟩ : BufTy).Contents (Elt F) → (⟨S128x4096, .f32⟩ : BufTy).Contents (Elt F)),
    binary main_v61 main_v62 main_v63 ((fun l r => Host.dotGeneral dot_S4096x128_S128x4096_S4096x4096_1_0_0_1_n_n none l r) : (⟨S4096x128, .f32⟩ : BufTy).Contents (Elt F) → (⟨S128x4096, .f32⟩ : BufTy).Contents (Elt F) → (⟨S4096x4096, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S4096x4096, .f32⟩) main_call3_v0) (broadcastInDim S4096x4096 ![] bcast_S_S4096x4096),
    TRef.binary (TRef.of (T := ⟨S4096x4096, .f32⟩) main_v63) (TRef.of (T := ⟨S4096x4096, .f32⟩) main_call3_v0) (TRef.of (T := ⟨S4096x4096, .f32⟩) main_v64) maximumf,
    binary main_v17 main_v64 main_v65 (mulf : (⟨S4096x4096, .f32⟩ : BufTy).Contents (Elt F) → (⟨S4096x4096, .f32⟩ : BufTy).Contents (Elt F) → (⟨S4096x4096, .f32⟩ : BufTy).Contents (Elt F)),
    binary main_v65 main_v19 main_v66 (addf : (⟨S4096x4096, .f32⟩ : BufTy).Contents (Elt F) → (⟨S4096x4096, .f32⟩ : BufTy).Contents (Elt F) → (⟨S4096x4096, .f32⟩ : BufTy).Contents (Elt F)),
    binary main_v66 main_arg1 main_v67 (mulf : (⟨S4096x4096, .f32⟩ : BufTy).Contents (Elt F) → (⟨S4096x4096, .f32⟩ : BufTy).Contents (Elt F) → (⟨S4096x4096, .f32⟩ : BufTy).Contents (Elt F)),
    binary main_v67 main_v61 main_v68 ((fun l r => Host.dotGeneral dot_S4096x4096_S4096x128_S4096x128_1_0_0_1_n_n none l r) : (⟨S4096x4096, .f32⟩ : BufTy).Contents (Elt F) → (⟨S4096x128, .f32⟩ : BufTy).Contents (Elt F) → (⟨S4096x128, .f32⟩ : BufTy).Contents (Elt F)),
    binary main_v61 main_v68 main_v69 ((fun a b => concatenate S4096x256 1 [⟨S4096x128, a⟩, ⟨S4096x128, b⟩] concatenates_S4096x128_S4096x128_S4096x256_d1) : (⟨S4096x128, .f32⟩ : BufTy).Contents (Elt F) → (⟨S4096x128, .f32⟩ : BufTy).Contents (Elt F) → (⟨S4096x256, .f32⟩ : BufTy).Contents (Elt F)),
    binary main_v69 main_arg7 main_v70 ((fun l r => Host.dotGeneral dot_S4096x256_S256x128_S4096x128_1_0_0_1_n_n none l r) : (⟨S4096x256, .f32⟩ : BufTy).Contents (Elt F) → (⟨S256x128, .f32⟩ : BufTy).Contents (Elt F) → (⟨S4096x128, .f32⟩ : BufTy).Contents (Elt F)),
    unary main_arg8 main_v71 (broadcastInDim S1x128 ![1] bcast_S128_S1x128_1 : (⟨S128, .f32⟩ : BufTy).Contents (Elt F) → (⟨S1x128, .f32⟩ : BufTy).Contents (Elt F)),
    unary main_v71 main_v72 (broadcastInDim S4096x128 ![0, 1] bcast_S1x128_S4096x128_0_1 : (⟨S1x128, .f32⟩ : BufTy).Contents (Elt F) → (⟨S4096x128, .f32⟩ : BufTy).Contents (Elt F)),
    binary main_v70 main_v72 main_v73 (addf : (⟨S4096x128, .f32⟩ : BufTy).Contents (Elt F) → (⟨S4096x128, .f32⟩ : BufTy).Contents (Elt F) → (⟨S4096x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S4096x128, .f32⟩) main_call4_v0) (broadcastInDim S4096x128 ![] bcast_S_S4096x128),
    TRef.binary (TRef.of (T := ⟨S4096x128, .f32⟩) main_v73) (TRef.of (T := ⟨S4096x128, .f32⟩) main_call4_v0) (TRef.of (T := ⟨S4096x128, .f32⟩) main_v74) maximumf,
    binary main_v74 main_arg9 main_v75 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    unary main_arg10 main_v76 (broadcastInDim S1x128 ![1] bcast_S128_S1x128_1 : (⟨S128, .f32⟩ : BufTy).Contents (Elt F) → (⟨S1x128, .f32⟩ : BufTy).Contents (Elt F)),
    unary main_v76 main_v77 (broadcastInDim S4096x128 ![0, 1] bcast_S1x128_S4096x128_0_1 : (⟨S1x128, .f32⟩ : BufTy).Contents (Elt F) → (⟨S4096x128, .f32⟩ : BufTy).Contents (Elt F)),
    binary main_v75 main_v77 main_v78 (addf : (⟨S4096x128, .f32⟩ : BufTy).Contents (Elt F) → (⟨S4096x128, .f32⟩ : BufTy).Contents (Elt F) → (⟨S4096x128, .f32⟩ : BufTy).Contents (Elt F)),
    binary main_v61 main_v78 main_v79 (addf : (⟨S4096x128, .f32⟩ : BufTy).Contents (Elt F) → (⟨S4096x128, .f32⟩ : BufTy).Contents (Elt F) → (⟨S4096x128, .f32⟩ : BufTy).Contents (Elt F)),
    nullary main_cst_9 (constant S_ .f32 0x00000000#32),
    binary main_v79 main_cst_9 main_v80 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
    unary main_v80 main_v81 (broadcastInDim S4096x1 ![0] bcast_S4096_S4096x1_0 : (⟨S4096, .f32⟩ : BufTy).Contents (Elt F) → (⟨S4096x1, .f32⟩ : BufTy).Contents (Elt F)),
    nullary main_cst_10 (constant S_ .f32 0x43000000#32),
    unary main_cst_10 main_v82 (broadcastInDim S4096x1 ![] bcast_S_S4096x1 : (⟨S_, .f32⟩ : BufTy).Contents (Elt F) → (⟨S4096x1, .f32⟩ : BufTy).Contents (Elt F)),
    binary main_v81 main_v82 main_v83 (Host.divf : (⟨S4096x1, .f32⟩ : BufTy).Contents (Elt F) → (⟨S4096x1, .f32⟩ : BufTy).Contents (Elt F) → (⟨S4096x1, .f32⟩ : BufTy).Contents (Elt F)),
    unary main_v83 main_v84 (broadcastInDim S4096x128 ![0, 1] bcast_S4096x1_S4096x128_0_1 : (⟨S4096x1, .f32⟩ : BufTy).Contents (Elt F) → (⟨S4096x128, .f32⟩ : BufTy).Contents (Elt F)),
    binary main_v79 main_v84 main_v85 (subf : (⟨S4096x128, .f32⟩ : BufTy).Contents (Elt F) → (⟨S4096x128, .f32⟩ : BufTy).Contents (Elt F) → (⟨S4096x128, .f32⟩ : BufTy).Contents (Elt F)),
    binary main_v85 main_v85 main_v86 (mulf : (⟨S4096x128, .f32⟩ : BufTy).Contents (Elt F) → (⟨S4096x128, .f32⟩ : BufTy).Contents (Elt F) → (⟨S4096x128, .f32⟩ : BufTy).Contents (Elt F)),
    nullary main_cst_11 (constant S_ .f32 0x00000000#32),
    binary main_v86 main_cst_11 main_v87 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
    unary main_v87 main_v88 (broadcastInDim S4096x1 ![0] bcast_S4096_S4096x1_0 : (⟨S4096, .f32⟩ : BufTy).Contents (Elt F) → (⟨S4096x1, .f32⟩ : BufTy).Contents (Elt F)),
    nullary main_cst_12 (constant S_ .f32 0x43000000#32),
    unary main_cst_12 main_v89 (broadcastInDim S4096x1 ![] bcast_S_S4096x1 : (⟨S_, .f32⟩ : BufTy).Contents (Elt F) → (⟨S4096x1, .f32⟩ : BufTy).Contents (Elt F)),
    binary main_v88 main_v89 main_v90 (Host.divf : (⟨S4096x1, .f32⟩ : BufTy).Contents (Elt F) → (⟨S4096x1, .f32⟩ : BufTy).Contents (Elt F) → (⟨S4096x1, .f32⟩ : BufTy).Contents (Elt F)),
    unary main_v83 main_v91 (broadcastInDim S4096x128 ![0, 1] bcast_S4096x1_S4096x128_0_1 : (⟨S4096x1, .f32⟩ : BufTy).Contents (Elt F) → (⟨S4096x128, .f32⟩ : BufTy).Contents (Elt F)),
    binary main_v79 main_v91 main_v92 (subf : (⟨S4096x128, .f32⟩ : BufTy).Contents (Elt F) → (⟨S4096x128, .f32⟩ : BufTy).Contents (Elt F) → (⟨S4096x128, .f32⟩ : BufTy).Contents (Elt F)),
    nullary main_cst_13 (constant S_ .f32 0x3727C5AC#32),
    unary main_cst_13 main_v93 (broadcastInDim S4096x1 ![] bcast_S_S4096x1 : (⟨S_, .f32⟩ : BufTy).Contents (Elt F) → (⟨S4096x1, .f32⟩ : BufTy).Contents (Elt F)),
    binary main_v90 main_v93 main_v94 (addf : (⟨S4096x1, .f32⟩ : BufTy).Contents (Elt F) → (⟨S4096x1, .f32⟩ : BufTy).Contents (Elt F) → (⟨S4096x1, .f32⟩ : BufTy).Contents (Elt F)),
    unary main_v94 main_v95 (Host.rsqrt : (⟨S4096x1, .f32⟩ : BufTy).Contents (Elt F) → (⟨S4096x1, .f32⟩ : BufTy).Contents (Elt F)),
    unary main_v95 main_v96 (broadcastInDim S4096x128 ![0, 1] bcast_S4096x1_S4096x128_0_1 : (⟨S4096x1, .f32⟩ : BufTy).Contents (Elt F) → (⟨S4096x128, .f32⟩ : BufTy).Contents (Elt F)),
    binary main_v92 main_v96 main_v97 (mulf : (⟨S4096x128, .f32⟩ : BufTy).Contents (Elt F) → (⟨S4096x128, .f32⟩ : BufTy).Contents (Elt F) → (⟨S4096x128, .f32⟩ : BufTy).Contents (Elt F)),
    unary main_arg11 main_v98 (broadcastInDim S1x128 ![1] bcast_S128_S1x128_1 : (⟨S128, .f32⟩ : BufTy).Contents (Elt F) → (⟨S1x128, .f32⟩ : BufTy).Contents (Elt F)),
    unary main_v98 main_v99 (broadcastInDim S4096x128 ![0, 1] bcast_S1x128_S4096x128_0_1 : (⟨S1x128, .f32⟩ : BufTy).Contents (Elt F) → (⟨S4096x128, .f32⟩ : BufTy).Contents (Elt F)),
    binary main_v97 main_v99 main_v100 (mulf : (⟨S4096x128, .f32⟩ : BufTy).Contents (Elt F) → (⟨S4096x128, .f32⟩ : BufTy).Contents (Elt F) → (⟨S4096x128, .f32⟩ : BufTy).Contents (Elt F)),
    unary main_arg12 main_v101 (broadcastInDim S1x128 ![1] bcast_S128_S1x128_1 : (⟨S128, .f32⟩ : BufTy).Contents (Elt F) → (⟨S1x128, .f32⟩ : BufTy).Contents (Elt F)),
    unary main_v101 main_v102 (broadcastInDim S4096x128 ![0, 1] bcast_S1x128_S4096x128_0_1 : (⟨S1x128, .f32⟩ : BufTy).Contents (Elt F) → (⟨S4096x128, .f32⟩ : BufTy).Contents (Elt F)),
    binary main_v100 main_v102 main_v103 (addf : (⟨S4096x128, .f32⟩ : BufTy).Contents (Elt F) → (⟨S4096x128, .f32⟩ : BufTy).Contents (Elt F) → (⟨S4096x128, .f32⟩ : BufTy).Contents (Elt F)) ]

/-- The third message-passing step: from `main_v103` to the result `main_v145`. -/
abbrev st3 : List (HloOp τ sig (Elt F)) :=
  [ unary main_v103 main_v104 ((transpose S128x4096 [1, 0] · transposes_S4096x128_S128x4096_1_0) : (⟨S4096x128, .f32⟩ : BufTy).Contents (Elt F) → (⟨S128x4096, .f32⟩ : BufTy).Contents (Elt F)),
    binary main_v103 main_v104 main_v105 ((fun l r => Host.dotGeneral dot_S4096x128_S128x4096_S4096x4096_1_0_0_1_n_n none l r) : (⟨S4096x128, .f32⟩ : BufTy).Contents (Elt F) → (⟨S128x4096, .f32⟩ : BufTy).Contents (Elt F) → (⟨S4096x4096, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S4096x4096, .f32⟩) main_call5_v0) (broadcastInDim S4096x4096 ![] bcast_S_S4096x4096),
    TRef.binary (TRef.of (T := ⟨S4096x4096, .f32⟩) main_v105) (TRef.of (T := ⟨S4096x4096, .f32⟩) main_call5_v0) (TRef.of (T := ⟨S4096x4096, .f32⟩) main_v106) maximumf,
    binary main_v17 main_v106 main_v107 (mulf : (⟨S4096x4096, .f32⟩ : BufTy).Contents (Elt F) → (⟨S4096x4096, .f32⟩ : BufTy).Contents (Elt F) → (⟨S4096x4096, .f32⟩ : BufTy).Contents (Elt F)),
    binary main_v107 main_v19 main_v108 (addf : (⟨S4096x4096, .f32⟩ : BufTy).Contents (Elt F) → (⟨S4096x4096, .f32⟩ : BufTy).Contents (Elt F) → (⟨S4096x4096, .f32⟩ : BufTy).Contents (Elt F)),
    binary main_v108 main_arg1 main_v109 (mulf : (⟨S4096x4096, .f32⟩ : BufTy).Contents (Elt F) → (⟨S4096x4096, .f32⟩ : BufTy).Contents (Elt F) → (⟨S4096x4096, .f32⟩ : BufTy).Contents (Elt F)),
    binary main_v109 main_v103 main_v110 ((fun l r => Host.dotGeneral dot_S4096x4096_S4096x128_S4096x128_1_0_0_1_n_n none l r) : (⟨S4096x4096, .f32⟩ : BufTy).Contents (Elt F) → (⟨S4096x128, .f32⟩ : BufTy).Contents (Elt F) → (⟨S4096x128, .f32⟩ : BufTy).Contents (Elt F)),
    binary main_v103 main_v110 main_v111 ((fun a b => concatenate S4096x256 1 [⟨S4096x128, a⟩, ⟨S4096x128, b⟩] concatenates_S4096x128_S4096x128_S4096x256_d1) : (⟨S4096x128, .f32⟩ : BufTy).Contents (Elt F) → (⟨S4096x128, .f32⟩ : BufTy).Contents (Elt F) → (⟨S4096x256, .f32⟩ : BufTy).Contents (Elt F)),
    binary main_v111 main_arg7 main_v112 ((fun l r => Host.dotGeneral dot_S4096x256_S256x128_S4096x128_1_0_0_1_n_n none l r) : (⟨S4096x256, .f32⟩ : BufTy).Contents (Elt F) → (⟨S256x128, .f32⟩ : BufTy).Contents (Elt F) → (⟨S4096x128, .f32⟩ : BufTy).Contents (Elt F)),
    unary main_arg8 main_v113 (broadcastInDim S1x128 ![1] bcast_S128_S1x128_1 : (⟨S128, .f32⟩ : BufTy).Contents (Elt F) → (⟨S1x128, .f32⟩ : BufTy).Contents (Elt F)),
    unary main_v113 main_v114 (broadcastInDim S4096x128 ![0, 1] bcast_S1x128_S4096x128_0_1 : (⟨S1x128, .f32⟩ : BufTy).Contents (Elt F) → (⟨S4096x128, .f32⟩ : BufTy).Contents (Elt F)),
    binary main_v112 main_v114 main_v115 (addf : (⟨S4096x128, .f32⟩ : BufTy).Contents (Elt F) → (⟨S4096x128, .f32⟩ : BufTy).Contents (Elt F) → (⟨S4096x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S4096x128, .f32⟩) main_call6_v0) (broadcastInDim S4096x128 ![] bcast_S_S4096x128),
    TRef.binary (TRef.of (T := ⟨S4096x128, .f32⟩) main_v115) (TRef.of (T := ⟨S4096x128, .f32⟩) main_call6_v0) (TRef.of (T := ⟨S4096x128, .f32⟩) main_v116) maximumf,
    binary main_v116 main_arg9 main_v117 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    unary main_arg10 main_v118 (broadcastInDim S1x128 ![1] bcast_S128_S1x128_1 : (⟨S128, .f32⟩ : BufTy).Contents (Elt F) → (⟨S1x128, .f32⟩ : BufTy).Contents (Elt F)),
    unary main_v118 main_v119 (broadcastInDim S4096x128 ![0, 1] bcast_S1x128_S4096x128_0_1 : (⟨S1x128, .f32⟩ : BufTy).Contents (Elt F) → (⟨S4096x128, .f32⟩ : BufTy).Contents (Elt F)),
    binary main_v117 main_v119 main_v120 (addf : (⟨S4096x128, .f32⟩ : BufTy).Contents (Elt F) → (⟨S4096x128, .f32⟩ : BufTy).Contents (Elt F) → (⟨S4096x128, .f32⟩ : BufTy).Contents (Elt F)),
    binary main_v103 main_v120 main_v121 (addf : (⟨S4096x128, .f32⟩ : BufTy).Contents (Elt F) → (⟨S4096x128, .f32⟩ : BufTy).Contents (Elt F) → (⟨S4096x128, .f32⟩ : BufTy).Contents (Elt F)),
    nullary main_cst_14 (constant S_ .f32 0x00000000#32),
    binary main_v121 main_cst_14 main_v122 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
    unary main_v122 main_v123 (broadcastInDim S4096x1 ![0] bcast_S4096_S4096x1_0 : (⟨S4096, .f32⟩ : BufTy).Contents (Elt F) → (⟨S4096x1, .f32⟩ : BufTy).Contents (Elt F)),
    nullary main_cst_15 (constant S_ .f32 0x43000000#32),
    unary main_cst_15 main_v124 (broadcastInDim S4096x1 ![] bcast_S_S4096x1 : (⟨S_, .f32⟩ : BufTy).Contents (Elt F) → (⟨S4096x1, .f32⟩ : BufTy).Contents (Elt F)),
    binary main_v123 main_v124 main_v125 (Host.divf : (⟨S4096x1, .f32⟩ : BufTy).Contents (Elt F) → (⟨S4096x1, .f32⟩ : BufTy).Contents (Elt F) → (⟨S4096x1, .f32⟩ : BufTy).Contents (Elt F)),
    unary main_v125 main_v126 (broadcastInDim S4096x128 ![0, 1] bcast_S4096x1_S4096x128_0_1 : (⟨S4096x1, .f32⟩ : BufTy).Contents (Elt F) → (⟨S4096x128, .f32⟩ : BufTy).Contents (Elt F)),
    binary main_v121 main_v126 main_v127 (subf : (⟨S4096x128, .f32⟩ : BufTy).Contents (Elt F) → (⟨S4096x128, .f32⟩ : BufTy).Contents (Elt F) → (⟨S4096x128, .f32⟩ : BufTy).Contents (Elt F)),
    binary main_v127 main_v127 main_v128 (mulf : (⟨S4096x128, .f32⟩ : BufTy).Contents (Elt F) → (⟨S4096x128, .f32⟩ : BufTy).Contents (Elt F) → (⟨S4096x128, .f32⟩ : BufTy).Contents (Elt F)),
    nullary main_cst_16 (constant S_ .f32 0x00000000#32),
    binary main_v128 main_cst_16 main_v129 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
    unary main_v129 main_v130 (broadcastInDim S4096x1 ![0] bcast_S4096_S4096x1_0 : (⟨S4096, .f32⟩ : BufTy).Contents (Elt F) → (⟨S4096x1, .f32⟩ : BufTy).Contents (Elt F)),
    nullary main_cst_17 (constant S_ .f32 0x43000000#32),
    unary main_cst_17 main_v131 (broadcastInDim S4096x1 ![] bcast_S_S4096x1 : (⟨S_, .f32⟩ : BufTy).Contents (Elt F) → (⟨S4096x1, .f32⟩ : BufTy).Contents (Elt F)),
    binary main_v130 main_v131 main_v132 (Host.divf : (⟨S4096x1, .f32⟩ : BufTy).Contents (Elt F) → (⟨S4096x1, .f32⟩ : BufTy).Contents (Elt F) → (⟨S4096x1, .f32⟩ : BufTy).Contents (Elt F)),
    unary main_v125 main_v133 (broadcastInDim S4096x128 ![0, 1] bcast_S4096x1_S4096x128_0_1 : (⟨S4096x1, .f32⟩ : BufTy).Contents (Elt F) → (⟨S4096x128, .f32⟩ : BufTy).Contents (Elt F)),
    binary main_v121 main_v133 main_v134 (subf : (⟨S4096x128, .f32⟩ : BufTy).Contents (Elt F) → (⟨S4096x128, .f32⟩ : BufTy).Contents (Elt F) → (⟨S4096x128, .f32⟩ : BufTy).Contents (Elt F)),
    nullary main_cst_18 (constant S_ .f32 0x3727C5AC#32),
    unary main_cst_18 main_v135 (broadcastInDim S4096x1 ![] bcast_S_S4096x1 : (⟨S_, .f32⟩ : BufTy).Contents (Elt F) → (⟨S4096x1, .f32⟩ : BufTy).Contents (Elt F)),
    binary main_v132 main_v135 main_v136 (addf : (⟨S4096x1, .f32⟩ : BufTy).Contents (Elt F) → (⟨S4096x1, .f32⟩ : BufTy).Contents (Elt F) → (⟨S4096x1, .f32⟩ : BufTy).Contents (Elt F)),
    unary main_v136 main_v137 (Host.rsqrt : (⟨S4096x1, .f32⟩ : BufTy).Contents (Elt F) → (⟨S4096x1, .f32⟩ : BufTy).Contents (Elt F)),
    unary main_v137 main_v138 (broadcastInDim S4096x128 ![0, 1] bcast_S4096x1_S4096x128_0_1 : (⟨S4096x1, .f32⟩ : BufTy).Contents (Elt F) → (⟨S4096x128, .f32⟩ : BufTy).Contents (Elt F)),
    binary main_v134 main_v138 main_v139 (mulf : (⟨S4096x128, .f32⟩ : BufTy).Contents (Elt F) → (⟨S4096x128, .f32⟩ : BufTy).Contents (Elt F) → (⟨S4096x128, .f32⟩ : BufTy).Contents (Elt F)),
    unary main_arg11 main_v140 (broadcastInDim S1x128 ![1] bcast_S128_S1x128_1 : (⟨S128, .f32⟩ : BufTy).Contents (Elt F) → (⟨S1x128, .f32⟩ : BufTy).Contents (Elt F)),
    unary main_v140 main_v141 (broadcastInDim S4096x128 ![0, 1] bcast_S1x128_S4096x128_0_1 : (⟨S1x128, .f32⟩ : BufTy).Contents (Elt F) → (⟨S4096x128, .f32⟩ : BufTy).Contents (Elt F)),
    binary main_v139 main_v141 main_v142 (mulf : (⟨S4096x128, .f32⟩ : BufTy).Contents (Elt F) → (⟨S4096x128, .f32⟩ : BufTy).Contents (Elt F) → (⟨S4096x128, .f32⟩ : BufTy).Contents (Elt F)),
    unary main_arg12 main_v143 (broadcastInDim S1x128 ![1] bcast_S128_S1x128_1 : (⟨S128, .f32⟩ : BufTy).Contents (Elt F) → (⟨S1x128, .f32⟩ : BufTy).Contents (Elt F)),
    unary main_v143 main_v144 (broadcastInDim S4096x128 ![0, 1] bcast_S1x128_S4096x128_0_1 : (⟨S1x128, .f32⟩ : BufTy).Contents (Elt F) → (⟨S4096x128, .f32⟩ : BufTy).Contents (Elt F)),
    binary main_v142 main_v144 main_v145 (addf : (⟨S4096x128, .f32⟩ : BufTy).Contents (Elt F) → (⟨S4096x128, .f32⟩ : BufTy).Contents (Elt F) → (⟨S4096x128, .f32⟩ : BufTy).Contents (Elt F)) ]

set_option maxRecDepth 8192 in
/-- The operations of @main are the four stretches in order. -/
theorem ops_cut : (ops : List (HloOp τ sig (Elt F))) = pro ++ st1 ++ st2 ++ st3 := rfl

/-! ## The fold over a concatenation -/

/-- The fold over two lines run one after the other: the second's over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The fold over @main's operations, stretch by stretch. -/
theorem after_ops (V : Valuation τ sig (Elt F)) :
    after ops V = after st3 (after st2 (after st1 (after pro V))) := by
  rw [ops_cut, after_append, after_append, after_append]

/-! ## What each stretch writes

Every operation writes its result buffer only: a line's written references are a literal list, and a reference outside
the list keeps its contents through the line (`after_of_writes_sub`). -/

section Writes

variable {W : List (Ref sig .tc)} {x a b y : Ref sig .tc}

theorem nullary_writes_sub {v : y.ty.Contents (Elt F)} {hy} (h : y ∈ W) :
    (nullary (τ := τ) y v hy).writes ⊆ (W.map (Proc.devRef (τ := τ) .tc)).toFinset := by
  rw [nullary_writes, Finset.singleton_subset_iff, List.mem_toFinset]; exact List.mem_map_of_mem h
theorem unary_writes_sub {f : x.ty.Contents (Elt F) → y.ty.Contents (Elt F)} {hx hy} (h : y ∈ W) :
    (unary (τ := τ) x y f hx hy).writes ⊆ (W.map (Proc.devRef (τ := τ) .tc)).toFinset := by
  rw [unary_writes, Finset.singleton_subset_iff, List.mem_toFinset]; exact List.mem_map_of_mem h
theorem binary_writes_sub {f : a.ty.Contents (Elt F) → b.ty.Contents (Elt F) → y.ty.Contents (Elt F)} {ha hb hy} (h : y ∈ W) :
    (binary (τ := τ) a b y f ha hb hy).writes ⊆ (W.map (Proc.devRef (τ := τ) .tc)).toFinset := by
  rw [binary_writes, Finset.singleton_subset_iff, List.mem_toFinset]; exact List.mem_map_of_mem h

end Writes

/-- The references the prologue writes. -/
abbrev pro_W : List (Ref sig .tc) :=
  [main_v0, main_v1, main_v2, main_v3, main_cst, main_call0_v0, main_call0_v1, main_v4, main_cst_0, main_v5, main_v6,
   main_v7, main_v8, main_v9, main_v10, main_v11, main_cst_1, main_v12, main_v13, main_v14, main_cst_2, main_v15,
   main_v16, main_v17, main_cst_3, main_v18, main_v19]
set_option maxRecDepth 8192 in
theorem pro_writes : (pro : List (HloOp τ sig (Elt F))).Forall fun op => op.writes ⊆ (pro_W.map (Proc.devRef (τ := τ) .tc)).toFinset :=
  ⟨binary_writes_sub (by decide), unary_writes_sub (by decide), unary_writes_sub (by decide),
   binary_writes_sub (by decide), nullary_writes_sub (by decide), unary_writes_sub (by decide),
   unary_writes_sub (by decide), binary_writes_sub (by decide), nullary_writes_sub (by decide),
   unary_writes_sub (by decide), binary_writes_sub (by decide), binary_writes_sub (by decide),
   binary_writes_sub (by decide), binary_writes_sub (by decide), binary_writes_sub (by decide),
   binary_writes_sub (by decide), nullary_writes_sub (by decide), unary_writes_sub (by decide),
   binary_writes_sub (by decide), unary_writes_sub (by decide), nullary_writes_sub (by decide),
   unary_writes_sub (by decide), binary_writes_sub (by decide), unary_writes_sub (by decide),
   nullary_writes_sub (by decide), unary_writes_sub (by decide), binary_writes_sub (by decide)⟩
/-- A reference the prologue does not write keeps its contents through it. -/
theorem pro_keeps (V : Valuation τ sig (Elt F)) {r : Ref sig .tc} (h : r ∉ pro_W) :
    after pro V (Proc.devRef .tc r) = V (Proc.devRef .tc r) :=
  after_of_writes_sub pro V pro_writes h
set_option maxRecDepth 8192 in
theorem pro_fresh : (pro : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl,
   rfl, rfl, rfl, rfl⟩

/-- The references the first step writes. -/
abbrev st1_W : List (Ref sig .tc) :=
  [main_v20, main_v21, main_call1_cst, main_call1_v0, main_v22, main_v23, main_v24, main_v25, main_v26, main_v27,
   main_v28, main_v29, main_v30, main_v31, main_call2_cst, main_call2_v0, main_v32, main_v33, main_v34, main_v35,
   main_v36, main_v37, main_cst_4, main_v38, main_v39, main_cst_5, main_v40, main_v41, main_v42, main_v43, main_v44,
   main_cst_6, main_v45, main_v46, main_cst_7, main_v47, main_v48, main_v49, main_v50, main_cst_8, main_v51, main_v52,
   main_v53, main_v54, main_v55, main_v56, main_v57, main_v58, main_v59, main_v60, main_v61]
set_option maxRecDepth 8192 in
theorem st1_writes : (st1 : List (HloOp τ sig (Elt F))).Forall fun op => op.writes ⊆ (st1_W.map (Proc.devRef (τ := τ) .tc)).toFinset :=
  ⟨unary_writes_sub (by decide), binary_writes_sub (by decide), nullary_writes_sub (by decide),
   unary_writes_sub (by decide), binary_writes_sub (by decide), binary_writes_sub (by decide),
   binary_writes_sub (by decide), binary_writes_sub (by decide), binary_writes_sub (by decide),
   binary_writes_sub (by decide), binary_writes_sub (by decide), unary_writes_sub (by decide),
   unary_writes_sub (by decide), binary_writes_sub (by decide), nullary_writes_sub (by decide),
   unary_writes_sub (by decide), binary_writes_sub (by decide), binary_writes_sub (by decide),
   unary_writes_sub (by decide), unary_writes_sub (by decide), binary_writes_sub (by decide),
   binary_writes_sub (by decide), nullary_writes_sub (by decide), binary_writes_sub (by decide),
   unary_writes_sub (by decide), nullary_writes_sub (by decide), unary_writes_sub (by decide),
   binary_writes_sub (by decide), unary_writes_sub (by decide), binary_writes_sub (by decide),
   binary_writes_sub (by decide), nullary_writes_sub (by decide), binary_writes_sub (by decide),
   unary_writes_sub (by decide), nullary_writes_sub (by decide), unary_writes_sub (by decide),
   binary_writes_sub (by decide), unary_writes_sub (by decide), binary_writes_sub (by decide),
   nullary_writes_sub (by decide), unary_writes_sub (by decide), binary_writes_sub (by decide),
   unary_writes_sub (by decide), unary_writes_sub (by decide), binary_writes_sub (by decide),
   unary_writes_sub (by decide), unary_writes_sub (by decide), binary_writes_sub (by decide),
   unary_writes_sub (by decide), unary_writes_sub (by decide), binary_writes_sub (by decide)⟩
/-- A reference the first step does not write keeps its contents through it. -/
theorem st1_keeps (V : Valuation τ sig (Elt F)) {r : Ref sig .tc} (h : r ∉ st1_W) :
    after st1 V (Proc.devRef .tc r) = V (Proc.devRef .tc r) :=
  after_of_writes_sub st1 V st1_writes h
set_option maxRecDepth 8192 in
theorem st1_fresh : (st1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl,
   rfl, rfl, rfl, rfl, rfl⟩

/-- The references the second step writes. -/
abbrev st2_W : List (Ref sig .tc) :=
  [main_v62, main_v63, main_call3_cst, main_call3_v0, main_v64, main_v65, main_v66, main_v67, main_v68, main_v69,
   main_v70, main_v71, main_v72, main_v73, main_call4_cst, main_call4_v0, main_v74, main_v75, main_v76, main_v77,
   main_v78, main_v79, main_cst_9, main_v80, main_v81, main_cst_10, main_v82, main_v83, main_v84, main_v85, main_v86,
   main_cst_11, main_v87, main_v88, main_cst_12, main_v89, main_v90, main_v91, main_v92, main_cst_13, main_v93,
   main_v94, main_v95, main_v96, main_v97, main_v98, main_v99, main_v100, main_v101, main_v102, main_v103]
set_option maxRecDepth 8192 in
theorem st2_writes : (st2 : List (HloOp τ sig (Elt F))).Forall fun op => op.writes ⊆ (st2_W.map (Proc.devRef (τ := τ) .tc)).toFinset :=
  ⟨unary_writes_sub (by decide), binary_writes_sub (by decide), nullary_writes_sub (by decide),
   unary_writes_sub (by decide), binary_writes_sub (by decide), binary_writes_sub (by decide),
   binary_writes_sub (by decide), binary_writes_sub (by decide), binary_writes_sub (by decide),
   binary_writes_sub (by decide), binary_writes_sub (by decide), unary_writes_sub (by decide),
   unary_writes_sub (by decide), binary_writes_sub (by decide), nullary_writes_sub (by decide),
   unary_writes_sub (by decide), binary_writes_sub (by decide), binary_writes_sub (by decide),
   unary_writes_sub (by decide), unary_writes_sub (by decide), binary_writes_sub (by decide),
   binary_writes_sub (by decide), nullary_writes_sub (by decide), binary_writes_sub (by decide),
   unary_writes_sub (by decide), nullary_writes_sub (by decide), unary_writes_sub (by decide),
   binary_writes_sub (by decide), unary_writes_sub (by decide), binary_writes_sub (by decide),
   binary_writes_sub (by decide), nullary_writes_sub (by decide), binary_writes_sub (by decide),
   unary_writes_sub (by decide), nullary_writes_sub (by decide), unary_writes_sub (by decide),
   binary_writes_sub (by decide), unary_writes_sub (by decide), binary_writes_sub (by decide),
   nullary_writes_sub (by decide), unary_writes_sub (by decide), binary_writes_sub (by decide),
   unary_writes_sub (by decide), unary_writes_sub (by decide), binary_writes_sub (by decide),
   unary_writes_sub (by decide), unary_writes_sub (by decide), binary_writes_sub (by decide),
   unary_writes_sub (by decide), unary_writes_sub (by decide), binary_writes_sub (by decide)⟩
/-- A reference the second step does not write keeps its contents through it. -/
theorem st2_keeps (V : Valuation τ sig (Elt F)) {r : Ref sig .tc} (h : r ∉ st2_W) :
    after st2 V (Proc.devRef .tc r) = V (Proc.devRef .tc r) :=
  after_of_writes_sub st2 V st2_writes h
set_option maxRecDepth 8192 in
theorem st2_fresh : (st2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl,
   rfl, rfl, rfl, rfl, rfl⟩

/-- The references the third step writes. -/
abbrev st3_W : List (Ref sig .tc) :=
  [main_v104, main_v105, main_call5_cst, main_call5_v0, main_v106, main_v107, main_v108, main_v109, main_v110,
   main_v111, main_v112, main_v113, main_v114, main_v115, main_call6_cst, main_call6_v0, main_v116, main_v117,
   main_v118, main_v119, main_v120, main_v121, main_cst_14, main_v122, main_v123, main_cst_15, main_v124, main_v125,
   main_v126, main_v127, main_v128, main_cst_16, main_v129, main_v130, main_cst_17, main_v131, main_v132, main_v133,
   main_v134, main_cst_18, main_v135, main_v136, main_v137, main_v138, main_v139, main_v140, main_v141, main_v142,
   main_v143, main_v144, main_v145]
set_option maxRecDepth 8192 in
theorem st3_writes : (st3 : List (HloOp τ sig (Elt F))).Forall fun op => op.writes ⊆ (st3_W.map (Proc.devRef (τ := τ) .tc)).toFinset :=
  ⟨unary_writes_sub (by decide), binary_writes_sub (by decide), nullary_writes_sub (by decide),
   unary_writes_sub (by decide), binary_writes_sub (by decide), binary_writes_sub (by decide),
   binary_writes_sub (by decide), binary_writes_sub (by decide), binary_writes_sub (by decide),
   binary_writes_sub (by decide), binary_writes_sub (by decide), unary_writes_sub (by decide),
   unary_writes_sub (by decide), binary_writes_sub (by decide), nullary_writes_sub (by decide),
   unary_writes_sub (by decide), binary_writes_sub (by decide), binary_writes_sub (by decide),
   unary_writes_sub (by decide), unary_writes_sub (by decide), binary_writes_sub (by decide),
   binary_writes_sub (by decide), nullary_writes_sub (by decide), binary_writes_sub (by decide),
   unary_writes_sub (by decide), nullary_writes_sub (by decide), unary_writes_sub (by decide),
   binary_writes_sub (by decide), unary_writes_sub (by decide), binary_writes_sub (by decide),
   binary_writes_sub (by decide), nullary_writes_sub (by decide), binary_writes_sub (by decide),
   unary_writes_sub (by decide), nullary_writes_sub (by decide), unary_writes_sub (by decide),
   binary_writes_sub (by decide), unary_writes_sub (by decide), binary_writes_sub (by decide),
   nullary_writes_sub (by decide), unary_writes_sub (by decide), binary_writes_sub (by decide),
   unary_writes_sub (by decide), unary_writes_sub (by decide), binary_writes_sub (by decide),
   unary_writes_sub (by decide), unary_writes_sub (by decide), binary_writes_sub (by decide),
   unary_writes_sub (by decide), unary_writes_sub (by decide), binary_writes_sub (by decide)⟩
/-- A reference the third step does not write keeps its contents through it. -/
theorem st3_keeps (V : Valuation τ sig (Elt F)) {r : Ref sig .tc} (h : r ∉ st3_W) :
    after st3 V (Proc.devRef .tc r) = V (Proc.devRef .tc r) :=
  after_of_writes_sub st3 V st3_writes h
set_option maxRecDepth 8192 in
theorem st3_fresh : (st3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl,
   rfl, rfl, rfl, rfl, rfl⟩

/-! ## No operation writes an argument -/

/-- A reference none of the four stretches writes keeps its contents through @main. -/
theorem ops_keeps (V : Valuation τ sig (Elt F)) {r : Ref sig .tc}
    (h0 : r ∉ pro_W) (h1 : r ∉ st1_W) (h2 : r ∉ st2_W) (h3 : r ∉ st3_W) :
    after ops V (Proc.devRef .tc r) = V (Proc.devRef .tc r) := by
  rw [after_ops]
  exact (st3_keeps _ h3).trans <| (st2_keeps _ h2).trans <| (st1_keeps _ h1).trans (pro_keeps _ h0)

theorem ops_main_arg0 (V : Valuation τ sig (Elt F)) : after ops V (Proc.devRef .tc main_arg0) = V (Proc.devRef .tc main_arg0) :=
  ops_keeps V (by decide) (by decide) (by decide) (by decide)
theorem ops_main_arg1 (V : Valuation τ sig (Elt F)) : after ops V (Proc.devRef .tc main_arg1) = V (Proc.devRef .tc main_arg1) :=
  ops_keeps V (by decide) (by decide) (by decide) (by decide)
theorem ops_main_arg2 (V : Valuation τ sig (Elt F)) : after ops V (Proc.devRef .tc main_arg2) = V (Proc.devRef .tc main_arg2) :=
  ops_keeps V (by decide) (by decide) (by decide) (by decide)
theorem ops_main_arg3 (V : Valuation τ sig (Elt F)) : after ops V (Proc.devRef .tc main_arg3) = V (Proc.devRef .tc main_arg3) :=
  ops_keeps V (by decide) (by decide) (by decide) (by decide)
theorem ops_main_arg4 (V : Valuation τ sig (Elt F)) : after ops V (Proc.devRef .tc main_arg4) = V (Proc.devRef .tc main_arg4) :=
  ops_keeps V (by decide) (by decide) (by decide) (by decide)
theorem ops_main_arg5 (V : Valuation τ sig (Elt F)) : after ops V (Proc.devRef .tc main_arg5) = V (Proc.devRef .tc main_arg5) :=
  ops_keeps V (by decide) (by decide) (by decide) (by decide)
theorem ops_main_arg6 (V : Valuation τ sig (Elt F)) : after ops V (Proc.devRef .tc main_arg6) = V (Proc.devRef .tc main_arg6) :=
  ops_keeps V (by decide) (by decide) (by decide) (by decide)
theorem ops_main_arg7 (V : Valuation τ sig (Elt F)) : after ops V (Proc.devRef .tc main_arg7) = V (Proc.devRef .tc main_arg7) :=
  ops_keeps V (by decide) (by decide) (by decide) (by decide)
theorem ops_main_arg8 (V : Valuation τ sig (Elt F)) : after ops V (Proc.devRef .tc main_arg8) = V (Proc.devRef .tc main_arg8) :=
  ops_keeps V (by decide) (by decide) (by decide) (by decide)
theorem ops_main_arg9 (V : Valuation τ sig (Elt F)) : after ops V (Proc.devRef .tc main_arg9) = V (Proc.devRef .tc main_arg9) :=
  ops_keeps V (by decide) (by decide) (by decide) (by decide)
theorem ops_main_arg10 (V : Valuation τ sig (Elt F)) : after ops V (Proc.devRef .tc main_arg10) = V (Proc.devRef .tc main_arg10) :=
  ops_keeps V (by decide) (by decide) (by decide) (by decide)
theorem ops_main_arg11 (V : Valuation τ sig (Elt F)) : after ops V (Proc.devRef .tc main_arg11) = V (Proc.devRef .tc main_arg11) :=
  ops_keeps V (by decide) (by decide) (by decide) (by decide)
theorem ops_main_arg12 (V : Valuation τ sig (Elt F)) : after ops V (Proc.devRef .tc main_arg12) = V (Proc.devRef .tc main_arg12) :=
  ops_keeps V (by decide) (by decide) (by decide) (by decide)

/-- No operation allocates: each determines its results. -/
theorem ops_fresh : ∀ op ∈ (ops : List (HloOp τ sig (Elt F))), op.fresh = ∅ := by
  rw [ops_cut]
  intro op h
  rcases List.mem_append.mp h with h | h
  · rcases List.mem_append.mp h with h | h
    · rcases List.mem_append.mp h with h | h
      · exact List.forall_iff_forall_mem.mp pro_fresh op h
      · exact List.forall_iff_forall_mem.mp st1_fresh op h
    · exact List.forall_iff_forall_mem.mp st2_fresh op h
  · exact List.forall_iff_forall_mem.mp st3_fresh op h

/-! ## The run -/

/-- On every device, for any float values, from any memory with zero counters: every weakly fair execution of @main
    terminates with the result buffer at the fold of the four stretches over the launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v145)
        = after st3 (after st2 (after st1 (after pro (launchContents m c)))) (Proc.devRef .tc main_v145)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v145).trans (congrFun (after_ops _) _),
      (h c main_arg0).trans (ops_main_arg0 _),
      (h c main_arg1).trans (ops_main_arg1 _),
      (h c main_arg2).trans (ops_main_arg2 _),
      (h c main_arg3).trans (ops_main_arg3 _),
      (h c main_arg4).trans (ops_main_arg4 _),
      (h c main_arg5).trans (ops_main_arg5 _),
      (h c main_arg6).trans (ops_main_arg6 _),
      (h c main_arg7).trans (ops_main_arg7 _),
      (h c main_arg8).trans (ops_main_arg8 _),
      (h c main_arg9).trans (ops_main_arg9 _),
      (h c main_arg10).trans (ops_main_arg10 _),
      (h c main_arg11).trans (ops_main_arg11 _),
      (h c main_arg12).trans (ops_main_arg12 _)⟩)
    (run_seq scopedRefs_eq scopedSems_eq defs main (fun _ => ops) main_eq (fun _ => ops_sub) m ρ (fun _ => ops_fresh))

end Cert.RefRun

end
-- ==== Proof.Ref.Ops.lean ====
/-
  The reference's host operations read at an index, at the ideal instance, for variable operands: a rank-2 index is
  its two coordinates; a transposition exchanges them; each matrix product is the sum over the contracted
  coordinate; a broadcast reads its operand at the kept coordinates; a row sum from zero is the sum over the
  columns; two 128-wide blocks joined along the columns are the specification's side-by-side row.
-/
import proofs.«172293_j20512763806108_2_alg».proof.Proof.Gen.ReferenceIdeal
import proofs.«172293_j20512763806108_2_alg».proof.Proof.Spec
import Idealize.ShloMosaic.Lib.Pipeline.Value
import Idealize.ShloMosaic.Lib.ValueIdx
import Idealize.ShloMosaic.PureOps.Ideal.Laws

noncomputable section

namespace Cert.RefValue

open Cert.ReferenceIdeal Cert.ReferenceIdeal.Gen Idealize.ShloMosaic Idealize.ShloMosaic.ValueIdx
  Idealize.ShloMosaic.TcCoe Idealize.SL.Sem Idealize.ShloMosaic.StableHlo
open scoped BigOperators

/-- An array of extended reals over a shape. -/
abbrev Arr (s : Shape) : Type := FVec Ideal s .f32

/-- Two rank-2 indices with the same coordinates are equal. -/
theorem ix2_ext {n0 n1 : Nat} {f g : (⟨2, ![n0, n1]⟩ : Shape).Idx}
    (h0 : (f 0).val = (g 0).val) (h1 : (f 1).val = (g 1).val) : f = g := by
  funext d
  match d with
  | ⟨0, _⟩ => exact Fin.ext h0
  | ⟨1, _⟩ => exact Fin.ext h1

/-- Two rank-1 indices with the same coordinate are equal. -/
theorem ix1_ext {n : Nat} {f g : (⟨1, ![n]⟩ : Shape).Idx} (h0 : (f 0).val = (g 0).val) : f = g := by
  funext d
  match d with
  | ⟨0, _⟩ => exact Fin.ext h0

/-! ## Elementwise host operations -/

theorem hdivf_apply {s : Shape} (a b : Arr s) (i : s.Idx) : Host.divf (F := Ideal) a b i = Ideal.div (a i) (b i) := rfl
theorem hrsqrt_apply {s : Shape} (a : Arr s) (i : s.Idx) : Host.rsqrt (F := Ideal) a i = Ideal.rsqrt (a i) := rfl
theorem hexp_apply {s : Shape} (a : Arr s) (i : s.Idx) : Host.exp (F := Ideal) a i = Ideal.exp (a i) := rfl
theorem hnegf_apply {s : Shape} (a : Arr s) (i : s.Idx) : Host.negf (F := Ideal) a i = -(a i) := rfl

/-! ## Layout operations -/

/-- The transposed matrix reads the matrix with the coordinates exchanged. -/
theorem transpose_ix (y : Arr S4096x128) (k : Fin 128) (j : Fin 4096) :
    transpose S128x4096 [1, 0] y transposes_S4096x128_S128x4096_1_0 (ix2 k j) = y (ix2 j k) :=
  transpose_apply [1, 0] y transposes_S4096x128_S128x4096_1_0 (ix2 k j) (ix2 j k) (fun b => match b with
    | ⟨0, _⟩ => rfl
    | ⟨1, _⟩ => rfl)

/-- A scalar constant broadcast to any shape reads the constant. -/
theorem bcast_const {t : Shape} (h : S_.BroadcastsInDim t (![] : Fin 0 → Fin t.rank)) (w : BitVec 32) (i : t.Idx) :
    broadcastInDim t ![] h (constant (F := Ideal) S_ .f32 w) i = Ideal.ofBits .f32 w :=
  broadcastInDim_apply _ h _ i (fun a => a.elim0) (fun a => a.elim0)

/-- A vector of 128 entries broadcast along the rows reads the vector at the column. -/
theorem bcast_row (v : Arr S128) (r : Fin 4096) (c : Fin 128) :
    broadcastInDim S4096x128 ![0, 1] bcast_S1x128_S4096x128_0_1 (broadcastInDim S1x128 ![1] bcast_S128_S1x128_1 v) (ix2 r c)
      = v (ix1 c) :=
  (broadcastInDim_apply _ bcast_S1x128_S4096x128_0_1 _ (ix2 r c) (ix2 (0 : Fin 1) c) (fun a => match a with
    | ⟨0, _⟩ => by show 0 = if (1 : Nat) = 1 then 0 else r.val; rw [if_pos rfl]
    | ⟨1, _⟩ => by show c.val = if (128 : Nat) = 1 then 0 else c.val; rw [if_neg (by decide)])).trans
  (broadcastInDim_apply _ bcast_S128_S1x128_1 v (ix2 (0 : Fin 1) c) (ix1 c) (fun a => match a with
    | ⟨0, _⟩ => by show c.val = if (128 : Nat) = 1 then 0 else c.val; rw [if_neg (by decide)]))

/-- One value per row, as a column. -/
theorem bcast_col1 (v : Arr S4096) (r : Fin 4096) (z : Fin 1) :
    broadcastInDim S4096x1 ![0] bcast_S4096_S4096x1_0 v (ix2 r z) = v (ix1 r) :=
  broadcastInDim_apply _ bcast_S4096_S4096x1_0 v (ix2 r z) (ix1 r) (fun a => match a with
    | ⟨0, _⟩ => by show r.val = if (4096 : Nat) = 1 then 0 else r.val; rw [if_neg (by decide)])

/-- A column broadcast along the columns reads the column at the row. -/
theorem bcast_col (v : Arr S4096x1) (r : Fin 4096) (c : Fin 128) :
    broadcastInDim S4096x128 ![0, 1] bcast_S4096x1_S4096x128_0_1 v (ix2 r c) = v (ix2 r (0 : Fin 1)) :=
  broadcastInDim_apply _ bcast_S4096x1_S4096x128_0_1 v (ix2 r c) (ix2 r (0 : Fin 1)) (fun a => match a with
    | ⟨0, _⟩ => by show r.val = if (4096 : Nat) = 1 then 0 else r.val; rw [if_neg (by decide)]
    | ⟨1, _⟩ => by show 0 = if (1 : Nat) = 1 then 0 else c.val; rw [if_pos rfl])

/-- The sum of a row from the zero word is the sum of its 128 entries. -/
theorem reduce_row (y : Arr S4096x128) (r : Fin 4096) :
    Host.reduceAdd (F := Ideal) y (constant (F := Ideal) S_ .f32 0x00000000#32) reducesTo_S4096x128_S4096_d1 h_S_ (ix1 r)
      = ∑ k : Fin 128, y (ix2 r k) := by
  simp only [Host.reduceAdd, Ideal.hostReduceAdd_def]
  rw [Ideal.hostReduceAdd_single reducesTo_S4096x128_S4096_d1 (by decide), constant_apply, Ideal.ofBits_zero_f32, zero_add]
  refine Finset.sum_congr rfl fun k _ => ?_
  exact congrArg y (funext fun a => Fin.ext (by match a with | ⟨0, _⟩ => rfl | ⟨1, _⟩ => rfl))

/-- Two blocks of 128 columns joined along the columns, read at row `r` and column `q` of 256: the left block's
    entry when `q < 128`, else the right block's at `q - 128`. -/
theorem concat_cat (A B : Arr S4096x128) (r : Fin 4096) (q : Fin 256) :
    concatenate S4096x256 1 [⟨S4096x128, A⟩, ⟨S4096x128, B⟩] concatenates_S4096x128_S4096x128_S4096x256_d1 (ix2 r q)
      = Spec.cat (fun k => A (ix2 r k)) (fun k => B (ix2 r k)) q := by
  unfold Spec.cat
  by_cases hq : q.val < 128
  · rw [dif_pos hq]
    exact concatenate_pair_apply_left (t := S4096x256) (s₁ := S4096x128) (s₂ := S4096x128) 1 A B
      concatenates_S4096x128_S4096x128_S4096x256_d1 (ix2 r q) rfl (ix2 r ⟨q.val, hq⟩)
      (fun b => match b with | ⟨0, _⟩ => rfl | ⟨1, _⟩ => rfl)
  · rw [dif_neg hq]
    exact concatenate_pair_apply_right (t := S4096x256) (s₁ := S4096x128) (s₂ := S4096x128) 1 A B
      concatenates_S4096x128_S4096x128_S4096x256_d1 (ix2 r q) rfl rfl (ix2 r ⟨q.val - 128, by omega⟩)
      (fun b hb => match b, hb with | ⟨0, _⟩, _ => rfl | ⟨1, _⟩, hb => (hb rfl).elim)
      (by show q.val - 128 + 128 = q.val; omega)

/-! ## The matrix products -/

theorem dot_proj_l0 (i : S4096x128.Idx) (q : dot_S4096x64_S64x128_S4096x128_1_0_0_1_n_n.contr.Idx) : (dot_S4096x64_S64x128_S4096x128_1_0_0_1_n_n.lhsIdx i q 0).val = (i 0).val := by
  unfold DotDims.lhsIdx
  rw [dif_neg (show ¬(0 : Fin S4096x64.rank) ∈ dot_S4096x64_S64x128_S4096x128_1_0_0_1_n_n.lhsBatch by decide),
    dif_pos (show (0 : Fin S4096x64.rank) ∈ dot_S4096x64_S64x128_S4096x128_1_0_0_1_n_n.lhsNonContracting by decide)]
  rfl
theorem dot_proj_r1 (i : S4096x128.Idx) (q : dot_S4096x64_S64x128_S4096x128_1_0_0_1_n_n.contr.Idx) : (dot_S4096x64_S64x128_S4096x128_1_0_0_1_n_n.rhsIdx i q 1).val = (i 1).val := by
  unfold DotDims.rhsIdx
  rw [dif_neg (show ¬(1 : Fin S64x128.rank) ∈ dot_S4096x64_S64x128_S4096x128_1_0_0_1_n_n.rhsBatch by decide),
    dif_pos (show (1 : Fin S64x128.rank) ∈ dot_S4096x64_S64x128_S4096x128_1_0_0_1_n_n.rhsNonContracting by decide)]
  rfl
/-- The input projection's product. -/
theorem dot_proj (y0 : Arr S4096x64) (y1 : Arr S64x128) (r : Fin 4096) (c : Fin 128) :
    Host.dotGeneral (F := Ideal) dot_S4096x64_S64x128_S4096x128_1_0_0_1_n_n none y0 y1 (ix2 r c) = ∑ k : Fin 64, y0 (ix2 r k) * y1 (ix2 k c) := by
  simp only [Host.dotGeneral]
  rw [Ideal.dotGeneral_apply, ← Equiv.sum_comp (ValueIdx.contrEquiv1 dot_S4096x64_S64x128_S4096x128_1_0_0_1_n_n 64 rfl rfl).symm]
  refine Finset.sum_congr rfl fun k _ => ?_
  have hk := ValueIdx.contrEquiv1_symm_val dot_S4096x64_S64x128_S4096x128_1_0_0_1_n_n 64 rfl rfl k
  have el : dot_S4096x64_S64x128_S4096x128_1_0_0_1_n_n.lhsIdx (ix2 r c) ((ValueIdx.contrEquiv1 dot_S4096x64_S64x128_S4096x128_1_0_0_1_n_n 64 rfl rfl).symm k) = ix2 r k :=
    funext fun a => Fin.ext (by
      match a with
      | ⟨0, _⟩ => exact dot_proj_l0 _ _
      | ⟨1, _⟩ => exact (dot_S4096x64_S64x128_S4096x128_1_0_0_1_n_n.lhsIdx_val_of_single rfl _ _).trans hk)
  have er : dot_S4096x64_S64x128_S4096x128_1_0_0_1_n_n.rhsIdx (ix2 r c) ((ValueIdx.contrEquiv1 dot_S4096x64_S64x128_S4096x128_1_0_0_1_n_n 64 rfl rfl).symm k) = ix2 k c :=
    funext fun a => Fin.ext (by
      match a with
      | ⟨0, _⟩ => exact (dot_S4096x64_S64x128_S4096x128_1_0_0_1_n_n.rhsIdx_val_of_single rfl _ _).trans hk
      | ⟨1, _⟩ => exact dot_proj_r1 _ _)
  rw [el, er]

theorem dot_gram_l0 (i : S4096x4096.Idx) (q : dot_S4096x128_S128x4096_S4096x4096_1_0_0_1_n_n.contr.Idx) : (dot_S4096x128_S128x4096_S4096x4096_1_0_0_1_n_n.lhsIdx i q 0).val = (i 0).val := by
  unfold DotDims.lhsIdx
  rw [dif_neg (show ¬(0 : Fin S4096x128.rank) ∈ dot_S4096x128_S128x4096_S4096x4096_1_0_0_1_n_n.lhsBatch by decide),
    dif_pos (show (0 : Fin S4096x128.rank) ∈ dot_S4096x128_S128x4096_S4096x4096_1_0_0_1_n_n.lhsNonContracting by decide)]
  rfl
theorem dot_gram_r1 (i : S4096x4096.Idx) (q : dot_S4096x128_S128x4096_S4096x4096_1_0_0_1_n_n.contr.Idx) : (dot_S4096x128_S128x4096_S4096x4096_1_0_0_1_n_n.rhsIdx i q 1).val = (i 1).val := by
  unfold DotDims.rhsIdx
  rw [dif_neg (show ¬(1 : Fin S128x4096.rank) ∈ dot_S4096x128_S128x4096_S4096x4096_1_0_0_1_n_n.rhsBatch by decide),
    dif_pos (show (1 : Fin S128x4096.rank) ∈ dot_S4096x128_S128x4096_S4096x4096_1_0_0_1_n_n.rhsNonContracting by decide)]
  rfl
/-- The product of the features with their transpose. -/
theorem dot_gram (y0 : Arr S4096x128) (y1 : Arr S128x4096) (r : Fin 4096) (c : Fin 4096) :
    Host.dotGeneral (F := Ideal) dot_S4096x128_S128x4096_S4096x4096_1_0_0_1_n_n none y0 y1 (ix2 r c) = ∑ k : Fin 128, y0 (ix2 r k) * y1 (ix2 k c) := by
  simp only [Host.dotGeneral]
  rw [Ideal.dotGeneral_apply, ← Equiv.sum_comp (ValueIdx.contrEquiv1 dot_S4096x128_S128x4096_S4096x4096_1_0_0_1_n_n 128 rfl rfl).symm]
  refine Finset.sum_congr rfl fun k _ => ?_
  have hk := ValueIdx.contrEquiv1_symm_val dot_S4096x128_S128x4096_S4096x4096_1_0_0_1_n_n 128 rfl rfl k
  have el : dot_S4096x128_S128x4096_S4096x4096_1_0_0_1_n_n.lhsIdx (ix2 r c) ((ValueIdx.contrEquiv1 dot_S4096x128_S128x4096_S4096x4096_1_0_0_1_n_n 128 rfl rfl).symm k) = ix2 r k :=
    funext fun a => Fin.ext (by
      match a with
      | ⟨0, _⟩ => exact dot_gram_l0 _ _
      | ⟨1, _⟩ => exact (dot_S4096x128_S128x4096_S4096x4096_1_0_0_1_n_n.lhsIdx_val_of_single rfl _ _).trans hk)
  have er : dot_S4096x128_S128x4096_S4096x4096_1_0_0_1_n_n.rhsIdx (ix2 r c) ((ValueIdx.contrEquiv1 dot_S4096x128_S128x4096_S4096x4096_1_0_0_1_n_n 128 rfl rfl).symm k) = ix2 k c :=
    funext fun a => Fin.ext (by
      match a with
      | ⟨0, _⟩ => exact (dot_S4096x128_S128x4096_S4096x4096_1_0_0_1_n_n.rhsIdx_val_of_single rfl _ _).trans hk
      | ⟨1, _⟩ => exact dot_gram_r1 _ _)
  rw [el, er]

theorem dot_msg_l0 (i : S4096x128.Idx) (q : dot_S4096x4096_S4096x128_S4096x128_1_0_0_1_n_n.contr.Idx) : (dot_S4096x4096_S4096x128_S4096x128_1_0_0_1_n_n.lhsIdx i q 0).val = (i 0).val := by
  unfold DotDims.lhsIdx
  rw [dif_neg (show ¬(0 : Fin S4096x4096.rank) ∈ dot_S4096x4096_S4096x128_S4096x128_1_0_0_1_n_n.lhsBatch by decide),
    dif_pos (show (0 : Fin S4096x4096.rank) ∈ dot_S4096x4096_S4096x128_S4096x128_1_0_0_1_n_n.lhsNonContracting by decide)]
  rfl
theorem dot_msg_r1 (i : S4096x128.Idx) (q : dot_S4096x4096_S4096x128_S4096x128_1_0_0_1_n_n.contr.Idx) : (dot_S4096x4096_S4096x128_S4096x128_1_0_0_1_n_n.rhsIdx i q 1).val = (i 1).val := by
  unfold DotDims.rhsIdx
  rw [dif_neg (show ¬(1 : Fin S4096x128.rank) ∈ dot_S4096x4096_S4096x128_S4096x128_1_0_0_1_n_n.rhsBatch by decide),
    dif_pos (show (1 : Fin S4096x128.rank) ∈ dot_S4096x4096_S4096x128_S4096x128_1_0_0_1_n_n.rhsNonContracting by decide)]
  rfl
/-- The product of the masked potentials with the features. -/
theorem dot_msg (y0 : Arr S4096x4096) (y1 : Arr S4096x128) (r : Fin 4096) (c : Fin 128) :
    Host.dotGeneral (F := Ideal) dot_S4096x4096_S4096x128_S4096x128_1_0_0_1_n_n none y0 y1 (ix2 r c) = ∑ k : Fin 4096, y0 (ix2 r k) * y1 (ix2 k c) := by
  simp only [Host.dotGeneral]
  rw [Ideal.dotGeneral_apply, ← Equiv.sum_comp (ValueIdx.contrEquiv1 dot_S4096x4096_S4096x128_S4096x128_1_0_0_1_n_n 4096 rfl rfl).symm]
  refine Finset.sum_congr rfl fun k _ => ?_
  have hk := ValueIdx.contrEquiv1_symm_val dot_S4096x4096_S4096x128_S4096x128_1_0_0_1_n_n 4096 rfl rfl k
  have el : dot_S4096x4096_S4096x128_S4096x128_1_0_0_1_n_n.lhsIdx (ix2 r c) ((ValueIdx.contrEquiv1 dot_S4096x4096_S4096x128_S4096x128_1_0_0_1_n_n 4096 rfl rfl).symm k) = ix2 r k :=
    funext fun a => Fin.ext (by
      match a with
      | ⟨0, _⟩ => exact dot_msg_l0 _ _
      | ⟨1, _⟩ => exact (dot_S4096x4096_S4096x128_S4096x128_1_0_0_1_n_n.lhsIdx_val_of_single rfl _ _).trans hk)
  have er : dot_S4096x4096_S4096x128_S4096x128_1_0_0_1_n_n.rhsIdx (ix2 r c) ((ValueIdx.contrEquiv1 dot_S4096x4096_S4096x128_S4096x128_1_0_0_1_n_n 4096 rfl rfl).symm k) = ix2 k c :=
    funext fun a => Fin.ext (by
      match a with
      | ⟨0, _⟩ => exact (dot_S4096x4096_S4096x128_S4096x128_1_0_0_1_n_n.rhsIdx_val_of_single rfl _ _).trans hk
      | ⟨1, _⟩ => exact dot_msg_r1 _ _)
  rw [el, er]

theorem dot_w1_l0 (i : S4096x128.Idx) (q : dot_S4096x256_S256x128_S4096x128_1_0_0_1_n_n.contr.Idx) : (dot_S4096x256_S256x128_S4096x128_1_0_0_1_n_n.lhsIdx i q 0).val = (i 0).val := by
  unfold DotDims.lhsIdx
  rw [dif_neg (show ¬(0 : Fin S4096x256.rank) ∈ dot_S4096x256_S256x128_S4096x128_1_0_0_1_n_n.lhsBatch by decide),
    dif_pos (show (0 : Fin S4096x256.rank) ∈ dot_S4096x256_S256x128_S4096x128_1_0_0_1_n_n.lhsNonContracting by decide)]
  rfl
theorem dot_w1_r1 (i : S4096x128.Idx) (q : dot_S4096x256_S256x128_S4096x128_1_0_0_1_n_n.contr.Idx) : (dot_S4096x256_S256x128_S4096x128_1_0_0_1_n_n.rhsIdx i q 1).val = (i 1).val := by
  unfold DotDims.rhsIdx
  rw [dif_neg (show ¬(1 : Fin S256x128.rank) ∈ dot_S4096x256_S256x128_S4096x128_1_0_0_1_n_n.rhsBatch by decide),
    dif_pos (show (1 : Fin S256x128.rank) ∈ dot_S4096x256_S256x128_S4096x128_1_0_0_1_n_n.rhsNonContracting by decide)]
  rfl
/-- The first layer's product. -/
theorem dot_w1 (y0 : Arr S4096x256) (y1 : Arr S256x128) (r : Fin 4096) (c : Fin 128) :
    Host.dotGeneral (F := Ideal) dot_S4096x256_S256x128_S4096x128_1_0_0_1_n_n none y0 y1 (ix2 r c) = ∑ k : Fin 256, y0 (ix2 r k) * y1 (ix2 k c) := by
  simp only [Host.dotGeneral]
  rw [Ideal.dotGeneral_apply, ← Equiv.sum_comp (ValueIdx.contrEquiv1 dot_S4096x256_S256x128_S4096x128_1_0_0_1_n_n 256 rfl rfl).symm]
  refine Finset.sum_congr rfl fun k _ => ?_
  have hk := ValueIdx.contrEquiv1_symm_val dot_S4096x256_S256x128_S4096x128_1_0_0_1_n_n 256 rfl rfl k
  have el : dot_S4096x256_S256x128_S4096x128_1_0_0_1_n_n.lhsIdx (ix2 r c) ((ValueIdx.contrEquiv1 dot_S4096x256_S256x128_S4096x128_1_0_0_1_n_n 256 rfl rfl).symm k) = ix2 r k :=
    funext fun a => Fin.ext (by
      match a with
      | ⟨0, _⟩ => exact dot_w1_l0 _ _
      | ⟨1, _⟩ => exact (dot_S4096x256_S256x128_S4096x128_1_0_0_1_n_n.lhsIdx_val_of_single rfl _ _).trans hk)
  have er : dot_S4096x256_S256x128_S4096x128_1_0_0_1_n_n.rhsIdx (ix2 r c) ((ValueIdx.contrEquiv1 dot_S4096x256_S256x128_S4096x128_1_0_0_1_n_n 256 rfl rfl).symm k) = ix2 k c :=
    funext fun a => Fin.ext (by
      match a with
      | ⟨0, _⟩ => exact (dot_S4096x256_S256x128_S4096x128_1_0_0_1_n_n.rhsIdx_val_of_single rfl _ _).trans hk
      | ⟨1, _⟩ => exact dot_w1_r1 _ _)
  rw [el, er]

theorem dot_w2_l0 (i : S4096x128.Idx) (q : dot_S4096x128_S128x128_S4096x128_1_0_0_1_n_n.contr.Idx) : (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide),
    dif_pos (show (0 : Fin S4096x128.rank) ∈ dot_S4096x128_S128x128_S4096x128_1_0_0_1_n_n.lhsNonContracting by decide)]
  rfl
theorem dot_w2_r1 (i : S4096x128.Idx) (q : dot_S4096x128_S128x128_S4096x128_1_0_0_1_n_n.contr.Idx) : (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide),
    dif_pos (show (1 : Fin S128x128.rank) ∈ dot_S4096x128_S128x128_S4096x128_1_0_0_1_n_n.rhsNonContracting by decide)]
  rfl
/-- The second layer's product. -/
theorem dot_w2 (y0 : Arr S4096x128) (y1 : Arr S128x128) (r : Fin 4096) (c : Fin 128) :
    Host.dotGeneral (F := Ideal) dot_S4096x128_S128x128_S4096x128_1_0_0_1_n_n none y0 y1 (ix2 r c) = ∑ k : Fin 128, y0 (ix2 r k) * y1 (ix2 k c) := by
  simp only [Host.dotGeneral]
  rw [Ideal.dotGeneral_apply, ← Equiv.sum_comp (ValueIdx.contrEquiv1 dot_S4096x128_S128x128_S4096x128_1_0_0_1_n_n 128 rfl rfl).symm]
  refine Finset.sum_congr rfl fun k _ => ?_
  have hk := ValueIdx.contrEquiv1_symm_val dot_S4096x128_S128x128_S4096x128_1_0_0_1_n_n 128 rfl rfl k
  have el : dot_S4096x128_S128x128_S4096x128_1_0_0_1_n_n.lhsIdx (ix2 r c) ((ValueIdx.contrEquiv1 dot_S4096x128_S128x128_S4096x128_1_0_0_1_n_n 128 rfl rfl).symm k) = ix2 r k :=
    funext fun a => Fin.ext (by
      match a with
      | ⟨0, _⟩ => exact dot_w2_l0 _ _
      | ⟨1, _⟩ => exact (dot_S4096x128_S128x128_S4096x128_1_0_0_1_n_n.lhsIdx_val_of_single rfl _ _).trans hk)
  have er : dot_S4096x128_S128x128_S4096x128_1_0_0_1_n_n.rhsIdx (ix2 r c) ((ValueIdx.contrEquiv1 dot_S4096x128_S128x128_S4096x128_1_0_0_1_n_n 128 rfl rfl).symm k) = ix2 k c :=
    funext fun a => Fin.ext (by
      match a with
      | ⟨0, _⟩ => exact (dot_S4096x128_S128x128_S4096x128_1_0_0_1_n_n.rhsIdx_val_of_single rfl _ _).trans hk
      | ⟨1, _⟩ => exact dot_w2_r1 _ _)
  rw [el, er]

end Cert.RefValue

end
-- ==== Proof.Ref.Stages.lean ====
/-
  One step of the reference as one function of the features it starts from, the two distance-only factors, the
  adjacency and the parameters, composed of the host operations in the order the reference applies them; and,
  index by index, what it computes: the step of the specification with the two distance-only factors passed in
  as arrays. The distance-only stages and the input projection likewise.
-/
import proofs.«172293_j20512763806108_2_alg».proof.Proof.Ref.Ops

noncomputable section

namespace Cert.RefValue

open Cert.ReferenceIdeal Cert.ReferenceIdeal.Gen Idealize.ShloMosaic Idealize.ShloMosaic.ValueIdx
  Idealize.ShloMosaic.TcCoe Idealize.SL.Sem Idealize.ShloMosaic.StableHlo
open scoped BigOperators

/-! ## The specification's step with the distance-only factors as arrays -/

/-- The message to node `i` when the decay and the distance-only term of the potential are given as arrays. -/
def msgD (h : Spec.Mat 4096 128) (dc pc adj : Spec.Mat 4096 4096) (i : Fin 4096) : Fin 128 → EReal :=
  fun c => ∑ j : Fin 4096,
    ((dc (ix2 i j) * max (∑ k : Fin 128, Spec.row h i k * Spec.row h j k) Spec.cZero + pc (ix2 i j)) * adj (ix2 i j))
      * h (ix2 j c)

/-- One step on the whole feature matrix, the decay and the distance-only term given as arrays. -/
def stepD (h : Spec.Mat 4096 128) (dc pc adj : Spec.Mat 4096 4096) (W1 : Spec.Mat 256 128) (b1 : Spec.Vec1 128)
    (W2 : Spec.Mat 128 128) (b2 g b : Spec.Vec1 128) : Spec.Mat 4096 128 :=
  fun idx => Spec.stepRow (Spec.row h (idx 0)) (msgD h dc pc adj (idx 0)) W1 (Spec.vec b1) W2 (Spec.vec b2) (Spec.vec g)
    (Spec.vec b) (idx 1)

/-- With the decay and the distance-only term of the distances it is the specification's step. -/
theorem stepD_eq (h : Spec.Mat 4096 128) (dist adj : Spec.Mat 4096 4096) (W1 : Spec.Mat 256 128) (b1 : Spec.Vec1 128)
    (W2 : Spec.Mat 128 128) (b2 g b : Spec.Vec1 128) :
    stepD h (fun idx => Spec.decay (dist idx)) (fun idx => Spec.lj (dist idx)) adj W1 b1 W2 b2 g b
      = Spec.step h dist adj W1 b1 W2 b2 g b := rfl

/-- The updated row of node `r` before normalisation. -/
def updD (h : Spec.Mat 4096 128) (dc pc adj : Spec.Mat 4096 4096) (W1 : Spec.Mat 256 128) (b1 : Spec.Vec1 128)
    (W2 : Spec.Mat 128 128) (b2 : Spec.Vec1 128) (r : Fin 4096) : Fin 128 → EReal :=
  Spec.upd (Spec.row h r) (msgD h dc pc adj r) W1 (Spec.vec b1) W2 (Spec.vec b2)

/-! ## The reference's step, composed -/

section Step
variable (h : Arr S4096x128) (dc pc adj : Arr S4096x4096) (W1 : Arr S256x128) (b1 : Arr S128) (W2 : Arr S128x128)
  (b2 g b : Arr S128)

/-- The masked potentials. -/
def potG : Arr S4096x4096 :=
  mulf (addf (mulf dc (maximumf
      (Host.dotGeneral dot_S4096x128_S128x4096_S4096x4096_1_0_0_1_n_n none h (transpose S128x4096 [1, 0] h transposes_S4096x128_S128x4096_1_0))
      (broadcastInDim S4096x4096 ![] bcast_S_S4096x4096 (constant S_ .f32 0x00000000#32)))) pc) adj

/-- The messages. -/
def msgG : Arr S4096x128 := Host.dotGeneral dot_S4096x4096_S4096x128_S4096x128_1_0_0_1_n_n none (potG h dc pc adj) h

/-- The hidden layer on each row beside its message. -/
def hidG : Arr S4096x128 :=
  maximumf (addf (Host.dotGeneral dot_S4096x256_S256x128_S4096x128_1_0_0_1_n_n none
      (concatenate S4096x256 1 [⟨S4096x128, h⟩, ⟨S4096x128, msgG h dc pc adj⟩] concatenates_S4096x128_S4096x128_S4096x256_d1) W1)
      (broadcastInDim S4096x128 ![0, 1] bcast_S1x128_S4096x128_0_1 (broadcastInDim S1x128 ![1] bcast_S128_S1x128_1 b1)))
    (broadcastInDim S4096x128 ![] bcast_S_S4096x128 (constant S_ .f32 0x00000000#32))

/-- The updated rows. -/
def updG : Arr S4096x128 :=
  addf h (addf (Host.dotGeneral dot_S4096x128_S128x128_S4096x128_1_0_0_1_n_n none (hidG h dc pc adj W1 b1) W2) (broadcastInDim S4096x128 ![0, 1] bcast_S1x128_S4096x128_0_1 (broadcastInDim S1x128 ![1] bcast_S128_S1x128_1 b2)))

/-- The means of the rows, as a column. -/
def meanG (u : Arr S4096x128) : Arr S4096x1 :=
  Host.divf (broadcastInDim S4096x1 ![0] bcast_S4096_S4096x1_0 (Host.reduceAdd u (constant S_ .f32 0x00000000#32) reducesTo_S4096x128_S4096_d1 h_S_))
    (broadcastInDim S4096x1 ![] bcast_S_S4096x1 (constant S_ .f32 0x43000000#32))

/-- The centred rows. -/
def cenG (u : Arr S4096x128) : Arr S4096x128 :=
  subf u (broadcastInDim S4096x128 ![0, 1] bcast_S4096x1_S4096x128_0_1 (meanG u))

/-- The variances of the rows, as a column. -/
def varG (u : Arr S4096x128) : Arr S4096x1 :=
  Host.divf (broadcastInDim S4096x1 ![0] bcast_S4096_S4096x1_0
      (Host.reduceAdd (mulf (cenG u) (cenG u)) (constant S_ .f32 0x00000000#32) reducesTo_S4096x128_S4096_d1 h_S_))
    (broadcastInDim S4096x1 ![] bcast_S_S4096x1 (constant S_ .f32 0x43000000#32))

/-- The normalised rows times gamma plus beta. -/
def normG (u : Arr S4096x128) : Arr S4096x128 :=
  addf (mulf (mulf (cenG u) (broadcastInDim S4096x128 ![0, 1] bcast_S4096x1_S4096x128_0_1
      (Host.rsqrt (addf (varG u) (broadcastInDim S4096x1 ![] bcast_S_S4096x1 (constant S_ .f32 0x3727C5AC#32))))))
    (broadcastInDim S4096x128 ![0, 1] bcast_S1x128_S4096x128_0_1 (broadcastInDim S1x128 ![1] bcast_S128_S1x128_1 g))) (broadcastInDim S4096x128 ![0, 1] bcast_S1x128_S4096x128_0_1 (broadcastInDim S1x128 ![1] bcast_S128_S1x128_1 b))

/-- One step of the reference. -/
def stepG : Arr S4096x128 := normG g b (updG h dc pc adj W1 b1 W2 b2)

theorem gram_ix (r j : Fin 4096) :
    Host.dotGeneral (F := Ideal) dot_S4096x128_S128x4096_S4096x4096_1_0_0_1_n_n none h
        (transpose S128x4096 [1, 0] h transposes_S4096x128_S128x4096_1_0) (ix2 r j)
      = ∑ k : Fin 128, Spec.row h r k * Spec.row h j k := by
  rw [dot_gram]
  refine Finset.sum_congr rfl fun k _ => ?_
  rw [transpose_ix]
  all_goals rfl

theorem potG_ix (r j : Fin 4096) :
    potG h dc pc adj (ix2 r j)
      = (dc (ix2 r j) * max (∑ k : Fin 128, Spec.row h r k * Spec.row h j k) Spec.cZero + pc (ix2 r j)) * adj (ix2 r j) := by
  unfold potG
  rw [mulf_apply, addf_apply, mulf_apply, maximumf_apply, gram_ix, bcast_const]
  all_goals rfl

theorem msgG_ix (r : Fin 4096) (c : Fin 128) : msgG h dc pc adj (ix2 r c) = msgD h dc pc adj r c := by
  unfold msgG msgD
  rw [dot_msg]
  refine Finset.sum_congr rfl fun j _ => ?_
  rw [potG_ix]
  all_goals rfl

theorem hidG_ix (r : Fin 4096) (k : Fin 128) :
    hidG h dc pc adj W1 b1 (ix2 r k) = Spec.hid (Spec.row h r) (msgD h dc pc adj r) W1 (Spec.vec b1) k := by
  have e : (fun k => msgG h dc pc adj (ix2 r k)) = msgD h dc pc adj r := funext fun k => msgG_ix h dc pc adj r k
  unfold hidG
  rw [maximumf_apply, addf_apply, dot_w1, bcast_row, bcast_const]
  refine congrArg (fun s => max (s + b1 (ix1 k)) Spec.cZero) (Finset.sum_congr rfl fun q _ => ?_)
  rw [concat_cat, e]
  all_goals rfl

theorem updG_ix (r : Fin 4096) (c : Fin 128) :
    updG h dc pc adj W1 b1 W2 b2 (ix2 r c) = updD h dc pc adj W1 b1 W2 b2 r c := by
  unfold updG
  rw [addf_apply, addf_apply, dot_w2, bcast_row]
  refine congrArg (fun s => h (ix2 r c) + (s + b2 (ix1 c))) (Finset.sum_congr rfl fun k _ => ?_)
  rw [hidG_ix]
  all_goals rfl

theorem meanG_ix (u : Arr S4096x128) (r : Fin 4096) (z : Fin 1) :
    meanG u (ix2 r z) = Spec.mean (fun c => u (ix2 r c)) := by
  unfold meanG
  rw [hdivf_apply, bcast_col1, reduce_row, bcast_const]
  all_goals rfl

theorem cenG_ix (u : Arr S4096x128) (r : Fin 4096) (c : Fin 128) :
    cenG u (ix2 r c) = u (ix2 r c) - Spec.mean (fun c => u (ix2 r c)) := by
  unfold cenG
  rw [subf_apply, bcast_col, meanG_ix]
  all_goals rfl

theorem varG_ix (u : Arr S4096x128) (r : Fin 4096) (z : Fin 1) :
    varG u (ix2 r z) = Spec.var (fun c => u (ix2 r c)) := by
  unfold varG
  rw [hdivf_apply, bcast_col1, reduce_row, bcast_const]
  refine congrArg (fun s => Ideal.div s Spec.cWidth) (Finset.sum_congr rfl fun k _ => ?_)
  rw [mulf_apply, cenG_ix]
  all_goals rfl

theorem normG_ix (u : Arr S4096x128) (r : Fin 4096) (c : Fin 128) :
    normG g b u (ix2 r c) = Spec.norm (fun c => u (ix2 r c)) (Spec.vec g) (Spec.vec b) c := by
  unfold normG
  rw [addf_apply, mulf_apply, mulf_apply, cenG_ix, bcast_col, hrsqrt_apply, addf_apply, varG_ix, bcast_const, bcast_row,
    bcast_row]
  all_goals rfl

/-- The reference's step is the specification's, the distance-only factors as arrays. -/
theorem stepG_eq : stepG h dc pc adj W1 b1 W2 b2 g b = stepD h dc pc adj W1 b1 W2 b2 g b := by
  funext i
  obtain ⟨r, c, rfl⟩ : ∃ (r : Fin 4096) (c : Fin 128), i = ix2 r c := ⟨i 0, i 1, eq_ix2 i⟩
  have e : (fun c => updG h dc pc adj W1 b1 W2 b2 (ix2 r c)) = updD h dc pc adj W1 b1 W2 b2 r :=
    funext fun c => updG_ix h dc pc adj W1 b1 W2 b2 r c
  unfold stepG
  rw [normG_ix, e]
  all_goals rfl

end Step

/-! ## The distance-only stages and the input projection -/

section Pro
variable (dist : Arr S4096x4096)

/-- The decay stage. -/
def decayG : Arr S4096x4096 :=
  Host.exp (Host.divf (Host.negf dist) (broadcastInDim S4096x4096 ![] bcast_S_S4096x4096 (constant S_ .f32 0x40400000#32)))

theorem decayG_eq : decayG dist = fun idx => Spec.decay (dist idx) := by
  funext i
  unfold decayG
  rw [hexp_apply, hdivf_apply, hnegf_apply, bcast_const]
  all_goals rfl

/-- The ratio 3.5 / max(1e-6, d), its square, and its sixth power. -/
def ratioG : Arr S4096x4096 :=
  Host.divf (broadcastInDim S4096x4096 ![] bcast_S_S4096x4096 (constant S_ .f32 0x40600000#32))
    (maximumf (broadcastInDim S4096x4096 ![] bcast_S_S4096x4096 (constant S_ .f32 0x358637BD#32)) dist)
def sqG : Arr S4096x4096 := mulf (ratioG dist) (ratioG dist)
def sixG : Arr S4096x4096 := mulf (sqG dist) (mulf (sqG dist) (sqG dist))

/-- The distance-only term of the potential. -/
def ljG : Arr S4096x4096 :=
  mulf (broadcastInDim S4096x4096 ![] bcast_S_S4096x4096 (constant S_ .f32 0x3DCCCCCD#32))
    (mulf (broadcastInDim S4096x4096 ![] bcast_S_S4096x4096 (constant S_ .f32 0x3ECCCCCD#32))
      (subf (mulf (sixG dist) (sixG dist)) (sixG dist)))

theorem ratioG_ix (i : S4096x4096.Idx) : ratioG dist i = Ideal.div Spec.cSigma (max Spec.cTiny (dist i)) := by
  unfold ratioG
  rw [hdivf_apply, bcast_const, maximumf_apply, bcast_const]
  all_goals rfl

theorem sixG_ix (i : S4096x4096.Idx) :
    sixG dist i = (Ideal.div Spec.cSigma (max Spec.cTiny (dist i)) * Ideal.div Spec.cSigma (max Spec.cTiny (dist i)))
      * ((Ideal.div Spec.cSigma (max Spec.cTiny (dist i)) * Ideal.div Spec.cSigma (max Spec.cTiny (dist i)))
        * (Ideal.div Spec.cSigma (max Spec.cTiny (dist i)) * Ideal.div Spec.cSigma (max Spec.cTiny (dist i)))) := by
  unfold sixG sqG
  rw [mulf_apply, mulf_apply, mulf_apply, ratioG_ix]
  all_goals rfl

theorem ljG_eq : ljG dist = fun idx => Spec.lj (dist idx) := by
  funext i
  unfold ljG
  rw [mulf_apply, mulf_apply, subf_apply, mulf_apply, bcast_const, bcast_const, sixG_ix]
  all_goals rfl

end Pro

/-- The input projection, composed. -/
def h0G (x : Arr S4096x64) (Win : Arr S64x128) (bin : Arr S128) : Arr S4096x128 :=
  addf (Host.dotGeneral dot_S4096x64_S64x128_S4096x128_1_0_0_1_n_n none x Win) (broadcastInDim S4096x128 ![0, 1] bcast_S1x128_S4096x128_0_1 (broadcastInDim S1x128 ![1] bcast_S128_S1x128_1 bin))

theorem h0G_eq (x : Arr S4096x64) (Win : Arr S64x128) (bin : Arr S128) : h0G x Win bin = Spec.h0 x Win bin := by
  funext i
  obtain ⟨r, c, rfl⟩ : ∃ (r : Fin 4096) (c : Fin 128), i = ix2 r c := ⟨i 0, i 1, eq_ix2 i⟩
  unfold h0G
  rw [addf_apply, dot_proj, bcast_row]
  all_goals rfl

end Cert.RefValue

end
-- ==== Proof.Ref.Stretches.lean ====
/-
  What each of the reference's four stretches of host operations leaves in its result buffer, for any contents
  before it: the prologue the input projection, the decay and the distance-only term of the potential; each of
  the three steps one step of the specification on the features it finds, the two distance-only factors read
  from their buffers.
-/
import proofs.«172293_j20512763806108_2_alg».proof.Proof.RefRun
import proofs.«172293_j20512763806108_2_alg».proof.Proof.Ref.Stages

noncomputable section

namespace Cert.RefValue

open Cert.ReferenceIdeal Cert.ReferenceIdeal.Gen Cert.RefRun Idealize.ShloMosaic Idealize.ShloMosaic.ValueIdx
  Idealize.ShloMosaic.TcCoe Idealize.SL.Sem Idealize.ShloMosaic.StableHlo
open scoped BigOperators

/-! ## What each stretch leaves, for any contents before it -/

section Stretches
variable (W : Valuation τ sig (Elt Ideal))

/-- The prologue leaves the input projection of the arguments. -/
theorem pro_h0 : after (pro (F := Ideal)) W main_v3 = Spec.h0 (W main_arg0) (W main_arg3) (W main_arg4) := by
  refine Eq.trans ?_ (h0G_eq _ _ _)
  after_results_simp <;> rfl

/-- The prologue leaves the decay of the distances. -/
theorem pro_decay : after (pro (F := Ideal)) W main_v17 = fun idx => Spec.decay (W main_arg2 idx) := by
  refine Eq.trans ?_ (decayG_eq _)
  after_results_simp <;> rfl

/-- The prologue leaves the distance-only term of the potential. -/
theorem pro_lj : after (pro (F := Ideal)) W main_v19 = fun idx => Spec.lj (W main_arg2 idx) := by
  refine Eq.trans ?_ (ljG_eq _)
  after_results_simp <;> rfl

/-- The first step's stretch leaves one step of the specification on the features it finds, the decay and the
    distance-only term read from their buffers. -/
theorem st1_step : after (st1 (F := Ideal)) W main_v61
    = stepD (W main_v3) (W main_v17) (W main_v19) (W main_arg1) (W main_arg7) (W main_arg8) (W main_arg9) (W main_arg10)
        (W main_arg11) (W main_arg12) := by
  refine Eq.trans ?_ (stepG_eq _ _ _ _ _ _ _ _ _ _)
  after_results_simp <;> rfl

/-- The second step's stretch leaves one step of the specification on the features it finds, the decay and the
    distance-only term read from their buffers. -/
theorem st2_step : after (st2 (F := Ideal)) W main_v103
    = stepD (W main_v61) (W main_v17) (W main_v19) (W main_arg1) (W main_arg7) (W main_arg8) (W main_arg9) (W main_arg10)
        (W main_arg11) (W main_arg12) := by
  refine Eq.trans ?_ (stepG_eq _ _ _ _ _ _ _ _ _ _)
  after_results_simp <;> rfl

/-- The third step's stretch leaves one step of the specification on the features it finds, the decay and the
    distance-only term read from their buffers. -/
theorem st3_step : after (st3 (F := Ideal)) W main_v145
    = stepD (W main_v103) (W main_v17) (W main_v19) (W main_arg1) (W main_arg7) (W main_arg8) (W main_arg9) (W main_arg10)
        (W main_arg11) (W main_arg12) := by
  refine Eq.trans ?_ (stepG_eq _ _ _ _ _ _ _ _ _ _)
  after_results_simp <;> rfl

end Stretches

end Cert.RefValue

end
-- ==== Proof.Ref.Net.lean ====
/-
  The reference is the specification: the four stretches of its host operations, run one after the other from any
  launch contents, leave in the result buffer the specification's network of the arguments: the input projection
  followed by three steps, each on the features the one before left, with the decay and the distance-only term
  of the potential that the prologue computed from the distances once.
-/
import proofs.«172293_j20512763806108_2_alg».proof.Proof.Ref.Stretches

noncomputable section

namespace Cert.RefValue

open Cert.ReferenceIdeal Cert.ReferenceIdeal.Gen Cert.RefRun Idealize.ShloMosaic Idealize.ShloMosaic.ValueIdx
  Idealize.ShloMosaic.TcCoe Idealize.SL.Sem Idealize.ShloMosaic.StableHlo
open scoped BigOperators

section Compose
variable (W : Valuation τ sig (Elt Ideal))

/-- The result buffer after the four stretches holds the specification's network of the arguments. -/
theorem ref_net :
    after (st3 (F := Ideal)) (after st2 (after st1 (after pro W))) (Proc.devRef .tc main_v145)
      = Spec.net (W main_arg0) (W main_arg1) (W main_arg2) (W main_arg3) (W main_arg4) (W main_arg7)
          (W main_arg8) (W main_arg9) (W main_arg10) (W main_arg11) (W main_arg12) := by
  -- what the later stretches do not write is what the prologue left, and what no stretch writes is the launch contents
  have k2 : ∀ {r : Ref sig .tc}, r ∉ st2_W → r ∉ st1_W →
      after (st2 (F := Ideal)) (after st1 (after pro W)) (Proc.devRef .tc r) = after pro W (Proc.devRef .tc r) :=
    fun h2 h1 => (st2_keeps _ h2).trans (st1_keeps _ h1)
  have k1 : ∀ {r : Ref sig .tc}, r ∉ st1_W →
      after (st1 (F := Ideal)) (after pro W) (Proc.devRef .tc r) = after pro W (Proc.devRef .tc r) :=
    fun h1 => st1_keeps _ h1
  have k0 : ∀ {r : Ref sig .tc}, r ∉ pro_W → after (pro (F := Ideal)) W (Proc.devRef .tc r) = W (Proc.devRef .tc r) :=
    fun h => pro_keeps W h
  rw [st3_step, st2_step, st1_step,
    k2 (r := main_v17) (by decide) (by decide),
    k2 (r := main_v19) (by decide) (by decide),
    k2 (r := main_arg1) (by decide) (by decide),
    k2 (r := main_arg7) (by decide) (by decide),
    k2 (r := main_arg8) (by decide) (by decide),
    k2 (r := main_arg9) (by decide) (by decide),
    k2 (r := main_arg10) (by decide) (by decide),
    k2 (r := main_arg11) (by decide) (by decide),
    k2 (r := main_arg12) (by decide) (by decide),
    k1 (r := main_v17) (by decide),
    k1 (r := main_v19) (by decide),
    k1 (r := main_arg1) (by decide),
    k1 (r := main_arg7) (by decide),
    k1 (r := main_arg8) (by decide),
    k1 (r := main_arg9) (by decide),
    k1 (r := main_arg10) (by decide),
    k1 (r := main_arg11) (by decide),
    k1 (r := main_arg12) (by decide),
    pro_h0, pro_decay, pro_lj,
    k0 (r := main_arg1) (by decide),
    k0 (r := main_arg7) (by decide),
    k0 (r := main_arg8) (by decide),
    k0 (r := main_arg9) (by decide),
    k0 (r := main_arg10) (by decide),
    k0 (r := main_arg11) (by decide),
    k0 (r := main_arg12) (by decide)]
  -- three steps with the decay and the distance-only term of the distances: the network, by unfolding
  rfl

end Compose

end Cert.RefValue

end
-- ==== Proof.lean ====
/-
  Two programs compute three steps of a message-passing network on 4096 nodes with 128 features each: a kernel that runs one
  step per call, tile by tile (for each block of 512 rows, the masked pairwise potentials against 1024 columns at a time, their
  products with the column block's features summed into an accumulator, and at the last column block the update and the layer
  normalisation of the row block), and a reference that forms each step's 4096 x 4096 potential matrix whole.
  At the ideal instance both end with the same array, `Spec.net` of the arguments: a sum over 4096 columns is the sum of its
  four blocks of 1024, a float format change is the identity, `0 - d` is `-d`, a product into a zero accumulator is the
  product. No algebraic law beyond the associativity and commutativity of the sum is used, so the precondition is never opened.
  The three frames: each kernel call's body is run symbolically at a generic grid point (three cases: first, middle and last
  column block), the accumulator's contents tracked from point to point; the calls are chained over the contents of the
  unscoped buffers; the reference is a straight line of host operations.
-/
import proofs.«172293_j20512763806108_2_alg».proof.Defs
import proofs.«172293_j20512763806108_2_alg».proof.Proof.Gen.Kernel
import proofs.«172293_j20512763806108_2_alg».proof.Proof.Gen.KernelIdeal
import proofs.«172293_j20512763806108_2_alg».proof.Proof.Gen.ReferenceIdeal
import proofs.«172293_j20512763806108_2_alg».proof.Proof.Gen.Pre_finite_inputs
import proofs.«172293_j20512763806108_2_alg».proof.Proof.K.Segs
import proofs.«172293_j20512763806108_2_alg».proof.Proof.KI.Segs
import proofs.«172293_j20512763806108_2_alg».proof.Proof.KI.Net
import proofs.«172293_j20512763806108_2_alg».proof.Proof.RefRun
import proofs.«172293_j20512763806108_2_alg».proof.Proof.Ref.Net
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference is a line of host operations: its run with the result forgotten. -/
theorem frame_ri : Cert.frame_ReferenceIdeal := fun m ρ _ =>
  (θ_run Cert.ReferenceIdeal.defs _ _).mono (fun _ h c => (h c).2) (Cert.RefRun.run (F := Ideal) m ρ)

/-- At the ideal instance the kernel's three calls leave `Spec.net` of the arguments in the result array, and so does the
    reference's line of operations, from memories that agree on the arguments. -/
theorem algebraic : Cert.algebraic_KernelIdeal_ReferenceIdeal := by
  intro m ρ m' ρ' _ hagree
  refine ⟨fun c => Cert.KernelIdeal.Hand.res2 (F := Ideal) m c, Cert.KernelIdeal.Hand.run (F := Ideal) m ρ, ?_⟩
  refine (θ_run Cert.ReferenceIdeal.defs _ _).mono (fun _ h c => ⟨(h c).1.trans ?_, (h c).2⟩) (Cert.RefRun.run (F := Ideal) m' ρ')
  refine (Cert.RefValue.ref_net (StableHlo.launchContents m' c)).trans (Eq.trans ?_ (Cert.KernelIdeal.Val.res2_net m c).symm)
  obtain ⟨h0, h1, h2, h3, h4, h5, h6, h7, h8, h9, h10, h11, h12⟩ := hagree c
  show Cert.Spec.net (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) = _
  rw [h0, h1, h2, h3, h4, h7, h8, h9, h10, h11, h12]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
